-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v74)) (v1 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x256 : Shape := ⟨2, ![64, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part6 {F : FTy → Type} [FloatOps F] (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  main_v103

def fn_part5 {F : FTy → Type} [FloatOps F] (main_arg20 : FVec F S256 .f32) (main_arg21 : FVec F S256x128 .f32) (main_arg22 : FVec F S128 .f32) (main_v83 : IVec S_ 1) (main_v84 : FVec F S64x256 .f32) (main_cst_32 : FVec F S_ .f32) : IVec S_ 1 :=
  let main_v85 : FVec F S64x256 .f32 := broadcastInDim S64x256 ![] bcast_S_S64x256 main_cst_32
  let main_v86 : IVec S64x256 1 := cmpf .olt main_v84 main_v85
  let main_c_33 : IVec S_ 1 := constantI S_ 1 1#1
  let main_v87 : IVec S_ 1 := (fun x v => Host.reduce IntOp.andi x v reducesTo_S64x256_S_d0_1 h_S_) main_v86 main_c_33
  let main_v88 : IVec S_ 1 := andi main_v83 main_v87
  let main_v89 : FVec F S256 .f32 := Host.absf main_arg20
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x128 .f32 := Host.absf main_arg21
  let main_cst_36 : FVec F S_ .f32 := constant S_ .f32 0x7F800000#32
  let main_v95 : FVec F S256x128 .f32 := broadcastInDim S256x128 ![] bcast_S_S256x128 main_cst_36
  let main_v96 : IVec S256x128 1 := cmpf .olt main_v94 main_v95
  let main_c_37 : IVec S_ 1 := constantI S_ 1 1#1
  let main_v97 : IVec S_ 1 := (fun x v => Host.reduce IntOp.andi x v reducesTo_S256x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_v98 main_v101 main_c_39

def fn_part4 {F : FTy → Type} [FloatOps F] (main_arg16 : FVec F S64 .f32) (main_arg17 : FVec F S64 .f32) (main_arg18 : FVec F S64 .f32) (main_arg19 : FVec F S64x256 .f32) (main_arg20 : FVec F S256 .f32) (main_arg21 : FVec F S256x128 .f32) (main_arg22 : FVec F S128 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x256 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S64x64 .f32) (main_arg14 : FVec F S64 .f32) (main_arg15 : FVec F S64 .f32) (main_arg16 : FVec F S64 .f32) (main_arg17 : FVec F S64 .f32) (main_arg18 : FVec F S64 .f32) (main_arg19 : FVec F S64x256 .f32) (main_arg20 : FVec F S256 .f32) (main_arg21 : FVec F S256x128 .f32) (main_arg22 : FVec F S128 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_arg22 main_v63 main_v67

def fn_part2 {F : FTy → Type} [FloatOps F] (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64 .f32) (main_arg16 : FVec F S64 .f32) (main_arg17 : FVec F S64 .f32) (main_arg18 : FVec F S64 .f32) (main_arg19 : FVec F S64x256 .f32) (main_arg20 : FVec F S256 .f32) (main_arg21 : FVec F S256x128 .f32) (main_arg22 : FVec F S128 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64 .f32) (main_arg16 : FVec F S64 .f32) (main_arg17 : FVec F S64 .f32) (main_arg18 : FVec F S64 .f32) (main_arg19 : FVec F S64x256 .f32) (main_arg20 : FVec F S256 .f32) (main_arg21 : FVec F S256x128 .f32) (main_arg22 : FVec F S128 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64 .f32) (main_arg16 : FVec F S64 .f32) (main_arg17 : FVec F S64 .f32) (main_arg18 : FVec F S64 .f32) (main_arg19 : FVec F S64x256 .f32) (main_arg20 : FVec F S256 .f32) (main_arg21 : FVec F S256x128 .f32) (main_arg22 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x256 : Shape := ⟨2, ![64, 256]⟩
abbrev S256 : Shape := ⟨1, ![256]⟩
abbrev S256x128 : Shape := ⟨2, ![256, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S5000x64 : Shape := ⟨2, ![5000, 64]⟩
abbrev S100000x1 : Shape := ⟨2, ![100000, 1]⟩
abbrev S1x256 : Shape := ⟨2, ![1, 256]⟩
abbrev S1x128 : Shape := ⟨2, ![1, 128]⟩
abbrev S64x128 : Shape := ⟨2, ![64, 128]⟩

abbrev nBuf : Space → Nat
  | .hbm => 118
  | .vmem => 58
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S64x256, .f32⟩
  | .hbm, ⟨20, _⟩ => ⟨S256, .f32⟩
  | .hbm, ⟨21, _⟩ => ⟨S256x128, .f32⟩
  | .hbm, ⟨22, _⟩ => ⟨S128, .f32⟩
  | .hbm, ⟨23, _⟩ => ⟨S1x1600000, .i32⟩
  | .hbm, ⟨24, _⟩ => ⟨S1600000, .i32⟩
  | .hbm, ⟨25, _⟩ => ⟨S1x1600000, .i32⟩
  | .hbm, ⟨26, _⟩ => ⟨S1600000, .i32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S1x64, .f32⟩
  | .hbm, ⟨41, _⟩ => ⟨S1x64, .f32⟩
  | .hbm, ⟨42, _⟩ => ⟨S100000x64, .f32⟩
  | .hbm, ⟨43, _⟩ => ⟨S1x64, .f32⟩
  | .hbm, ⟨44, _⟩ => ⟨S1x64, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S1x64, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S100000x64, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x64, .f32⟩
  | .hbm, ⟨69, _⟩ => ⟨S_, .f32⟩
  | .hbm, ⟨70, _⟩ => ⟨S100000x64, .f32⟩
  | .hbm, ⟨71, _⟩ => ⟨S1600000x1, .i32⟩
  | .hbm, ⟨72, _⟩ => ⟨S100000x64, .f32⟩
  | .hbm, ⟨73, _⟩ => ⟨S1x64, .f32⟩
  | .hbm, ⟨74, _⟩ => ⟨S1x64, .f32⟩
  | .hbm, ⟨75, _⟩ => ⟨S100000x64, .f32⟩
  | .hbm, ⟨76, _⟩ => ⟨S1x64, .f32⟩
  | .hbm, ⟨77, _⟩ => ⟨S1x64, .f32⟩
  | .hbm, ⟨78, _⟩ => ⟨S64, .f32⟩
  | .hbm, ⟨79, _⟩ => ⟨S_, .f32⟩
  | .hbm, ⟨80, _⟩ => ⟨S64, .f32⟩
  | .hbm, ⟨81, _⟩ => ⟨S64, .f32⟩
  | .hbm, ⟨82, _⟩ => ⟨S64, .f32⟩
  | .hbm, ⟨83, _⟩ => ⟨S_, .f32⟩
  | .hbm, ⟨84, _⟩ => ⟨S64, .f32⟩
  | .hbm, ⟨85, _⟩ => ⟨S64, .f32⟩
  | .hbm, ⟨86, _⟩ => ⟨S64, .f32⟩
  | .hbm, ⟨87, _⟩ => ⟨S64, .f32⟩
  | .hbm, ⟨88, _⟩ => ⟨S1x64, .f32⟩
  | .hbm, ⟨89, _⟩ => ⟨S1x64, .f32⟩
  | .hbm, ⟨90, _⟩ => ⟨S1x64, .f32⟩
  | .hbm, ⟨91, _⟩ => ⟨S1x64, .f32⟩
  | .hbm, ⟨92, _⟩ => ⟨S100000x64, .f32⟩
  | .hbm, ⟨93, _⟩ => ⟨S_, .i32⟩
  | .hbm, ⟨94, _⟩ => ⟨S1600000, .i32⟩
  | .hbm, ⟨95, _⟩ => ⟨S1600000, .i1⟩
  | .hbm, ⟨96, _⟩ => ⟨S_, .i32⟩
  | .hbm, ⟨97, _⟩ => ⟨S1600000, .i32⟩
  | .hbm, ⟨98, _⟩ => ⟨S1600000, .i32⟩
  | .hbm, ⟨99, _⟩ => ⟨S1600000, .i32⟩
  | .hbm, ⟨100, _⟩ => ⟨S1600000x1, .i32⟩
  | .hbm, ⟨101, _⟩ => ⟨S1600000x64, .f32⟩
  | .hbm, ⟨102, _⟩ => ⟨S_, .f32⟩
  | .hbm, ⟨103, _⟩ => ⟨S100000x64, .f32⟩
  | .hbm, ⟨104, _⟩ => ⟨S1600000x1, .i32⟩
  | .hbm, ⟨105, _⟩ => ⟨S100000x64, .f32⟩
  | .hbm, ⟨106, _⟩ => ⟨S1x64, .f32⟩
  | .hbm, ⟨107, _⟩ => ⟨S1x64, .f32⟩
  | .hbm, ⟨108, _⟩ => ⟨S100000x64, .f32⟩
  | .hbm, ⟨109, _⟩ => ⟨S1x64, .f32⟩
  | .hbm, ⟨110, _⟩ => ⟨S1x64, .f32⟩
  | .hbm, ⟨111, _⟩ => ⟨S_, .f32⟩
  | .hbm, ⟨112, _⟩ => ⟨S64x64, .f32⟩
  | .hbm, ⟨113, _⟩ => ⟨S100000x1, .i32⟩
  | .hbm, ⟨114, _⟩ => ⟨S64x64, .f32⟩
  | .hbm, ⟨115, _⟩ => ⟨S1x256, .f32⟩
  | .hbm, ⟨116, _⟩ => ⟨S1x128, .f32⟩
  | .hbm, ⟨117, _⟩ => ⟨S64x128, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S1x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S1x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S64x64, .f32⟩
  | .local _ .vmem, ⟨45, _⟩ => ⟨S1x64, .f32⟩
  | .local _ .vmem, ⟨46, _⟩ => ⟨S64x64, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | .local _ .vmem, ⟨50, _⟩ => ⟨S1x64, .f32⟩
  | .local _ .vmem, ⟨51, _⟩ => ⟨S1x64, .f32⟩
  | .local _ .vmem, ⟨52, _⟩ => ⟨S64x64, .f32⟩
  | .local _ .vmem, ⟨53, _⟩ => ⟨S64x256, .f32⟩
  | .local _ .vmem, ⟨54, _⟩ => ⟨S1x256, .f32⟩
  | .local _ .vmem, ⟨55, _⟩ => ⟨S256x128, .f32⟩
  | .local _ .vmem, ⟨56, _⟩ => ⟨S1x128, .f32⟩
  | .local _ .vmem, ⟨57, _⟩ => ⟨S64x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16_0 : Ref sig .tc := ⟨.hbm, 42, rfl⟩
abbrev main_v16_1 : Ref sig .tc := ⟨.hbm, 43, rfl⟩
abbrev main_v16_2 : Ref sig .tc := ⟨.hbm, 44, rfl⟩
abbrev main_v17 : Ref sig .tc := ⟨.hbm, 45, rfl⟩
abbrev main_cst_1 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_2 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_3 : Ref sig .tc := ⟨.hbm, 60, rfl⟩
abbrev main_v30 : Ref sig .tc := ⟨.hbm, 61, rfl⟩
abbrev main_v31 : Ref sig .tc := ⟨.hbm, 62, rfl⟩
abbrev main_c_4 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_5 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42_0 : Ref sig .tc := ⟨.hbm, 75, rfl⟩
abbrev main_v42_1 : Ref sig .tc := ⟨.hbm, 76, rfl⟩
abbrev main_v42_2 : Ref sig .tc := ⟨.hbm, 77, rfl⟩
abbrev main_v43 : Ref sig .tc := ⟨.hbm, 78, rfl⟩
abbrev main_cst_6 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_7 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_c_8 : Ref sig .tc := ⟨.hbm, 93, rfl⟩
abbrev main_v56 : Ref sig .tc := ⟨.hbm, 94, rfl⟩
abbrev main_v57 : Ref sig .tc := ⟨.hbm, 95, rfl⟩
abbrev main_c_9 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_10 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68_0 : Ref sig .tc := ⟨.hbm, 108, rfl⟩
abbrev main_v68_1 : Ref sig .tc := ⟨.hbm, 109, rfl⟩
abbrev main_v68_2 : Ref sig .tc := ⟨.hbm, 110, rfl⟩
abbrev main_cst_11 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc4_stg7_0 : Ref sig .tc := ⟨.vmem, 50, rfl⟩
abbrev cc4_stg8_0 : Ref sig .tc := ⟨.vmem, 51, rfl⟩
abbrev cc5_stg0_0 : Ref sig .tc := ⟨.vmem, 52, rfl⟩
abbrev cc5_stg1_0 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem1_0 : DmaSem sig := 53
abbrev cc5_sem2_0 : DmaSem sig := 54
abbrev cc5_sem3_0 : DmaSem sig := 55
abbrev cc5_sem4_0 : DmaSem sig := 56
abbrev cc5_sem5_0 : DmaSem sig := 57

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S64x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S64x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S1x64_S1x64 : S1x64.ShapeCasts S1x64
  broadcasts_S1x64_S5000x64 : S1x64.Broadcasts S5000x64
  reduces_S5000x64_S64 : S5000x64.Reduces [0] S64
  shapeCasts_S1x64_S64 : S1x64.ShapeCasts S64
  bcast_S_S64 : S_.BroadcastsInDim S64 (![] : Fin 0 → Fin S64.rank)
  bcast_S_S64x64 : S_.BroadcastsInDim S64x64 (![] : Fin 0 → Fin S64x64.rank)
  bcast_S100000_S100000x1_0 : S100000.BroadcastsInDim S100000x1 (![0] : Fin 1 → Fin S100000x1.rank)
  shapeCasts_S256_S1x256 : S256.ShapeCasts S1x256
  shapeCasts_S128_S1x128 : S128.ShapeCasts S1x128
  shapeCasts_S64x64_S64x64 : S64x64.ShapeCasts S64x64
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S64x128_S64x128_0_0 : ∀ a, (![0, 0] : Fin 2 → Nat) a + S64x128.size a ≤ S64x128.size a
  h_S64x128 : 0 < S64x128.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  scatter_S64x64_S100000x1_S100000x64_1_0_0_1_wf : ScatterDims.WF S64x64 S100000x1 S100000x64 [1] [0] [0] 1
  dot_S64x64_S64x256_S64x256_1_0_0_1_n_n_wf : DotDims.WF S64x64 S64x256 S64x256 [1] [0] [0] [1] [] []
  dot_S64x256_S256x128_S64x128_1_0_0_1_n_n_wf : DotDims.WF S64x256 S256x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S100000x64.size a
  hwx4_6 : ∀ i : grid4.Coords, EltTy.bits .f32 = 32 ∨ (Rect.block (s := S100000x64) S5000x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S64x64.size a ≤ S64x64.size a
  hwx5_0 : ∀ i : grid5.Coords, EltTy.bits .f32 = 32 ∨ (Rect.block (s := S64x64) S64x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x256.size a ≤ S64x256.size a
  hwx5_1 : ∀ i : grid5.Coords, EltTy.bits .f32 = 32 ∨ (Rect.block (s := S64x256) S64x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x128.size a ≤ S256x128.size a
  hwx5_3 : ∀ i : grid5.Coords, EltTy.bits .f32 = 32 ∨ (Rect.block (s := S256x128) S256x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x128.size a ≤ S64x128.size a
  hwx5_5 : ∀ i : grid5.Coords, EltTy.bits .f32 = 32 ∨ (Rect.block (s := S64x128) S64x128.size (cc5_transform_5 i) (hinb5_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def dot_S64x64_S64x256_S64x256_1_0_0_1_n_n : DotDims S64x64 S64x256 S64x256 where
  lhsContracting := [1]
  rhsContracting := [0]
  lhsNonContracting := [0]
  rhsNonContracting := [1]
  lhsBatch := []
  rhsBatch := []
  wf := dot_S64x64_S64x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S1x64.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16_2) S1x64.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v16_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v29) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42_0) S5000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v42_1) S1x64.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v42_2) S1x64.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v42_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v55) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg13) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v67) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v68_0) S5000x64.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v68_1) S1x64.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v68_2) S1x64.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v71) S64x64.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg19) S64x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v72) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg21) S256x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v73) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v74) S64x128.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x256 : Shape := ⟨2, ![64, 256]⟩
abbrev S256 : Shape := ⟨1, ![256]⟩
abbrev S256x128 : Shape := ⟨2, ![256, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x1 : Shape := ⟨2, ![100000, 1]⟩
abbrev S1x256 : Shape := ⟨2, ![1, 256]⟩
abbrev S64x128 : Shape := ⟨2, ![64, 128]⟩
abbrev S1x128 : Shape := ⟨2, ![1, 128]⟩

abbrev nBuf : Space → Nat
  | .hbm => 211
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64, .f32⟩
  | 16 => ⟨S64, .f32⟩
  | 17 => ⟨S64, .f32⟩
  | 18 => ⟨S64, .f32⟩
  | 19 => ⟨S64x256, .f32⟩
  | 20 => ⟨S256, .f32⟩
  | 21 => ⟨S256x128, .f32⟩
  | 22 => ⟨S128, .f32⟩
  | 23 => ⟨S1x1600000, .i32⟩
  | 24 => ⟨S1600000, .i32⟩
  | 25 => ⟨S1x1600000, .i32⟩
  | 26 => ⟨S1600000, .i32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x64, .f32⟩
  | 36 => ⟨S_, .f32⟩
  | 37 => ⟨S100000x64, .f32⟩
  | 38 => ⟨S1600000x1, .i32⟩
  | 39 => ⟨S100000x64, .f32⟩
  | 40 => ⟨S100000x64, .f32⟩
  | 41 => ⟨S100000x64, .f32⟩
  | 42 => ⟨S1x64, .f32⟩
  | 43 => ⟨S100000x64, .f32⟩
  | 44 => ⟨S100000x64, .f32⟩
  | 45 => ⟨S_, .f32⟩
  | 46 => ⟨S100000x64, .f32⟩
  | 47 => ⟨S100000x64, .f32⟩
  | 48 => ⟨S100000x64, .f32⟩
  | 49 => ⟨S1x64, .f32⟩
  | 50 => ⟨S100000x64, .f32⟩
  | 51 => ⟨S100000x64, .f32⟩
  | 52 => ⟨S_, .f32⟩
  | 53 => ⟨S64, .f32⟩
  | 54 => ⟨S_, .f32⟩
  | 55 => ⟨S64, .f32⟩
  | 56 => ⟨S64, .f32⟩
  | 57 => ⟨S_, .i32⟩
  | 58 => ⟨S_, .f32⟩
  | 59 => ⟨S64, .f32⟩
  | 60 => ⟨S1x64, .f32⟩
  | 61 => ⟨S_, .f32⟩
  | 62 => ⟨S1x64, .f32⟩
  | 63 => ⟨S1x64, .f32⟩
  | 64 => ⟨S100000x64, .f32⟩
  | 65 => ⟨S100000x64, .f32⟩
  | 66 => ⟨S100000x64, .f32⟩
  | 67 => ⟨S_, .f32⟩
  | 68 => ⟨S_, .f32⟩
  | 69 => ⟨S_, .f32⟩
  | 70 => ⟨S_, .f32⟩
  | 71 => ⟨S64, .f32⟩
  | 72 => ⟨S64, .f32⟩
  | 73 => ⟨S64, .f32⟩
  | 74 => ⟨S_, .f32⟩
  | 75 => ⟨S_, .i1⟩
  | 76 => ⟨S_, .f32⟩
  | 77 => ⟨S_, .f32⟩
  | 78 => ⟨S64, .f32⟩
  | 79 => ⟨S64, .f32⟩
  | 80 => ⟨S1x64, .f32⟩
  | 81 => ⟨S100000x64, .f32⟩
  | 82 => ⟨S100000x64, .f32⟩
  | 83 => ⟨S_, .f32⟩
  | 84 => ⟨S64, .f32⟩
  | 85 => ⟨S64, .f32⟩
  | 86 => ⟨S64, .f32⟩
  | 87 => ⟨S1x64, .f32⟩
  | 88 => ⟨S100000x64, .f32⟩
  | 89 => ⟨S100000x64, .f32⟩
  | 90 => ⟨S1x64, .f32⟩
  | 91 => ⟨S100000x64, .f32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x64, .f32⟩
  | 108 => ⟨S_, .f32⟩
  | 109 => ⟨S100000x64, .f32⟩
  | 110 => ⟨S1600000x1, .i32⟩
  | 111 => ⟨S100000x64, .f32⟩
  | 112 => ⟨S100000x64, .f32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S64, .f32⟩
  | 126 => ⟨S_, .f32⟩
  | 127 => ⟨S64, .f32⟩
  | _ => ⟨S100000x64, .f32⟩

abbrev hbmTy0_1 (i : Nat) : BufTy := match i % 128 with
  | 0 => ⟨S64, .f32⟩
  | 1 => ⟨S_, .i32⟩
  | 2 => ⟨S_, .f32⟩
  | 3 => ⟨S64, .f32⟩
  | 4 => ⟨S1x64, .f32⟩
  | 5 => ⟨S_, .f32⟩
  | 6 => ⟨S1x64, .f32⟩
  | 7 => ⟨S1x64, .f32⟩
  | 8 => ⟨S100000x64, .f32⟩
  | 9 => ⟨S100000x64, .f32⟩
  | 10 => ⟨S100000x64, .f32⟩
  | 11 => ⟨S_, .f32⟩
  | 12 => ⟨S_, .f32⟩
  | 13 => ⟨S_, .f32⟩
  | 14 => ⟨S_, .f32⟩
  | 15 => ⟨S64, .f32⟩
  | 16 => ⟨S64, .f32⟩
  | 17 => ⟨S64, .f32⟩
  | 18 => ⟨S_, .f32⟩
  | 19 => ⟨S_, .i1⟩
  | 20 => ⟨S_, .f32⟩
  | 21 => ⟨S_, .f32⟩
  | 22 => ⟨S64, .f32⟩
  | 23 => ⟨S64, .f32⟩
  | 24 => ⟨S1x64, .f32⟩
  | 25 => ⟨S100000x64, .f32⟩
  | 26 => ⟨S100000x64, .f32⟩
  | 27 => ⟨S_, .f32⟩
  | 28 => ⟨S64, .f32⟩
  | 29 => ⟨S64, .f32⟩
  | 30 => ⟨S64, .f32⟩
  | 31 => ⟨S1x64, .f32⟩
  | 32 => ⟨S100000x64, .f32⟩
  | 33 => ⟨S100000x64, .f32⟩
  | 34 => ⟨S1x64, .f32⟩
  | 35 => ⟨S100000x64, .f32⟩
  | 36 => ⟨S100000x64, .f32⟩
  | 37 => ⟨S1x64, .f32⟩
  | 38 => ⟨S100000x64, .f32⟩
  | 39 => ⟨S100000x64, .f32⟩
  | 40 => ⟨S_, .f32⟩
  | 41 => ⟨S100000x64, .f32⟩
  | 42 => ⟨S100000x64, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x64, .f32⟩
  | 52 => ⟨S_, .f32⟩
  | 53 => ⟨S100000x64, .f32⟩
  | 54 => ⟨S1600000x1, .i32⟩
  | 55 => ⟨S100000x64, .f32⟩
  | 56 => ⟨S100000x64, .f32⟩
  | 57 => ⟨S100000x64, .f32⟩
  | 58 => ⟨S1x64, .f32⟩
  | 59 => ⟨S100000x64, .f32⟩
  | 60 => ⟨S100000x64, .f32⟩
  | 61 => ⟨S_, .f32⟩
  | 62 => ⟨S100000x64, .f32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S64x64, .f32⟩
  | 70 => ⟨S100000x1, .i32⟩
  | 71 => ⟨S64x64, .f32⟩
  | 72 => ⟨S64x256, .f32⟩
  | 73 => ⟨S1x256, .f32⟩
  | 74 => ⟨S64x256, .f32⟩
  | 75 => ⟨S64x256, .f32⟩
  | 76 => ⟨S_, .f32⟩
  | 77 => ⟨S64x256, .f32⟩
  | 78 => ⟨S64x256, .f32⟩
  | 79 => ⟨S64x128, .f32⟩
  | 80 => ⟨S1x128, .f32⟩
  | 81 => ⟨S64x128, .f32⟩
  | 82 => ⟨S64x128, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_1 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_2 : Ref sig .tc := ⟨.hbm, 52, rfl⟩
abbrev main_v25 : Ref sig .tc := ⟨.hbm, 53, rfl⟩
abbrev main_cst_3 : Ref sig .tc := ⟨.hbm, 54, rfl⟩
abbrev main_v26 : Ref sig .tc := ⟨.hbm, 55, rfl⟩
abbrev main_v27 : Ref sig .tc := ⟨.hbm, 56, rfl⟩
abbrev main_c_4 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_cst_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_cst_1 : Ref sig .tc := ⟨.hbm, 68, rfl⟩
abbrev main_call0_v8 : Ref sig .tc := ⟨.hbm, 69, rfl⟩
abbrev main_call0_cst_2 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_cst_3 : Ref sig .tc := ⟨.hbm, 74, rfl⟩
abbrev main_call0_v12 : Ref sig .tc := ⟨.hbm, 75, rfl⟩
abbrev main_call0_cst_4 : Ref sig .tc := ⟨.hbm, 76, rfl⟩
abbrev main_call0_call0_v0 : Ref sig .tc := ⟨.hbm, 77, rfl⟩
abbrev main_call0_call0_v1 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_5 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_cst_6 : Ref sig .tc := ⟨.hbm, 96, rfl⟩
abbrev main_v44 : Ref sig .tc := ⟨.hbm, 97, rfl⟩
abbrev main_v45 : Ref sig .tc := ⟨.hbm, 98, rfl⟩
abbrev main_c_7 : Ref sig .tc := ⟨.hbm, 99, rfl⟩
abbrev main_v46 : Ref sig .tc := ⟨.hbm, 100, rfl⟩
abbrev main_v47 : Ref sig .tc := ⟨.hbm, 101, rfl⟩
abbrev main_c_8 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_cst_9 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_cst_10 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_11 : Ref sig .tc := ⟨.hbm, 124, rfl⟩
abbrev main_v67 : Ref sig .tc := ⟨.hbm, 125, rfl⟩
abbrev main_cst_12 : Ref sig .tc := ⟨.hbm, 126, rfl⟩
abbrev main_v68 : Ref sig .tc := ⟨.hbm, 127, rfl⟩
abbrev main_v69 : Ref sig .tc := ⟨.hbm, 128, rfl⟩
abbrev main_c_13 : Ref sig .tc := ⟨.hbm, 129, rfl⟩
abbrev main_call1_cst : Ref sig .tc := ⟨.hbm, 130, rfl⟩
abbrev main_call1_v0 : Ref sig .tc := ⟨.hbm, 131, rfl⟩
abbrev main_call1_v1 : Ref sig .tc := ⟨.hbm, 132, rfl⟩
abbrev main_call1_cst_0 : Ref sig .tc := ⟨.hbm, 133, rfl⟩
abbrev main_call1_v2 : Ref sig .tc := ⟨.hbm, 134, rfl⟩
abbrev main_call1_v3 : Ref sig .tc := ⟨.hbm, 135, rfl⟩
abbrev main_call1_v4 : Ref sig .tc := ⟨.hbm, 136, rfl⟩
abbrev main_call1_v5 : Ref sig .tc := ⟨.hbm, 137, rfl⟩
abbrev main_call1_v6 : Ref sig .tc := ⟨.hbm, 138, rfl⟩
abbrev main_call1_v7 : Ref sig .tc := ⟨.hbm, 139, rfl⟩
abbrev main_call1_cst_1 : Ref sig .tc := ⟨.hbm, 140, rfl⟩
abbrev main_call1_v8 : Ref sig .tc := ⟨.hbm, 141, rfl⟩
abbrev main_call1_cst_2 : Ref sig .tc := ⟨.hbm, 142, rfl⟩
abbrev main_call1_v9 : Ref sig .tc := ⟨.hbm, 143, rfl⟩
abbrev main_call1_v10 : Ref sig .tc := ⟨.hbm, 144, rfl⟩
abbrev main_call1_v11 : Ref sig .tc := ⟨.hbm, 145, rfl⟩
abbrev main_call1_cst_3 : Ref sig .tc := ⟨.hbm, 146, rfl⟩
abbrev main_call1_v12 : Ref sig .tc := ⟨.hbm, 147, rfl⟩
abbrev main_call1_cst_4 : Ref sig .tc := ⟨.hbm, 148, rfl⟩
abbrev main_call1_call0_v0 : Ref sig .tc := ⟨.hbm, 149, rfl⟩
abbrev main_call1_call0_v1 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_cst_14 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_cst_15 : Ref sig .tc := ⟨.hbm, 168, rfl⟩
abbrev main_v86 : Ref sig .tc := ⟨.hbm, 169, rfl⟩
abbrev main_v87 : Ref sig .tc := ⟨.hbm, 170, rfl⟩
abbrev main_c_16 : Ref sig .tc := ⟨.hbm, 171, rfl⟩
abbrev main_v88 : Ref sig .tc := ⟨.hbm, 172, rfl⟩
abbrev main_v89 : Ref sig .tc := ⟨.hbm, 173, rfl⟩
abbrev main_c_17 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_cst_18 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_cst_19 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_cst_20 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_cst_21 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  dot_S64x64_S64x256_S64x256_1_0_0_1_n_n_wf : DotDims.WF S64x64 S64x256 S64x256 [1] [0] [0] [1] [] []
  dot_S64x256_S256x128_S64x128_1_0_0_1_n_n_wf : DotDims.WF S64x256 S256x128 S64x128 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def dot_S64x64_S64x256_S64x256_1_0_0_1_n_n : DotDims S64x64 S64x256 S64x256 where
  lhsContracting := [1]
  rhsContracting := [0]
  lhsNonContracting := [0]
  rhsNonContracting := [1]
  lhsBatch := []
  rhsBatch := []
  wf := dot_S64x64_S64x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf

class Facts : Prop extends Facts₀ where

variable [Facts]
-- ==== Proof.Spec.lean ====
/-
  The mathematics of the certificate, stated once over the extended reals, index by index, with no program in sight.

  The network is three graph-convolution layers, a batch normalisation with rectification after each of the first two,
  a sum-pooling of node rows into graph rows, and a two-layer head.  A graph-convolution layer adds to every node row the
  sum of its in-neighbours' rows and passes the result through a two-layer perceptron; the head is the same perceptron
  on the pooled rows.  So one function, `mlp2`, serves four times.  The batch normalisation uses, per column, the mean
  and the variance of the 100000 rows; the variance can be taken in one pass (second moment minus squared mean) or in two
  (mean of squared deviations), and the two agree on real entries (Proof/LibBatchNormMoments.lean).
-/
import Idealize.ShloMosaic.PureOps.Ideal
import Idealize.ShloMosaic.Lib.ValueIdx

noncomputable section

namespace Cert.Gin

open Idealize.ShloMosaic Idealize.ShloMosaic.ValueIdx

/-- A matrix of extended reals with `a` rows and `b` columns, as an array indexed by the shape `[a, b]`. -/
abbrev Mat (a b : ℕ) := (⟨2, ![a, b]⟩ : Shape).Idx → EReal
/-- A vector of `a` extended reals, as an array indexed by the shape `[a]`. -/
abbrev Row (a : ℕ) := (⟨1, ![a]⟩ : Shape).Idx → EReal

/-- The two-layer perceptron on rows: `relu (x · w1 + b1) · w2 + b2`, entry `(p, q)` written out as the two sums. -/
def mlp2 {n d0 d1 d2 : ℕ} (x : Mat n d0) (w1 : Mat d0 d1) (b1 : Row d1) (w2 : Mat d1 d2) (b2 : Row d2) : Mat n d2 :=
  fun i => (∑ k : Fin d1, max ((∑ j : Fin d0, x (ix2 (i 0) j) * w1 (ix2 j k)) + b1 (ix1 k)) 0 * w2 (ix2 k (i 1)))
    + b2 (ix1 (i 1))

/-- The entrywise sum of two matrices (a node's own row plus the sum of its in-neighbours' rows). -/
def plus {n d : ℕ} (x y : Mat n d) : Mat n d := fun i => x i + y i

/-- The column sums of a matrix. -/
def colSum {n d : ℕ} (h : Mat n d) : Row d := fun q => ∑ p : Fin n, h (ix2 p (q 0))

/-- The column sums of the squares of a matrix's entries. -/
def colSumSq {n d : ℕ} (h : Mat n d) : Row d := fun q => ∑ p : Fin n, h (ix2 p (q 0)) * h (ix2 p (q 0))

/-- The column means: the column sums divided by the count `cnt`. -/
def colMean {n d : ℕ} (cnt : EReal) (h : Mat n d) : Row d := fun q => Ideal.div (colSum h q) cnt

/-- The one-pass column variances: second moment minus squared mean. -/
def colVar1 {n d : ℕ} (cnt : EReal) (h : Mat n d) : Row d :=
  fun q => Ideal.div (colSumSq h q) cnt - colMean cnt h q * colMean cnt h q

/-- The two-pass column variances: the mean of the squared deviations from the column mean. -/
def colVar2 {n d : ℕ} (cnt : EReal) (h : Mat n d) : Row d :=
  fun q => Ideal.div (∑ p : Fin n, (h (ix2 p (q 0)) - colMean cnt h q) * (h (ix2 p (q 0)) - colMean cnt h q)) cnt

/-- Batch normalisation with given column means and variances, scale `γ`, shift `β`, then rectification:
    `max ((h − μ) · rsqrt (σ² + ε) · γ + β) 0`. -/
def bnRelu {n d : ℕ} (ε : EReal) (h : Mat n d) (μ σ2 γ β : Row d) : Mat n d :=
  fun i => max ((h i - μ (ix1 (i 1))) * Ideal.rsqrt (σ2 (ix1 (i 1)) + ε) * γ (ix1 (i 1)) + β (ix1 (i 1))) 0

/-- Every entry of an array is a real number (neither infinity). -/
def AllReal {S : Shape} (v : S.Idx → EReal) : Prop := ∀ i, ∃ r : ℝ, v i = (r : EReal)

end Cert.Gin

end
-- ==== Proof.PreReal.lean ====
/-
  From the precondition to "every float argument has only real entries".

  The precondition is a conjunction of 21 one-bit words, one per float argument; the word for an argument `v` is the
  conjunction over all entries of the comparison `|v i| < +∞`, where `|x|` is `max x (-x)` on the extended reals and
  `+∞` is the bit pattern with all-ones exponent and zero significand.  A conjunction of bits is 1 exactly when every
  conjunct is 1, and an extended real whose absolute value lies strictly below `⊤` is neither infinity, hence a real
  number.  So the precondition being true makes every entry of every float argument real.
-/
import proofs.«171644_j66365834658285_1_alg».proof.Pre_finite_inputs
import proofs.«171644_j66365834658285_1_alg».proof.Proof.Spec
import Idealize.ShloMosaic.Lib.ReduceAll
import Idealize.ShloMosaic.Lib.ValueIdx
import Idealize.ShloMosaic.PureOps.Ideal

noncomputable section

namespace Cert.PreReal

open Idealize.ShloMosaic Idealize.ShloMosaic.ValueIdx Cert.Pre_finite_inputs
open Cert.Gin (AllReal)

/-- The rank-zero shape has exactly one index. -/
instance : Subsingleton S_.Idx := ⟨fun a b => funext fun d => d.elim0⟩

/-- The bit pattern with all-ones exponent and zero significand denotes positive infinity. -/
theorem ofBits_inf : Ideal.ofBits .f32 0x7F800000#32 = (⊤ : EReal) := by
  simp [Ideal.ofBits, Ideal.ieee]

/-- An extended real whose absolute value `max x (-x)` lies strictly below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One finiteness check read back: if the conjunction over all entries of `|v i| < +∞` came out true,
    every entry of `v` is real. -/
theorem allReal_of_check {S : Shape} {axes : List (Fin S.rank)} (v : FVec Ideal S .f32)
    (b : S_.BroadcastsInDim S (![] : Fin 0 → Fin S.rank)) (r : S.ReducesTo axes S_) (hu : 0 < S_.numel)
    (init : IVec S_ 1) (j : S_.Idx)
    (h : Host.reduce IntOp.andi (cmpf .olt (Host.absf v) (broadcastInDim S ![] b (constant S_ .f32 0x7F800000#32)))
      init r hu j = 1#1) : AllReal v := by
  intro i
  have hi := Host.reduce_andi_all _ init r hu j h i
  simp only [cmpf, Host.absf, broadcastInDim, constant] at hi
  have hi' : Ideal.cmp .olt (max (v i) (-(v i))) (Ideal.ofBits .f32 0x7F800000#32) = 1#1 := hi
  rw [ofBits_inf] at hi'
  have hlt : max (v i) (-(v i)) < ⊤ := by
    by_contra hn
    simp [Ideal.cmp, hn] at hi'
  exact real_of_abs_lt_top _ hlt

/-- The conjunction of two one-bit words, read at an index. -/
private theorem andi_apply {s : Shape} {w : Nat} (x y : IVec s w) (i : s.Idx) :
    andi x y i = IntOp.andi (x i) (y i) := rfl

/-- The precondition read back: it is the conjunction, over the 21 float arguments, of "every entry has absolute
    value strictly below +∞"; so if it holds, every entry of every float argument is a real number. -/
theorem allReal_of_pre [Facts]
    (a0 : FVec Ideal S100000x64 .f32)
    (a1 : IVec S2x1600000 32)
    (a2 : IVec S100000 32)
    (a3 : FVec Ideal S64x64 .f32)
    (a4 : FVec Ideal S64 .f32)
    (a5 : FVec Ideal S64x64 .f32)
    (a6 : FVec Ideal S64 .f32)
    (a7 : FVec Ideal S64x64 .f32)
    (a8 : FVec Ideal S64 .f32)
    (a9 : FVec Ideal S64x64 .f32)
    (a10 : FVec Ideal S64 .f32)
    (a11 : FVec Ideal S64x64 .f32)
    (a12 : FVec Ideal S64 .f32)
    (a13 : FVec Ideal S64x64 .f32)
    (a14 : FVec Ideal S64 .f32)
    (a15 : FVec Ideal S64 .f32)
    (a16 : FVec Ideal S64 .f32)
    (a17 : FVec Ideal S64 .f32)
    (a18 : FVec Ideal S64 .f32)
    (a19 : FVec Ideal S64x256 .f32)
    (a20 : FVec Ideal S256 .f32)
    (a21 : FVec Ideal S256x128 .f32)
    (a22 : FVec Ideal S128 .f32)
    (h : fn (F := Ideal) a0 a1 a2 a3 a4 a5 a6 a7 a8 a9 a10 a11 a12 a13 a14 a15 a16 a17 a18 a19 a20 a21 a22 = fun _ => 1#1) :
    AllReal a0 ∧ AllReal a3 ∧ AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19 ∧ AllReal a20 ∧ AllReal a21 ∧ AllReal a22 := by
  have h0 := congrFun h ix0
  dsimp only [fn, fn_part1, fn_part2, fn_part3, fn_part4, fn_part5, fn_part6] at h0
  simp only [andi_apply, IntOp.andi_eq_one, and_assoc] at h0
  obtain ⟨c0, c3, c4, c5, c6, c7, c8, c9, c10, c11, c12, c13, c14, c15, c16, c17, c18, c19, c20, c21, c22⟩ := h0
  exact ⟨allReal_of_check a0 _ _ _ _ _ c0,
    allReal_of_check a3 _ _ _ _ _ c3,
    allReal_of_check a4 _ _ _ _ _ c4,
    allReal_of_check a5 _ _ _ _ _ c5,
    allReal_of_check a6 _ _ _ _ _ c6,
    allReal_of_check a7 _ _ _ _ _ c7,
    allReal_of_check a8 _ _ _ _ _ c8,
    allReal_of_check a9 _ _ _ _ _ c9,
    allReal_of_check a10 _ _ _ _ _ c10,
    allReal_of_check a11 _ _ _ _ _ c11,
    allReal_of_check a12 _ _ _ _ _ c12,
    allReal_of_check a13 _ _ _ _ _ c13,
    allReal_of_check a14 _ _ _ _ _ c14,
    allReal_of_check a15 _ _ _ _ _ c15,
    allReal_of_check a16 _ _ _ _ _ c16,
    allReal_of_check a17 _ _ _ _ _ c17,
    allReal_of_check a18 _ _ _ _ _ c18,
    allReal_of_check a19 _ _ _ _ _ c19,
    allReal_of_check a20 _ _ _ _ _ c20,
    allReal_of_check a21 _ _ _ _ _ c21,
    allReal_of_check a22 _ _ _ _ _ c22⟩

end Cert.PreReal

end
-- ==== Proof.KHost.lean ====
/-
  The idealized kernel's host stretches, read buffer by buffer.

  Between the launches the program runs short straight lines of host operations.  Each lemma here says what ONE buffer
  holds after one stretch, from arbitrary contents `W` before it: the sum over in-neighbours (a gather of source rows
  scattered additively onto destination rows), a bias vector re-laid as a one-row matrix, the column means and one-pass
  variances computed from the column sums and sums of squares a launch left, and the pooling of node rows into graph rows.
-/
import proofs.«171644_j66365834658285_1_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal

noncomputable section

namespace Cert.KernelIdeal.KHost

open Idealize.ShloMosaic Idealize.ShloMosaic.TcCoe Idealize.ShloMosaic.ValueIdx Cert.KernelIdeal.Gen

/-! ## The sum over in-neighbours, and the pooling -/

/-- The row of source node numbers: the first row of the edge list. -/
def srcRow (ei : IVec S2x1600000 32) : IVec S1600000 32 :=
  shapeCast S1600000 (extractStridedSlice S1x1600000 ![0, 0] ei slices_S2x1600000_S1x1600000_0_0) shapeCasts_S1x1600000_S1600000

/-- The row of destination node numbers: the second row of the edge list. -/
def dstRow (ei : IVec S2x1600000 32) : IVec S1600000 32 :=
  shapeCast S1600000 (extractStridedSlice S1x1600000 ![1, 0] ei slices_S2x1600000_S1x1600000_1_0) shapeCasts_S1x1600000_S1600000

/-- For every node, the sum of the rows of `h` at the sources of the edges that end at it: the rows gathered at the
    source numbers (a negative number counted from the end), added into a zero matrix at the destination numbers. -/
def segRows (h : FVec Ideal S100000x64 .f32) (src dst : IVec S1600000 32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The node rows summed into the rows of their graphs. -/
def poolRows (h : FVec Ideal S100000x64 .f32) (batch : IVec S100000 32) : FVec Ideal S64x64 .f32 :=
  Host.scatterAdd scatter_S64x64_S100000x1_S100000x64_1_0_0_1
    (broadcastInDim S64x64 ![] bcast_S_S64x64 (constant S_ .f32 0x00000000#32))
    (broadcastInDim S100000x1 ![0] bcast_S100000_S100000x1_0 batch) h

variable (W : Valuation τ sig (Elt Ideal))

/-! ## The first stretch -/

theorem host0_v1 : StableHlo.after (hostOps0 (F := Ideal)) W (Proc.devRef .tc main_v1) = srcRow (W (Proc.devRef .tc main_arg1)) := by
  after_results_simp; rfl
theorem host0_v3 : StableHlo.after (hostOps0 (F := Ideal)) W (Proc.devRef .tc main_v3) = dstRow (W (Proc.devRef .tc main_arg1)) := by
  after_results_simp; rfl
theorem host0_v13 : StableHlo.after (hostOps0 (F := Ideal)) W (Proc.devRef .tc main_v13)
    = segRows (W (Proc.devRef .tc main_arg0)) (srcRow (W (Proc.devRef .tc main_arg1))) (dstRow (W (Proc.devRef .tc main_arg1))) := by
  after_results_simp; rfl
theorem host0_v14 (q : Fin 64) : (StableHlo.after (hostOps0 (F := Ideal)) W (Proc.devRef .tc main_v14) : S1x64.Idx → EReal) (ix2 (0 : Fin 1) q)
    = (W (Proc.devRef .tc main_arg4) : S64.Idx → EReal) (ix1 q) := by
  after_results_simp
  exact shapeCast_a_1a_apply _ _ 0 q
theorem host0_v15 (q : Fin 64) : (StableHlo.after (hostOps0 (F := Ideal)) W (Proc.devRef .tc main_v15) : S1x64.Idx → EReal) (ix2 (0 : Fin 1) q)
    = (W (Proc.devRef .tc main_arg6) : S64.Idx → EReal) (ix1 q) := by
  after_results_simp
  exact shapeCast_a_1a_apply _ _ 0 q

/-! ## The stretch after the first convolution: the column statistics -/

theorem host1_v25 (q : Fin 64) : (StableHlo.after (hostOps1 (F := Ideal)) W (Proc.devRef .tc main_v25) : S1x64.Idx → EReal) (ix2 (0 : Fin 1) q)
    = Ideal.div ((W (Proc.devRef .tc main_v16_1) : S1x64.Idx → EReal) (ix2 (0 : Fin 1) q)) (Ideal.ofBits .f32 0x47C35000#32) := by
  after_results_simp
  refine (shapeCast_a_1a_apply _ _ 0 q).trans ?_
  show Ideal.div _ _ = _
  exact congrArg (Ideal.div · _) (shapeCast_1a_a_apply _ _ q)
theorem host1_v26 (q : Fin 64) : (StableHlo.after (hostOps1 (F := Ideal)) W (Proc.devRef .tc main_v26) : S1x64.Idx → EReal) (ix2 (0 : Fin 1) q)
    = Ideal.div ((W (Proc.devRef .tc main_v16_2) : S1x64.Idx → EReal) (ix2 (0 : Fin 1) q)) (Ideal.ofBits .f32 0x47C35000#32)
      - Ideal.div ((W (Proc.devRef .tc main_v16_1) : S1x64.Idx → EReal) (ix2 (0 : Fin 1) q)) (Ideal.ofBits .f32 0x47C35000#32)
        * Ideal.div ((W (Proc.devRef .tc main_v16_1) : S1x64.Idx → EReal) (ix2 (0 : Fin 1) q)) (Ideal.ofBits .f32 0x47C35000#32) := by
  after_results_simp
  refine (shapeCast_a_1a_apply _ _ 0 q).trans ?_
  exact congrArg₂ (fun a b : EReal => Ideal.div a (Ideal.ofBits .f32 0x47C35000#32)
      - Ideal.div b (Ideal.ofBits .f32 0x47C35000#32) * Ideal.div b (Ideal.ofBits .f32 0x47C35000#32))
    (shapeCast_1a_a_apply _ _ q) (shapeCast_1a_a_apply _ _ q)
theorem host1_v27 (q : Fin 64) : (StableHlo.after (hostOps1 (F := Ideal)) W (Proc.devRef .tc main_v27) : S1x64.Idx → EReal) (ix2 (0 : Fin 1) q)
    = (W (Proc.devRef .tc main_arg15) : S64.Idx → EReal) (ix1 q) := by
  after_results_simp
  exact shapeCast_a_1a_apply _ _ 0 q
theorem host1_v28 (q : Fin 64) : (StableHlo.after (hostOps1 (F := Ideal)) W (Proc.devRef .tc main_v28) : S1x64.Idx → EReal) (ix2 (0 : Fin 1) q)
    = (W (Proc.devRef .tc main_arg16) : S64.Idx → EReal) (ix1 q) := by
  after_results_simp
  exact shapeCast_a_1a_apply _ _ 0 q

/-! ## The stretches before the second and third convolutions -/

theorem host2_v39 : StableHlo.after (hostOps2 (F := Ideal)) W (Proc.devRef .tc main_v39)
    = segRows (W (Proc.devRef .tc main_v29)) (W (Proc.devRef .tc main_v1)) (W (Proc.devRef .tc main_v3)) := by
  after_results_simp; rfl
theorem host2_v40 (q : Fin 64) : (StableHlo.after (hostOps2 (F := Ideal)) W (Proc.devRef .tc main_v40) : S1x64.Idx → EReal) (ix2 (0 : Fin 1) q)
    = (W (Proc.devRef .tc main_arg8) : S64.Idx → EReal) (ix1 q) := by
  after_results_simp
  exact shapeCast_a_1a_apply _ _ 0 q
theorem host2_v41 (q : Fin 64) : (StableHlo.after (hostOps2 (F := Ideal)) W (Proc.devRef .tc main_v41) : S1x64.Idx → EReal) (ix2 (0 : Fin 1) q)
    = (W (Proc.devRef .tc main_arg10) : S64.Idx → EReal) (ix1 q) := by
  after_results_simp
  exact shapeCast_a_1a_apply _ _ 0 q

theorem host4_v65 : StableHlo.after (hostOps4 (F := Ideal)) W (Proc.devRef .tc main_v65)
    = segRows (W (Proc.devRef .tc main_v55)) (W (Proc.devRef .tc main_v1)) (W (Proc.devRef .tc main_v3)) := by
  after_results_simp; rfl
theorem host4_v66 (q : Fin 64) : (StableHlo.after (hostOps4 (F := Ideal)) W (Proc.devRef .tc main_v66) : S1x64.Idx → EReal) (ix2 (0 : Fin 1) q)
    = (W (Proc.devRef .tc main_arg12) : S64.Idx → EReal) (ix1 q) := by
  after_results_simp
  exact shapeCast_a_1a_apply _ _ 0 q
theorem host4_v67 (q : Fin 64) : (StableHlo.after (hostOps4 (F := Ideal)) W (Proc.devRef .tc main_v67) : S1x64.Idx → EReal) (ix2 (0 : Fin 1) q)
    = (W (Proc.devRef .tc main_arg14) : S64.Idx → EReal) (ix1 q) := by
  after_results_simp
  exact shapeCast_a_1a_apply _ _ 0 q

/-! ## The stretch after the second convolution: the column statistics again -/

theorem host3_v51 (q : Fin 64) : (StableHlo.after (hostOps3 (F := Ideal)) W (Proc.devRef .tc main_v51) : S1x64.Idx → EReal) (ix2 (0 : Fin 1) q)
    = Ideal.div ((W (Proc.devRef .tc main_v42_1) : S1x64.Idx → EReal) (ix2 (0 : Fin 1) q)) (Ideal.ofBits .f32 0x47C35000#32) := by
  after_results_simp
  refine (shapeCast_a_1a_apply _ _ 0 q).trans ?_
  show Ideal.div _ _ = _
  exact congrArg (Ideal.div · _) (shapeCast_1a_a_apply _ _ q)
theorem host3_v52 (q : Fin 64) : (StableHlo.after (hostOps3 (F := Ideal)) W (Proc.devRef .tc main_v52) : S1x64.Idx → EReal) (ix2 (0 : Fin 1) q)
    = Ideal.div ((W (Proc.devRef .tc main_v42_2) : S1x64.Idx → EReal) (ix2 (0 : Fin 1) q)) (Ideal.ofBits .f32 0x47C35000#32)
      - Ideal.div ((W (Proc.devRef .tc main_v42_1) : S1x64.Idx → EReal) (ix2 (0 : Fin 1) q)) (Ideal.ofBits .f32 0x47C35000#32)
        * Ideal.div ((W (Proc.devRef .tc main_v42_1) : S1x64.Idx → EReal) (ix2 (0 : Fin 1) q)) (Ideal.ofBits .f32 0x47C35000#32) := by
  after_results_simp
  refine (shapeCast_a_1a_apply _ _ 0 q).trans ?_
  exact congrArg₂ (fun a b : EReal => Ideal.div a (Ideal.ofBits .f32 0x47C35000#32)
      - Ideal.div b (Ideal.ofBits .f32 0x47C35000#32) * Ideal.div b (Ideal.ofBits .f32 0x47C35000#32))
    (shapeCast_1a_a_apply _ _ q) (shapeCast_1a_a_apply _ _ q)
theorem host3_v53 (q : Fin 64) : (StableHlo.after (hostOps3 (F := Ideal)) W (Proc.devRef .tc main_v53) : S1x64.Idx → EReal) (ix2 (0 : Fin 1) q)
    = (W (Proc.devRef .tc main_arg17) : S64.Idx → EReal) (ix1 q) := by
  after_results_simp
  exact shapeCast_a_1a_apply _ _ 0 q
theorem host3_v54 (q : Fin 64) : (StableHlo.after (hostOps3 (F := Ideal)) W (Proc.devRef .tc main_v54) : S1x64.Idx → EReal) (ix2 (0 : Fin 1) q)
    = (W (Proc.devRef .tc main_arg18) : S64.Idx → EReal) (ix1 q) := by
  after_results_simp
  exact shapeCast_a_1a_apply _ _ 0 q

/-! ## The last stretch: the pooling and the head's biases -/

theorem host5_v71 : StableHlo.after (hostOps5 (F := Ideal)) W (Proc.devRef .tc main_v71)
    = poolRows (W (Proc.devRef .tc main_v68_0)) (W (Proc.devRef .tc main_arg2)) := by
  after_results_simp; rfl
theorem host5_v72 (q : Fin 256) : (StableHlo.after (hostOps5 (F := Ideal)) W (Proc.devRef .tc main_v72) : S1x256.Idx → EReal) (ix2 (0 : Fin 1) q)
    = (W (Proc.devRef .tc main_arg20) : S256.Idx → EReal) (ix1 q) := by
  after_results_simp
  exact shapeCast_a_1a_apply _ _ 0 q
theorem host5_v73 (q : Fin 128) : (StableHlo.after (hostOps5 (F := Ideal)) W (Proc.devRef .tc main_v73) : S1x128.Idx → EReal) (ix2 (0 : Fin 1) q)
    = (W (Proc.devRef .tc main_arg22) : S128.Idx → EReal) (ix1 q) := by
  after_results_simp
  exact shapeCast_a_1a_apply _ _ 0 q

end Cert.KernelIdeal.KHost

end
-- ==== Proof.KStages.lean ====
/-
  The idealized kernel's results as functions of its arguments, stated over the shared specification.

  Layer by layer: a graph convolution adds to each node row the sum of its in-neighbours' rows and applies the two-layer
  perceptron; the batch normalisation takes the column means and the ONE-PASS column variances (second moment minus
  squared mean) of the 100000 rows, normalises, scales, shifts and rectifies; after the third convolution the node rows
  are summed into their graphs' rows (the second result) and the head perceptron is applied to those (the first).
-/
import proofs.«171644_j66365834658285_1_alg».proof.Proof.Spec
import proofs.«171644_j66365834658285_1_alg».proof.Proof.KHost

noncomputable section

namespace Cert.KernelIdeal.KStages

open Idealize.ShloMosaic Cert.Gin Cert.KernelIdeal.KHost

/-- The number of node rows, as the program's float constant. -/
def cnt : EReal := Ideal.ofBits .f32 0x47C35000#32
/-- The batch normalisation's variance offset, as the program's float constant. -/
def eps : EReal := Ideal.ofBits .f32 0x3727C5AC#32

/-- One graph convolution: the perceptron of each node row plus the sum of its in-neighbours' rows. -/
def gconv (h : FVec Ideal S100000x64 .f32) (src dst : IVec S1600000 32) (w1 : FVec Ideal S64x64 .f32) (b1 : FVec Ideal S64 .f32)
    (w2 : FVec Ideal S64x64 .f32) (b2 : FVec Ideal S64 .f32) : FVec Ideal S100000x64 .f32 :=
  mlp2 (plus h (segRows h src dst)) w1 b1 w2 b2

/-- Batch normalisation with the one-pass column statistics, then rectification. -/
def norm1 (r : FVec Ideal S100000x64 .f32) (γ β : FVec Ideal S64 .f32) : FVec Ideal S100000x64 .f32 :=
  bnRelu eps r (colMean cnt r) (colVar1 cnt r) γ β

/-- The node features after the first layer. -/
def h1 (x : FVec Ideal S100000x64 .f32) (ei : IVec S2x1600000 32) (c0w1 : FVec Ideal S64x64 .f32) (c0b1 : FVec Ideal S64 .f32)
    (c0w2 : FVec Ideal S64x64 .f32) (c0b2 g0 b0 : FVec Ideal S64 .f32) : FVec Ideal S100000x64 .f32 :=
  norm1 (gconv x (srcRow ei) (dstRow ei) c0w1 c0b1 c0w2 c0b2) g0 b0

/-- The node features after the second layer. -/
def h2 (x : FVec Ideal S100000x64 .f32) (ei : IVec S2x1600000 32) (c0w1 : FVec Ideal S64x64 .f32) (c0b1 : FVec Ideal S64 .f32)
    (c0w2 : FVec Ideal S64x64 .f32) (c0b2 : FVec Ideal S64 .f32) (c1w1 : FVec Ideal S64x64 .f32) (c1b1 : FVec Ideal S64 .f32)
    (c1w2 : FVec Ideal S64x64 .f32) (c1b2 g0 b0 g1 b1 : FVec Ideal S64 .f32) : FVec Ideal S100000x64 .f32 :=
  norm1 (gconv (h1 x ei c0w1 c0b1 c0w2 c0b2 g0 b0) (srcRow ei) (dstRow ei) c1w1 c1b1 c1w2 c1b2) g1 b1

/-- The pooled graph rows: the second result. -/
def emb (x : FVec Ideal S100000x64 .f32) (ei : IVec S2x1600000 32) (batch : IVec S100000 32)
    (c0w1 : FVec Ideal S64x64 .f32) (c0b1 : FVec Ideal S64 .f32) (c0w2 : FVec Ideal S64x64 .f32) (c0b2 : FVec Ideal S64 .f32)
    (c1w1 : FVec Ideal S64x64 .f32) (c1b1 : FVec Ideal S64 .f32) (c1w2 : FVec Ideal S64x64 .f32) (c1b2 : FVec Ideal S64 .f32)
    (c2w1 : FVec Ideal S64x64 .f32) (c2b1 : FVec Ideal S64 .f32) (c2w2 : FVec Ideal S64x64 .f32) (c2b2 g0 b0 g1 b1 : FVec Ideal S64 .f32) :
    FVec Ideal S64x64 .f32 :=
  poolRows (gconv (h2 x ei c0w1 c0b1 c0w2 c0b2 c1w1 c1b1 c1w2 c1b2 g0 b0 g1 b1) (srcRow ei) (dstRow ei) c2w1 c2b1 c2w2 c2b2) batch

/-- The head's output: the first result. -/
def out (x : FVec Ideal S100000x64 .f32) (ei : IVec S2x1600000 32) (batch : IVec S100000 32)
    (c0w1 : FVec Ideal S64x64 .f32) (c0b1 : FVec Ideal S64 .f32) (c0w2 : FVec Ideal S64x64 .f32) (c0b2 : FVec Ideal S64 .f32)
    (c1w1 : FVec Ideal S64x64 .f32) (c1b1 : FVec Ideal S64 .f32) (c1w2 : FVec Ideal S64x64 .f32) (c1b2 : FVec Ideal S64 .f32)
    (c2w1 : FVec Ideal S64x64 .f32) (c2b1 : FVec Ideal S64 .f32) (c2w2 : FVec Ideal S64x64 .f32) (c2b2 g0 b0 g1 b1 : FVec Ideal S64 .f32)
    (hw1 : FVec Ideal S64x256 .f32) (hb1 : FVec Ideal S256 .f32) (hw2 : FVec Ideal S256x128 .f32) (hb2 : FVec Ideal S128 .f32) :
    FVec Ideal S64x128 .f32 :=
  mlp2 (emb x ei batch c0w1 c0b1 c0w2 c0b2 c1w1 c1b1 c1w2 c1b2 c2w1 c2b1 c2w2 c2b2 g0 b0 g1 b1) hw1 hb1 hw2 hb2

end Cert.KernelIdeal.KStages

end
-- ==== Proof.RefStages.lean ====
/-
  The reference network, stage by stage, as pure functions of its arrays.

  Each definition composes exactly the host operations the reference's main function performs for that stage, in the
  same order and with the same dimension records and constants: the neighbour sum (read both rows of the edge table,
  wrap negative source indices, gather the source rows, add them into zeros at the destination rows), the two-layer
  perceptron of a graph convolution, the column mean, the two-pass column variance (as the outlined variance function
  computes it, with its integer correction argument the constant zero), the batch normalisation with rectification,
  the pooling of node rows into graph rows, and the head.  The last definitions compose the stages into the two
  results of the network.
-/
import proofs.«171644_j66365834658285_1_alg».proof.ReferenceIdeal

noncomputable section

namespace Cert.ReferenceIdeal.RefStages

open Idealize.ShloMosaic
open Cert.ReferenceIdeal Cert.ReferenceIdeal.Facts₀

variable {F : FTy → Type} [FloatOps F] [Facts₀]

/-! ## The neighbour sum -/

/-- Row 0 of the edge table, flattened: the source node of every edge. -/
def src (ei : IVec S2x1600000 32) : IVec S1600000 32 :=
  shapeCast S1600000 (extractStridedSlice S1x1600000 ![0, 0] ei slices_S2x1600000_S1x1600000_0_0)
    shapeCasts_S1x1600000_S1600000

/-- Row 1 of the edge table, flattened: the destination node of every edge. -/
def dst (ei : IVec S2x1600000 32) : IVec S1600000 32 :=
  shapeCast S1600000 (extractStridedSlice S1x1600000 ![1, 0] ei slices_S2x1600000_S1x1600000_1_0)
    shapeCasts_S1x1600000_S1600000

/-- A negative index counts from the end: `s + 100000` where `s < 0`, else `s`. -/
def wrap (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- The all-zero matrix of node rows. -/
def zeros : FVec F S100000x64 .f32 :=
  broadcastInDim S100000x64 ![] bcast_S_S100000x64 (constant S_ .f32 0x00000000#32)

/-- The neighbour sum: for every edge, the source node's row of `h` is added into the destination node's row of a
    zero matrix. -/
def seg (h : FVec F S100000x64 .f32) (ei : IVec S2x1600000 32) : FVec F S100000x64 .f32 :=
  Host.scatterAdd scatter_S100000x64_S1600000x1_S1600000x64_1_0_0_1 zeros
    (broadcastInDim S1600000x1 ![0] bcast_S1600000_S1600000x1_0 (dst ei))
    (Host.gather gather_S100000x64_S1600000x1_S1600000x64_1_0_n_n_0_1_164 h
      (broadcastInDim S1600000x1 ![0] bcast_S1600000_S1600000x1_0 (wrap (src ei))))

/-! ## The perceptron of a graph convolution -/

/-- A vector of 64 entries repeated down the 100000 rows. -/
def rows (b : FVec F S64 .f32) : FVec F S100000x64 .f32 :=
  broadcastInDim S100000x64 ![0, 1] bcast_S1x64_S100000x64_0_1 (broadcastInDim S1x64 ![1] bcast_S64_S1x64_1 b)

/-- One affine layer on node rows: `x · w + b`. -/
def lin (x : FVec F S100000x64 .f32) (w : FVec F S64x64 .f32) (b : FVec F S64 .f32) : FVec F S100000x64 .f32 :=
  addf (Host.dotGeneral dot_S100000x64_S64x64_S100000x64_1_0_0_1_n_n none x w) (rows b)

/-- Rectification: the entrywise maximum with zero. -/
def relu (x : FVec F S100000x64 .f32) : FVec F S100000x64 .f32 :=
  maximumf x zeros

/-- A graph convolution's perceptron on a node's own row plus its neighbour sum:
    `relu ((h + agg) · w1 + b1) · w2 + b2`. -/
def conv (h agg : FVec F S100000x64 .f32) (w1 : FVec F S64x64 .f32) (b1 : FVec F S64 .f32) (w2 : FVec F S64x64 .f32)
    (b2 : FVec F S64 .f32) : FVec F S100000x64 .f32 :=
  lin (relu (lin (addf h agg) w1 b1)) w2 b2

/-! ## Column statistics -/

/-- The column sums, from zero. -/
def colsum (h : FVec F S100000x64 .f32) : FVec F S64 .f32 :=
  Host.reduceAdd h (constant S_ .f32 0x00000000#32) reducesTo_S100000x64_S64_d0 h_S_

/-- The column means: the column sums divided by 100000. -/
def mean (h : FVec F S100000x64 .f32) : FVec F S64 .f32 :=
  Host.divf (colsum h) (broadcastInDim S64 ![] bcast_S_S64 (constant S_ .f32 0x47C35000#32))

/-- The deviations from the column means, the means computed as a one-row matrix and repeated down the rows. -/
def dev (h : FVec F S100000x64 .f32) : FVec F S100000x64 .f32 :=
  subf h (broadcastInDim S100000x64 ![0, 1] bcast_S1x64_S100000x64_0_1
    (Host.divf (broadcastInDim S1x64 ![1] bcast_S64_S1x64_1 (colsum h))
      (broadcastInDim S1x64 ![] bcast_S_S1x64 (constant S_ .f32 0x47C35000#32))))

/-- The variance's divisor: 100000 minus the correction, the correction being the integer 0 converted. -/
def divisor : FVec F S_ .f32 :=
  subf (constant S_ .f32 0x47C35000#32) (sitofp .f32 (constantI S_ 32 0#32))

/-- The two-pass column variances: the column sums of the squared deviations, divided by the divisor where the divisor
    is positive (not-a-number elsewhere). -/
def var (h : FVec F S100000x64 .f32) : FVec F S64 .f32 :=
  select (broadcastInDim S64 ![] bcast_S_S64 (cmpf .ogt (divisor (F := F)) (constant S_ .f32 0x00000000#32)))
    (Host.divf (colsum (mulf (dev h) (dev h))) (broadcastInDim S64 ![] bcast_S_S64 divisor))
    (broadcastInDim S64 ![] bcast_S_S64 (id (constant S_ .f32 0x7FC00000#32)))

/-! ## Batch normalisation with rectification -/

/-- `relu ((h − μ) · rsqrt (σ² + ε) · γ + β)`, the four vectors repeated down the rows. -/
def bn (h : FVec F S100000x64 .f32) (μ σ2 γ β : FVec F S64 .f32) : FVec F S100000x64 .f32 :=
  relu (addf (mulf (mulf (subf h (rows μ))
    (rows (Host.rsqrt (addf σ2 (broadcastInDim S64 ![] bcast_S_S64 (constant S_ .f32 0x3727C5AC#32)))))) (rows γ))
    (rows β))

/-! ## Pooling and the head -/

/-- Node rows added into the row of their graph, from zeros. -/
def pool (h : FVec F S100000x64 .f32) (batch : IVec S100000 32) : FVec F S64x64 .f32 :=
  Host.scatterAdd scatter_S64x64_S100000x1_S100000x64_1_0_0_1
    (broadcastInDim S64x64 ![] bcast_S_S64x64 (constant S_ .f32 0x00000000#32))
    (broadcastInDim S100000x1 ![0] bcast_S100000_S100000x1_0 batch) h

/-- The head's perceptron on the pooled rows: `relu (p · w1 + b1) · w2 + b2`. -/
def head (p : FVec F S64x64 .f32) (w1 : FVec F S64x256 .f32) (b1 : FVec F S256 .f32) (w2 : FVec F S256x128 .f32)
    (b2 : FVec F S128 .f32) : FVec F S64x128 .f32 :=
  addf (Host.dotGeneral dot_S64x256_S256x128_S64x128_1_0_0_1_n_n none
      (maximumf (addf (Host.dotGeneral dot_S64x64_S64x256_S64x256_1_0_0_1_n_n none p w1)
          (broadcastInDim S64x256 ![0, 1] bcast_S1x256_S64x256_0_1 (broadcastInDim S1x256 ![1] bcast_S256_S1x256_1 b1)))
        (broadcastInDim S64x256 ![] bcast_S_S64x256 (constant S_ .f32 0x00000000#32))) w2)
    (broadcastInDim S64x128 ![0, 1] bcast_S1x128_S64x128_0_1 (broadcastInDim S1x128 ![1] bcast_S128_S1x128_1 b2))

/-! ## The network -/

/-- A graph convolution on `h`: the perceptron on `h` plus its neighbour sum. -/
def gconv (h : FVec F S100000x64 .f32) (ei : IVec S2x1600000 32) (w1 : FVec F S64x64 .f32) (b1 : FVec F S64 .f32)
    (w2 : FVec F S64x64 .f32) (b2 : FVec F S64 .f32) : FVec F S100000x64 .f32 :=
  conv h (seg h ei) w1 b1 w2 b2

/-- Batch normalisation of `r` by its own column means and variances. -/
def norm (r : FVec F S100000x64 .f32) (γ β : FVec F S64 .f32) : FVec F S100000x64 .f32 :=
  bn r (mean r) (var r) γ β

/-- The node rows after the first layer. -/
def h1 (x : FVec F S100000x64 .f32) (ei : IVec S2x1600000 32)
    (c0w1 : FVec F S64x64 .f32) (c0b1 : FVec F S64 .f32) (c0w2 : FVec F S64x64 .f32) (c0b2 : FVec F S64 .f32)
    (g0 b0 : FVec F S64 .f32) : FVec F S100000x64 .f32 :=
  norm (gconv x ei c0w1 c0b1 c0w2 c0b2) g0 b0

/-- The node rows after the second layer. -/
def h2 (x : FVec F S100000x64 .f32) (ei : IVec S2x1600000 32)
    (c0w1 : FVec F S64x64 .f32) (c0b1 : FVec F S64 .f32) (c0w2 : FVec F S64x64 .f32) (c0b2 : FVec F S64 .f32)
    (c1w1 : FVec F S64x64 .f32) (c1b1 : FVec F S64 .f32) (c1w2 : FVec F S64x64 .f32) (c1b2 : FVec F S64 .f32)
    (g0 b0 g1 b1 : FVec F S64 .f32) : FVec F S100000x64 .f32 :=
  norm (gconv (h1 x ei c0w1 c0b1 c0w2 c0b2 g0 b0) ei c1w1 c1b1 c1w2 c1b2) g1 b1

/-- The graph embeddings (the network's second result): the third graph convolution, pooled. The arguments are in the
    order of the network's own. -/
def emb (x : FVec F S100000x64 .f32) (ei : IVec S2x1600000 32) (batch : IVec S100000 32)
    (c0w1 : FVec F S64x64 .f32) (c0b1 : FVec F S64 .f32) (c0w2 : FVec F S64x64 .f32) (c0b2 : FVec F S64 .f32)
    (c1w1 : FVec F S64x64 .f32) (c1b1 : FVec F S64 .f32) (c1w2 : FVec F S64x64 .f32) (c1b2 : FVec F S64 .f32)
    (c2w1 : FVec F S64x64 .f32) (c2b1 : FVec F S64 .f32) (c2w2 : FVec F S64x64 .f32) (c2b2 : FVec F S64 .f32)
    (g0 b0 g1 b1 : FVec F S64 .f32) : FVec F S64x64 .f32 :=
  pool (gconv (h2 x ei c0w1 c0b1 c0w2 c0b2 c1w1 c1b1 c1w2 c1b2 g0 b0 g1 b1) ei c2w1 c2b1 c2w2 c2b2) batch

/-- The network's first result: the head on the graph embeddings. -/
def out (x : FVec F S100000x64 .f32) (ei : IVec S2x1600000 32) (batch : IVec S100000 32)
    (c0w1 : FVec F S64x64 .f32) (c0b1 : FVec F S64 .f32) (c0w2 : FVec F S64x64 .f32) (c0b2 : FVec F S64 .f32)
    (c1w1 : FVec F S64x64 .f32) (c1b1 : FVec F S64 .f32) (c1w2 : FVec F S64x64 .f32) (c1b2 : FVec F S64 .f32)
    (c2w1 : FVec F S64x64 .f32) (c2b1 : FVec F S64 .f32) (c2w2 : FVec F S64x64 .f32) (c2b2 : FVec F S64 .f32)
    (g0 b0 g1 b1 : FVec F S64 .f32)
    (hw1 : FVec F S64x256 .f32) (hb1 : FVec F S256 .f32) (hw2 : FVec F S256x128 .f32) (hb2 : FVec F S128 .f32) :
    FVec F S64x128 .f32 :=
  head (emb x ei batch c0w1 c0b1 c0w2 c0b2 c1w1 c1b1 c1w2 c1b2 c2w1 c2b1 c2w2 c2b2 g0 b0 g1 b1) hw1 hb1 hw2 hb2

end Cert.ReferenceIdeal.RefStages

end
-- ==== Proof.RefRead.lean ====
/-
  The reference's stages, read entry by entry over the extended reals.

  At the ideal values a host matrix product is the exact sum over the contracted coordinate, a host column sum is the
  initial value plus the exact sum down the rows, a division, a reciprocal square root, a maximum are the extended reals'
  own, and a vector repeated down the rows reads the vector at the column.  Read this way, each stage of the reference is
  the corresponding function of the shared specification: the perceptron of a graph convolution and of the head, the column
  mean, the two-pass column variance, and the batch normalisation with rectification.
-/
import proofs.«171644_j66365834658285_1_alg».proof.Proof.RefStages
import proofs.«171644_j66365834658285_1_alg».proof.Proof.Spec
import Idealize.ShloMosaic.PureOps.Ideal.Laws
import Idealize.ShloMosaic.Lib.ValueIdx

noncomputable section

namespace Cert.ReferenceIdeal.RefRead

open Idealize.ShloMosaic Idealize.ShloMosaic.ValueIdx
open Cert.ReferenceIdeal Cert.ReferenceIdeal.Facts₀

variable [Facts₀]

/-! ## Constants -/

/-- The word of `100000.0` denotes the real `100000`. -/
theorem cnt_eq : Ideal.ofBits .f32 0x47C35000#32 = ((100000 : ℝ) : EReal) := by
  simp [Ideal.ofBits, Ideal.ieee, -EReal.coe_mul]; norm_num

/-! ## Vectors repeated down the rows, and the zero matrix -/

/-- A vector repeated down the rows reads the vector at the column. -/
theorem rows_apply (b : FVec Ideal S64 .f32) (p : Fin 100000) (q : Fin 64) :
    RefStages.rows (F := Ideal) b (ix2 p q) = b (ix1 q) := by
  unfold RefStages.rows broadcastInDim
  exact congrArg b (funext fun a => Fin.ext (by match a with | ⟨0, _⟩ => rfl))

/-- The zero matrix reads zero. -/
theorem zeros_apply (i : S100000x64.Idx) : RefStages.zeros (F := Ideal) i = 0 := by
  unfold RefStages.zeros broadcastInDim
  exact Ideal.ofBits_zero_f32

/-- Rectification reads the maximum with zero. -/
theorem relu_apply (x : FVec Ideal S100000x64 .f32) (i : S100000x64.Idx) :
    RefStages.relu (F := Ideal) x i = max (x i) 0 := by
  unfold RefStages.relu
  rw [maximumf_apply, zeros_apply]

/-! ## The matrix products -/

/-- On the rows axis the left operand's index is the result's row. -/
theorem dotc_lhs0 (i : S100000x64.Idx) (c : dot_S100000x64_S64x64_S100000x64_1_0_0_1_n_n.contr.Idx) :
    (dot_S100000x64_S64x64_S100000x64_1_0_0_1_n_n.lhsIdx i c 0).val = (i 0).val := by
  unfold DotDims.lhsIdx
  rw [dif_neg (show ¬(0 : Fin S100000x64.rank) ∈ dot_S100000x64_S64x64_S100000x64_1_0_0_1_n_n.lhsBatch from List.not_mem_nil),
    dif_pos (show (0 : Fin S100000x64.rank) ∈ dot_S100000x64_S64x64_S100000x64_1_0_0_1_n_n.lhsNonContracting from List.mem_singleton.mpr rfl)]
  rfl

/-- On the columns axis the right operand's index is the result's column. -/
theorem dotc_rhs1 (i : S100000x64.Idx) (c : dot_S100000x64_S64x64_S100000x64_1_0_0_1_n_n.contr.Idx) :
    (dot_S100000x64_S64x64_S100000x64_1_0_0_1_n_n.rhsIdx i c 1).val = (i 1).val := by
  unfold DotDims.rhsIdx
  rw [dif_neg (show ¬(1 : Fin S64x64.rank) ∈ dot_S100000x64_S64x64_S100000x64_1_0_0_1_n_n.rhsBatch from List.not_mem_nil),
    dif_pos (show (1 : Fin S64x64.rank) ∈ dot_S100000x64_S64x64_S100000x64_1_0_0_1_n_n.rhsNonContracting from List.mem_singleton.mpr rfl)]
  rfl

/-- The matrix product read at an entry: the sum over the contracted coordinate of the products. -/
theorem dotc_apply (x : FVec Ideal S100000x64 .f32) (w : FVec Ideal S64x64 .f32) (p : Fin 100000) (q : Fin 64) :
    Host.dotGeneral (F := Ideal) dot_S100000x64_S64x64_S100000x64_1_0_0_1_n_n none x w (ix2 p q) = ∑ k : Fin 64, x (ix2 p k) * w (ix2 k q) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 p q) ((contrEquiv1 dot_S100000x64_S64x64_S100000x64_1_0_0_1_n_n 64 rfl rfl).symm k) = ix2 p k :=
    funext fun a => Fin.ext (by
      match a with
      | ⟨0, _⟩ => exact dotc_lhs0 _ _
      | ⟨1, _⟩ => exact (dot_S100000x64_S64x64_S100000x64_1_0_0_1_n_n.lhsIdx_val_of_single rfl _ _).trans hk)
  have er : dot_S100000x64_S64x64_S100000x64_1_0_0_1_n_n.rhsIdx (ix2 p q) ((contrEquiv1 dot_S100000x64_S64x64_S100000x64_1_0_0_1_n_n 64 rfl rfl).symm k) = ix2 k q :=
    funext fun a => Fin.ext (by
      match a with
      | ⟨0, _⟩ => exact (dot_S100000x64_S64x64_S100000x64_1_0_0_1_n_n.rhsIdx_val_of_single rfl _ _).trans hk
      | ⟨1, _⟩ => exact dotc_rhs1 _ _)
  rw [el, er]

/-! ## The perceptron of a graph convolution -/

/-- One affine layer read at an entry. -/
theorem lin_apply (x : FVec Ideal S100000x64 .f32) (w : FVec Ideal S64x64 .f32) (b : FVec Ideal S64 .f32)
    (p : Fin 100000) (q : Fin 64) :
    RefStages.lin (F := Ideal) x w b (ix2 p q) = (∑ k : Fin 64, x (ix2 p k) * w (ix2 k q)) + b (ix1 q) := by
  unfold RefStages.lin
  rw [addf_apply, dotc_apply, rows_apply]

/-- The perceptron of a graph convolution is the specification's, on the entrywise sum of its two matrices. -/
theorem conv_eq (h agg : FVec Ideal S100000x64 .f32) (w1 : FVec Ideal S64x64 .f32) (b1 : FVec Ideal S64 .f32)
    (w2 : FVec Ideal S64x64 .f32) (b2 : FVec Ideal S64 .f32) :
    RefStages.conv (F := Ideal) h agg w1 b1 w2 b2 = Cert.Gin.mlp2 (Cert.Gin.plus h agg) w1 b1 w2 b2 := by
  funext i
  obtain ⟨p, q, rfl⟩ : ∃ (p : Fin 100000) (q : Fin 64), i = ix2 p q := ⟨i 0, i 1, eq_ix2 i⟩
  unfold RefStages.conv
  rw [lin_apply]
  simp only [relu_apply, lin_apply, addf_apply]
  rfl

/-! ## The head -/

/-- On the rows axis the left operand's index is the result's row. -/
theorem doth1_lhs0 (i : S64x256.Idx) (c : dot_S64x64_S64x256_S64x256_1_0_0_1_n_n.contr.Idx) :
    (dot_S64x64_S64x256_S64x256_1_0_0_1_n_n.lhsIdx i c 0).val = (i 0).val := by
  unfold DotDims.lhsIdx
  rw [dif_neg (show ¬(0 : Fin S64x64.rank) ∈ dot_S64x64_S64x256_S64x256_1_0_0_1_n_n.lhsBatch from List.not_mem_nil),
    dif_pos (show (0 : Fin S64x64.rank) ∈ dot_S64x64_S64x256_S64x256_1_0_0_1_n_n.lhsNonContracting from List.mem_singleton.mpr rfl)]
  rfl

/-- On the columns axis the right operand's index is the result's column. -/
theorem doth1_rhs1 (i : S64x256.Idx) (c : dot_S64x64_S64x256_S64x256_1_0_0_1_n_n.contr.Idx) :
    (dot_S64x64_S64x256_S64x256_1_0_0_1_n_n.rhsIdx i c 1).val = (i 1).val := by
  unfold DotDims.rhsIdx
  rw [dif_neg (show ¬(1 : Fin S64x256.rank) ∈ dot_S64x64_S64x256_S64x256_1_0_0_1_n_n.rhsBatch from List.not_mem_nil),
    dif_pos (show (1 : Fin S64x256.rank) ∈ dot_S64x64_S64x256_S64x256_1_0_0_1_n_n.rhsNonContracting from List.mem_singleton.mpr rfl)]
  rfl

/-- The matrix product read at an entry: the sum over the contracted coordinate of the products. -/
theorem doth1_apply (x : FVec Ideal S64x64 .f32) (w : FVec Ideal S64x256 .f32) (p : Fin 64) (q : Fin 256) :
    Host.dotGeneral (F := Ideal) dot_S64x64_S64x256_S64x256_1_0_0_1_n_n none x w (ix2 p q) = ∑ k : Fin 64, x (ix2 p k) * w (ix2 k q) := by
  simp only [Host.dotGeneral]
  rw [Ideal.dotGeneral_apply, ← Equiv.sum_comp (contrEquiv1 dot_S64x64_S64x256_S64x256_1_0_0_1_n_n 64 rfl rfl).symm]
  refine Finset.sum_congr rfl fun k _ => ?_
  have hk := contrEquiv1_symm_val dot_S64x64_S64x256_S64x256_1_0_0_1_n_n 64 rfl rfl k
  have el : dot_S64x64_S64x256_S64x256_1_0_0_1_n_n.lhsIdx (ix2 p q) ((contrEquiv1 dot_S64x64_S64x256_S64x256_1_0_0_1_n_n 64 rfl rfl).symm k) = ix2 p k :=
    funext fun a => Fin.ext (by
      match a with
      | ⟨0, _⟩ => exact doth1_lhs0 _ _
      | ⟨1, _⟩ => exact (dot_S64x64_S64x256_S64x256_1_0_0_1_n_n.lhsIdx_val_of_single rfl _ _).trans hk)
  have er : dot_S64x64_S64x256_S64x256_1_0_0_1_n_n.rhsIdx (ix2 p q) ((contrEquiv1 dot_S64x64_S64x256_S64x256_1_0_0_1_n_n 64 rfl rfl).symm k) = ix2 k q :=
    funext fun a => Fin.ext (by
      match a with
      | ⟨0, _⟩ => exact (dot_S64x64_S64x256_S64x256_1_0_0_1_n_n.rhsIdx_val_of_single rfl _ _).trans hk
      | ⟨1, _⟩ => exact doth1_rhs1 _ _)
  rw [el, er]

/-- On the rows axis the left operand's index is the result's row. -/
theorem doth2_lhs0 (i : S64x128.Idx) (c : dot_S64x256_S256x128_S64x128_1_0_0_1_n_n.contr.Idx) :
    (dot_S64x256_S256x128_S64x128_1_0_0_1_n_n.lhsIdx i c 0).val = (i 0).val := by
  unfold DotDims.lhsIdx
  rw [dif_neg (show ¬(0 : Fin S64x256.rank) ∈ dot_S64x256_S256x128_S64x128_1_0_0_1_n_n.lhsBatch from List.not_mem_nil),
    dif_pos (show (0 : Fin S64x256.rank) ∈ dot_S64x256_S256x128_S64x128_1_0_0_1_n_n.lhsNonContracting from List.mem_singleton.mpr rfl)]
  rfl

/-- On the columns axis the right operand's index is the result's column. -/
theorem doth2_rhs1 (i : S64x128.Idx) (c : dot_S64x256_S256x128_S64x128_1_0_0_1_n_n.contr.Idx) :
    (dot_S64x256_S256x128_S64x128_1_0_0_1_n_n.rhsIdx i c 1).val = (i 1).val := by
  unfold DotDims.rhsIdx
  rw [dif_neg (show ¬(1 : Fin S256x128.rank) ∈ dot_S64x256_S256x128_S64x128_1_0_0_1_n_n.rhsBatch from List.not_mem_nil),
    dif_pos (show (1 : Fin S256x128.rank) ∈ dot_S64x256_S256x128_S64x128_1_0_0_1_n_n.rhsNonContracting from List.mem_singleton.mpr rfl)]
  rfl

/-- The matrix product read at an entry: the sum over the contracted coordinate of the products. -/
theorem doth2_apply (x : FVec Ideal S64x256 .f32) (w : FVec Ideal S256x128 .f32) (p : Fin 64) (q : Fin 128) :
    Host.dotGeneral (F := Ideal) dot_S64x256_S256x128_S64x128_1_0_0_1_n_n none x w (ix2 p q) = ∑ k : Fin 256, x (ix2 p k) * w (ix2 k q) := by
  simp only [Host.dotGeneral]
  rw [Ideal.dotGeneral_apply, ← Equiv.sum_comp (contrEquiv1 dot_S64x256_S256x128_S64x128_1_0_0_1_n_n 256 rfl rfl).symm]
  refine Finset.sum_congr rfl fun k _ => ?_
  have hk := contrEquiv1_symm_val dot_S64x256_S256x128_S64x128_1_0_0_1_n_n 256 rfl rfl k
  have el : dot_S64x256_S256x128_S64x128_1_0_0_1_n_n.lhsIdx (ix2 p q) ((contrEquiv1 dot_S64x256_S256x128_S64x128_1_0_0_1_n_n 256 rfl rfl).symm k) = ix2 p k :=
    funext fun a => Fin.ext (by
      match a with
      | ⟨0, _⟩ => exact doth2_lhs0 _ _
      | ⟨1, _⟩ => exact (dot_S64x256_S256x128_S64x128_1_0_0_1_n_n.lhsIdx_val_of_single rfl _ _).trans hk)
  have er : dot_S64x256_S256x128_S64x128_1_0_0_1_n_n.rhsIdx (ix2 p q) ((contrEquiv1 dot_S64x256_S256x128_S64x128_1_0_0_1_n_n 256 rfl rfl).symm k) = ix2 k q :=
    funext fun a => Fin.ext (by
      match a with
      | ⟨0, _⟩ => exact (dot_S64x256_S256x128_S64x128_1_0_0_1_n_n.rhsIdx_val_of_single rfl _ _).trans hk
      | ⟨1, _⟩ => exact doth2_rhs1 _ _)
  rw [el, er]

/-- The first bias repeated down the 64 rows reads the bias at the column. -/
theorem bias256_apply (b : FVec Ideal S256 .f32) (r : Fin 64) (k : Fin 256) :
    broadcastInDim S64x256 ![0, 1] bcast_S1x256_S64x256_0_1 (broadcastInDim S1x256 ![1] bcast_S256_S1x256_1 b) (ix2 r k)
      = b (ix1 k) := by
  unfold broadcastInDim
  exact congrArg b (funext fun a => Fin.ext (by match a with | ⟨0, _⟩ => rfl))

/-- The second bias repeated down the 64 rows reads the bias at the column. -/
theorem bias128_apply (b : FVec Ideal S128 .f32) (r : Fin 64) (k : Fin 128) :
    broadcastInDim S64x128 ![0, 1] bcast_S1x128_S64x128_0_1 (broadcastInDim S1x128 ![1] bcast_S128_S1x128_1 b) (ix2 r k)
      = b (ix1 k) := by
  unfold broadcastInDim
  exact congrArg b (funext fun a => Fin.ext (by match a with | ⟨0, _⟩ => rfl))

/-- The head's zero matrix reads zero. -/
theorem zeros256_apply (i : S64x256.Idx) :
    broadcastInDim S64x256 ![] bcast_S_S64x256 (constant (F := Ideal) S_ .f32 0x00000000#32) i = 0 := by
  unfold broadcastInDim
  exact Ideal.ofBits_zero_f32

/-- The head's hidden layer read at an entry: the rectified affine image of the pooled row. -/
theorem hidden_apply (p : FVec Ideal S64x64 .f32) (w1 : FVec Ideal S64x256 .f32) (b1 : FVec Ideal S256 .f32)
    (r : Fin 64) (k : Fin 256) :
    maximumf (addf (Host.dotGeneral (F := Ideal) dot_S64x64_S64x256_S64x256_1_0_0_1_n_n none p w1)
        (broadcastInDim S64x256 ![0, 1] bcast_S1x256_S64x256_0_1 (broadcastInDim S1x256 ![1] bcast_S256_S1x256_1 b1)))
      (broadcastInDim S64x256 ![] bcast_S_S64x256 (constant S_ .f32 0x00000000#32)) (ix2 r k)
      = max ((∑ j : Fin 64, p (ix2 r j) * w1 (ix2 j k)) + b1 (ix1 k)) 0 := by
  rw [maximumf_apply, addf_apply, doth1_apply, bias256_apply, zeros256_apply]

/-- The head is the specification's perceptron on the pooled rows. -/
theorem head_eq (p : FVec Ideal S64x64 .f32) (w1 : FVec Ideal S64x256 .f32) (b1 : FVec Ideal S256 .f32)
    (w2 : FVec Ideal S256x128 .f32) (b2 : FVec Ideal S128 .f32) :
    RefStages.head (F := Ideal) p w1 b1 w2 b2 = Cert.Gin.mlp2 p w1 b1 w2 b2 := by
  funext i
  obtain ⟨r, q, rfl⟩ : ∃ (r : Fin 64) (q : Fin 128), i = ix2 r q := ⟨i 0, i 1, eq_ix2 i⟩
  unfold RefStages.head
  rw [addf_apply, doth2_apply, bias128_apply]
  refine congrArg (· + b2 (ix1 q)) (Finset.sum_congr rfl fun k _ => ?_)
  rw [hidden_apply]

/-! ## Column statistics -/

/-- The column sums read at a column: the sum down the rows. -/
theorem colsum_apply (h : FVec Ideal S100000x64 .f32) (q : Fin 64) :
    RefStages.colsum (F := Ideal) h (ix1 q) = ∑ p : Fin 100000, h (ix2 p q) := by
  unfold RefStages.colsum
  simp only [Host.reduceAdd, Ideal.hostReduceAdd_def]
  rw [Ideal.hostReduceAdd_single reducesTo_S100000x64_S64_d0 (by decide), constant_apply, Ideal.ofBits_zero_f32,
    zero_add]
  refine Finset.sum_congr rfl fun k _ => ?_
  exact congrArg h (funext fun a => Fin.ext (by match a with | ⟨0, _⟩ => rfl | ⟨1, _⟩ => rfl))

/-- The column means are the specification's, at the count the word of `100000.0` denotes. -/
theorem mean_eq (h : FVec Ideal S100000x64 .f32) :
    RefStages.mean (F := Ideal) h = Cert.Gin.colMean (Ideal.ofBits .f32 0x47C35000#32) h := by
  funext j
  obtain ⟨q, rfl⟩ : ∃ q : Fin 64, j = ix1 q := ⟨j 0, eq_ix1 j⟩
  unfold RefStages.mean Host.divf
  rw [Ideal.hostDivf_def, colsum_apply]
  rfl

/-- The deviations from the column means read at an entry. -/
theorem dev_apply (h : FVec Ideal S100000x64 .f32) (p : Fin 100000) (q : Fin 64) :
    RefStages.dev (F := Ideal) h (ix2 p q)
      = h (ix2 p q) - Ideal.div (∑ p' : Fin 100000, h (ix2 p' q)) (Ideal.ofBits .f32 0x47C35000#32) := by
  unfold RefStages.dev
  rw [subf_apply, ← colsum_apply]
  unfold broadcastInDim Host.divf
  rw [Ideal.hostDivf_def]
  refine congrArg (fun t => h (ix2 p q) - Ideal.div (RefStages.colsum (F := Ideal) h t) _) ?_
  exact funext fun a => Fin.ext (by match a with | ⟨0, _⟩ => rfl)

/-- The variance's divisor is the count: the correction is the integer zero. -/
theorem divisor_apply (j : S_.Idx) : RefStages.divisor (F := Ideal) j = Ideal.ofBits .f32 0x47C35000#32 := by
  unfold RefStages.divisor
  rw [subf_apply, constant_apply, sitofp_apply]
  show _ - (((BitVec.toInt (0#32 : BitVec 32) : ℤ) : ℝ) : EReal) = _
  simp

/-- The divisor is positive, so the guard's bit is set in every column. -/
theorem guard_apply (j : S64.Idx) :
    broadcastInDim S64 ![] bcast_S_S64
      (cmpf .ogt (RefStages.divisor (F := Ideal)) (constant S_ .f32 0x00000000#32)) j = 1#1 := by
  unfold broadcastInDim
  rw [cmpf_apply, Ideal.cmpf_def, divisor_apply, constant_apply, Ideal.ofBits_zero_f32, cnt_eq]
  unfold Ideal.cmp
  simp

/-- The column variances are the specification's two-pass ones, at the count the word of `100000.0` denotes. -/
theorem var_eq (h : FVec Ideal S100000x64 .f32) :
    RefStages.var (F := Ideal) h = Cert.Gin.colVar2 (Ideal.ofBits .f32 0x47C35000#32) h := by
  funext j
  obtain ⟨q, rfl⟩ : ∃ q : Fin 64, j = ix1 q := ⟨j 0, eq_ix1 j⟩
  unfold RefStages.var
  rw [select_apply, guard_apply, select_one]
  unfold Host.divf
  rw [Ideal.hostDivf_def, colsum_apply]
  simp only [mulf_apply, dev_apply]
  unfold broadcastInDim
  rw [divisor_apply]
  rfl

/-! ## Batch normalisation with rectification -/

/-- The batch normalisation with rectification is the specification's, at the reference's own small constant. -/
theorem bn_eq (h : FVec Ideal S100000x64 .f32) (μ σ2 γ β : FVec Ideal S64 .f32) :
    RefStages.bn (F := Ideal) h μ σ2 γ β = Cert.Gin.bnRelu (Ideal.ofBits .f32 0x3727C5AC#32) h μ σ2 γ β := by
  funext i
  obtain ⟨p, q, rfl⟩ : ∃ (p : Fin 100000) (q : Fin 64), i = ix2 p q := ⟨i 0, i 1, eq_ix2 i⟩
  unfold RefStages.bn
  rw [relu_apply, addf_apply, mulf_apply, mulf_apply, subf_apply]
  simp only [rows_apply]
  rfl

end Cert.ReferenceIdeal.RefRead

end
-- ==== Proof.LibBatchNormMoments.lean ====
/-
  Batch-normalisation moments on the extended reals.

  For a finite family of REAL numbers x (read as extended reals), and a real n ≠ 0 equal to the number of entries,
  the "one-pass" variance   (∑ xᵢ²)/n − ((∑ xᵢ)/n)²   and the "two-pass" variance   (∑ (xᵢ − μ)²)/n,  μ = (∑ xᵢ)/n,
  are the same extended real.  Over ℝ this is the expansion
      ∑ (xᵢ − μ)² = ∑ xᵢ² − 2 μ ∑ xᵢ + n μ²   with   ∑ xᵢ = n μ ;
  it uses distributivity, which fails at ±∞, so the entries must be real: with an infinite entry the two forms differ
  (⊤ − ⊤ = ⊥ on one side, a square on the other).  Division is the extended reals' division by a nonzero real,
  which is multiplication by the real reciprocal.
-/
import Mathlib
import Idealize.ShloMosaic.PureOps.Ideal

noncomputable section

namespace Cert.Lib.BatchNormMoments

open Idealize.ShloMosaic

/-- The coercion of reals into the extended reals commutes with a finite sum. -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Over the reals: the second moment minus the squared mean is the mean of the squared deviations from the mean. -/
theorem real_variance_two_forms {ι : Type*} [Fintype ι] (x : ι → ℝ) (n : ℝ) (hn : n ≠ 0)
    (hcard : (Fintype.card ι : ℝ) = n) :
    (∑ i, x i * x i) * (1 / n) - ((∑ i, x i) * (1 / n)) * ((∑ i, x i) * (1 / n))
      = (∑ i, (x i - (∑ j, x j) * (1 / n)) * (x i - (∑ j, x j) * (1 / n))) * (1 / n) := by
  generalize hS : (∑ i, x i) = S
  have hexp : ∀ i, (x i - S * (1 / n)) * (x i - S * (1 / n))
      = x i * x i - (2 * (S * (1 / n))) * x i + (S * (1 / n)) * (S * (1 / n)) := fun i => by ring
  have hsum : (∑ i, (x i - S * (1 / n)) * (x i - S * (1 / n)))
      = (∑ i, x i * x i) - (2 * (S * (1 / n))) * S + n * ((S * (1 / n)) * (S * (1 / n))) := by
    simp only [hexp, Finset.sum_add_distrib, Finset.sum_sub_distrib, ← Finset.mul_sum, hS, Finset.sum_const,
      Finset.card_univ, nsmul_eq_mul, hcard]
    ring
  rw [hsum]
  field_simp
  ring

/-- On the extended reals, for REAL entries: the one-pass variance (second moment minus squared mean) is the two-pass
    variance (mean of squared deviations), every quotient the division by the real n ≠ 0 that counts the entries. -/
theorem variance_two_forms {ι : Type*} [Fintype ι] (x : ι → ℝ) (n : ℝ) (hn : n ≠ 0)
    (hcard : (Fintype.card ι : ℝ) = n) :
    Ideal.div (∑ i, ((x i : ℝ) : EReal) * ((x i : ℝ) : EReal)) (n : EReal)
        - Ideal.div (∑ i, ((x i : ℝ) : EReal)) (n : EReal) * Ideal.div (∑ i, ((x i : ℝ) : EReal)) (n : EReal)
      = Ideal.div (∑ i, (((x i : ℝ) : EReal) - Ideal.div (∑ j, ((x j : ℝ) : EReal)) (n : EReal))
          * (((x i : ℝ) : EReal) - Ideal.div (∑ j, ((x j : ℝ) : EReal)) (n : EReal))) (n : EReal) := by
  simp only [Ideal.div_coe hn, ← coe_finset_sum, ← EReal.coe_mul, ← EReal.coe_sub]
  exact congrArg _ (real_variance_two_forms x n hn hcard)

/-- The mean of real entries is real: the quotient of their sum by a nonzero real. -/
theorem mean_coe {ι : Type*} [Fintype ι] (x : ι → ℝ) (n : ℝ) (hn : n ≠ 0) :
    Ideal.div (∑ i, ((x i : ℝ) : EReal)) (n : EReal) = (((∑ i, x i) * (1 / n) : ℝ) : EReal) := by
  rw [Ideal.div_coe hn, ← coe_finset_sum, ← EReal.coe_mul]

/-- The two-pass variance of real entries is a NONNEGATIVE real: a sum of squares over a positive count. -/
theorem variance_coe_nonneg {ι : Type*} [Fintype ι] (x : ι → ℝ) (n : ℝ) (hn : 0 < n) :
    ∃ v : ℝ, 0 ≤ v ∧
      Ideal.div (∑ i, (((x i : ℝ) : EReal) - Ideal.div (∑ j, ((x j : ℝ) : EReal)) (n : EReal))
          * (((x i : ℝ) : EReal) - Ideal.div (∑ j, ((x j : ℝ) : EReal)) (n : EReal))) (n : EReal) = ((v : ℝ) : EReal) := by
  refine ⟨(∑ i, (x i - (∑ j, x j) * (1 / n)) * (x i - (∑ j, x j) * (1 / n))) * (1 / n), ?_, ?_⟩
  · exact mul_nonneg (Finset.sum_nonneg fun i _ => mul_self_nonneg _) (by positivity)
  · simp only [Ideal.div_coe hn.ne', ← coe_finset_sum, ← EReal.coe_mul, ← EReal.coe_sub]

end Cert.Lib.BatchNormMoments

end
-- ==== Proof.Finite.lean ====
/-
  The finiteness calculus of the specification, and the variance identity, over the extended reals.

  The extended reals are not a ring: distributivity fails at the infinities, and so does the cancellation that makes
  the one-pass variance (second moment minus squared mean) equal to the two-pass variance (mean of squared deviations).
  Every array the network computes from real inputs is, however, real entry by entry: sums, products, differences,
  the maximum with zero, the quotient by a nonzero real and the reciprocal square root of a positive real all keep
  the reals.  This module proves those closure facts for each function of the specification and for the host's
  gather, scatter-add, broadcast and zero constant, and derives the variance identity on real entries.
-/
import Mathlib
import Idealize.ShloMosaic.PureOps.Ideal
import Idealize.ShloMosaic.PureOps.Ideal.Laws
import Idealize.ShloMosaic.PureOps.ShapeOps
import Idealize.ShloMosaic.PureOps.Contract
import proofs.«171644_j66365834658285_1_alg».proof.Proof.Spec
import proofs.«171644_j66365834658285_1_alg».proof.Proof.LibBatchNormMoments

noncomputable section

namespace Cert.Gin

open Idealize.ShloMosaic Idealize.ShloMosaic.ValueIdx Cert.Lib.BatchNormMoments

/-! ### Scalars: the reals are closed under the operations the network uses -/

/-- The sum of two reals is real. -/
theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

/-- The product of two reals is real. -/
theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

/-- The difference of two reals is real. -/
theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

/-- The maximum of a real and zero is real. -/
theorem real_max_zero {x : EReal} (hx : ∃ r : ℝ, x = (r : EReal)) : ∃ r : ℝ, max x 0 = (r : EReal) := by
  obtain ⟨a, rfl⟩ := hx
  exact ⟨max a 0, by rw [EReal.coe_strictMono.monotone.map_max, EReal.coe_zero]⟩

/-- A finite sum of reals is real. -/
theorem real_sum {ι : Type*} (s : Finset ι) {f : ι → EReal} (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (hf a (Finset.mem_insert_self a s)) (ih fun i hi => hf i (Finset.mem_insert_of_mem hi))

/-- The quotient of a real by a nonzero real is real: it is the product with the reciprocal. -/
theorem real_div {x : EReal} {c : ℝ} (hc : c ≠ 0) (hx : ∃ r : ℝ, x = (r : EReal)) :
    ∃ r : ℝ, Ideal.div x (c : EReal) = (r : EReal) := by
  rw [Ideal.div_coe hc]; exact real_mul hx ⟨_, rfl⟩

/-- The reciprocal square root of a POSITIVE real is the real `(√r)⁻¹` (at zero it is `⊤`, below zero junk). -/
theorem rsqrt_pos {r : ℝ} (hr : 0 < r) : Ideal.rsqrt (r : EReal) = (((Real.sqrt r)⁻¹ : ℝ) : EReal) := by
  rw [Ideal.rsqrt_coe, if_neg (not_lt.mpr hr.le), if_neg hr.ne']

/-! ### The functions of the specification keep the reals -/

/-- The entrywise sum of two real matrices is real. -/
theorem allReal_plus {n d : ℕ} {x y : Mat n d} (hx : AllReal x) (hy : AllReal y) : AllReal (plus x y) :=
  fun i => real_add (hx i) (hy i)

/-- The two-layer perceptron of real rows, weights and biases is real. -/
theorem allReal_mlp2 {n d0 d1 d2 : ℕ} {x : Mat n d0} {w1 : Mat d0 d1} {b1 : Row d1} {w2 : Mat d1 d2} {b2 : Row d2}
    (hx : AllReal x) (hw1 : AllReal w1) (hb1 : AllReal b1) (hw2 : AllReal w2) (hb2 : AllReal b2) :
    AllReal (mlp2 x w1 b1 w2 b2) := by
  intro i
  unfold mlp2
  exact real_add
    (real_sum _ fun k _ =>
      real_mul (real_max_zero (real_add (real_sum _ fun j _ => real_mul (hx _) (hw1 _)) (hb1 _))) (hw2 _))
    (hb2 _)

/-- The column sums of a real matrix are real. -/
theorem allReal_colSum {n d : ℕ} {h : Mat n d} (hh : AllReal h) : AllReal (colSum h) :=
  fun _ => real_sum _ fun _ _ => hh _

/-- The column sums of squares of a real matrix are real. -/
theorem allReal_colSumSq {n d : ℕ} {h : Mat n d} (hh : AllReal h) : AllReal (colSumSq h) :=
  fun _ => real_sum _ fun _ _ => real_mul (hh _) (hh _)

/-- The column means of a real matrix with a positive number of rows are real. -/
theorem allReal_colMean {n d : ℕ} (hn : 0 < n) {h : Mat n d} (hh : AllReal h) :
    AllReal (colMean ((n : ℝ) : EReal) h) :=
  fun q => real_div (Nat.cast_ne_zero.mpr hn.ne') (allReal_colSum hh q)

/-- On real entries the one-pass column variance (second moment minus squared mean) is the two-pass column variance
    (mean of squared deviations). -/
theorem colVar1_eq_colVar2 {n d : ℕ} (hn : 0 < n) {h : Mat n d} (hh : AllReal h) :
    colVar1 ((n : ℝ) : EReal) h = colVar2 ((n : ℝ) : EReal) h := by
  funext q
  choose f hf using hh
  have key := variance_two_forms (ι := Fin n) (fun p => f (ix2 p (q 0))) (n : ℝ)
    (Nat.cast_ne_zero.mpr hn.ne') (by simp)
  simp only [colVar1, colVar2, colMean, colSum, colSumSq, hf]
  exact key

/-- The two-pass column variance of a real matrix is a NONNEGATIVE real. -/
theorem colVar2_nonneg_real {n d : ℕ} (hn : 0 < n) {h : Mat n d} (hh : AllReal h) :
    ∀ q, ∃ v : ℝ, 0 ≤ v ∧ colVar2 ((n : ℝ) : EReal) h q = ((v : ℝ) : EReal) := by
  intro q
  choose f hf using hh
  obtain ⟨v, hv, e⟩ := variance_coe_nonneg (ι := Fin n) (fun p => f (ix2 p (q 0))) (n : ℝ)
    (Nat.cast_pos.mpr hn)
  refine ⟨v, hv, ?_⟩
  simp only [colVar2, colMean, colSum, hf]
  exact e

/-- The one-pass column variance of a real matrix is the same nonnegative real. -/
theorem colVar1_nonneg_real {n d : ℕ} (hn : 0 < n) {h : Mat n d} (hh : AllReal h) :
    ∀ q, ∃ v : ℝ, 0 ≤ v ∧ colVar1 ((n : ℝ) : EReal) h q = ((v : ℝ) : EReal) := by
  rw [colVar1_eq_colVar2 hn hh]; exact colVar2_nonneg_real hn hh

/-- Batch normalisation with rectification keeps the reals: real entries, real means, NONNEGATIVE real variances,
    a POSITIVE real `ε` (so that the reciprocal square root is taken of a positive real), real scale and shift. -/
theorem allReal_bnRelu {n d : ℕ} {e : ℝ} (he : 0 < e) {h : Mat n d} {μ σ2 γ β : Row d} (hh : AllReal h)
    (hμ : AllReal μ) (hσ : ∀ q, ∃ v : ℝ, 0 ≤ v ∧ σ2 q = ((v : ℝ) : EReal)) (hγ : AllReal γ) (hβ : AllReal β) :
    AllReal (bnRelu ((e : ℝ) : EReal) h μ σ2 γ β) := by
  intro i
  unfold bnRelu
  obtain ⟨v, hv, hσv⟩ := hσ (ix1 (i 1))
  have hr : ∃ r : ℝ, Ideal.rsqrt (σ2 (ix1 (i 1)) + ((e : ℝ) : EReal)) = (r : EReal) := by
    rw [hσv, ← EReal.coe_add, rsqrt_pos (add_pos_of_nonneg_of_pos hv he)]; exact ⟨_, rfl⟩
  exact real_max_zero (real_add (real_mul (real_mul (real_sub (hh _) (hμ _)) hr) (hγ _)) (hβ _))

/-! ### The host operations between the kernels keep the reals -/

/-- A gather reads its operand's elements: real if they are. -/
theorem allReal_gather {s si t : Shape} {w : Nat} (d : GatherDims s si t) {x : s.Idx → EReal} (hx : AllReal x)
    (idx : IVec si w) : AllReal (Host.gather d x idx) :=
  fun j => hx (d.operandIdx j idx)

/-- A scatter-add is, at each element, the operand's element plus the sum of the updates that land there: real if
    the operand and the updates are. -/
theorem allReal_scatterAdd {s si u : Shape} {w : Nat} (d : ScatterDims s si u) {x : FVec Ideal s .f32}
    {upd : FVec Ideal u .f32} (hx : AllReal x) (hu : AllReal upd) (idx : IVec si w) :
    AllReal (Host.scatterAdd d x idx upd) := by
  intro i
  show ∃ r : ℝ, x i + ∑ j ∈ Finset.univ.filter (fun j => d.resultIdx? j idx = some i), upd j = (r : EReal)
  exact real_add (hx i) (real_sum _ fun j _ => hu j)

/-- A broadcast reads its operand's elements: real if they are. -/
theorem allReal_broadcastInDim {s t : Shape} (dims : Fin s.rank → Fin t.rank) (b : s.BroadcastsInDim t dims)
    {x : s.Idx → EReal} (hx : AllReal x) : AllReal (broadcastInDim t dims b x) :=
  fun _ => hx _

/-- The splat of the pattern of `+0.0` is the real zero everywhere. -/
theorem allReal_constant_zero (s : Shape) : AllReal (constant (F := Ideal) s .f32 0x00000000#32) :=
  fun _ => ⟨0, by show Ideal.ofBits .f32 0x00000000#32 = _; rw [Ideal.ofBits_zero_f32, EReal.coe_zero]⟩

/-- The broadcast of the zero constant, which the host's scatter-adds start from, is real. -/
theorem allReal_zero_bcast {s t : Shape} (dims : Fin s.rank → Fin t.rank) (b : s.BroadcastsInDim t dims) :
    AllReal (broadcastInDim t dims b (constant (F := Ideal) s .f32 0x00000000#32)) :=
  allReal_broadcastInDim dims b (allReal_constant_zero s)

/-- The broadcast of the zero constant is zero at every index. -/
theorem zero_bcast_apply {s t : Shape} (dims : Fin s.rank → Fin t.rank) (b : s.BroadcastsInDim t dims) (j : t.Idx) :
    broadcastInDim t dims b (constant (F := Ideal) s .f32 0x00000000#32) j = 0 :=
  Ideal.ofBits_zero_f32

/-! ### The constants -/

/-- The batch normalisation's `ε`, the binary32 number nearest `10⁻⁵`: the positive real `10995116 · 2⁻⁴⁰`. -/
theorem eps_eq : ∃ e : ℝ, 0 < e ∧ Ideal.ofBits .f32 0x3727C5AC#32 = ((e : ℝ) : EReal) := by
  refine ⟨(10995116 : ℝ) * (2 : ℝ) ^ (-40 : ℤ), by positivity, ?_⟩
  simp [Ideal.ofBits, Ideal.ieee, -EReal.coe_mul]

/-- The row count as the host spells it: the binary32 pattern of `100000.0` is the real `100000`. -/
theorem cnt_eq : Ideal.ofBits .f32 0x47C35000#32 = (((100000 : ℕ) : ℝ) : EReal) := by
  simp [Ideal.ofBits, Ideal.ieee, -EReal.coe_mul]
  norm_num

end Cert.Gin

end
-- ==== Proof.SegBridge.lean ====
/-
  The neighbour sum and the pooling, as the two programs spell them, are the same functions.

  Both programs read the two rows of the edge table, count a negative source number from the end, gather the source
  rows and add them into a zero matrix at the destination rows; both pool node rows into graph rows by one additive
  scatter from zeros.  They use the same operations with equal dimension records (the records are literals together
  with proofs of well-formedness, and any two proofs of one proposition are equal), so the equalities hold by
  unfolding.  Both functions keep the reals: a gather reads entries, an additive scatter from zeros sums entries.
-/
import proofs.«171644_j66365834658285_1_alg».proof.Proof.KHost
import proofs.«171644_j66365834658285_1_alg».proof.Proof.RefStages
import proofs.«171644_j66365834658285_1_alg».proof.Proof.Gen.ReferenceIdeal
import proofs.«171644_j66365834658285_1_alg».proof.Proof.Finite

noncomputable section

namespace Cert.SegBridge

open Idealize.ShloMosaic Cert.KernelIdeal Cert.KernelIdeal.Gen Cert.Gin

/-- The reference's row of source numbers is the kernel's. -/
theorem src_eq (ei : IVec S2x1600000 32) : Cert.ReferenceIdeal.RefStages.src ei = KHost.srcRow ei := rfl

/-- The reference's row of destination numbers is the kernel's. -/
theorem dst_eq (ei : IVec S2x1600000 32) : Cert.ReferenceIdeal.RefStages.dst ei = KHost.dstRow ei := rfl

/-- The reference's neighbour sum is the kernel's, at the two rows of the edge table. -/
theorem seg_eq (h : FVec Ideal S100000x64 .f32) (ei : IVec S2x1600000 32) :
    Cert.ReferenceIdeal.RefStages.seg (F := Ideal) h ei = KHost.segRows h (KHost.srcRow ei) (KHost.dstRow ei) := rfl

/-- The reference's pooling is the kernel's. -/
theorem pool_eq (h : FVec Ideal S100000x64 .f32) (batch : IVec S100000 32) :
    Cert.ReferenceIdeal.RefStages.pool (F := Ideal) h batch = KHost.poolRows h batch := rfl

/-- The neighbour sum of a real matrix is real. -/
theorem allReal_segRows {h : FVec Ideal S100000x64 .f32} (hh : AllReal h) (src dst : IVec S1600000 32) :
    AllReal (KHost.segRows h src dst) := by
  unfold KHost.segRows
  exact allReal_scatterAdd _ (allReal_zero_bcast _ _) (allReal_gather _ hh _) _

/-- The pooling of a real matrix is real. -/
theorem allReal_poolRows {h : FVec Ideal S100000x64 .f32} (hh : AllReal h) (batch : IVec S100000 32) :
    AllReal (KHost.poolRows h batch) := by
  unfold KHost.poolRows
  exact allReal_scatterAdd _ (allReal_zero_bcast _ _) hh _

end Cert.SegBridge

end
-- ==== Proof.Bridge.lean ====
/-
  The reference network and the kernel's network are the same function of real inputs.

  Stage by stage the two sides compute the same function of the shared specification from equal arrays: a graph
  convolution is the two-layer perceptron of each node row plus the sum of its in-neighbours' rows, the pooling sums node
  rows into graph rows, the head is the perceptron of the pooled rows.  The one difference is the batch normalisation's
  variance: the reference takes the mean of the squared deviations (two passes), the kernel the second moment minus the
  squared mean (one pass).  The two agree when every entry of the normalised matrix is real, and it is: a graph
  convolution of real rows with real weights is real, and a batch normalisation of a real matrix, whose variances are
  then nonnegative reals and whose offset is a positive real, is real again.  So reality is carried layer by layer from
  the inputs, and with it the equality.
-/
import proofs.«171644_j66365834658285_1_alg».proof.Proof.KStages
import proofs.«171644_j66365834658285_1_alg».proof.Proof.RefStages
import proofs.«171644_j66365834658285_1_alg».proof.Proof.RefRead
import proofs.«171644_j66365834658285_1_alg».proof.Proof.Gen.ReferenceIdeal
import proofs.«171644_j66365834658285_1_alg».proof.Proof.SegBridge
import proofs.«171644_j66365834658285_1_alg».proof.Proof.Finite

noncomputable section

namespace Cert.Bridge

open Idealize.ShloMosaic Cert.KernelIdeal Cert.KernelIdeal.Gen Cert.Gin
open Cert.ReferenceIdeal (RefStages.gconv RefStages.norm RefStages.h1 RefStages.h2 RefStages.emb RefStages.out
  RefStages.conv RefStages.seg RefStages.pool RefStages.head RefStages.bn RefStages.mean RefStages.var)
open Cert.ReferenceIdeal (RefRead.conv_eq RefRead.head_eq RefRead.mean_eq RefRead.var_eq RefRead.bn_eq)

/-- The number of rows is positive. -/
theorem rows_pos : 0 < 100000 := by norm_num

/-! ### A graph convolution -/

/-- The reference's graph convolution is the kernel's, at the two rows of the edge table. -/
theorem gconv_eq (h : FVec Ideal S100000x64 .f32) (ei : IVec S2x1600000 32) (w1 : FVec Ideal S64x64 .f32)
    (b1 : FVec Ideal S64 .f32) (w2 : FVec Ideal S64x64 .f32) (b2 : FVec Ideal S64 .f32) :
    RefStages.gconv (F := Ideal) h ei w1 b1 w2 b2
      = KStages.gconv h (KHost.srcRow ei) (KHost.dstRow ei) w1 b1 w2 b2 :=
  (RefRead.conv_eq h (RefStages.seg (F := Ideal) h ei) w1 b1 w2 b2).trans
    (congrArg (fun a => mlp2 (plus h a) w1 b1 w2 b2) (Cert.SegBridge.seg_eq h ei))

/-- A graph convolution of real rows with real weights and biases is real. -/
theorem allReal_gconv {h : FVec Ideal S100000x64 .f32} {w1 : FVec Ideal S64x64 .f32} {b1 : FVec Ideal S64 .f32}
    {w2 : FVec Ideal S64x64 .f32} {b2 : FVec Ideal S64 .f32} (rh : AllReal h) (rw1 : AllReal w1) (rb1 : AllReal b1)
    (rw2 : AllReal w2) (rb2 : AllReal b2) (src dst : IVec S1600000 32) :
    AllReal (KStages.gconv h src dst w1 b1 w2 b2) :=
  allReal_mlp2 (allReal_plus rh (Cert.SegBridge.allReal_segRows rh src dst)) rw1 rb1 rw2 rb2

/-! ### The batch normalisation -/

/-- On a REAL matrix the reference's batch normalisation (two-pass variance) is the kernel's (one-pass variance). -/
theorem norm_eq {r : FVec Ideal S100000x64 .f32} (rr : AllReal r) (γ β : FVec Ideal S64 .f32) :
    RefStages.norm (F := Ideal) r γ β = KStages.norm1 r γ β := by
  have hv : colVar2 (Ideal.ofBits .f32 0x47C35000#32) r = colVar1 (Ideal.ofBits .f32 0x47C35000#32) r := by
    rw [Cert.Gin.cnt_eq]; exact (colVar1_eq_colVar2 rows_pos rr).symm
  calc RefStages.norm (F := Ideal) r γ β
      = bnRelu (Ideal.ofBits .f32 0x3727C5AC#32) r (RefStages.mean (F := Ideal) r) (RefStages.var (F := Ideal) r) γ β :=
        RefRead.bn_eq r _ _ γ β
    _ = bnRelu (Ideal.ofBits .f32 0x3727C5AC#32) r (colMean (Ideal.ofBits .f32 0x47C35000#32) r)
          (colVar2 (Ideal.ofBits .f32 0x47C35000#32) r) γ β := by rw [RefRead.mean_eq, RefRead.var_eq]
    _ = KStages.norm1 r γ β := by rw [hv]; rfl

/-- The kernel's batch normalisation of a real matrix with real scale and shift is real. -/
theorem allReal_norm1 {r : FVec Ideal S100000x64 .f32} {γ β : FVec Ideal S64 .f32} (rr : AllReal r) (rγ : AllReal γ)
    (rβ : AllReal β) : AllReal (KStages.norm1 r γ β) := by
  obtain ⟨e, he, hee⟩ := eps_eq
  unfold KStages.norm1 KStages.eps KStages.cnt
  rw [hee, Cert.Gin.cnt_eq]
  exact allReal_bnRelu he rr (allReal_colMean rows_pos rr) (colVar1_nonneg_real rows_pos rr) rγ rβ

/-! ### The layers -/

section Layers

variable (x : FVec Ideal S100000x64 .f32) (ei : IVec S2x1600000 32) (batch : IVec S100000 32)
  (c0w1 : FVec Ideal S64x64 .f32) (c0b1 : FVec Ideal S64 .f32) (c0w2 : FVec Ideal S64x64 .f32) (c0b2 : FVec Ideal S64 .f32)
  (c1w1 : FVec Ideal S64x64 .f32) (c1b1 : FVec Ideal S64 .f32) (c1w2 : FVec Ideal S64x64 .f32) (c1b2 : FVec Ideal S64 .f32)
  (c2w1 : FVec Ideal S64x64 .f32) (c2b1 : FVec Ideal S64 .f32) (c2w2 : FVec Ideal S64x64 .f32) (c2b2 : FVec Ideal S64 .f32)
  (g0 b0 g1 b1 : FVec Ideal S64 .f32)
  (hw1 : FVec Ideal S64x256 .f32) (hb1 : FVec Ideal S256 .f32) (hw2 : FVec Ideal S256x128 .f32) (hb2 : FVec Ideal S128 .f32)

/-- The node rows after the first layer are the same on the two sides, for real features and first-layer weights. -/
theorem h1_eq (rx : AllReal x) (rc0w1 : AllReal c0w1) (rc0b1 : AllReal c0b1) (rc0w2 : AllReal c0w2)
    (rc0b2 : AllReal c0b2) :
    RefStages.h1 (F := Ideal) x ei c0w1 c0b1 c0w2 c0b2 g0 b0 = KStages.h1 x ei c0w1 c0b1 c0w2 c0b2 g0 b0 := by
  unfold RefStages.h1 KStages.h1
  rw [gconv_eq]
  exact norm_eq (allReal_gconv rx rc0w1 rc0b1 rc0w2 rc0b2 _ _) g0 b0

/-- The node rows after the first layer are real. -/
theorem allReal_h1 (rx : AllReal x) (rc0w1 : AllReal c0w1) (rc0b1 : AllReal c0b1) (rc0w2 : AllReal c0w2)
    (rc0b2 : AllReal c0b2) (rg0 : AllReal g0) (rb0 : AllReal b0) :
    AllReal (KStages.h1 x ei c0w1 c0b1 c0w2 c0b2 g0 b0) :=
  allReal_norm1 (allReal_gconv rx rc0w1 rc0b1 rc0w2 rc0b2 _ _) rg0 rb0

/-- The node rows after the second layer are the same on the two sides. -/
theorem h2_eq (rx : AllReal x) (rc0w1 : AllReal c0w1) (rc0b1 : AllReal c0b1) (rc0w2 : AllReal c0w2)
    (rc0b2 : AllReal c0b2) (rc1w1 : AllReal c1w1) (rc1b1 : AllReal c1b1) (rc1w2 : AllReal c1w2) (rc1b2 : AllReal c1b2)
    (rg0 : AllReal g0) (rb0 : AllReal b0) :
    RefStages.h2 (F := Ideal) x ei c0w1 c0b1 c0w2 c0b2 c1w1 c1b1 c1w2 c1b2 g0 b0 g1 b1
      = KStages.h2 x ei c0w1 c0b1 c0w2 c0b2 c1w1 c1b1 c1w2 c1b2 g0 b0 g1 b1 := by
  unfold RefStages.h2 KStages.h2
  rw [h1_eq x ei c0w1 c0b1 c0w2 c0b2 g0 b0 rx rc0w1 rc0b1 rc0w2 rc0b2, gconv_eq]
  exact norm_eq (allReal_gconv (allReal_h1 x ei c0w1 c0b1 c0w2 c0b2 g0 b0 rx rc0w1 rc0b1 rc0w2 rc0b2 rg0 rb0)
    rc1w1 rc1b1 rc1w2 rc1b2 _ _) g1 b1

/-- The pooled graph rows (the second result) are the same on the two sides, for real node features, real weights and
    biases of the first two convolutions and real scale and shift of the first normalisation. -/
theorem emb_eq (rx : AllReal x) (rc0w1 : AllReal c0w1) (rc0b1 : AllReal c0b1) (rc0w2 : AllReal c0w2)
    (rc0b2 : AllReal c0b2) (rc1w1 : AllReal c1w1) (rc1b1 : AllReal c1b1) (rc1w2 : AllReal c1w2) (rc1b2 : AllReal c1b2)
    (rg0 : AllReal g0) (rb0 : AllReal b0) :
    RefStages.emb (F := Ideal) x ei batch c0w1 c0b1 c0w2 c0b2 c1w1 c1b1 c1w2 c1b2 c2w1 c2b1 c2w2 c2b2 g0 b0 g1 b1
      = KStages.emb x ei batch c0w1 c0b1 c0w2 c0b2 c1w1 c1b1 c1w2 c1b2 c2w1 c2b1 c2w2 c2b2 g0 b0 g1 b1 := by
  unfold RefStages.emb KStages.emb
  rw [h2_eq x ei c0w1 c0b1 c0w2 c0b2 c1w1 c1b1 c1w2 c1b2 g0 b0 g1 b1 rx rc0w1 rc0b1 rc0w2 rc0b2 rc1w1 rc1b1 rc1w2 rc1b2
    rg0 rb0, gconv_eq]
  exact Cert.SegBridge.pool_eq _ batch

/-- The head's output (the first result) is the same on the two sides, under the same hypotheses. -/
theorem out_eq (rx : AllReal x) (rc0w1 : AllReal c0w1) (rc0b1 : AllReal c0b1) (rc0w2 : AllReal c0w2)
    (rc0b2 : AllReal c0b2) (rc1w1 : AllReal c1w1) (rc1b1 : AllReal c1b1) (rc1w2 : AllReal c1w2) (rc1b2 : AllReal c1b2)
    (rg0 : AllReal g0) (rb0 : AllReal b0) :
    RefStages.out (F := Ideal) x ei batch c0w1 c0b1 c0w2 c0b2 c1w1 c1b1 c1w2 c1b2 c2w1 c2b1 c2w2 c2b2 g0 b0 g1 b1
        hw1 hb1 hw2 hb2
      = KStages.out x ei batch c0w1 c0b1 c0w2 c0b2 c1w1 c1b1 c1w2 c1b2 c2w1 c2b1 c2w2 c2b2 g0 b0 g1 b1
        hw1 hb1 hw2 hb2 := by
  unfold RefStages.out KStages.out
  rw [RefRead.head_eq, emb_eq x ei batch c0w1 c0b1 c0w2 c0b2 c1w1 c1b1 c1w2 c1b2 c2w1 c2b1 c2w2 c2b2 g0 b0 g1 b1
    rx rc0w1 rc0b1 rc0w2 rc0b2 rc1w1 rc1b1 rc1w2 rc1b2 rg0 rb0]

end Layers

end Cert.Bridge

end
-- ==== Proof.KKeep.lean ====
/-
  Buffers that keep their contents along the run.

  The run alternates stretches of host operations with launches; its buffer contents at the 13 boundaries are a fold from
  the launch memory.  A stretch changes only the buffers its operations write, and a launch changes only its output
  arrays: an input array is handed back as it was found, and a buffer outside the launch's windows is untouched.  So a
  buffer that nobody writes between two boundaries holds the same contents at both.  Each theorem below walks one
  buffer back, step by step, from an intermediate boundary: an argument to the launch memory; the rows of source and
  destination node numbers to the point where the first stretch cut them from the edge list; a launch's first output
  across the one stretch that follows it.
-/
import proofs.«171644_j66365834658285_1_alg».proof.Proof.Gen.KernelIdeal.Frame
import proofs.«171644_j66365834658285_1_alg».proof.Proof.KHost

set_option maxRecDepth 16384

noncomputable section

namespace Cert.KernelIdeal.KKeep

open Idealize.ShloMosaic Idealize.ShloMosaic.TcCoe Cert.KernelIdeal.Gen

variable (m : (ℓ : Loc nD τ sig) → Buf (Elt Ideal) ℓ) (ρ : Dev nD → PrngReg) (c : Dev nD)

/-- The stretch `ops` writes none of its results into the buffer `b`, so `b` is after the stretch as before it:
    each operation's set of written buffers is a singleton, and `b` differs from every one of them. -/
local macro "keep_host " ops:ident b:ident : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- Argument 0 at boundary 1 is as launched. -/
theorem W1_arg0 : W1 m ρ c (Proc.devRef .tc main_arg0) = m ((c : Thread nD τ).loc main_arg0) :=
  calc W1 m ρ c (Proc.devRef .tc main_arg0)
    _ = W0 m ρ c (Proc.devRef .tc main_arg0) := keep_host hostOps0 main_arg0
    _ = m ((c : Thread nD τ).loc main_arg0) := rfl
/-- Argument 3 at boundary 1 is as launched. -/
theorem W1_arg3 : W1 m ρ c (Proc.devRef .tc main_arg3) = m ((c : Thread nD τ).loc main_arg3) :=
  calc W1 m ρ c (Proc.devRef .tc main_arg3)
    _ = W0 m ρ c (Proc.devRef .tc main_arg3) := keep_host hostOps0 main_arg3
    _ = m ((c : Thread nD τ).loc main_arg3) := rfl
/-- Argument 5 at boundary 1 is as launched. -/
theorem W1_arg5 : W1 m ρ c (Proc.devRef .tc main_arg5) = m ((c : Thread nD τ).loc main_arg5) :=
  calc W1 m ρ c (Proc.devRef .tc main_arg5)
    _ = W0 m ρ c (Proc.devRef .tc main_arg5) := keep_host hostOps0 main_arg5
    _ = m ((c : Thread nD τ).loc main_arg5) := rfl
/-- Argument 15 at boundary 2 is as launched. -/
theorem W2_arg15 : W2 m ρ c (Proc.devRef .tc main_arg15) = m ((c : Thread nD τ).loc main_arg15) :=
  calc W2 m ρ c (Proc.devRef .tc main_arg15)
    _ = W1 m ρ c (Proc.devRef .tc main_arg15) := W2_of_ne m ρ c main_arg15 (by decide)
    _ = W0 m ρ c (Proc.devRef .tc main_arg15) := keep_host hostOps0 main_arg15
    _ = m ((c : Thread nD τ).loc main_arg15) := rfl
/-- Argument 16 at boundary 2 is as launched. -/
theorem W2_arg16 : W2 m ρ c (Proc.devRef .tc main_arg16) = m ((c : Thread nD τ).loc main_arg16) :=
  calc W2 m ρ c (Proc.devRef .tc main_arg16)
    _ = W1 m ρ c (Proc.devRef .tc main_arg16) := W2_of_ne m ρ c main_arg16 (by decide)
    _ = W0 m ρ c (Proc.devRef .tc main_arg16) := keep_host hostOps0 main_arg16
    _ = m ((c : Thread nD τ).loc main_arg16) := rfl
/-- Argument 8 at boundary 4 is as launched. -/
theorem W4_arg8 : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := keep_host hostOps1 main_arg8
    _ = W1 m ρ c (Proc.devRef .tc main_arg8) := W2_of_ne m ρ c main_arg8 (by decide)
    _ = W0 m ρ c (Proc.devRef .tc main_arg8) := keep_host hostOps0 main_arg8
    _ = m ((c : Thread nD τ).loc main_arg8) := rfl
/-- Argument 10 at boundary 4 is as launched. -/
theorem W4_arg10 : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := keep_host hostOps1 main_arg10
    _ = W1 m ρ c (Proc.devRef .tc main_arg10) := W2_of_ne m ρ c main_arg10 (by decide)
    _ = W0 m ρ c (Proc.devRef .tc main_arg10) := keep_host hostOps0 main_arg10
    _ = m ((c : Thread nD τ).loc main_arg10) := rfl
/-- Argument 7 at boundary 5 is as launched. -/
theorem W5_arg7 : W5 m ρ c (Proc.devRef .tc main_arg7) = m ((c : Thread nD τ).loc main_arg7) :=
  calc W5 m ρ c (Proc.devRef .tc main_arg7)
    _ = W4 m ρ c (Proc.devRef .tc main_arg7) := keep_host hostOps2 main_arg7
    _ = W3 m ρ c (Proc.devRef .tc main_arg7) := W4_of_ne m ρ c main_arg7 (by decide)
    _ = W2 m ρ c (Proc.devRef .tc main_arg7) := keep_host hostOps1 main_arg7
    _ = W1 m ρ c (Proc.devRef .tc main_arg7) := W2_of_ne m ρ c main_arg7 (by decide)
    _ = W0 m ρ c (Proc.devRef .tc main_arg7) := keep_host hostOps0 main_arg7
    _ = m ((c : Thread nD τ).loc main_arg7) := rfl
/-- Argument 9 at boundary 5 is as launched. -/
theorem W5_arg9 : W5 m ρ c (Proc.devRef .tc main_arg9) = m ((c : Thread nD τ).loc main_arg9) :=
  calc W5 m ρ c (Proc.devRef .tc main_arg9)
    _ = W4 m ρ c (Proc.devRef .tc main_arg9) := keep_host hostOps2 main_arg9
    _ = W3 m ρ c (Proc.devRef .tc main_arg9) := W4_of_ne m ρ c main_arg9 (by decide)
    _ = W2 m ρ c (Proc.devRef .tc main_arg9) := keep_host hostOps1 main_arg9
    _ = W1 m ρ c (Proc.devRef .tc main_arg9) := W2_of_ne m ρ c main_arg9 (by decide)
    _ = W0 m ρ c (Proc.devRef .tc main_arg9) := keep_host hostOps0 main_arg9
    _ = m ((c : Thread nD τ).loc main_arg9) := rfl
/-- Argument 17 at boundary 6 is as launched. -/
theorem W6_arg17 : W6 m ρ c (Proc.devRef .tc main_arg17) = m ((c : Thread nD τ).loc main_arg17) :=
  calc W6 m ρ c (Proc.devRef .tc main_arg17)
    _ = W5 m ρ c (Proc.devRef .tc main_arg17) := W6_of_ne m ρ c main_arg17 (by decide)
    _ = W4 m ρ c (Proc.devRef .tc main_arg17) := keep_host hostOps2 main_arg17
    _ = W3 m ρ c (Proc.devRef .tc main_arg17) := W4_of_ne m ρ c main_arg17 (by decide)
    _ = W2 m ρ c (Proc.devRef .tc main_arg17) := keep_host hostOps1 main_arg17
    _ = W1 m ρ c (Proc.devRef .tc main_arg17) := W2_of_ne m ρ c main_arg17 (by decide)
    _ = W0 m ρ c (Proc.devRef .tc main_arg17) := keep_host hostOps0 main_arg17
    _ = m ((c : Thread nD τ).loc main_arg17) := rfl
/-- Argument 18 at boundary 6 is as launched. -/
theorem W6_arg18 : W6 m ρ c (Proc.devRef .tc main_arg18) = m ((c : Thread nD τ).loc main_arg18) :=
  calc W6 m ρ c (Proc.devRef .tc main_arg18)
    _ = W5 m ρ c (Proc.devRef .tc main_arg18) := W6_of_ne m ρ c main_arg18 (by decide)
    _ = W4 m ρ c (Proc.devRef .tc main_arg18) := keep_host hostOps2 main_arg18
    _ = W3 m ρ c (Proc.devRef .tc main_arg18) := W4_of_ne m ρ c main_arg18 (by decide)
    _ = W2 m ρ c (Proc.devRef .tc main_arg18) := keep_host hostOps1 main_arg18
    _ = W1 m ρ c (Proc.devRef .tc main_arg18) := W2_of_ne m ρ c main_arg18 (by decide)
    _ = W0 m ρ c (Proc.devRef .tc main_arg18) := keep_host hostOps0 main_arg18
    _ = m ((c : Thread nD τ).loc main_arg18) := rfl
/-- Argument 12 at boundary 8 is as launched. -/
theorem W8_arg12 : W8 m ρ c (Proc.devRef .tc main_arg12) = m ((c : Thread nD τ).loc main_arg12) :=
  calc W8 m ρ c (Proc.devRef .tc main_arg12)
    _ = W7 m ρ c (Proc.devRef .tc main_arg12) := W8_of_ne m ρ c main_arg12 (by decide)
    _ = W6 m ρ c (Proc.devRef .tc main_arg12) := keep_host hostOps3 main_arg12
    _ = W5 m ρ c (Proc.devRef .tc main_arg12) := W6_of_ne m ρ c main_arg12 (by decide)
    _ = W4 m ρ c (Proc.devRef .tc main_arg12) := keep_host hostOps2 main_arg12
    _ = W3 m ρ c (Proc.devRef .tc main_arg12) := W4_of_ne m ρ c main_arg12 (by decide)
    _ = W2 m ρ c (Proc.devRef .tc main_arg12) := keep_host hostOps1 main_arg12
    _ = W1 m ρ c (Proc.devRef .tc main_arg12) := W2_of_ne m ρ c main_arg12 (by decide)
    _ = W0 m ρ c (Proc.devRef .tc main_arg12) := keep_host hostOps0 main_arg12
    _ = m ((c : Thread nD τ).loc main_arg12) := rfl
/-- Argument 14 at boundary 8 is as launched. -/
theorem W8_arg14 : W8 m ρ c (Proc.devRef .tc main_arg14) = m ((c : Thread nD τ).loc main_arg14) :=
  calc W8 m ρ c (Proc.devRef .tc main_arg14)
    _ = W7 m ρ c (Proc.devRef .tc main_arg14) := W8_of_ne m ρ c main_arg14 (by decide)
    _ = W6 m ρ c (Proc.devRef .tc main_arg14) := keep_host hostOps3 main_arg14
    _ = W5 m ρ c (Proc.devRef .tc main_arg14) := W6_of_ne m ρ c main_arg14 (by decide)
    _ = W4 m ρ c (Proc.devRef .tc main_arg14) := keep_host hostOps2 main_arg14
    _ = W3 m ρ c (Proc.devRef .tc main_arg14) := W4_of_ne m ρ c main_arg14 (by decide)
    _ = W2 m ρ c (Proc.devRef .tc main_arg14) := keep_host hostOps1 main_arg14
    _ = W1 m ρ c (Proc.devRef .tc main_arg14) := W2_of_ne m ρ c main_arg14 (by decide)
    _ = W0 m ρ c (Proc.devRef .tc main_arg14) := keep_host hostOps0 main_arg14
    _ = m ((c : Thread nD τ).loc main_arg14) := rfl
/-- Argument 11 at boundary 9 is as launched. -/
theorem W9_arg11 : W9 m ρ c (Proc.devRef .tc main_arg11) = m ((c : Thread nD τ).loc main_arg11) :=
  calc W9 m ρ c (Proc.devRef .tc main_arg11)
    _ = W8 m ρ c (Proc.devRef .tc main_arg11) := keep_host hostOps4 main_arg11
    _ = W7 m ρ c (Proc.devRef .tc main_arg11) := W8_of_ne m ρ c main_arg11 (by decide)
    _ = W6 m ρ c (Proc.devRef .tc main_arg11) := keep_host hostOps3 main_arg11
    _ = W5 m ρ c (Proc.devRef .tc main_arg11) := W6_of_ne m ρ c main_arg11 (by decide)
    _ = W4 m ρ c (Proc.devRef .tc main_arg11) := keep_host hostOps2 main_arg11
    _ = W3 m ρ c (Proc.devRef .tc main_arg11) := W4_of_ne m ρ c main_arg11 (by decide)
    _ = W2 m ρ c (Proc.devRef .tc main_arg11) := keep_host hostOps1 main_arg11
    _ = W1 m ρ c (Proc.devRef .tc main_arg11) := W2_of_ne m ρ c main_arg11 (by decide)
    _ = W0 m ρ c (Proc.devRef .tc main_arg11) := keep_host hostOps0 main_arg11
    _ = m ((c : Thread nD τ).loc main_arg11) := rfl
/-- Argument 13 at boundary 9 is as launched. -/
theorem W9_arg13 : W9 m ρ c (Proc.devRef .tc main_arg13) = m ((c : Thread nD τ).loc main_arg13) :=
  calc W9 m ρ c (Proc.devRef .tc main_arg13)
    _ = W8 m ρ c (Proc.devRef .tc main_arg13) := keep_host hostOps4 main_arg13
    _ = W7 m ρ c (Proc.devRef .tc main_arg13) := W8_of_ne m ρ c main_arg13 (by decide)
    _ = W6 m ρ c (Proc.devRef .tc main_arg13) := keep_host hostOps3 main_arg13
    _ = W5 m ρ c (Proc.devRef .tc main_arg13) := W6_of_ne m ρ c main_arg13 (by decide)
    _ = W4 m ρ c (Proc.devRef .tc main_arg13) := keep_host hostOps2 main_arg13
    _ = W3 m ρ c (Proc.devRef .tc main_arg13) := W4_of_ne m ρ c main_arg13 (by decide)
    _ = W2 m ρ c (Proc.devRef .tc main_arg13) := keep_host hostOps1 main_arg13
    _ = W1 m ρ c (Proc.devRef .tc main_arg13) := W2_of_ne m ρ c main_arg13 (by decide)
    _ = W0 m ρ c (Proc.devRef .tc main_arg13) := keep_host hostOps0 main_arg13
    _ = m ((c : Thread nD τ).loc main_arg13) := rfl
/-- Argument 2 at boundary 10 is as launched. -/
theorem W10_arg2 : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := keep_host hostOps4 main_arg2
    _ = W7 m ρ c (Proc.devRef .tc main_arg2) := W8_of_ne m ρ c main_arg2 (by decide)
    _ = W6 m ρ c (Proc.devRef .tc main_arg2) := keep_host hostOps3 main_arg2
    _ = W5 m ρ c (Proc.devRef .tc main_arg2) := W6_of_ne m ρ c main_arg2 (by decide)
    _ = W4 m ρ c (Proc.devRef .tc main_arg2) := keep_host hostOps2 main_arg2
    _ = W3 m ρ c (Proc.devRef .tc main_arg2) := W4_of_ne m ρ c main_arg2 (by decide)
    _ = W2 m ρ c (Proc.devRef .tc main_arg2) := keep_host hostOps1 main_arg2
    _ = W1 m ρ c (Proc.devRef .tc main_arg2) := W2_of_ne m ρ c main_arg2 (by decide)
    _ = W0 m ρ c (Proc.devRef .tc main_arg2) := keep_host hostOps0 main_arg2
    _ = m ((c : Thread nD τ).loc main_arg2) := rfl
/-- Argument 20 at boundary 10 is as launched. -/
theorem W10_arg20 : W10 m ρ c (Proc.devRef .tc main_arg20) = m ((c : Thread nD τ).loc main_arg20) :=
  calc W10 m ρ c (Proc.devRef .tc main_arg20)
    _ = W9 m ρ c (Proc.devRef .tc main_arg20) := W10_of_ne m ρ c main_arg20 (by decide)
    _ = W8 m ρ c (Proc.devRef .tc main_arg20) := keep_host hostOps4 main_arg20
    _ = W7 m ρ c (Proc.devRef .tc main_arg20) := W8_of_ne m ρ c main_arg20 (by decide)
    _ = W6 m ρ c (Proc.devRef .tc main_arg20) := keep_host hostOps3 main_arg20
    _ = W5 m ρ c (Proc.devRef .tc main_arg20) := W6_of_ne m ρ c main_arg20 (by decide)
    _ = W4 m ρ c (Proc.devRef .tc main_arg20) := keep_host hostOps2 main_arg20
    _ = W3 m ρ c (Proc.devRef .tc main_arg20) := W4_of_ne m ρ c main_arg20 (by decide)
    _ = W2 m ρ c (Proc.devRef .tc main_arg20) := keep_host hostOps1 main_arg20
    _ = W1 m ρ c (Proc.devRef .tc main_arg20) := W2_of_ne m ρ c main_arg20 (by decide)
    _ = W0 m ρ c (Proc.devRef .tc main_arg20) := keep_host hostOps0 main_arg20
    _ = m ((c : Thread nD τ).loc main_arg20) := rfl
/-- Argument 22 at boundary 10 is as launched. -/
theorem W10_arg22 : W10 m ρ c (Proc.devRef .tc main_arg22) = m ((c : Thread nD τ).loc main_arg22) :=
  calc W10 m ρ c (Proc.devRef .tc main_arg22)
    _ = W9 m ρ c (Proc.devRef .tc main_arg22) := W10_of_ne m ρ c main_arg22 (by decide)
    _ = W8 m ρ c (Proc.devRef .tc main_arg22) := keep_host hostOps4 main_arg22
    _ = W7 m ρ c (Proc.devRef .tc main_arg22) := W8_of_ne m ρ c main_arg22 (by decide)
    _ = W6 m ρ c (Proc.devRef .tc main_arg22) := keep_host hostOps3 main_arg22
    _ = W5 m ρ c (Proc.devRef .tc main_arg22) := W6_of_ne m ρ c main_arg22 (by decide)
    _ = W4 m ρ c (Proc.devRef .tc main_arg22) := keep_host hostOps2 main_arg22
    _ = W3 m ρ c (Proc.devRef .tc main_arg22) := W4_of_ne m ρ c main_arg22 (by decide)
    _ = W2 m ρ c (Proc.devRef .tc main_arg22) := keep_host hostOps1 main_arg22
    _ = W1 m ρ c (Proc.devRef .tc main_arg22) := W2_of_ne m ρ c main_arg22 (by decide)
    _ = W0 m ρ c (Proc.devRef .tc main_arg22) := keep_host hostOps0 main_arg22
    _ = m ((c : Thread nD τ).loc main_arg22) := rfl
/-- Argument 19 at boundary 11 is as launched. -/
theorem W11_arg19 : W11 m ρ c (Proc.devRef .tc main_arg19) = m ((c : Thread nD τ).loc main_arg19) :=
  calc W11 m ρ c (Proc.devRef .tc main_arg19)
    _ = W10 m ρ c (Proc.devRef .tc main_arg19) := keep_host hostOps5 main_arg19
    _ = W9 m ρ c (Proc.devRef .tc main_arg19) := W10_of_ne m ρ c main_arg19 (by decide)
    _ = W8 m ρ c (Proc.devRef .tc main_arg19) := keep_host hostOps4 main_arg19
    _ = W7 m ρ c (Proc.devRef .tc main_arg19) := W8_of_ne m ρ c main_arg19 (by decide)
    _ = W6 m ρ c (Proc.devRef .tc main_arg19) := keep_host hostOps3 main_arg19
    _ = W5 m ρ c (Proc.devRef .tc main_arg19) := W6_of_ne m ρ c main_arg19 (by decide)
    _ = W4 m ρ c (Proc.devRef .tc main_arg19) := keep_host hostOps2 main_arg19
    _ = W3 m ρ c (Proc.devRef .tc main_arg19) := W4_of_ne m ρ c main_arg19 (by decide)
    _ = W2 m ρ c (Proc.devRef .tc main_arg19) := keep_host hostOps1 main_arg19
    _ = W1 m ρ c (Proc.devRef .tc main_arg19) := W2_of_ne m ρ c main_arg19 (by decide)
    _ = W0 m ρ c (Proc.devRef .tc main_arg19) := keep_host hostOps0 main_arg19
    _ = m ((c : Thread nD τ).loc main_arg19) := rfl
/-- Argument 21 at boundary 11 is as launched. -/
theorem W11_arg21 : W11 m ρ c (Proc.devRef .tc main_arg21) = m ((c : Thread nD τ).loc main_arg21) :=
  calc W11 m ρ c (Proc.devRef .tc main_arg21)
    _ = W10 m ρ c (Proc.devRef .tc main_arg21) := keep_host hostOps5 main_arg21
    _ = W9 m ρ c (Proc.devRef .tc main_arg21) := W10_of_ne m ρ c main_arg21 (by decide)
    _ = W8 m ρ c (Proc.devRef .tc main_arg21) := keep_host hostOps4 main_arg21
    _ = W7 m ρ c (Proc.devRef .tc main_arg21) := W8_of_ne m ρ c main_arg21 (by decide)
    _ = W6 m ρ c (Proc.devRef .tc main_arg21) := keep_host hostOps3 main_arg21
    _ = W5 m ρ c (Proc.devRef .tc main_arg21) := W6_of_ne m ρ c main_arg21 (by decide)
    _ = W4 m ρ c (Proc.devRef .tc main_arg21) := keep_host hostOps2 main_arg21
    _ = W3 m ρ c (Proc.devRef .tc main_arg21) := W4_of_ne m ρ c main_arg21 (by decide)
    _ = W2 m ρ c (Proc.devRef .tc main_arg21) := keep_host hostOps1 main_arg21
    _ = W1 m ρ c (Proc.devRef .tc main_arg21) := W2_of_ne m ρ c main_arg21 (by decide)
    _ = W0 m ρ c (Proc.devRef .tc main_arg21) := keep_host hostOps0 main_arg21
    _ = m ((c : Thread nD τ).loc main_arg21) := rfl
/-- The row of source numbers, cut from the edge list by the first stretch, is still in place at boundary 4. -/
theorem W4_v1 : W4 m ρ c (Proc.devRef .tc main_v1) = KHost.srcRow (m ((c : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := keep_host hostOps1 main_v1
    _ = W1 m ρ c (Proc.devRef .tc main_v1) := W2_of_ne m ρ c main_v1 (by decide)
    _ = KHost.srcRow (W0 m ρ c (Proc.devRef .tc main_arg1)) := KHost.host0_v1 (W0 m ρ c)
    _ = KHost.srcRow (m ((c : Thread nD τ).loc main_arg1)) := rfl
/-- The row of source numbers is still in place at boundary 8. -/
theorem W8_v1 : W8 m ρ c (Proc.devRef .tc main_v1) = KHost.srcRow (m ((c : Thread nD τ).loc main_arg1)) :=
  calc W8 m ρ c (Proc.devRef .tc main_v1)
    _ = W7 m ρ c (Proc.devRef .tc main_v1) := W8_of_ne m ρ c main_v1 (by decide)
    _ = W6 m ρ c (Proc.devRef .tc main_v1) := keep_host hostOps3 main_v1
    _ = W5 m ρ c (Proc.devRef .tc main_v1) := W6_of_ne m ρ c main_v1 (by decide)
    _ = W4 m ρ c (Proc.devRef .tc main_v1) := keep_host hostOps2 main_v1
    _ = KHost.srcRow (m ((c : Thread nD τ).loc main_arg1)) := W4_v1 m ρ c
/-- The row of destination numbers, cut from the edge list by the first stretch, is still in place at boundary 4. -/
theorem W4_v3 : W4 m ρ c (Proc.devRef .tc main_v3) = KHost.dstRow (m ((c : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := keep_host hostOps1 main_v3
    _ = W1 m ρ c (Proc.devRef .tc main_v3) := W2_of_ne m ρ c main_v3 (by decide)
    _ = KHost.dstRow (W0 m ρ c (Proc.devRef .tc main_arg1)) := KHost.host0_v3 (W0 m ρ c)
    _ = KHost.dstRow (m ((c : Thread nD τ).loc main_arg1)) := rfl
/-- The row of destination numbers is still in place at boundary 8. -/
theorem W8_v3 : W8 m ρ c (Proc.devRef .tc main_v3) = KHost.dstRow (m ((c : Thread nD τ).loc main_arg1)) :=
  calc W8 m ρ c (Proc.devRef .tc main_v3)
    _ = W7 m ρ c (Proc.devRef .tc main_v3) := W8_of_ne m ρ c main_v3 (by decide)
    _ = W6 m ρ c (Proc.devRef .tc main_v3) := keep_host hostOps3 main_v3
    _ = W5 m ρ c (Proc.devRef .tc main_v3) := W6_of_ne m ρ c main_v3 (by decide)
    _ = W4 m ρ c (Proc.devRef .tc main_v3) := keep_host hostOps2 main_v3
    _ = KHost.dstRow (m ((c : Thread nD τ).loc main_arg1)) := W4_v3 m ρ c
/-- The stretch before boundary 3 writes nothing into this buffer. -/
theorem W3_v16_0 : W3 m ρ c (Proc.devRef .tc main_v16_0) = W2 m ρ c (Proc.devRef .tc main_v16_0) :=
  keep_host hostOps1 main_v16_0
/-- The stretch before boundary 5 writes nothing into this buffer. -/
theorem W5_v29 : W5 m ρ c (Proc.devRef .tc main_v29) = W4 m ρ c (Proc.devRef .tc main_v29) :=
  keep_host hostOps2 main_v29
/-- The stretch before boundary 7 writes nothing into this buffer. -/
theorem W7_v42_0 : W7 m ρ c (Proc.devRef .tc main_v42_0) = W6 m ρ c (Proc.devRef .tc main_v42_0) :=
  keep_host hostOps3 main_v42_0
/-- The stretch before boundary 9 writes nothing into this buffer. -/
theorem W9_v55 : W9 m ρ c (Proc.devRef .tc main_v55) = W8 m ρ c (Proc.devRef .tc main_v55) :=
  keep_host hostOps4 main_v55

end Cert.KernelIdeal.KKeep

end
-- ==== Proof.ConvPay0.lean ====
/-
  The arithmetic of one grid point of the graph-convolution perceptron kernel, read entry by entry over the extended reals.

  A grid point holds a block of 5000 node rows `x`, the block `a` of their in-neighbour sums, and the whole weights.
  It stores the block `relu ((x + a) · w1 + b1) · w2 + b2`, adds that block's column sums to a running row, and adds the
  column sums of its squares to a second running row.  Here each of the three stored values is written out at one entry
  as the sums it is; the casts to the 16-bit format are the identity on extended reals, a product into a zero
  accumulator is the plain sum over the contracted coordinate, and the reduction over the row axis is the sum over rows.
-/
import proofs.«171644_j66365834658285_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.ConvValue0

open Cert.KernelIdeal Cert.KernelIdeal.Gen

/-- A 5000×64 block times a 64×64 matrix into a zero accumulator, at entry `(p, q)`: the sum over the contracted
    coordinate of the products of the entries. -/
theorem matmul_at {φ₁ φ₂ : FTy} (A : FVec Ideal S5000x64 φ₁) (B : FVec Ideal S64x64 φ₂) (p : Fin 5000) (q : Fin 64) :
    matmul dot_S5000x64_S64x64_S5000x64_1_0_0_1_n_n none A B (constant (F := Ideal) S5000x64 .f32 0x00000000#32) (ix2 p q)
      = ∑ k : Fin 64, A (ix2 p k) * B (ix2 k q) := by
  refine (Ideal.matmul_constant_zero_apply dot_S5000x64_S64x64_S5000x64_1_0_0_1_n_n none A B (ix2 p q)).trans ?_
  rw [← Equiv.sum_comp (contrEquiv1 dot_S5000x64_S64x64_S5000x64_1_0_0_1_n_n 64 rfl rfl).symm]
  refine Finset.sum_congr rfl fun k _ => ?_
  have ck := contrEquiv1_symm_val dot_S5000x64_S64x64_S5000x64_1_0_0_1_n_n 64 rfl rfl k
  have l2 : dot_S5000x64_S64x64_S5000x64_1_0_0_1_n_n.lhsIdx (ix2 p q) ((contrEquiv1 _ 64 rfl rfl).symm k) = ix2 p k := by
    funext ax; apply Fin.ext
    match ax with
    | ⟨0, _⟩ => simp [DotDims.lhsIdx, dot_S5000x64_S64x64_S5000x64_1_0_0_1_n_n]; rfl
    | ⟨1, _⟩ => simp [DotDims.lhsIdx, dot_S5000x64_S64x64_S5000x64_1_0_0_1_n_n]; exact ck
  have r2 : dot_S5000x64_S64x64_S5000x64_1_0_0_1_n_n.rhsIdx (ix2 p q) ((contrEquiv1 _ 64 rfl rfl).symm k) = ix2 k q := by
    funext ax; apply Fin.ext
    match ax with
    | ⟨0, _⟩ => simp [DotDims.rhsIdx, dot_S5000x64_S64x64_S5000x64_1_0_0_1_n_n]; exact ck
    | ⟨1, _⟩ => simp [DotDims.rhsIdx, dot_S5000x64_S64x64_S5000x64_1_0_0_1_n_n]; rfl
  rw [l2, r2]

/-- A 1×64 row broadcast down 5000 rows reads, at `(p, q)`, the row's entry `q`. -/
theorem bcast_at (b : Vec Ideal S1x64 .f32) (p : Fin 5000) (q : Fin 64) :
    broadcastTo S5000x64 (shapeCast S1x64 b shapeCasts_S1x64_S1x64) broadcasts_S1x64_S5000x64 (ix2 p q) = b (ix2 0 q) := by
  rw [shapeCast_self]
  exact broadcastTo_apply b broadcasts_S1x64_S5000x64 (ix2 p q) (ix2 0 q) (fun a => by
    match a with
    | ⟨0, _⟩ => rfl
    | ⟨1, _⟩ => rfl)

/-- The stored block at entry `(p, q)`: the two-layer perceptron of row `p` of `x + a`. -/
theorem pay4_at (x a : Vec Ideal S5000x64 .f32) (w1 : Vec Ideal S64x64 .f32) (b1 : Vec Ideal S1x64 .f32)
    (w2 : Vec Ideal S64x64 .f32) (b2 : Vec Ideal S1x64 .f32) (p : Fin 5000) (q : Fin 64) :
    k0_pay4 (F := Ideal) x a w1 b1 w2 b2 (ix2 p q)
      = (∑ k : Fin 64, max ((∑ j : Fin 64, (x (ix2 p j) + a (ix2 p j)) * w1 (ix2 j k)) + b1 (ix2 0 k)) 0 * w2 (ix2 k q))
        + b2 (ix2 0 q) := by
  unfold k0_pay4
  refine congrArg₂ (· + ·) ?_ (bcast_at b2 p q)
  refine (matmul_at _ _ p q).trans ?_
  refine Finset.sum_congr rfl fun k _ => ?_
  refine congrArg₂ (· * ·) ?_ rfl
  show max (_ + _) (Ideal.ofBits .f32 0x00000000#32) = _
  rw [Ideal.ofBits_zero_f32]
  refine congrArg₂ max (congrArg₂ (· + ·) ?_ (bcast_at b1 p k)) rfl
  refine (matmul_at _ _ p k).trans ?_
  refine Finset.sum_congr rfl fun j _ => ?_
  rw [shapeCast_self]
  rfl

/-- The column sums of a 5000×64 block, kept as a 1×64 row: entry `(0, q)` is the sum of column `q` over the 5000 rows. -/
theorem colsum_at (src : FVec Ideal S5000x64 .f32) (u : Fin 1) (q : Fin 64) :
    shapeCast S1x64 (multiReduction (F := Ideal) .add [0] S64 src 0x00000000#32 reduces_S5000x64_S64 (.inl rfl) rfl)
        shapeCasts_S64_S1x64 (ix2 u q) = ∑ p : Fin 5000, src (ix2 p q) := by
  refine (shapeCast_a_1a_apply _ shapeCasts_S64_S1x64 u q).trans ?_
  refine (Ideal.multiReduction_add_single src 0x00000000#32 reduces_S5000x64_S64 (.inl rfl) rfl (ix1 q)).trans ?_
  show ∑ p : Fin 5000, src (reduces_S5000x64_S64.lift (ix1 q) p) = _
  refine Finset.sum_congr rfl fun p _ => congrArg src ?_
  funext ax; apply Fin.ext
  match ax with
  | ⟨0, _⟩ => rfl
  | ⟨1, _⟩ => rfl

/-- The running row of column sums after a point: what it held plus the column sums of the point's stored block. -/
theorem pay5_at (x a : Vec Ideal S5000x64 .f32) (w1 : Vec Ideal S64x64 .f32) (b1 : Vec Ideal S1x64 .f32)
    (w2 : Vec Ideal S64x64 .f32) (b2 : Vec Ideal S1x64 .f32) (acc : Vec Ideal S1x64 .f32) (u : Fin 1) (q : Fin 64) :
    k0_pay5 (F := Ideal) x a w1 b1 w2 b2 acc (ix2 u q)
      = acc (ix2 u q) + ∑ p : Fin 5000, k0_pay4 (F := Ideal) x a w1 b1 w2 b2 (ix2 p q) := by
  unfold k0_pay5
  refine congrArg₂ (· + ·) ?_ (colsum_at _ u q)
  rw [shapeCast_self]

/-- The running row of column sums of squares after a point: what it held plus the column sums of the squares of
    the point's stored block. -/
theorem pay1_at (blk : FVec Ideal S5000x64 .f32) (acc : Vec Ideal S1x64 .f32) (u : Fin 1) (q : Fin 64) :
    k0_pay1 (F := Ideal) blk acc (ix2 u q) = acc (ix2 u q) + ∑ p : Fin 5000, blk (ix2 p q) * blk (ix2 p q) := by
  unfold k0_pay1
  refine congrArg₂ (· + ·) ?_ ((colsum_at _ u q).trans rfl)
  rw [shapeCast_self]

/-- The two rows the first point resets the running rows to are zero. -/
theorem pay2_at (j : S1x64.Idx) : k0_pay2 (F := Ideal) j = 0 := Ideal.ofBits_zero_f32
theorem pay3_at (j : S1x64.Idx) : k0_pay3 (F := Ideal) j = 0 := Ideal.ofBits_zero_f32

end Cert.KernelIdeal.ConvValue0

end
-- ==== Proof.ConvBlocks0.lean ====
/-
  Where a block of a window sits in its array, for the graph-convolution perceptron kernel's nine windows.

  The grid has 20 points.  The two node arrays and the stored result are cut into 20 blocks of 5000 rows, block `t` at
  point `t`: row `p` of block `t` is row `5000 t + p` of the array.  The weights, the biases and the two running rows
  are one block each, the same at every point: an entry of the block is that entry of the array.
-/
import proofs.«171644_j66365834658285_1_alg».proof.Proof.Gen.KernelIdeal.Launch
import proofs.«171644_j66365834658285_1_alg».proof.Proof.Gen.KernelIdeal.Points
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.ConvValue0

open Cert.KernelIdeal Cert.KernelIdeal.Gen

/-- The block index of every window at every grid point: the point's number on the row axis for the three
    row-blocked windows, zero everywhere else. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- There are 20 grid points. -/
theorem N_eq : cfg0.N = 20 := N_0

/-- Row `p` of block `t` is a row of the 100000-row array. -/
theorem row_lt (t : Fin cfg0.N) (p : Fin 5000) : 5000 * t.val + p.val < 100000 := by
  have ht : t.val < 20 := lt_of_lt_of_eq t.isLt N_eq
  have := p.isLt; omega

/-- Window 0 (the node rows): row `p` of block `t` is row `5000 t + p` of the array. -/
theorem blk0_at (A : S100000x64.Idx → EReal) (t : Fin cfg0.N) (p : Fin 5000) (q : Fin 64) :
    (((cfg0.win 0).blk t).view.read (Elt Ideal) A : S5000x64.Idx → EReal) (ix2 p q)
      = A (ix2 ⟨5000 * t.val + p.val, row_lt t p⟩ q) := by
  obtain ⟨e0, e1, -⟩ := idx_facts t
  rw [View.read_apply]
  show A _ = A _
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 64 + 1 * q.val = q.val; rw [e1]; omega

/-- Window 1 (the in-neighbour sums): row `p` of block `t` is row `5000 t + p` of the array. -/
theorem blk1_at (A : S100000x64.Idx → EReal) (t : Fin cfg0.N) (p : Fin 5000) (q : Fin 64) :
    (((cfg0.win 1).blk t).view.read (Elt Ideal) A : S5000x64.Idx → EReal) (ix2 p q)
      = A (ix2 ⟨5000 * t.val + p.val, row_lt t p⟩ q) := by
  obtain ⟨-, -, e0, e1, -⟩ := idx_facts t
  rw [View.read_apply]
  show A _ = A _
  congr 1
  funext a
  apply Fin.ext
  match a with
  | ⟨0, _⟩ => show win0_1.index t (0 : Fin 2) * 5000 + 1 * p.val = 5000 * t.val + p.val; rw [e0]; omega
  | ⟨1, _⟩ => show win0_1.index t (1 : Fin 2) * 64 + 1 * q.val = q.val; rw [e1]; omega

/-- Window 6 (the stored result): row `p` of block `t` is row `5000 t + p` of the array. -/
theorem blk6_at (A : S100000x64.Idx → EReal) (t : Fin cfg0.N) (p : Fin 5000) (q : Fin 64) :
    (((cfg0.win 6).blk t).view.read (Elt Ideal) A : S5000x64.Idx → EReal) (ix2 p q)
      = A (ix2 ⟨5000 * t.val + p.val, row_lt t p⟩ q) := by
  obtain ⟨-, -, -, -, -, -, -, -, -, -, -, -, e0, e1, -⟩ := idx_facts t
  rw [View.read_apply]
  show A _ = A _
  congr 1
  funext a
  apply Fin.ext
  match a with
  | ⟨0, _⟩ => show win0_6.index t (0 : Fin 2) * 5000 + 1 * p.val = 5000 * t.val + p.val; rw [e0]; omega
  | ⟨1, _⟩ => show win0_6.index t (1 : Fin 2) * 64 + 1 * q.val = q.val; rw [e1]; omega

/-- Window 2 (the first weights) is one block: an entry of the block is that entry of the array. -/
theorem blk2_at (A : S64x64.Idx → EReal) (t : Fin cfg0.N) (j k : Fin 64) :
    (((cfg0.win 2).blk t).view.read (Elt Ideal) A : S64x64.Idx → EReal) (ix2 j k) = A (ix2 j k) := by
  obtain ⟨-, -, -, -, e0, e1, -⟩ := idx_facts t
  rw [View.read_apply]
  show A _ = A _
  congr 1
  funext a
  apply Fin.ext
  match a with
  | ⟨0, _⟩ => show win0_2.index t (0 : Fin 2) * 64 + 1 * j.val = j.val; rw [e0]; omega
  | ⟨1, _⟩ => show win0_2.index t (1 : Fin 2) * 64 + 1 * k.val = k.val; rw [e1]; omega

/-- Window 4 (the second weights) is one block. -/
theorem blk4_at (A : S64x64.Idx → EReal) (t : Fin cfg0.N) (j k : Fin 64) :
    (((cfg0.win 4).blk t).view.read (Elt Ideal) A : S64x64.Idx → EReal) (ix2 j k) = A (ix2 j k) := by
  obtain ⟨-, -, -, -, -, -, -, -, e0, e1, -⟩ := idx_facts t
  rw [View.read_apply]
  show A _ = A _
  congr 1
  funext a
  apply Fin.ext
  match a with
  | ⟨0, _⟩ => show win0_4.index t (0 : Fin 2) * 64 + 1 * j.val = j.val; rw [e0]; omega
  | ⟨1, _⟩ => show win0_4.index t (1 : Fin 2) * 64 + 1 * k.val = k.val; rw [e1]; omega

/-- Window 3 (the first bias row) is one block. -/
theorem blk3_at (A : S1x64.Idx → EReal) (t : Fin cfg0.N) (u : Fin 1) (k : Fin 64) :
    (((cfg0.win 3).blk t).view.read (Elt Ideal) A : S1x64.Idx → EReal) (ix2 u k) = A (ix2 u k) := by
  obtain ⟨-, -, -, -, -, -, e0, e1, -⟩ := idx_facts t
  rw [View.read_apply]
  show A _ = A _
  congr 1
  funext a
  apply Fin.ext
  match a with
  | ⟨0, _⟩ => show win0_3.index t (0 : Fin 2) * 1 + 1 * u.val = u.val; rw [e0]; omega
  | ⟨1, _⟩ => show win0_3.index t (1 : Fin 2) * 64 + 1 * k.val = k.val; rw [e1]; omega

/-- Window 5 (the second bias row) is one block. -/
theorem blk5_at (A : S1x64.Idx → EReal) (t : Fin cfg0.N) (u : Fin 1) (k : Fin 64) :
    (((cfg0.win 5).blk t).view.read (Elt Ideal) A : S1x64.Idx → EReal) (ix2 u k) = A (ix2 u k) := by
  obtain ⟨-, -, -, -, -, -, -, -, -, -, e0, e1, -⟩ := idx_facts t
  rw [View.read_apply]
  show A _ = A _
  congr 1
  funext a
  apply Fin.ext
  match a with
  | ⟨0, _⟩ => show win0_5.index t (0 : Fin 2) * 1 + 1 * u.val = u.val; rw [e0]; omega
  | ⟨1, _⟩ => show win0_5.index t (1 : Fin 2) * 64 + 1 * k.val = k.val; rw [e1]; omega

/-- Window 7 (the running row of column sums) is one block. -/
theorem blk7_at (A : S1x64.Idx → EReal) (t : Fin cfg0.N) (u : Fin 1) (k : Fin 64) :
    (((cfg0.win 7).blk t).view.read (Elt Ideal) A : S1x64.Idx → EReal) (ix2 u k) = A (ix2 u k) := by
  obtain ⟨-, -, -, -, -, -, -, -, -, -, -, -, -, -, e0, e1, -⟩ := idx_facts t
  rw [View.read_apply]
  show A _ = A _
  congr 1
  funext a
  apply Fin.ext
  match a with
  | ⟨0, _⟩ => show win0_7.index t (0 : Fin 2) * 1 + 1 * u.val = u.val; rw [e0]; omega
  | ⟨1, _⟩ => show win0_7.index t (1 : Fin 2) * 64 + 1 * k.val = k.val; rw [e1]; omega

/-- Window 8 (the running row of column sums of squares) is one block. -/
theorem blk8_at (A : S1x64.Idx → EReal) (t : Fin cfg0.N) (u : Fin 1) (k : Fin 64) :
    (((cfg0.win 8).blk t).view.read (Elt Ideal) A : S1x64.Idx → EReal) (ix2 u k) = A (ix2 u k) := by
  obtain ⟨-, -, -, -, -, -, -, -, -, -, -, -, -, -, -, -, e0, e1⟩ := idx_facts t
  rw [View.read_apply]
  show A _ = A _
  congr 1
  funext a
  apply Fin.ext
  match a with
  | ⟨0, _⟩ => show win0_8.index t (0 : Fin 2) * 1 + 1 * u.val = u.val; rw [e0]; omega
  | ⟨1, _⟩ => show win0_8.index t (1 : Fin 2) * 64 + 1 * k.val = k.val; rw [e1]; omega

end Cert.KernelIdeal.ConvValue0

end
-- ==== Proof.ConvPieces0.lean ====
/-
  What one run of the graph-convolution perceptron kernel's body leaves in its three output buffers, as values.

  The body's run on whole staging buffers is generated, in two cases: at the first grid point the two running rows are
  first reset to zero, at a later point they are read as the point before left them.  In both cases the result block's
  buffer receives one store of the whole block (the perceptron of the two input blocks), and each running row receives,
  last, one store of the whole row: what it held (the zero row just stored, or the carried row) plus the block's column
  sums, or plus the column sums of the block's squares.  A buffer whose last store covers it holds that store's value;
  a load after one covering store reads that store's value; a load of a buffer nothing stored to reads its contents.
-/
import proofs.«171644_j66365834658285_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.ConvValue0

open Cert.KernelIdeal Cert.KernelIdeal.Gen

variable {F : FTy → Type} [FloatOps F]

/-- The zero offsets of a store of a whole buffer. -/
theorem hz : (![0, 0] : Fin 2 → Nat) = fun _ => 0 := funext fun a => by fin_cases a <;> rfl

variable (c : Dev nD) (i : grid0.Coords)
  (a1 : Memref sig .tc .vmem S5000x64 .f32) (h1 : a1.IsWhole) (a2 : Memref sig .tc .vmem S5000x64 .f32) (h2 : a2.IsWhole)
  (a3 : Memref sig .tc .vmem S64x64 .f32) (h3 : a3.IsWhole) (a4 : Memref sig .tc .vmem S1x64 .f32) (h4 : a4.IsWhole)
  (a5 : Memref sig .tc .vmem S64x64 .f32) (h5 : a5.IsWhole) (a6 : Memref sig .tc .vmem S1x64 .f32) (h6 : a6.IsWhole)
  (a7 : Memref sig .tc .vmem S5000x64 .f32) (h7 : a7.IsWhole) (a8 : Memref sig .tc .vmem S1x64 .f32) (h8 : a8.IsWhole)
  (a9 : Memref sig .tc .vmem S1x64 .f32) (h9 : a9.IsWhole)
  (x0 x1 : Vec F S5000x64 .f32) (x2 : Vec F S64x64 .f32) (x3 : Vec F S1x64 .f32) (x4 : Vec F S64x64 .f32) (x5 : Vec F S1x64 .f32)

/-- Every point stores to the block of the result the perceptron of its two input blocks (the case of the first point). -/
theorem outA6 (hc : cond0_0 i) :
    out0_A_6 c i a1 h1 a2 h2 a3 h3 a4 h4 a5 h5 a6 h6 a7 h7 a8 h8 a9 h9 hc x0 x1 x2 x3 x4 x5 = k0_pay4 x0 x1 x2 x3 x4 x5 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x64) hz, View.ld_unit_zero (S := S64x64) hz, View.ld_unit_zero (S := S1x64) hz]

/-- At the first point the running row of column sums is reset to zero and then the block's column sums are added. -/
theorem outA7 (hc : cond0_0 i) :
    out0_A_7 c i a1 h1 a2 h2 a3 h3 a4 h4 a5 h5 a6 h6 a7 h7 a8 h8 a9 h9 hc x0 x1 x2 x3 x4 x5 = k0_pay5 x0 x1 x2 x3 x4 x5 k0_pay2 := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero hz, View.readCov_unit_zero _ hz]
  simp only [View.readAt_eq_ld, h1.read_unread, h2.read_unread, h3.read_unread, h4.read_unread, h5.read_unread, h6.read_unread, h8.read_unread, h9.read_unread, View.ld_unit_zero (S := S5000x64) hz, View.ld_unit_zero (S := S64x64) hz, View.ld_unit_zero (S := S1x64) hz]

/-- At the first point the running row of column sums of squares is reset to zero and then the block's are added. -/
theorem outA8 (hc : cond0_0 i) :
    out0_A_8 c i a1 h1 a2 h2 a3 h3 a4 h4 a5 h5 a6 h6 a7 h7 a8 h8 a9 h9 hc x0 x1 x2 x3 x4 x5 = k0_pay1 (k0_pay4 x0 x1 x2 x3 x4 x5) k0_pay3 := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero hz, View.readCov_unit_zero _ hz]
  simp only [View.readAt_eq_ld, h1.read_unread, h2.read_unread, h3.read_unread, h4.read_unread, h5.read_unread, h6.read_unread, h8.read_unread, h9.read_unread, View.ld_unit_zero (S := S5000x64) hz, View.ld_unit_zero (S := S64x64) hz, View.ld_unit_zero (S := S1x64) hz]

/-- Every point stores to the block of the result the perceptron of its two input blocks (the case of a later point). -/
theorem outB6 (hc : ¬cond0_0 i) (xo7 xo8 : Vec F S1x64 .f32) :
    out0_B_6 c i a1 h1 a2 h2 a3 h3 a4 h4 a5 h5 a6 h6 a7 h7 a8 h8 a9 h9 hc x0 x1 x2 x3 x4 x5 xo7 xo8 = k0_pay4 x0 x1 x2 x3 x4 x5 := by
  unfold out0_B_6
  rw [View.read_writes_eq_canon _ _ _ (cover0_B_6 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x64) hz, View.ld_unit_zero (S := S64x64) hz, View.ld_unit_zero (S := S1x64) hz]

/-- At a later point the block's column sums are added to what the running row held. -/
theorem outB7 (hc : ¬cond0_0 i) (xo7 xo8 : Vec F S1x64 .f32) :
    out0_B_7 c i a1 h1 a2 h2 a3 h3 a4 h4 a5 h5 a6 h6 a7 h7 a8 h8 a9 h9 hc x0 x1 x2 x3 x4 x5 xo7 xo8 = k0_pay5 x0 x1 x2 x3 x4 x5 xo7 := by
  unfold out0_B_7
  rw [View.read_writes_eq_canon _ _ _ (cover0_B_7 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x64) hz, View.ld_unit_zero (S := S64x64) hz, View.ld_unit_zero (S := S1x64) hz]

/-- At a later point the column sums of the block's squares are added to what the second running row held. -/
theorem outB8 (hc : ¬cond0_0 i) (xo7 xo8 : Vec F S1x64 .f32) :
    out0_B_8 c i a1 h1 a2 h2 a3 h3 a4 h4 a5 h5 a6 h6 a7 h7 a8 h8 a9 h9 hc x0 x1 x2 x3 x4 x5 xo7 xo8 = k0_pay1 (k0_pay4 x0 x1 x2 x3 x4 x5) xo8 := by
  unfold out0_B_8
  rw [View.read_writes_eq_canon _ _ _ (cover0_B_8 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x64) hz, View.ld_unit_zero (S := S64x64) hz, View.ld_unit_zero (S := S1x64) hz]

end Cert.KernelIdeal.ConvValue0

end
-- ==== Proof.ConvInv0.lean ====
/-
  What the three outputs of the graph-convolution perceptron kernel hold after each grid point, as one invariant.

  Write `X` for the perceptron `relu ((h + agg) · w1 + b1) · w2 + b2` of the whole node array, 100000 rows.  The block
  stored at point `t` is rows `5000 t … 5000 t + 4999` of `X`, because a row of the perceptron depends on that row of
  the input only and the weights are whole at every point.  The first point resets the two running rows to zero and
  every point adds its block's column sums, so after point `n` the first running row holds, in column `q`, the sum of
  `X`'s column `q` over rows `0 … 5000 (n + 1) − 1`, and the second the sum of the squares over the same rows: by
  induction on the point.  After the last point, `n = 19`, these are the sums over all 100000 rows.
-/
import proofs.«171644_j66365834658285_1_alg».proof.Proof.ConvPay0
import proofs.«171644_j66365834658285_1_alg».proof.Proof.ConvBlocks0
import proofs.«171644_j66365834658285_1_alg».proof.Proof.ConvPieces0
import proofs.«171644_j66365834658285_1_alg».proof.Proof.Spec

noncomputable section

open Idealize.ShloMosaic Idealize.ShloMosaic.TcCoe Idealize.SL.Sem Idealize.ShloMosaic.ValueIdx
open Idealize.ShloMosaic.Pipeline (Dat)

namespace Cert.KernelIdeal.ConvValue0

open Cert.KernelIdeal Cert.KernelIdeal.Gen

/-! ## One point's step, for any float instance -/

section Step

variable {F : FTy → Type} [FloatOps F]
variable (V : (c : Dev nD) → (b : Ref sig .tc) → Buf (Elt F) ((c : Thread nD τ).loc b)) (c : Dev nD)

/-- The block point `t` stores: the perceptron of its two input blocks at the whole weights. -/
def blkOf (t : Fin cfg0.N) : Vec F S5000x64 .f32 :=
  k0_pay4 (iblk0 V c 0 t) (iblk0 V c 1 t) (iblk0 V c 2 t) (iblk0 V c 3 t) (iblk0 V c 4 t) (iblk0 V c 5 t)

/-- The first point: the block, and the two running rows reset and then added to. -/
theorem step_A (t : Fin cfg0.N) (h0 : t.val % 20 = 0) :
    outsAt0 V c t.val t.isLt
      = (blkOf V c t, k0_pay5 (iblk0 V c 0 t) (iblk0 V c 1 t) (iblk0 V c 2 t) (iblk0 V c 3 t) (iblk0 V c 4 t) (iblk0 V c 5 t) k0_pay2, k0_pay1 (blkOf V c t) k0_pay3) := by
  rw [outsAt0_A V c t h0]
  have e6 := outA6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) ((hcond0_0 t).mpr h0)
  have e7 := outA7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) ((hcond0_0 t).mpr h0)
  have e8 := outA8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) ((hcond0_0 t).mpr h0)
  rw [e6, e7, e8]
  rfl

/-- A later point: the block, and the two running rows of the point before added to. -/
theorem step_B (t : Fin cfg0.N) (h0 : ¬t.val % 20 = 0) :
    outsAt0 V c t.val t.isLt
      = (blkOf V c t,
          k0_pay5 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1,
          k0_pay1 (blkOf V c t) (outsAt0 V c (t.val - 1) (Nat.lt_of_le_of_lt (Nat.sub_le _ _) t.isLt)).2.2) := by
  rw [outsAt0_B V c t h0]
  have e6 := outB6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (fun h => h0 ((hcond0_0 t).mp h)) (outsAt0 V c (t.val - 1) (Nat.lt_of_le_of_lt (Nat.sub_le _ _) t.isLt)).2.1 (outsAt0 V c (t.val - 1) (Nat.lt_of_le_of_lt (Nat.sub_le _ _) t.isLt)).2.2
  have e7 := outB7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (fun h => h0 ((hcond0_0 t).mp h)) (outsAt0 V c (t.val - 1) (Nat.lt_of_le_of_lt (Nat.sub_le _ _) t.isLt)).2.1 (outsAt0 V c (t.val - 1) (Nat.lt_of_le_of_lt (Nat.sub_le _ _) t.isLt)).2.2
  have e8 := outB8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (fun h => h0 ((hcond0_0 t).mp h)) (outsAt0 V c (t.val - 1) (Nat.lt_of_le_of_lt (Nat.sub_le _ _) t.isLt)).2.1 (outsAt0 V c (t.val - 1) (Nat.lt_of_le_of_lt (Nat.sub_le _ _) t.isLt)).2.2
  rw [e6, e7, e8]
  rfl

end Step

/-! ## Sums over rows, block by block -/

/-- A sum over the first `b (n + 1)` naturals is the sum over the first `b n` plus the sum over the next `b`. -/
theorem sum_range_block {M : Type*} [AddCommMonoid M] (f : ℕ → M) (b n : ℕ) :
    ∑ r ∈ Finset.range (b * (n + 1)), f r = ∑ r ∈ Finset.range (b * n), f r + ∑ p : Fin b, f (b * n + p.val) := by
  rw [Nat.mul_succ, Finset.sum_range_add, Finset.sum_range (fun x => f (b * n + x))]

/-- Entry `(r, q)` of a 100000×64 matrix for a natural `r`, zero past the last row. -/
def rowOf (X : S100000x64.Idx → EReal) (r : ℕ) (q : Fin 64) : EReal :=
  if h : r < 100000 then X (ix2 ⟨r, h⟩ q) else 0

/-- All 20 blocks of 5000 rows: the sum over every row. -/
theorem sum_rowOf (X : S100000x64.Idx → EReal) (q : Fin 64) :
    ∑ r ∈ Finset.range (5000 * (19 + 1)), rowOf X r q = ∑ p : Fin 100000, X (ix2 p q) := by
  show ∑ r ∈ Finset.range 100000, rowOf X r q = _
  rw [Finset.sum_range]
  refine Finset.sum_congr rfl fun p _ => ?_
  unfold rowOf
  rw [dif_pos p.isLt]

/-- The same for the squares. -/
theorem sum_rowOf_sq (X : S100000x64.Idx → EReal) (q : Fin 64) :
    ∑ r ∈ Finset.range (5000 * (19 + 1)), rowOf X r q * rowOf X r q = ∑ p : Fin 100000, X (ix2 p q) * X (ix2 p q) := by
  show ∑ r ∈ Finset.range 100000, rowOf X r q * rowOf X r q = _
  rw [Finset.sum_range]
  refine Finset.sum_congr rfl fun p _ => ?_
  unfold rowOf
  rw [dif_pos p.isLt]

/-! ## The invariant over the extended reals -/

variable (V : (c : Dev nD) → (b : Ref sig .tc) → Buf (Elt Ideal) ((c : Thread nD τ).loc b)) (c : Dev nD)

/-- The perceptron of the whole node array as the region finds it: `relu ((h + agg) · w1 + b1) · w2 + b2`. -/
def convOf : S100000x64.Idx → EReal :=
  Cert.Gin.mlp2 (Cert.Gin.plus (V c main_arg0 : S100000x64.Idx → EReal) (V c main_v13 : S100000x64.Idx → EReal))
    (V c main_arg3 : S64x64.Idx → EReal) (fun q => (V c main_v14 : S1x64.Idx → EReal) (ix2 0 (q 0)))
    (V c main_arg5 : S64x64.Idx → EReal) (fun q => (V c main_v15 : S1x64.Idx → EReal) (ix2 0 (q 0)))

/-- Row `p` of the block point `t` stores is row `5000 t + p` of the perceptron of the whole array. -/
theorem blkOf_at (t : Fin cfg0.N) (p : Fin 5000) (q : Fin 64) :
    blkOf V c t (ix2 p q) = convOf V c (ix2 ⟨5000 * t.val + p.val, row_lt t p⟩ q) := by
  unfold blkOf
  refine (pay4_at (iblk0 V c 0 t) (iblk0 V c 1 t) (iblk0 V c 2 t) (iblk0 V c 3 t) (iblk0 V c 4 t) (iblk0 V c 5 t) p q).trans ?_
  unfold convOf Cert.Gin.mlp2 Cert.Gin.plus
  refine congrArg₂ (· + ·) (Finset.sum_congr rfl fun k _ => congrArg₂ (· * ·) (congrArg₂ max (congrArg₂ (· + ·)
    (Finset.sum_congr rfl fun j _ => congrArg₂ (· * ·)
      (congrArg₂ (· + ·) (blk0_at (V c main_arg0) t p j) (blk1_at (V c main_v13) t p j))
      (blk2_at (V c main_arg3) t j k))
    (blk3_at (V c main_v14) t 0 k)) rfl) (blk4_at (V c main_arg5) t k q)) (blk5_at (V c main_v15) t 0 q)

/-- The same, with the row as a natural number. -/
theorem blkOf_row (t : Fin cfg0.N) (p : Fin 5000) (q : Fin 64) :
    blkOf V c t (ix2 p q) = rowOf (convOf V c) (5000 * t.val + p.val) q := by
  rw [blkOf_at]
  unfold rowOf
  rw [dif_pos (row_lt t p)]

/-- THE INVARIANT: after point `n` the block buffer holds block `n` of the perceptron, and the two running rows hold
    the column sums, and the column sums of squares, of its rows `0 … 5000 (n + 1) − 1`. -/
theorem inv : ∀ (n : ℕ) (h : n < cfg0.N),
    (outsAt0 V c n h).1 = blkOf V c ⟨n, h⟩
    ∧ (∀ (u : Fin 1) (q : Fin 64), (outsAt0 V c n h).2.1 (ix2 u q)
        = ∑ r ∈ Finset.range (5000 * (n + 1)), rowOf (convOf V c) r q)
    ∧ (∀ (u : Fin 1) (q : Fin 64), (outsAt0 V c n h).2.2 (ix2 u q)
        = ∑ r ∈ Finset.range (5000 * (n + 1)), rowOf (convOf V c) r q * rowOf (convOf V c) r q)
  | 0, h => by
    have e := step_A V c ⟨0, h⟩ (Nat.zero_mod 20)
    refine ⟨congrArg Prod.fst e, fun u q => ?_, fun u q => ?_⟩
    · refine (congrFun (congrArg (fun x => x.2.1) e) (ix2 u q)).trans ?_
      refine (pay5_at (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (k0_pay2 (F := Ideal)) u q).trans ?_
      rw [pay2_at, sum_range_block, Nat.mul_zero, Finset.range_zero, Finset.sum_empty]
      exact congrArg _ (Finset.sum_congr rfl fun p _ => blkOf_row V c ⟨0, h⟩ p q)
    · refine (congrFun (congrArg (fun x => x.2.2) e) (ix2 u q)).trans ?_
      refine (pay1_at (blkOf V c ⟨0, h⟩) (k0_pay3 (F := Ideal)) u q).trans ?_
      rw [pay3_at, sum_range_block, Nat.mul_zero, Finset.range_zero, Finset.sum_empty]
      exact congrArg _ (Finset.sum_congr rfl fun p _ =>
        congrArg₂ (· * ·) (blkOf_row V c ⟨0, h⟩ p q) (blkOf_row V c ⟨0, h⟩ p q))
  | n + 1, h => by
    have h20 : n + 1 < 20 := lt_of_lt_of_eq h N_eq
    have hB : ¬(⟨n + 1, h⟩ : Fin cfg0.N).val % 20 = 0 := by dsimp only; omega
    have e := step_B V c ⟨n + 1, h⟩ hB
    obtain ⟨-, ih7, ih8⟩ := inv n (Nat.lt_of_succ_lt h)
    refine ⟨congrArg Prod.fst e, fun u q => ?_, fun u q => ?_⟩
    · refine (congrFun (congrArg (fun x => x.2.1) e) (ix2 u q)).trans ?_
      refine (pay5_at (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) _ u q).trans ?_
      rw [sum_range_block _ 5000 (n + 1)]
      exact congrArg₂ (· + ·) (ih7 u q) (Finset.sum_congr rfl fun p _ => blkOf_row V c ⟨n + 1, h⟩ p q)
    · refine (congrFun (congrArg (fun x => x.2.2) e) (ix2 u q)).trans ?_
      refine (pay1_at (blkOf V c ⟨n + 1, h⟩) _ u q).trans ?_
      rw [sum_range_block _ 5000 (n + 1)]
      exact congrArg₂ (· + ·) (ih8 u q) (Finset.sum_congr rfl fun p _ =>
        congrArg₂ (· * ·) (blkOf_row V c ⟨n + 1, h⟩ p q) (blkOf_row V c ⟨n + 1, h⟩ p q))

end Cert.KernelIdeal.ConvValue0

end
-- ==== Proof.ConvValue0.lean ====
/-
  The three arrays the graph-convolution perceptron kernel leaves, as functions of the arrays it finds.

  The stored result is written back block by block: point `t` writes rows `5000 t … 5000 t + 4999`, and those blocks
  tile the 100000 rows, so the array ends holding the perceptron `relu ((h + agg) · w1 + b1) · w2 + b2` of the whole node
  array.  Each of the two running rows is one block, written back once, after the last point; by then it holds the sum
  over all 20 blocks of 5000 rows, which is the sum over all 100000 rows: the column sums of the perceptron's output,
  and the column sums of its squares.
-/
import proofs.«171644_j66365834658285_1_alg».proof.Proof.ConvInv0

noncomputable section

open Idealize.ShloMosaic Idealize.ShloMosaic.TcCoe Idealize.SL.Sem Idealize.ShloMosaic.ValueIdx
open Idealize.ShloMosaic.Pipeline (Dat)

namespace Cert.KernelIdeal.ConvValue0

open Cert.KernelIdeal Cert.KernelIdeal.Gen

variable (V : (c : Dev nD) → (b : Ref sig .tc) → Buf (Elt Ideal) ((c : Thread nD τ).loc b)) (c : Dev nD)

/-! ## The stored result: 20 blocks of 5000 rows -/

/-- What point `t` writes back is block `t` of the perceptron of the whole node array. -/
theorem flushed6_eq (t : Fin cfg0.N) :
    (dat0 V c).flushed 6 t = ((cfg0.win 6).blk t).view.read (Elt Ideal) (convOf V c) := by
  show (cfg0.win 6).cut (grid0.coords t) ((dat0 V c).after 6 t) = _
  rw [after0_6, (inv V c t.val t.isLt).1]
  funext j
  obtain ⟨p, q, rfl⟩ : ∃ (p : Fin 5000) (q : Fin 64), j = ix2 p q := ⟨j 0, j 1, eq_ix2 j⟩
  exact (blkOf_at V c t p q).trans (blk6_at (convOf V c) t p q).symm

/-- An index of the array is in point `t`'s block iff each coordinate is in the block's range on its axis. -/
theorem mem_blk6 (t : Fin cfg0.N) (i : S100000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v16_0).slice (win0_6.rect t)).set ↔ _
  rw [View.set_slice_whole, Rect.mem_set_unit]
  exact Iff.rfl

/-- The blocks tile the rows (row `r` is in block `r / 5000`), so the array ends holding the perceptron of the whole
    node array. -/
theorem final6 : ((dat0 (F := Ideal) V c).arrAt 6 cfg0.N : S100000x64.Idx → EReal) = convOf V c :=
  (dat0 V c).arrAt_eq_of_cover 6 (convOf V c) (fun t _ => flushed6_eq V c t) fun i => by
    have hi0 : (i 0).val < 100000 := (i 0).isLt
    have hi1 : (i 1).val < 64 := (i 1).isLt
    have ht : (i 0).val / 5000 < cfg0.N := by rw [N_eq]; omega
    obtain ⟨-, -, -, -, -, -, -, -, -, -, -, -, e0, e1, -⟩ := idx_facts ⟨(i 0).val / 5000, ht⟩
    refine ⟨⟨(i 0).val / 5000, ht⟩, flush0_6 _, (mem_blk6 _ i).mpr fun a => ?_⟩
    match a with
    | ⟨0, _⟩ =>
      show win0_6.index ⟨(i 0).val / 5000, ht⟩ (0 : Fin 2) * 5000 ≤ (i 0).val
        ∧ (i 0).val < win0_6.index ⟨(i 0).val / 5000, ht⟩ (0 : Fin 2) * 5000 + 5000
      rw [e0]; show (i 0).val / 5000 * 5000 ≤ (i 0).val ∧ (i 0).val < (i 0).val / 5000 * 5000 + 5000; omega
    | ⟨1, _⟩ =>
      show win0_6.index ⟨(i 0).val / 5000, ht⟩ (1 : Fin 2) * 64 ≤ (i 1).val
        ∧ (i 1).val < win0_6.index ⟨(i 0).val / 5000, ht⟩ (1 : Fin 2) * 64 + 64
      rw [e1]; omega

/-! ## The two running rows: one block each, written back after the last point -/

/-- The last point. -/
theorem last_lt : 19 < cfg0.N := by rw [N_eq]; norm_num

/-- A point that writes a running row back is the last one. -/
theorem eq_last_of_mod (t : Fin cfg0.N) (h : t.val % 20 = 19) : t.val = 19 := by
  have := lt_of_lt_of_eq t.isLt N_eq; omega

/-- The one write-back of the first running row writes the column sums of the perceptron's output. -/
theorem flushed7_eq (t : Fin cfg0.N) (hf : (cfg0.win 7).flush t = true) :
    (dat0 V c).flushed 7 t
      = ((cfg0.win 7).blk t).view.read (Elt Ideal) (fun i : S1x64.Idx => Cert.Gin.colSum (convOf V c) (ix1 (i 1))) := by
  have h19 : t.val = 19 := eq_last_of_mod t ((flush0_7 t).mp hf)
  show (cfg0.win 7).cut (grid0.coords t) ((dat0 V c).after 7 t) = _
  rw [after0_7]
  funext j
  obtain ⟨u, q, rfl⟩ : ∃ (u : Fin 1) (q : Fin 64), j = ix2 u q := ⟨j 0, j 1, eq_ix2 j⟩
  refine ((inv V c t.val t.isLt).2.1 u q).trans ?_
  rw [blk7_at, h19, sum_rowOf]
  rfl

/-- The one write-back of the second running row writes the column sums of the squares of the perceptron's output. -/
theorem flushed8_eq (t : Fin cfg0.N) (hf : (cfg0.win 8).flush t = true) :
    (dat0 V c).flushed 8 t
      = ((cfg0.win 8).blk t).view.read (Elt Ideal) (fun i : S1x64.Idx => Cert.Gin.colSumSq (convOf V c) (ix1 (i 1))) := by
  have h19 : t.val = 19 := eq_last_of_mod t ((flush0_8 t).mp hf)
  show (cfg0.win 8).cut (grid0.coords t) ((dat0 V c).after 8 t) = _
  rw [after0_8]
  funext j
  obtain ⟨u, q, rfl⟩ : ∃ (u : Fin 1) (q : Fin 64), j = ix2 u q := ⟨j 0, j 1, eq_ix2 j⟩
  refine ((inv V c t.val t.isLt).2.2 u q).trans ?_
  rw [blk8_at, h19, sum_rowOf_sq]
  rfl

/-- An index of the first running row's array is in the one block. -/
theorem mem_blk7 (t : Fin cfg0.N) (i : S1x64.Idx) : i ∈ ((cfg0.win 7).blk t).view.set := by
  show i ∈ ((View.whole main_v16_1).slice (win0_7.rect t)).set
  rw [View.set_slice_whole, Rect.mem_set_unit]
  obtain ⟨-, -, -, -, -, -, -, -, -, -, -, -, -, -, e0, e1, -⟩ := idx_facts t
  have hi0 : (i 0).val < 1 := (i 0).isLt
  have hi1 : (i 1).val < 64 := (i 1).isLt
  intro a
  match a with
  | ⟨0, _⟩ =>
    show win0_7.index t (0 : Fin 2) * 1 ≤ (i 0).val ∧ (i 0).val < win0_7.index t (0 : Fin 2) * 1 + 1
    rw [e0]; omega
  | ⟨1, _⟩ =>
    show win0_7.index t (1 : Fin 2) * 64 ≤ (i 1).val ∧ (i 1).val < win0_7.index t (1 : Fin 2) * 64 + 64
    rw [e1]; omega

/-- An index of the second running row's array is in the one block. -/
theorem mem_blk8 (t : Fin cfg0.N) (i : S1x64.Idx) : i ∈ ((cfg0.win 8).blk t).view.set := by
  show i ∈ ((View.whole main_v16_2).slice (win0_8.rect t)).set
  rw [View.set_slice_whole, Rect.mem_set_unit]
  obtain ⟨-, -, -, -, -, -, -, -, -, -, -, -, -, -, -, -, e0, e1⟩ := idx_facts t
  have hi0 : (i 0).val < 1 := (i 0).isLt
  have hi1 : (i 1).val < 64 := (i 1).isLt
  intro a
  match a with
  | ⟨0, _⟩ =>
    show win0_8.index t (0 : Fin 2) * 1 ≤ (i 0).val ∧ (i 0).val < win0_8.index t (0 : Fin 2) * 1 + 1
    rw [e0]; omega
  | ⟨1, _⟩ =>
    show win0_8.index t (1 : Fin 2) * 64 ≤ (i 1).val ∧ (i 1).val < win0_8.index t (1 : Fin 2) * 64 + 64
    rw [e1]; omega

/-- The first running row's array ends holding the column sums of the perceptron's output over all 100000 rows. -/
theorem final7 : ((dat0 (F := Ideal) V c).arrAt 7 cfg0.N : S1x64.Idx → EReal)
    = fun i => Cert.Gin.colSum (convOf V c) (ix1 (i 1)) :=
  (dat0 V c).arrAt_eq_of_cover 7 (fun i : S1x64.Idx => Cert.Gin.colSum (convOf V c) (ix1 (i 1))) (flushed7_eq V c)
    fun i => ⟨⟨19, last_lt⟩, (flush0_7 _).mpr rfl, mem_blk7 _ i⟩

/-- The second running row's array ends holding the column sums of the squares over all 100000 rows. -/
theorem final8 : ((dat0 (F := Ideal) V c).arrAt 8 cfg0.N : S1x64.Idx → EReal)
    = fun i => Cert.Gin.colSumSq (convOf V c) (ix1 (i 1)) :=
  (dat0 V c).arrAt_eq_of_cover 8 (fun i : S1x64.Idx => Cert.Gin.colSumSq (convOf V c) (ix1 (i 1))) (flushed8_eq V c)
    fun i => ⟨⟨19, last_lt⟩, (flush0_8 _).mpr rfl, mem_blk8 _ i⟩

/-! ## The same, with the arrays the region finds given names -/

section Named

variable (x agg : FVec Ideal S100000x64 .f32) (w1 : FVec Ideal S64x64 .f32) (b1 : FVec Ideal S64 .f32)
  (w2 : FVec Ideal S64x64 .f32) (b2 : FVec Ideal S64 .f32)

/-- The perceptron of the arrays the region finds, when those are named: the biases, found as one-row matrices, are
    read at their one row. -/
theorem convOf_eq (hx : (V c main_arg0 : S100000x64.Idx → EReal) = x)
    (hagg : (V c main_v13 : S100000x64.Idx → EReal) = agg) (hw1 : (V c main_arg3 : S64x64.Idx → EReal) = w1)
    (hb1 : ∀ q : Fin 64, (V c main_v14 : S1x64.Idx → EReal) (ix2 (0 : Fin 1) q) = b1 (ix1 q))
    (hw2 : (V c main_arg5 : S64x64.Idx → EReal) = w2)
    (hb2 : ∀ q : Fin 64, (V c main_v15 : S1x64.Idx → EReal) (ix2 (0 : Fin 1) q) = b2 (ix1 q)) :
    convOf V c = Cert.Gin.mlp2 (Cert.Gin.plus x agg) w1 b1 w2 b2 := by
  have e1 : (fun q : S64.Idx => (V c main_v14 : S1x64.Idx → EReal) (ix2 (0 : Fin 1) (q 0))) = b1 :=
    funext fun q => (hb1 (q 0)).trans (congrArg b1 (eq_ix1 q).symm)
  have e2 : (fun q : S64.Idx => (V c main_v15 : S1x64.Idx → EReal) (ix2 (0 : Fin 1) (q 0))) = b2 :=
    funext fun q => (hb2 (q 0)).trans (congrArg b2 (eq_ix1 q).symm)
  unfold convOf
  rw [hx, hagg, hw1, hw2, e1, e2]

/-- The stored result, with the arrays named. -/
theorem final6' (hx : (V c main_arg0 : S100000x64.Idx → EReal) = x)
    (hagg : (V c main_v13 : S100000x64.Idx → EReal) = agg) (hw1 : (V c main_arg3 : S64x64.Idx → EReal) = w1)
    (hb1 : ∀ q : Fin 64, (V c main_v14 : S1x64.Idx → EReal) (ix2 (0 : Fin 1) q) = b1 (ix1 q))
    (hw2 : (V c main_arg5 : S64x64.Idx → EReal) = w2)
    (hb2 : ∀ q : Fin 64, (V c main_v15 : S1x64.Idx → EReal) (ix2 (0 : Fin 1) q) = b2 (ix1 q)) :
    ((Gen.dat0 (F := Ideal) V c).arrAt 6 cfg0.N : S100000x64.Idx → EReal)
      = Cert.Gin.mlp2 (Cert.Gin.plus x agg) w1 b1 w2 b2 :=
  (final6 V c).trans (convOf_eq V c x agg w1 b1 w2 b2 hx hagg hw1 hb1 hw2 hb2)

/-- The column sums, with the arrays named. -/
theorem final7' (hx : (V c main_arg0 : S100000x64.Idx → EReal) = x)
    (hagg : (V c main_v13 : S100000x64.Idx → EReal) = agg) (hw1 : (V c main_arg3 : S64x64.Idx → EReal) = w1)
    (hb1 : ∀ q : Fin 64, (V c main_v14 : S1x64.Idx → EReal) (ix2 (0 : Fin 1) q) = b1 (ix1 q))
    (hw2 : (V c main_arg5 : S64x64.Idx → EReal) = w2)
    (hb2 : ∀ q : Fin 64, (V c main_v15 : S1x64.Idx → EReal) (ix2 (0 : Fin 1) q) = b2 (ix1 q)) :
    ∀ q : Fin 64, ((Gen.dat0 (F := Ideal) V c).arrAt 7 cfg0.N : S1x64.Idx → EReal) (ix2 (0 : Fin 1) q)
      = Cert.Gin.colSum (Cert.Gin.mlp2 (Cert.Gin.plus x agg) w1 b1 w2 b2) (ix1 q) := by
  intro q
  rw [final7 V c, convOf_eq V c x agg w1 b1 w2 b2 hx hagg hw1 hb1 hw2 hb2]
  rfl

/-- The column sums of squares, with the arrays named. -/
theorem final8' (hx : (V c main_arg0 : S100000x64.Idx → EReal) = x)
    (hagg : (V c main_v13 : S100000x64.Idx → EReal) = agg) (hw1 : (V c main_arg3 : S64x64.Idx → EReal) = w1)
    (hb1 : ∀ q : Fin 64, (V c main_v14 : S1x64.Idx → EReal) (ix2 (0 : Fin 1) q) = b1 (ix1 q))
    (hw2 : (V c main_arg5 : S64x64.Idx → EReal) = w2)
    (hb2 : ∀ q : Fin 64, (V c main_v15 : S1x64.Idx → EReal) (ix2 (0 : Fin 1) q) = b2 (ix1 q)) :
    ∀ q : Fin 64, ((Gen.dat0 (F := Ideal) V c).arrAt 8 cfg0.N : S1x64.Idx → EReal) (ix2 (0 : Fin 1) q)
      = Cert.Gin.colSumSq (Cert.Gin.mlp2 (Cert.Gin.plus x agg) w1 b1 w2 b2) (ix1 q) := by
  intro q
  rw [final8 V c, convOf_eq V c x agg w1 b1 w2 b2 hx hagg hw1 hb1 hw2 hb2]
  rfl

end Named

end Cert.KernelIdeal.ConvValue0

end
-- ==== Proof.ConvPay2.lean ====
/-
  The arithmetic of one grid point of the graph-convolution perceptron kernel, read entry by entry over the extended reals.

  A grid point holds a block of 5000 node rows `x`, the block `a` of their in-neighbour sums, and the whole weights.
  It stores the block `relu ((x + a) · w1 + b1) · w2 + b2`, adds that block's column sums to a running row, and adds the
  column sums of its squares to a second running row.  Here each of the three stored values is written out at one entry
  as the sums it is; the casts to the 16-bit format are the identity on extended reals, a product into a zero
  accumulator is the plain sum over the contracted coordinate, and the reduction over the row axis is the sum over rows.
-/
import proofs.«171644_j66365834658285_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.ConvValue2

open Cert.KernelIdeal Cert.KernelIdeal.Gen

/-- A 5000×64 block times a 64×64 matrix into a zero accumulator, at entry `(p, q)`: the sum over the contracted
    coordinate of the products of the entries. -/
theorem matmul_at {φ₁ φ₂ : FTy} (A : FVec Ideal S5000x64 φ₁) (B : FVec Ideal S64x64 φ₂) (p : Fin 5000) (q : Fin 64) :
    matmul dot_S5000x64_S64x64_S5000x64_1_0_0_1_n_n none A B (constant (F := Ideal) S5000x64 .f32 0x00000000#32) (ix2 p q)
      = ∑ k : Fin 64, A (ix2 p k) * B (ix2 k q) := by
  refine (Ideal.matmul_constant_zero_apply dot_S5000x64_S64x64_S5000x64_1_0_0_1_n_n none A B (ix2 p q)).trans ?_
  rw [← Equiv.sum_comp (contrEquiv1 dot_S5000x64_S64x64_S5000x64_1_0_0_1_n_n 64 rfl rfl).symm]
  refine Finset.sum_congr rfl fun k _ => ?_
  have ck := contrEquiv1_symm_val dot_S5000x64_S64x64_S5000x64_1_0_0_1_n_n 64 rfl rfl k
  have l2 : dot_S5000x64_S64x64_S5000x64_1_0_0_1_n_n.lhsIdx (ix2 p q) ((contrEquiv1 _ 64 rfl rfl).symm k) = ix2 p k := by
    funext ax; apply Fin.ext
    match ax with
    | ⟨0, _⟩ => simp [DotDims.lhsIdx, dot_S5000x64_S64x64_S5000x64_1_0_0_1_n_n]; rfl
    | ⟨1, _⟩ => simp [DotDims.lhsIdx, dot_S5000x64_S64x64_S5000x64_1_0_0_1_n_n]; exact ck
  have r2 : dot_S5000x64_S64x64_S5000x64_1_0_0_1_n_n.rhsIdx (ix2 p q) ((contrEquiv1 _ 64 rfl rfl).symm k) = ix2 k q := by
    funext ax; apply Fin.ext
    match ax with
    | ⟨0, _⟩ => simp [DotDims.rhsIdx, dot_S5000x64_S64x64_S5000x64_1_0_0_1_n_n]; exact ck
    | ⟨1, _⟩ => simp [DotDims.rhsIdx, dot_S5000x64_S64x64_S5000x64_1_0_0_1_n_n]; rfl
  rw [l2, r2]

/-- A 1×64 row broadcast down 5000 rows reads, at `(p, q)`, the row's entry `q`. -/
theorem bcast_at (b : Vec Ideal S1x64 .f32) (p : Fin 5000) (q : Fin 64) :
    broadcastTo S5000x64 (shapeCast S1x64 b shapeCasts_S1x64_S1x64) broadcasts_S1x64_S5000x64 (ix2 p q) = b (ix2 0 q) := by
  rw [shapeCast_self]
  exact broadcastTo_apply b broadcasts_S1x64_S5000x64 (ix2 p q) (ix2 0 q) (fun a => by
    match a with
    | ⟨0, _⟩ => rfl
    | ⟨1, _⟩ => rfl)

/-- The stored block at entry `(p, q)`: the two-layer perceptron of row `p` of `x + a`. -/
theorem pay4_at (x a : Vec Ideal S5000x64 .f32) (w1 : Vec Ideal S64x64 .f32) (b1 : Vec Ideal S1x64 .f32)
    (w2 : Vec Ideal S64x64 .f32) (b2 : Vec Ideal S1x64 .f32) (p : Fin 5000) (q : Fin 64) :
    k2_pay4 (F := Ideal) x a w1 b1 w2 b2 (ix2 p q)
      = (∑ k : Fin 64, max ((∑ j : Fin 64, (x (ix2 p j) + a (ix2 p j)) * w1 (ix2 j k)) + b1 (ix2 0 k)) 0 * w2 (ix2 k q))
        + b2 (ix2 0 q) := by
  unfold k2_pay4
  refine congrArg₂ (· + ·) ?_ (bcast_at b2 p q)
  refine (matmul_at _ _ p q).trans ?_
  refine Finset.sum_congr rfl fun k _ => ?_
  refine congrArg₂ (· * ·) ?_ rfl
  show max (_ + _) (Ideal.ofBits .f32 0x00000000#32) = _
  rw [Ideal.ofBits_zero_f32]
  refine congrArg₂ max (congrArg₂ (· + ·) ?_ (bcast_at b1 p k)) rfl
  refine (matmul_at _ _ p k).trans ?_
  refine Finset.sum_congr rfl fun j _ => ?_
  rw [shapeCast_self, shapeCast_self]
  rfl

/-- The column sums of a 5000×64 block, kept as a 1×64 row: entry `(0, q)` is the sum of column `q` over the 5000 rows. -/
theorem colsum_at (src : FVec Ideal S5000x64 .f32) (u : Fin 1) (q : Fin 64) :
    shapeCast S1x64 (multiReduction (F := Ideal) .add [0] S64 src 0x00000000#32 reduces_S5000x64_S64 (.inl rfl) rfl)
        shapeCasts_S64_S1x64 (ix2 u q) = ∑ p : Fin 5000, src (ix2 p q) := by
  refine (shapeCast_a_1a_apply _ shapeCasts_S64_S1x64 u q).trans ?_
  refine (Ideal.multiReduction_add_single src 0x00000000#32 reduces_S5000x64_S64 (.inl rfl) rfl (ix1 q)).trans ?_
  show ∑ p : Fin 5000, src (reduces_S5000x64_S64.lift (ix1 q) p) = _
  refine Finset.sum_congr rfl fun p _ => congrArg src ?_
  funext ax; apply Fin.ext
  match ax with
  | ⟨0, _⟩ => rfl
  | ⟨1, _⟩ => rfl

/-- The running row of column sums after a point: what it held plus the column sums of the point's stored block. -/
theorem pay5_at (x a : Vec Ideal S5000x64 .f32) (w1 : Vec Ideal S64x64 .f32) (b1 : Vec Ideal S1x64 .f32)
    (w2 : Vec Ideal S64x64 .f32) (b2 : Vec Ideal S1x64 .f32) (acc : Vec Ideal S1x64 .f32) (u : Fin 1) (q : Fin 64) :
    k2_pay5 (F := Ideal) x a w1 b1 w2 b2 acc (ix2 u q)
      = acc (ix2 u q) + ∑ p : Fin 5000, k2_pay4 (F := Ideal) x a w1 b1 w2 b2 (ix2 p q) := by
  unfold k2_pay5
  refine congrArg₂ (· + ·) ?_ (colsum_at _ u q)
  rw [shapeCast_self]

/-- The running row of column sums of squares after a point: what it held plus the column sums of the squares of
    the point's stored block. -/
theorem pay1_at (blk : FVec Ideal S5000x64 .f32) (acc : Vec Ideal S1x64 .f32) (u : Fin 1) (q : Fin 64) :
    k2_pay1 (F := Ideal) blk acc (ix2 u q) = acc (ix2 u q) + ∑ p : Fin 5000, blk (ix2 p q) * blk (ix2 p q) := by
  unfold k2_pay1
  refine congrArg₂ (· + ·) ?_ ((colsum_at _ u q).trans rfl)
  rw [shapeCast_self]

/-- The two rows the first point resets the running rows to are zero. -/
theorem pay2_at (j : S1x64.Idx) : k2_pay2 (F := Ideal) j = 0 := Ideal.ofBits_zero_f32
theorem pay3_at (j : S1x64.Idx) : k2_pay3 (F := Ideal) j = 0 := Ideal.ofBits_zero_f32

end Cert.KernelIdeal.ConvValue2

end
-- ==== Proof.ConvBlocks2.lean ====
/-
  Where a block of a window sits in its array, for the graph-convolution perceptron kernel's nine windows.

  The grid has 20 points.  The two node arrays and the stored result are cut into 20 blocks of 5000 rows, block `t` at
  point `t`: row `p` of block `t` is row `5000 t + p` of the array.  The weights, the biases and the two running rows
  are one block each, the same at every point: an entry of the block is that entry of the array.
-/
import proofs.«171644_j66365834658285_1_alg».proof.Proof.Gen.KernelIdeal.Launch
import proofs.«171644_j66365834658285_1_alg».proof.Proof.Gen.KernelIdeal.Points
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.ConvValue2

open Cert.KernelIdeal Cert.KernelIdeal.Gen

/-- The block index of every window at every grid point: the point's number on the row axis for the three
    row-blocked windows, zero everywhere else. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- There are 20 grid points. -/
theorem N_eq : cfg2.N = 20 := N_2

/-- Row `p` of block `t` is a row of the 100000-row array. -/
theorem row_lt (t : Fin cfg2.N) (p : Fin 5000) : 5000 * t.val + p.val < 100000 := by
  have ht : t.val < 20 := lt_of_lt_of_eq t.isLt N_eq
  have := p.isLt; omega

/-- Window 0 (the node rows): row `p` of block `t` is row `5000 t + p` of the array. -/
theorem blk0_at (A : S100000x64.Idx → EReal) (t : Fin cfg2.N) (p : Fin 5000) (q : Fin 64) :
    (((cfg2.win 0).blk t).view.read (Elt Ideal) A : S5000x64.Idx → EReal) (ix2 p q)
      = A (ix2 ⟨5000 * t.val + p.val, row_lt t p⟩ q) := by
  obtain ⟨e0, e1, -⟩ := idx_facts t
  rw [View.read_apply]
  show A _ = A _
  congr 1
  funext a
  apply Fin.ext
  match a with
  | ⟨0, _⟩ => show win2_0.index t (0 : Fin 2) * 5000 + 1 * p.val = 5000 * t.val + p.val; rw [e0]; omega
  | ⟨1, _⟩ => show win2_0.index t (1 : Fin 2) * 64 + 1 * q.val = q.val; rw [e1]; omega

/-- Window 1 (the in-neighbour sums): row `p` of block `t` is row `5000 t + p` of the array. -/
theorem blk1_at (A : S100000x64.Idx → EReal) (t : Fin cfg2.N) (p : Fin 5000) (q : Fin 64) :
    (((cfg2.win 1).blk t).view.read (Elt Ideal) A : S5000x64.Idx → EReal) (ix2 p q)
      = A (ix2 ⟨5000 * t.val + p.val, row_lt t p⟩ q) := by
  obtain ⟨-, -, e0, e1, -⟩ := idx_facts t
  rw [View.read_apply]
  show A _ = A _
  congr 1
  funext a
  apply Fin.ext
  match a with
  | ⟨0, _⟩ => show win2_1.index t (0 : Fin 2) * 5000 + 1 * p.val = 5000 * t.val + p.val; rw [e0]; omega
  | ⟨1, _⟩ => show win2_1.index t (1 : Fin 2) * 64 + 1 * q.val = q.val; rw [e1]; omega

/-- Window 6 (the stored result): row `p` of block `t` is row `5000 t + p` of the array. -/
theorem blk6_at (A : S100000x64.Idx → EReal) (t : Fin cfg2.N) (p : Fin 5000) (q : Fin 64) :
    (((cfg2.win 6).blk t).view.read (Elt Ideal) A : S5000x64.Idx → EReal) (ix2 p q)
      = A (ix2 ⟨5000 * t.val + p.val, row_lt t p⟩ q) := by
  obtain ⟨-, -, -, -, -, -, -, -, -, -, -, -, e0, e1, -⟩ := idx_facts t
  rw [View.read_apply]
  show A _ = A _
  congr 1
  funext a
  apply Fin.ext
  match a with
  | ⟨0, _⟩ => show win2_6.index t (0 : Fin 2) * 5000 + 1 * p.val = 5000 * t.val + p.val; rw [e0]; omega
  | ⟨1, _⟩ => show win2_6.index t (1 : Fin 2) * 64 + 1 * q.val = q.val; rw [e1]; omega

/-- Window 2 (the first weights) is one block: an entry of the block is that entry of the array. -/
theorem blk2_at (A : S64x64.Idx → EReal) (t : Fin cfg2.N) (j k : Fin 64) :
    (((cfg2.win 2).blk t).view.read (Elt Ideal) A : S64x64.Idx → EReal) (ix2 j k) = A (ix2 j k) := by
  obtain ⟨-, -, -, -, e0, e1, -⟩ := idx_facts t
  rw [View.read_apply]
  show A _ = A _
  congr 1
  funext a
  apply Fin.ext
  match a with
  | ⟨0, _⟩ => show win2_2.index t (0 : Fin 2) * 64 + 1 * j.val = j.val; rw [e0]; omega
  | ⟨1, _⟩ => show win2_2.index t (1 : Fin 2) * 64 + 1 * k.val = k.val; rw [e1]; omega

/-- Window 4 (the second weights) is one block. -/
theorem blk4_at (A : S64x64.Idx → EReal) (t : Fin cfg2.N) (j k : Fin 64) :
    (((cfg2.win 4).blk t).view.read (Elt Ideal) A : S64x64.Idx → EReal) (ix2 j k) = A (ix2 j k) := by
  obtain ⟨-, -, -, -, -, -, -, -, e0, e1, -⟩ := idx_facts t
  rw [View.read_apply]
  show A _ = A _
  congr 1
  funext a
  apply Fin.ext
  match a with
  | ⟨0, _⟩ => show win2_4.index t (0 : Fin 2) * 64 + 1 * j.val = j.val; rw [e0]; omega
  | ⟨1, _⟩ => show win2_4.index t (1 : Fin 2) * 64 + 1 * k.val = k.val; rw [e1]; omega

/-- Window 3 (the first bias row) is one block. -/
theorem blk3_at (A : S1x64.Idx → EReal) (t : Fin cfg2.N) (u : Fin 1) (k : Fin 64) :
    (((cfg2.win 3).blk t).view.read (Elt Ideal) A : S1x64.Idx → EReal) (ix2 u k) = A (ix2 u k) := by
  obtain ⟨-, -, -, -, -, -, e0, e1, -⟩ := idx_facts t
  rw [View.read_apply]
  show A _ = A _
  congr 1
  funext a
  apply Fin.ext
  match a with
  | ⟨0, _⟩ => show win2_3.index t (0 : Fin 2) * 1 + 1 * u.val = u.val; rw [e0]; omega
  | ⟨1, _⟩ => show win2_3.index t (1 : Fin 2) * 64 + 1 * k.val = k.val; rw [e1]; omega

/-- Window 5 (the second bias row) is one block. -/
theorem blk5_at (A : S1x64.Idx → EReal) (t : Fin cfg2.N) (u : Fin 1) (k : Fin 64) :
    (((cfg2.win 5).blk t).view.read (Elt Ideal) A : S1x64.Idx → EReal) (ix2 u k) = A (ix2 u k) := by
  obtain ⟨-, -, -, -, -, -, -, -, -, -, e0, e1, -⟩ := idx_facts t
  rw [View.read_apply]
  show A _ = A _
  congr 1
  funext a
  apply Fin.ext
  match a with
  | ⟨0, _⟩ => show win2_5.index t (0 : Fin 2) * 1 + 1 * u.val = u.val; rw [e0]; omega
  | ⟨1, _⟩ => show win2_5.index t (1 : Fin 2) * 64 + 1 * k.val = k.val; rw [e1]; omega

/-- Window 7 (the running row of column sums) is one block. -/
theorem blk7_at (A : S1x64.Idx → EReal) (t : Fin cfg2.N) (u : Fin 1) (k : Fin 64) :
    (((cfg2.win 7).blk t).view.read (Elt Ideal) A : S1x64.Idx → EReal) (ix2 u k) = A (ix2 u k) := by
  obtain ⟨-, -, -, -, -, -, -, -, -, -, -, -, -, -, e0, e1, -⟩ := idx_facts t
  rw [View.read_apply]
  show A _ = A _
  congr 1
  funext a
  apply Fin.ext
  match a with
  | ⟨0, _⟩ => show win2_7.index t (0 : Fin 2) * 1 + 1 * u.val = u.val; rw [e0]; omega
  | ⟨1, _⟩ => show win2_7.index t (1 : Fin 2) * 64 + 1 * k.val = k.val; rw [e1]; omega

/-- Window 8 (the running row of column sums of squares) is one block. -/
theorem blk8_at (A : S1x64.Idx → EReal) (t : Fin cfg2.N) (u : Fin 1) (k : Fin 64) :
    (((cfg2.win 8).blk t).view.read (Elt Ideal) A : S1x64.Idx → EReal) (ix2 u k) = A (ix2 u k) := by
  obtain ⟨-, -, -, -, -, -, -, -, -, -, -, -, -, -, -, -, e0, e1⟩ := idx_facts t
  rw [View.read_apply]
  show A _ = A _
  congr 1
  funext a
  apply Fin.ext
  match a with
  | ⟨0, _⟩ => show win2_8.index t (0 : Fin 2) * 1 + 1 * u.val = u.val; rw [e0]; omega
  | ⟨1, _⟩ => show win2_8.index t (1 : Fin 2) * 64 + 1 * k.val = k.val; rw [e1]; omega

end Cert.KernelIdeal.ConvValue2

end
-- ==== Proof.ConvPieces2.lean ====
/-
  What one run of the graph-convolution perceptron kernel's body leaves in its three output buffers, as values.

  The body's run on whole staging buffers is generated, in two cases: at the first grid point the two running rows are
  first reset to zero, at a later point they are read as the point before left them.  In both cases the result block's
  buffer receives one store of the whole block (the perceptron of the two input blocks), and each running row receives,
  last, one store of the whole row: what it held (the zero row just stored, or the carried row) plus the block's column
  sums, or plus the column sums of the block's squares.  A buffer whose last store covers it holds that store's value;
  a load after one covering store reads that store's value; a load of a buffer nothing stored to reads its contents.
-/
import proofs.«171644_j66365834658285_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.ConvValue2

open Cert.KernelIdeal Cert.KernelIdeal.Gen

variable {F : FTy → Type} [FloatOps F]

/-- The zero offsets of a store of a whole buffer. -/
theorem hz : (![0, 0] : Fin 2 → Nat) = fun _ => 0 := funext fun a => by fin_cases a <;> rfl

variable (c : Dev nD) (i : grid2.Coords)
  (a1 : Memref sig .tc .vmem S5000x64 .f32) (h1 : a1.IsWhole) (a2 : Memref sig .tc .vmem S5000x64 .f32) (h2 : a2.IsWhole)
  (a3 : Memref sig .tc .vmem S64x64 .f32) (h3 : a3.IsWhole) (a4 : Memref sig .tc .vmem S1x64 .f32) (h4 : a4.IsWhole)
  (a5 : Memref sig .tc .vmem S64x64 .f32) (h5 : a5.IsWhole) (a6 : Memref sig .tc .vmem S1x64 .f32) (h6 : a6.IsWhole)
  (a7 : Memref sig .tc .vmem S5000x64 .f32) (h7 : a7.IsWhole) (a8 : Memref sig .tc .vmem S1x64 .f32) (h8 : a8.IsWhole)
  (a9 : Memref sig .tc .vmem S1x64 .f32) (h9 : a9.IsWhole)
  (x0 x1 : Vec F S5000x64 .f32) (x2 : Vec F S64x64 .f32) (x3 : Vec F S1x64 .f32) (x4 : Vec F S64x64 .f32) (x5 : Vec F S1x64 .f32)

/-- Every point stores to the block of the result the perceptron of its two input blocks (the case of the first point). -/
theorem outA6 (hc : cond2_0 i) :
    out2_A_6 c i a1 h1 a2 h2 a3 h3 a4 h4 a5 h5 a6 h6 a7 h7 a8 h8 a9 h9 hc x0 x1 x2 x3 x4 x5 = k2_pay4 x0 x1 x2 x3 x4 x5 := by
  unfold out2_A_6
  rw [View.read_writes_eq_canon _ _ _ (cover2_A_6 c i a1 h1 a2 h2 a3 h3 a4 h4 a5 h5 a6 h6 a7 h7 a8 h8 a9 h9 hc x0 x1 x2 x3 x4 x5)]
  unfold kernelRun2_A
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x64) hz, View.ld_unit_zero (S := S64x64) hz, View.ld_unit_zero (S := S1x64) hz]

/-- At the first point the running row of column sums is reset to zero and then the block's column sums are added. -/
theorem outA7 (hc : cond2_0 i) :
    out2_A_7 c i a1 h1 a2 h2 a3 h3 a4 h4 a5 h5 a6 h6 a7 h7 a8 h8 a9 h9 hc x0 x1 x2 x3 x4 x5 = k2_pay5 x0 x1 x2 x3 x4 x5 k2_pay2 := by
  unfold out2_A_7
  rw [View.read_writes_eq_canon _ _ _ (cover2_A_7 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero hz, View.readCov_unit_zero _ hz]
  simp only [View.readAt_eq_ld, h1.read_unread, h2.read_unread, h3.read_unread, h4.read_unread, h5.read_unread, h6.read_unread, h8.read_unread, h9.read_unread, View.ld_unit_zero (S := S5000x64) hz, View.ld_unit_zero (S := S64x64) hz, View.ld_unit_zero (S := S1x64) hz]

/-- At the first point the running row of column sums of squares is reset to zero and then the block's are added. -/
theorem outA8 (hc : cond2_0 i) :
    out2_A_8 c i a1 h1 a2 h2 a3 h3 a4 h4 a5 h5 a6 h6 a7 h7 a8 h8 a9 h9 hc x0 x1 x2 x3 x4 x5 = k2_pay1 (k2_pay4 x0 x1 x2 x3 x4 x5) k2_pay3 := by
  unfold out2_A_8
  rw [View.read_writes_eq_canon _ _ _ (cover2_A_8 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero hz, View.readCov_unit_zero _ hz]
  simp only [View.readAt_eq_ld, h1.read_unread, h2.read_unread, h3.read_unread, h4.read_unread, h5.read_unread, h6.read_unread, h8.read_unread, h9.read_unread, View.ld_unit_zero (S := S5000x64) hz, View.ld_unit_zero (S := S64x64) hz, View.ld_unit_zero (S := S1x64) hz]

/-- Every point stores to the block of the result the perceptron of its two input blocks (the case of a later point). -/
theorem outB6 (hc : ¬cond2_0 i) (xo7 xo8 : Vec F S1x64 .f32) :
    out2_B_6 c i a1 h1 a2 h2 a3 h3 a4 h4 a5 h5 a6 h6 a7 h7 a8 h8 a9 h9 hc x0 x1 x2 x3 x4 x5 xo7 xo8 = k2_pay4 x0 x1 x2 x3 x4 x5 := by
  unfold out2_B_6
  rw [View.read_writes_eq_canon _ _ _ (cover2_B_6 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x64) hz, View.ld_unit_zero (S := S64x64) hz, View.ld_unit_zero (S := S1x64) hz]

/-- At a later point the block's column sums are added to what the running row held. -/
theorem outB7 (hc : ¬cond2_0 i) (xo7 xo8 : Vec F S1x64 .f32) :
    out2_B_7 c i a1 h1 a2 h2 a3 h3 a4 h4 a5 h5 a6 h6 a7 h7 a8 h8 a9 h9 hc x0 x1 x2 x3 x4 x5 xo7 xo8 = k2_pay5 x0 x1 x2 x3 x4 x5 xo7 := by
  unfold out2_B_7
  rw [View.read_writes_eq_canon _ _ _ (cover2_B_7 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x64) hz, View.ld_unit_zero (S := S64x64) hz, View.ld_unit_zero (S := S1x64) hz]

/-- At a later point the column sums of the block's squares are added to what the second running row held. -/
theorem outB8 (hc : ¬cond2_0 i) (xo7 xo8 : Vec F S1x64 .f32) :
    out2_B_8 c i a1 h1 a2 h2 a3 h3 a4 h4 a5 h5 a6 h6 a7 h7 a8 h8 a9 h9 hc x0 x1 x2 x3 x4 x5 xo7 xo8 = k2_pay1 (k2_pay4 x0 x1 x2 x3 x4 x5) xo8 := by
  unfold out2_B_8
  rw [View.read_writes_eq_canon _ _ _ (cover2_B_8 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x64) hz, View.ld_unit_zero (S := S64x64) hz, View.ld_unit_zero (S := S1x64) hz]

end Cert.KernelIdeal.ConvValue2

end
-- ==== Proof.ConvInv2.lean ====
/-
  What the three outputs of the graph-convolution perceptron kernel hold after each grid point, as one invariant.

  Write `X` for the perceptron `relu ((h + agg) · w1 + b1) · w2 + b2` of the whole node array, 100000 rows.  The block
  stored at point `t` is rows `5000 t … 5000 t + 4999` of `X`, because a row of the perceptron depends on that row of
  the input only and the weights are whole at every point.  The first point resets the two running rows to zero and
  every point adds its block's column sums, so after point `n` the first running row holds, in column `q`, the sum of
  `X`'s column `q` over rows `0 … 5000 (n + 1) − 1`, and the second the sum of the squares over the same rows: by
  induction on the point.  After the last point, `n = 19`, these are the sums over all 100000 rows.
-/
import proofs.«171644_j66365834658285_1_alg».proof.Proof.ConvPay2
import proofs.«171644_j66365834658285_1_alg».proof.Proof.ConvBlocks2
import proofs.«171644_j66365834658285_1_alg».proof.Proof.ConvPieces2
import proofs.«171644_j66365834658285_1_alg».proof.Proof.Spec

noncomputable section

open Idealize.ShloMosaic Idealize.ShloMosaic.TcCoe Idealize.SL.Sem Idealize.ShloMosaic.ValueIdx
open Idealize.ShloMosaic.Pipeline (Dat)

namespace Cert.KernelIdeal.ConvValue2

open Cert.KernelIdeal Cert.KernelIdeal.Gen

/-! ## One point's step, for any float instance -/

section Step

variable {F : FTy → Type} [FloatOps F]
variable (V : (c : Dev nD) → (b : Ref sig .tc) → Buf (Elt F) ((c : Thread nD τ).loc b)) (c : Dev nD)

/-- The block point `t` stores: the perceptron of its two input blocks at the whole weights. -/
def blkOf (t : Fin cfg2.N) : Vec F S5000x64 .f32 :=
  k2_pay4 (iblk2 V c 0 t) (iblk2 V c 1 t) (iblk2 V c 2 t) (iblk2 V c 3 t) (iblk2 V c 4 t) (iblk2 V c 5 t)

/-- The first point: the block, and the two running rows reset and then added to. -/
theorem step_A (t : Fin cfg2.N) (h0 : t.val % 20 = 0) :
    outsAt2 V c t.val t.isLt
      = (blkOf V c t, k2_pay5 (iblk2 V c 0 t) (iblk2 V c 1 t) (iblk2 V c 2 t) (iblk2 V c 3 t) (iblk2 V c 4 t) (iblk2 V c 5 t) k2_pay2, k2_pay1 (blkOf V c t) k2_pay3) := by
  rw [outsAt2_A V c t h0]
  have e6 := outA6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (iblk2 V c 0 t) (iblk2 V c 1 t) (iblk2 V c 2 t) (iblk2 V c 3 t) (iblk2 V c 4 t) (iblk2 V c 5 t) ((hcond2_0 t).mpr h0)
  have e7 := outA7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (iblk2 V c 0 t) (iblk2 V c 1 t) (iblk2 V c 2 t) (iblk2 V c 3 t) (iblk2 V c 4 t) (iblk2 V c 5 t) ((hcond2_0 t).mpr h0)
  have e8 := outA8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (iblk2 V c 0 t) (iblk2 V c 1 t) (iblk2 V c 2 t) (iblk2 V c 3 t) (iblk2 V c 4 t) (iblk2 V c 5 t) ((hcond2_0 t).mpr h0)
  rw [e6, e7, e8]
  rfl

/-- A later point: the block, and the two running rows of the point before added to. -/
theorem step_B (t : Fin cfg2.N) (h0 : ¬t.val % 20 = 0) :
    outsAt2 V c t.val t.isLt
      = (blkOf V c t,
          k2_pay5 (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1,
          k2_pay1 (blkOf V c t) (outsAt2 V c (t.val - 1) (Nat.lt_of_le_of_lt (Nat.sub_le _ _) t.isLt)).2.2) := by
  rw [outsAt2_B V c t h0]
  have e6 := outB6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (iblk2 V c 0 t) (iblk2 V c 1 t) (iblk2 V c 2 t) (iblk2 V c 3 t) (iblk2 V c 4 t) (iblk2 V c 5 t) (fun h => h0 ((hcond2_0 t).mp h)) (outsAt2 V c (t.val - 1) (Nat.lt_of_le_of_lt (Nat.sub_le _ _) t.isLt)).2.1 (outsAt2 V c (t.val - 1) (Nat.lt_of_le_of_lt (Nat.sub_le _ _) t.isLt)).2.2
  have e7 := outB7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (iblk2 V c 0 t) (iblk2 V c 1 t) (iblk2 V c 2 t) (iblk2 V c 3 t) (iblk2 V c 4 t) (iblk2 V c 5 t) (fun h => h0 ((hcond2_0 t).mp h)) (outsAt2 V c (t.val - 1) (Nat.lt_of_le_of_lt (Nat.sub_le _ _) t.isLt)).2.1 (outsAt2 V c (t.val - 1) (Nat.lt_of_le_of_lt (Nat.sub_le _ _) t.isLt)).2.2
  have e8 := outB8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (iblk2 V c 0 t) (iblk2 V c 1 t) (iblk2 V c 2 t) (iblk2 V c 3 t) (iblk2 V c 4 t) (iblk2 V c 5 t) (fun h => h0 ((hcond2_0 t).mp h)) (outsAt2 V c (t.val - 1) (Nat.lt_of_le_of_lt (Nat.sub_le _ _) t.isLt)).2.1 (outsAt2 V c (t.val - 1) (Nat.lt_of_le_of_lt (Nat.sub_le _ _) t.isLt)).2.2
  rw [e6, e7, e8]
  rfl

end Step

/-! ## Sums over rows, block by block -/

/-- A sum over the first `b (n + 1)` naturals is the sum over the first `b n` plus the sum over the next `b`. -/
theorem sum_range_block {M : Type*} [AddCommMonoid M] (f : ℕ → M) (b n : ℕ) :
    ∑ r ∈ Finset.range (b * (n + 1)), f r = ∑ r ∈ Finset.range (b * n), f r + ∑ p : Fin b, f (b * n + p.val) := by
  rw [Nat.mul_succ, Finset.sum_range_add, Finset.sum_range (fun x => f (b * n + x))]

/-- Entry `(r, q)` of a 100000×64 matrix for a natural `r`, zero past the last row. -/
def rowOf (X : S100000x64.Idx → EReal) (r : ℕ) (q : Fin 64) : EReal :=
  if h : r < 100000 then X (ix2 ⟨r, h⟩ q) else 0

/-- All 20 blocks of 5000 rows: the sum over every row. -/
theorem sum_rowOf (X : S100000x64.Idx → EReal) (q : Fin 64) :
    ∑ r ∈ Finset.range (5000 * (19 + 1)), rowOf X r q = ∑ p : Fin 100000, X (ix2 p q) := by
  show ∑ r ∈ Finset.range 100000, rowOf X r q = _
  rw [Finset.sum_range]
  refine Finset.sum_congr rfl fun p _ => ?_
  unfold rowOf
  rw [dif_pos p.isLt]

/-- The same for the squares. -/
theorem sum_rowOf_sq (X : S100000x64.Idx → EReal) (q : Fin 64) :
    ∑ r ∈ Finset.range (5000 * (19 + 1)), rowOf X r q * rowOf X r q = ∑ p : Fin 100000, X (ix2 p q) * X (ix2 p q) := by
  show ∑ r ∈ Finset.range 100000, rowOf X r q * rowOf X r q = _
  rw [Finset.sum_range]
  refine Finset.sum_congr rfl fun p _ => ?_
  unfold rowOf
  rw [dif_pos p.isLt]

/-! ## The invariant over the extended reals -/

variable (V : (c : Dev nD) → (b : Ref sig .tc) → Buf (Elt Ideal) ((c : Thread nD τ).loc b)) (c : Dev nD)

/-- The perceptron of the whole node array as the region finds it: `relu ((h + agg) · w1 + b1) · w2 + b2`. -/
def convOf : S100000x64.Idx → EReal :=
  Cert.Gin.mlp2 (Cert.Gin.plus (V c main_v29 : S100000x64.Idx → EReal) (V c main_v39 : S100000x64.Idx → EReal))
    (V c main_arg7 : S64x64.Idx → EReal) (fun q => (V c main_v40 : S1x64.Idx → EReal) (ix2 0 (q 0)))
    (V c main_arg9 : S64x64.Idx → EReal) (fun q => (V c main_v41 : S1x64.Idx → EReal) (ix2 0 (q 0)))

/-- Row `p` of the block point `t` stores is row `5000 t + p` of the perceptron of the whole array. -/
theorem blkOf_at (t : Fin cfg2.N) (p : Fin 5000) (q : Fin 64) :
    blkOf V c t (ix2 p q) = convOf V c (ix2 ⟨5000 * t.val + p.val, row_lt t p⟩ q) := by
  unfold blkOf
  refine (pay4_at (iblk2 V c 0 t) (iblk2 V c 1 t) (iblk2 V c 2 t) (iblk2 V c 3 t) (iblk2 V c 4 t) (iblk2 V c 5 t) p q).trans ?_
  unfold convOf Cert.Gin.mlp2 Cert.Gin.plus
  refine congrArg₂ (· + ·) (Finset.sum_congr rfl fun k _ => congrArg₂ (· * ·) (congrArg₂ max (congrArg₂ (· + ·)
    (Finset.sum_congr rfl fun j _ => congrArg₂ (· * ·)
      (congrArg₂ (· + ·) (blk0_at (V c main_v29) t p j) (blk1_at (V c main_v39) t p j))
      (blk2_at (V c main_arg7) t j k))
    (blk3_at (V c main_v40) t 0 k)) rfl) (blk4_at (V c main_arg9) t k q)) (blk5_at (V c main_v41) t 0 q)

/-- The same, with the row as a natural number. -/
theorem blkOf_row (t : Fin cfg2.N) (p : Fin 5000) (q : Fin 64) :
    blkOf V c t (ix2 p q) = rowOf (convOf V c) (5000 * t.val + p.val) q := by
  rw [blkOf_at]
  unfold rowOf
  rw [dif_pos (row_lt t p)]

/-- THE INVARIANT: after point `n` the block buffer holds block `n` of the perceptron, and the two running rows hold
    the column sums, and the column sums of squares, of its rows `0 … 5000 (n + 1) − 1`. -/
theorem inv : ∀ (n : ℕ) (h : n < cfg2.N),
    (outsAt2 V c n h).1 = blkOf V c ⟨n, h⟩
    ∧ (∀ (u : Fin 1) (q : Fin 64), (outsAt2 V c n h).2.1 (ix2 u q)
        = ∑ r ∈ Finset.range (5000 * (n + 1)), rowOf (convOf V c) r q)
    ∧ (∀ (u : Fin 1) (q : Fin 64), (outsAt2 V c n h).2.2 (ix2 u q)
        = ∑ r ∈ Finset.range (5000 * (n + 1)), rowOf (convOf V c) r q * rowOf (convOf V c) r q)
  | 0, h => by
    have e := step_A V c ⟨0, h⟩ (Nat.zero_mod 20)
    refine ⟨congrArg Prod.fst e, fun u q => ?_, fun u q => ?_⟩
    · refine (congrFun (congrArg (fun x => x.2.1) e) (ix2 u q)).trans ?_
      refine (pay5_at (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (k2_pay2 (F := Ideal)) u q).trans ?_
      rw [pay2_at, sum_range_block, Nat.mul_zero, Finset.range_zero, Finset.sum_empty]
      exact congrArg _ (Finset.sum_congr rfl fun p _ => blkOf_row V c ⟨0, h⟩ p q)
    · refine (congrFun (congrArg (fun x => x.2.2) e) (ix2 u q)).trans ?_
      refine (pay1_at (blkOf V c ⟨0, h⟩) (k2_pay3 (F := Ideal)) u q).trans ?_
      rw [pay3_at, sum_range_block, Nat.mul_zero, Finset.range_zero, Finset.sum_empty]
      exact congrArg _ (Finset.sum_congr rfl fun p _ =>
        congrArg₂ (· * ·) (blkOf_row V c ⟨0, h⟩ p q) (blkOf_row V c ⟨0, h⟩ p q))
  | n + 1, h => by
    have h20 : n + 1 < 20 := lt_of_lt_of_eq h N_eq
    have hB : ¬(⟨n + 1, h⟩ : Fin cfg2.N).val % 20 = 0 := by dsimp only; omega
    have e := step_B V c ⟨n + 1, h⟩ hB
    obtain ⟨-, ih7, ih8⟩ := inv n (Nat.lt_of_succ_lt h)
    refine ⟨congrArg Prod.fst e, fun u q => ?_, fun u q => ?_⟩
    · refine (congrFun (congrArg (fun x => x.2.1) e) (ix2 u q)).trans ?_
      refine (pay5_at (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) _ u q).trans ?_
      rw [sum_range_block _ 5000 (n + 1)]
      exact congrArg₂ (· + ·) (ih7 u q) (Finset.sum_congr rfl fun p _ => blkOf_row V c ⟨n + 1, h⟩ p q)
    · refine (congrFun (congrArg (fun x => x.2.2) e) (ix2 u q)).trans ?_
      refine (pay1_at (blkOf V c ⟨n + 1, h⟩) _ u q).trans ?_
      rw [sum_range_block _ 5000 (n + 1)]
      exact congrArg₂ (· + ·) (ih8 u q) (Finset.sum_congr rfl fun p _ =>
        congrArg₂ (· * ·) (blkOf_row V c ⟨n + 1, h⟩ p q) (blkOf_row V c ⟨n + 1, h⟩ p q))

end Cert.KernelIdeal.ConvValue2

end
-- ==== Proof.ConvValue2.lean ====
/-
  The three arrays the graph-convolution perceptron kernel leaves, as functions of the arrays it finds.

  The stored result is written back block by block: point `t` writes rows `5000 t … 5000 t + 4999`, and those blocks
  tile the 100000 rows, so the array ends holding the perceptron `relu ((h + agg) · w1 + b1) · w2 + b2` of the whole node
  array.  Each of the two running rows is one block, written back once, after the last point; by then it holds the sum
  over all 20 blocks of 5000 rows, which is the sum over all 100000 rows: the column sums of the perceptron's output,
  and the column sums of its squares.
-/
import proofs.«171644_j66365834658285_1_alg».proof.Proof.ConvInv2

noncomputable section

open Idealize.ShloMosaic Idealize.ShloMosaic.TcCoe Idealize.SL.Sem Idealize.ShloMosaic.ValueIdx
open Idealize.ShloMosaic.Pipeline (Dat)

namespace Cert.KernelIdeal.ConvValue2

open Cert.KernelIdeal Cert.KernelIdeal.Gen

variable (V : (c : Dev nD) → (b : Ref sig .tc) → Buf (Elt Ideal) ((c : Thread nD τ).loc b)) (c : Dev nD)

/-! ## The stored result: 20 blocks of 5000 rows -/

/-- What point `t` writes back is block `t` of the perceptron of the whole node array. -/
theorem flushed6_eq (t : Fin cfg2.N) :
    (dat2 V c).flushed 6 t = ((cfg2.win 6).blk t).view.read (Elt Ideal) (convOf V c) := by
  show (cfg2.win 6).cut (grid2.coords t) ((dat2 V c).after 6 t) = _
  rw [after2_6, (inv V c t.val t.isLt).1]
  funext j
  obtain ⟨p, q, rfl⟩ : ∃ (p : Fin 5000) (q : Fin 64), j = ix2 p q := ⟨j 0, j 1, eq_ix2 j⟩
  exact (blkOf_at V c t p q).trans (blk6_at (convOf V c) t p q).symm

/-- An index of the array is in point `t`'s block iff each coordinate is in the block's range on its axis. -/
theorem mem_blk6 (t : Fin cfg2.N) (i : S100000x64.Idx) :
    i ∈ ((cfg2.win 6).blk t).view.set ↔ ∀ a : Fin 2, win2_6.index t a * S5000x64.size a ≤ (i a).val
      ∧ (i a).val < win2_6.index t a * S5000x64.size a + S5000x64.size a := by
  show i ∈ ((View.whole main_v42_0).slice (win2_6.rect t)).set ↔ _
  rw [View.set_slice_whole, Rect.mem_set_unit]
  exact Iff.rfl

/-- The blocks tile the rows (row `r` is in block `r / 5000`), so the array ends holding the perceptron of the whole
    node array. -/
theorem final6 : ((dat2 (F := Ideal) V c).arrAt 6 cfg2.N : S100000x64.Idx → EReal) = convOf V c :=
  (dat2 V c).arrAt_eq_of_cover 6 (convOf V c) (fun t _ => flushed6_eq V c t) fun i => by
    have hi0 : (i 0).val < 100000 := (i 0).isLt
    have hi1 : (i 1).val < 64 := (i 1).isLt
    have ht : (i 0).val / 5000 < cfg2.N := by rw [N_eq]; omega
    obtain ⟨-, -, -, -, -, -, -, -, -, -, -, -, e0, e1, -⟩ := idx_facts ⟨(i 0).val / 5000, ht⟩
    refine ⟨⟨(i 0).val / 5000, ht⟩, flush2_6 _, (mem_blk6 _ i).mpr fun a => ?_⟩
    match a with
    | ⟨0, _⟩ =>
      show win2_6.index ⟨(i 0).val / 5000, ht⟩ (0 : Fin 2) * 5000 ≤ (i 0).val
        ∧ (i 0).val < win2_6.index ⟨(i 0).val / 5000, ht⟩ (0 : Fin 2) * 5000 + 5000
      rw [e0]; show (i 0).val / 5000 * 5000 ≤ (i 0).val ∧ (i 0).val < (i 0).val / 5000 * 5000 + 5000; omega
    | ⟨1, _⟩ =>
      show win2_6.index ⟨(i 0).val / 5000, ht⟩ (1 : Fin 2) * 64 ≤ (i 1).val
        ∧ (i 1).val < win2_6.index ⟨(i 0).val / 5000, ht⟩ (1 : Fin 2) * 64 + 64
      rw [e1]; omega

/-! ## The two running rows: one block each, written back after the last point -/

/-- The last point. -/
theorem last_lt : 19 < cfg2.N := by rw [N_eq]; norm_num

/-- A point that writes a running row back is the last one. -/
theorem eq_last_of_mod (t : Fin cfg2.N) (h : t.val % 20 = 19) : t.val = 19 := by
  have := lt_of_lt_of_eq t.isLt N_eq; omega

/-- The one write-back of the first running row writes the column sums of the perceptron's output. -/
theorem flushed7_eq (t : Fin cfg2.N) (hf : (cfg2.win 7).flush t = true) :
    (dat2 V c).flushed 7 t
      = ((cfg2.win 7).blk t).view.read (Elt Ideal) (fun i : S1x64.Idx => Cert.Gin.colSum (convOf V c) (ix1 (i 1))) := by
  have h19 : t.val = 19 := eq_last_of_mod t ((flush2_7 t).mp hf)
  show (cfg2.win 7).cut (grid2.coords t) ((dat2 V c).after 7 t) = _
  rw [after2_7]
  funext j
  obtain ⟨u, q, rfl⟩ : ∃ (u : Fin 1) (q : Fin 64), j = ix2 u q := ⟨j 0, j 1, eq_ix2 j⟩
  refine ((inv V c t.val t.isLt).2.1 u q).trans ?_
  rw [blk7_at, h19, sum_rowOf]
  rfl

/-- The one write-back of the second running row writes the column sums of the squares of the perceptron's output. -/
theorem flushed8_eq (t : Fin cfg2.N) (hf : (cfg2.win 8).flush t = true) :
    (dat2 V c).flushed 8 t
      = ((cfg2.win 8).blk t).view.read (Elt Ideal) (fun i : S1x64.Idx => Cert.Gin.colSumSq (convOf V c) (ix1 (i 1))) := by
  have h19 : t.val = 19 := eq_last_of_mod t ((flush2_8 t).mp hf)
  show (cfg2.win 8).cut (grid2.coords t) ((dat2 V c).after 8 t) = _
  rw [after2_8]
  funext j
  obtain ⟨u, q, rfl⟩ : ∃ (u : Fin 1) (q : Fin 64), j = ix2 u q := ⟨j 0, j 1, eq_ix2 j⟩
  refine ((inv V c t.val t.isLt).2.2 u q).trans ?_
  rw [blk8_at, h19, sum_rowOf_sq]
  rfl

/-- An index of the first running row's array is in the one block. -/
theorem mem_blk7 (t : Fin cfg2.N) (i : S1x64.Idx) : i ∈ ((cfg2.win 7).blk t).view.set := by
  show i ∈ ((View.whole main_v42_1).slice (win2_7.rect t)).set
  rw [View.set_slice_whole, Rect.mem_set_unit]
  obtain ⟨-, -, -, -, -, -, -, -, -, -, -, -, -, -, e0, e1, -⟩ := idx_facts t
  have hi0 : (i 0).val < 1 := (i 0).isLt
  have hi1 : (i 1).val < 64 := (i 1).isLt
  intro a
  match a with
  | ⟨0, _⟩ =>
    show win2_7.index t (0 : Fin 2) * 1 ≤ (i 0).val ∧ (i 0).val < win2_7.index t (0 : Fin 2) * 1 + 1
    rw [e0]; omega
  | ⟨1, _⟩ =>
    show win2_7.index t (1 : Fin 2) * 64 ≤ (i 1).val ∧ (i 1).val < win2_7.index t (1 : Fin 2) * 64 + 64
    rw [e1]; omega

/-- An index of the second running row's array is in the one block. -/
theorem mem_blk8 (t : Fin cfg2.N) (i : S1x64.Idx) : i ∈ ((cfg2.win 8).blk t).view.set := by
  show i ∈ ((View.whole main_v42_2).slice (win2_8.rect t)).set
  rw [View.set_slice_whole, Rect.mem_set_unit]
  obtain ⟨-, -, -, -, -, -, -, -, -, -, -, -, -, -, -, -, e0, e1⟩ := idx_facts t
  have hi0 : (i 0).val < 1 := (i 0).isLt
  have hi1 : (i 1).val < 64 := (i 1).isLt
  intro a
  match a with
  | ⟨0, _⟩ =>
    show win2_8.index t (0 : Fin 2) * 1 ≤ (i 0).val ∧ (i 0).val < win2_8.index t (0 : Fin 2) * 1 + 1
    rw [e0]; omega
  | ⟨1, _⟩ =>
    show win2_8.index t (1 : Fin 2) * 64 ≤ (i 1).val ∧ (i 1).val < win2_8.index t (1 : Fin 2) * 64 + 64
    rw [e1]; omega

/-- The first running row's array ends holding the column sums of the perceptron's output over all 100000 rows. -/
theorem final7 : ((dat2 (F := Ideal) V c).arrAt 7 cfg2.N : S1x64.Idx → EReal)
    = fun i => Cert.Gin.colSum (convOf V c) (ix1 (i 1)) :=
  (dat2 V c).arrAt_eq_of_cover 7 (fun i : S1x64.Idx => Cert.Gin.colSum (convOf V c) (ix1 (i 1))) (flushed7_eq V c)
    fun i => ⟨⟨19, last_lt⟩, (flush2_7 _).mpr rfl, mem_blk7 _ i⟩

/-- The second running row's array ends holding the column sums of the squares over all 100000 rows. -/
theorem final8 : ((dat2 (F := Ideal) V c).arrAt 8 cfg2.N : S1x64.Idx → EReal)
    = fun i => Cert.Gin.colSumSq (convOf V c) (ix1 (i 1)) :=
  (dat2 V c).arrAt_eq_of_cover 8 (fun i : S1x64.Idx => Cert.Gin.colSumSq (convOf V c) (ix1 (i 1))) (flushed8_eq V c)
    fun i => ⟨⟨19, last_lt⟩, (flush2_8 _).mpr rfl, mem_blk8 _ i⟩

/-! ## The same, with the arrays the region finds given names -/

section Named

variable (x agg : FVec Ideal S100000x64 .f32) (w1 : FVec Ideal S64x64 .f32) (b1 : FVec Ideal S64 .f32)
  (w2 : FVec Ideal S64x64 .f32) (b2 : FVec Ideal S64 .f32)

/-- The perceptron of the arrays the region finds, when those are named: the biases, found as one-row matrices, are
    read at their one row. -/
theorem convOf_eq (hx : (V c main_v29 : S100000x64.Idx → EReal) = x)
    (hagg : (V c main_v39 : S100000x64.Idx → EReal) = agg) (hw1 : (V c main_arg7 : S64x64.Idx → EReal) = w1)
    (hb1 : ∀ q : Fin 64, (V c main_v40 : S1x64.Idx → EReal) (ix2 (0 : Fin 1) q) = b1 (ix1 q))
    (hw2 : (V c main_arg9 : S64x64.Idx → EReal) = w2)
    (hb2 : ∀ q : Fin 64, (V c main_v41 : S1x64.Idx → EReal) (ix2 (0 : Fin 1) q) = b2 (ix1 q)) :
    convOf V c = Cert.Gin.mlp2 (Cert.Gin.plus x agg) w1 b1 w2 b2 := by
  have e1 : (fun q : S64.Idx => (V c main_v40 : S1x64.Idx → EReal) (ix2 (0 : Fin 1) (q 0))) = b1 :=
    funext fun q => (hb1 (q 0)).trans (congrArg b1 (eq_ix1 q).symm)
  have e2 : (fun q : S64.Idx => (V c main_v41 : S1x64.Idx → EReal) (ix2 (0 : Fin 1) (q 0))) = b2 :=
    funext fun q => (hb2 (q 0)).trans (congrArg b2 (eq_ix1 q).symm)
  unfold convOf
  rw [hx, hagg, hw1, hw2, e1, e2]

/-- The stored result, with the arrays named. -/
theorem final6' (hx : (V c main_v29 : S100000x64.Idx → EReal) = x)
    (hagg : (V c main_v39 : S100000x64.Idx → EReal) = agg) (hw1 : (V c main_arg7 : S64x64.Idx → EReal) = w1)
    (hb1 : ∀ q : Fin 64, (V c main_v40 : S1x64.Idx → EReal) (ix2 (0 : Fin 1) q) = b1 (ix1 q))
    (hw2 : (V c main_arg9 : S64x64.Idx → EReal) = w2)
    (hb2 : ∀ q : Fin 64, (V c main_v41 : S1x64.Idx → EReal) (ix2 (0 : Fin 1) q) = b2 (ix1 q)) :
    ((Gen.dat2 (F := Ideal) V c).arrAt 6 cfg2.N : S100000x64.Idx → EReal)
      = Cert.Gin.mlp2 (Cert.Gin.plus x agg) w1 b1 w2 b2 :=
  (final6 V c).trans (convOf_eq V c x agg w1 b1 w2 b2 hx hagg hw1 hb1 hw2 hb2)

/-- The column sums, with the arrays named. -/
theorem final7' (hx : (V c main_v29 : S100000x64.Idx → EReal) = x)
    (hagg : (V c main_v39 : S100000x64.Idx → EReal) = agg) (hw1 : (V c main_arg7 : S64x64.Idx → EReal) = w1)
    (hb1 : ∀ q : Fin 64, (V c main_v40 : S1x64.Idx → EReal) (ix2 (0 : Fin 1) q) = b1 (ix1 q))
    (hw2 : (V c main_arg9 : S64x64.Idx → EReal) = w2)
    (hb2 : ∀ q : Fin 64, (V c main_v41 : S1x64.Idx → EReal) (ix2 (0 : Fin 1) q) = b2 (ix1 q)) :
    ∀ q : Fin 64, ((Gen.dat2 (F := Ideal) V c).arrAt 7 cfg2.N : S1x64.Idx → EReal) (ix2 (0 : Fin 1) q)
      = Cert.Gin.colSum (Cert.Gin.mlp2 (Cert.Gin.plus x agg) w1 b1 w2 b2) (ix1 q) := by
  intro q
  rw [final7 V c, convOf_eq V c x agg w1 b1 w2 b2 hx hagg hw1 hb1 hw2 hb2]
  rfl

/-- The column sums of squares, with the arrays named. -/
theorem final8' (hx : (V c main_v29 : S100000x64.Idx → EReal) = x)
    (hagg : (V c main_v39 : S100000x64.Idx → EReal) = agg) (hw1 : (V c main_arg7 : S64x64.Idx → EReal) = w1)
    (hb1 : ∀ q : Fin 64, (V c main_v40 : S1x64.Idx → EReal) (ix2 (0 : Fin 1) q) = b1 (ix1 q))
    (hw2 : (V c main_arg9 : S64x64.Idx → EReal) = w2)
    (hb2 : ∀ q : Fin 64, (V c main_v41 : S1x64.Idx → EReal) (ix2 (0 : Fin 1) q) = b2 (ix1 q)) :
    ∀ q : Fin 64, ((Gen.dat2 (F := Ideal) V c).arrAt 8 cfg2.N : S1x64.Idx → EReal) (ix2 (0 : Fin 1) q)
      = Cert.Gin.colSumSq (Cert.Gin.mlp2 (Cert.Gin.plus x agg) w1 b1 w2 b2) (ix1 q) := by
  intro q
  rw [final8 V c, convOf_eq V c x agg w1 b1 w2 b2 hx hagg hw1 hb1 hw2 hb2]
  rfl

end Named

end Cert.KernelIdeal.ConvValue2

end
-- ==== Proof.ConvPay4.lean ====
/-
  The arithmetic of one grid point of the graph-convolution perceptron kernel, read entry by entry over the extended reals.

  A grid point holds a block of 5000 node rows `x`, the block `a` of their in-neighbour sums, and the whole weights.
  It stores the block `relu ((x + a) · w1 + b1) · w2 + b2`, adds that block's column sums to a running row, and adds the
  column sums of its squares to a second running row.  Here each of the three stored values is written out at one entry
  as the sums it is; the casts to the 16-bit format are the identity on extended reals, a product into a zero
  accumulator is the plain sum over the contracted coordinate, and the reduction over the row axis is the sum over rows.
-/
import proofs.«171644_j66365834658285_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.ConvValue4

open Cert.KernelIdeal Cert.KernelIdeal.Gen

/-- A 5000×64 block times a 64×64 matrix into a zero accumulator, at entry `(p, q)`: the sum over the contracted
    coordinate of the products of the entries. -/
theorem matmul_at {φ₁ φ₂ : FTy} (A : FVec Ideal S5000x64 φ₁) (B : FVec Ideal S64x64 φ₂) (p : Fin 5000) (q : Fin 64) :
    matmul dot_S5000x64_S64x64_S5000x64_1_0_0_1_n_n none A B (constant (F := Ideal) S5000x64 .f32 0x00000000#32) (ix2 p q)
      = ∑ k : Fin 64, A (ix2 p k) * B (ix2 k q) := by
  refine (Ideal.matmul_constant_zero_apply dot_S5000x64_S64x64_S5000x64_1_0_0_1_n_n none A B (ix2 p q)).trans ?_
  rw [← Equiv.sum_comp (contrEquiv1 dot_S5000x64_S64x64_S5000x64_1_0_0_1_n_n 64 rfl rfl).symm]
  refine Finset.sum_congr rfl fun k _ => ?_
  have ck := contrEquiv1_symm_val dot_S5000x64_S64x64_S5000x64_1_0_0_1_n_n 64 rfl rfl k
  have l2 : dot_S5000x64_S64x64_S5000x64_1_0_0_1_n_n.lhsIdx (ix2 p q) ((contrEquiv1 _ 64 rfl rfl).symm k) = ix2 p k := by
    funext ax; apply Fin.ext
    match ax with
    | ⟨0, _⟩ => simp [DotDims.lhsIdx, dot_S5000x64_S64x64_S5000x64_1_0_0_1_n_n]; rfl
    | ⟨1, _⟩ => simp [DotDims.lhsIdx, dot_S5000x64_S64x64_S5000x64_1_0_0_1_n_n]; exact ck
  have r2 : dot_S5000x64_S64x64_S5000x64_1_0_0_1_n_n.rhsIdx (ix2 p q) ((contrEquiv1 _ 64 rfl rfl).symm k) = ix2 k q := by
    funext ax; apply Fin.ext
    match ax with
    | ⟨0, _⟩ => simp [DotDims.rhsIdx, dot_S5000x64_S64x64_S5000x64_1_0_0_1_n_n]; exact ck
    | ⟨1, _⟩ => simp [DotDims.rhsIdx, dot_S5000x64_S64x64_S5000x64_1_0_0_1_n_n]; rfl
  rw [l2, r2]

/-- A 1×64 row broadcast down 5000 rows reads, at `(p, q)`, the row's entry `q`. -/
theorem bcast_at (b : Vec Ideal S1x64 .f32) (p : Fin 5000) (q : Fin 64) :
    broadcastTo S5000x64 (shapeCast S1x64 b shapeCasts_S1x64_S1x64) broadcasts_S1x64_S5000x64 (ix2 p q) = b (ix2 0 q) := by
  rw [shapeCast_self]
  exact broadcastTo_apply b broadcasts_S1x64_S5000x64 (ix2 p q) (ix2 0 q) (fun a => by
    match a with
    | ⟨0, _⟩ => rfl
    | ⟨1, _⟩ => rfl)

/-- The stored block at entry `(p, q)`: the two-layer perceptron of row `p` of `x + a`. -/
theorem pay4_at (x a : Vec Ideal S5000x64 .f32) (w1 : Vec Ideal S64x64 .f32) (b1 : Vec Ideal S1x64 .f32)
    (w2 : Vec Ideal S64x64 .f32) (b2 : Vec Ideal S1x64 .f32) (p : Fin 5000) (q : Fin 64) :
    k4_pay4 (F := Ideal) x a w1 b1 w2 b2 (ix2 p q)
      = (∑ k : Fin 64, max ((∑ j : Fin 64, (x (ix2 p j) + a (ix2 p j)) * w1 (ix2 j k)) + b1 (ix2 0 k)) 0 * w2 (ix2 k q))
        + b2 (ix2 0 q) := by
  unfold k4_pay4
  refine congrArg₂ (· + ·) ?_ (bcast_at b2 p q)
  refine (matmul_at _ _ p q).trans ?_
  refine Finset.sum_congr rfl fun k _ => ?_
  refine congrArg₂ (· * ·) ?_ rfl
  show max (_ + _) (Ideal.ofBits .f32 0x00000000#32) = _
  rw [Ideal.ofBits_zero_f32]
  refine congrArg₂ max (congrArg₂ (· + ·) ?_ (bcast_at b1 p k)) rfl
  refine (matmul_at _ _ p k).trans ?_
  refine Finset.sum_congr rfl fun j _ => ?_
  rw [shapeCast_self, shapeCast_self]
  rfl

/-- The column sums of a 5000×64 block, kept as a 1×64 row: entry `(0, q)` is the sum of column `q` over the 5000 rows. -/
theorem colsum_at (src : FVec Ideal S5000x64 .f32) (u : Fin 1) (q : Fin 64) :
    shapeCast S1x64 (multiReduction (F := Ideal) .add [0] S64 src 0x00000000#32 reduces_S5000x64_S64 (.inl rfl) rfl)
        shapeCasts_S64_S1x64 (ix2 u q) = ∑ p : Fin 5000, src (ix2 p q) := by
  refine (shapeCast_a_1a_apply _ shapeCasts_S64_S1x64 u q).trans ?_
  refine (Ideal.multiReduction_add_single src 0x00000000#32 reduces_S5000x64_S64 (.inl rfl) rfl (ix1 q)).trans ?_
  show ∑ p : Fin 5000, src (reduces_S5000x64_S64.lift (ix1 q) p) = _
  refine Finset.sum_congr rfl fun p _ => congrArg src ?_
  funext ax; apply Fin.ext
  match ax with
  | ⟨0, _⟩ => rfl
  | ⟨1, _⟩ => rfl

/-- The running row of column sums after a point: what it held plus the column sums of the point's stored block. -/
theorem pay5_at (x a : Vec Ideal S5000x64 .f32) (w1 : Vec Ideal S64x64 .f32) (b1 : Vec Ideal S1x64 .f32)
    (w2 : Vec Ideal S64x64 .f32) (b2 : Vec Ideal S1x64 .f32) (acc : Vec Ideal S1x64 .f32) (u : Fin 1) (q : Fin 64) :
    k4_pay5 (F := Ideal) x a w1 b1 w2 b2 acc (ix2 u q)
      = acc (ix2 u q) + ∑ p : Fin 5000, k4_pay4 (F := Ideal) x a w1 b1 w2 b2 (ix2 p q) := by
  unfold k4_pay5
  refine congrArg₂ (· + ·) ?_ (colsum_at _ u q)
  rw [shapeCast_self]

/-- The running row of column sums of squares after a point: what it held plus the column sums of the squares of
    the point's stored block. -/
theorem pay1_at (blk : FVec Ideal S5000x64 .f32) (acc : Vec Ideal S1x64 .f32) (u : Fin 1) (q : Fin 64) :
    k4_pay1 (F := Ideal) blk acc (ix2 u q) = acc (ix2 u q) + ∑ p : Fin 5000, blk (ix2 p q) * blk (ix2 p q) := by
  unfold k4_pay1
  refine congrArg₂ (· + ·) ?_ ((colsum_at _ u q).trans rfl)
  rw [shapeCast_self]

/-- The two rows the first point resets the running rows to are zero. -/
theorem pay2_at (j : S1x64.Idx) : k4_pay2 (F := Ideal) j = 0 := Ideal.ofBits_zero_f32
theorem pay3_at (j : S1x64.Idx) : k4_pay3 (F := Ideal) j = 0 := Ideal.ofBits_zero_f32

end Cert.KernelIdeal.ConvValue4

end
-- ==== Proof.ConvBlocks4.lean ====
/-
  Where a block of a window sits in its array, for the graph-convolution perceptron kernel's nine windows.

  The grid has 20 points.  The two node arrays and the stored result are cut into 20 blocks of 5000 rows, block `t` at
  point `t`: row `p` of block `t` is row `5000 t + p` of the array.  The weights, the biases and the two running rows
  are one block each, the same at every point: an entry of the block is that entry of the array.
-/
import proofs.«171644_j66365834658285_1_alg».proof.Proof.Gen.KernelIdeal.Launch
import proofs.«171644_j66365834658285_1_alg».proof.Proof.Gen.KernelIdeal.Points
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.ConvValue4

open Cert.KernelIdeal Cert.KernelIdeal.Gen

/-- The block index of every window at every grid point: the point's number on the row axis for the three
    row-blocked windows, zero everywhere else. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0 :=
  (by decide +kernel : ∀ t : Fin grid4.N, _)

/-- There are 20 grid points. -/
theorem N_eq : cfg4.N = 20 := N_4

/-- Row `p` of block `t` is a row of the 100000-row array. -/
theorem row_lt (t : Fin cfg4.N) (p : Fin 5000) : 5000 * t.val + p.val < 100000 := by
  have ht : t.val < 20 := lt_of_lt_of_eq t.isLt N_eq
  have := p.isLt; omega

/-- Window 0 (the node rows): row `p` of block `t` is row `5000 t + p` of the array. -/
theorem blk0_at (A : S100000x64.Idx → EReal) (t : Fin cfg4.N) (p : Fin 5000) (q : Fin 64) :
    (((cfg4.win 0).blk t).view.read (Elt Ideal) A : S5000x64.Idx → EReal) (ix2 p q)
      = A (ix2 ⟨5000 * t.val + p.val, row_lt t p⟩ q) := by
  obtain ⟨e0, e1, -⟩ := idx_facts t
  rw [View.read_apply]
  show A _ = A _
  congr 1
  funext a
  apply Fin.ext
  match a with
  | ⟨0, _⟩ => show win4_0.index t (0 : Fin 2) * 5000 + 1 * p.val = 5000 * t.val + p.val; rw [e0]; omega
  | ⟨1, _⟩ => show win4_0.index t (1 : Fin 2) * 64 + 1 * q.val = q.val; rw [e1]; omega

/-- Window 1 (the in-neighbour sums): row `p` of block `t` is row `5000 t + p` of the array. -/
theorem blk1_at (A : S100000x64.Idx → EReal) (t : Fin cfg4.N) (p : Fin 5000) (q : Fin 64) :
    (((cfg4.win 1).blk t).view.read (Elt Ideal) A : S5000x64.Idx → EReal) (ix2 p q)
      = A (ix2 ⟨5000 * t.val + p.val, row_lt t p⟩ q) := by
  obtain ⟨-, -, e0, e1, -⟩ := idx_facts t
  rw [View.read_apply]
  show A _ = A _
  congr 1
  funext a
  apply Fin.ext
  match a with
  | ⟨0, _⟩ => show win4_1.index t (0 : Fin 2) * 5000 + 1 * p.val = 5000 * t.val + p.val; rw [e0]; omega
  | ⟨1, _⟩ => show win4_1.index t (1 : Fin 2) * 64 + 1 * q.val = q.val; rw [e1]; omega

/-- Window 6 (the stored result): row `p` of block `t` is row `5000 t + p` of the array. -/
theorem blk6_at (A : S100000x64.Idx → EReal) (t : Fin cfg4.N) (p : Fin 5000) (q : Fin 64) :
    (((cfg4.win 6).blk t).view.read (Elt Ideal) A : S5000x64.Idx → EReal) (ix2 p q)
      = A (ix2 ⟨5000 * t.val + p.val, row_lt t p⟩ q) := by
  obtain ⟨-, -, -, -, -, -, -, -, -, -, -, -, e0, e1, -⟩ := idx_facts t
  rw [View.read_apply]
  show A _ = A _
  congr 1
  funext a
  apply Fin.ext
  match a with
  | ⟨0, _⟩ => show win4_6.index t (0 : Fin 2) * 5000 + 1 * p.val = 5000 * t.val + p.val; rw [e0]; omega
  | ⟨1, _⟩ => show win4_6.index t (1 : Fin 2) * 64 + 1 * q.val = q.val; rw [e1]; omega

/-- Window 2 (the first weights) is one block: an entry of the block is that entry of the array. -/
theorem blk2_at (A : S64x64.Idx → EReal) (t : Fin cfg4.N) (j k : Fin 64) :
    (((cfg4.win 2).blk t).view.read (Elt Ideal) A : S64x64.Idx → EReal) (ix2 j k) = A (ix2 j k) := by
  obtain ⟨-, -, -, -, e0, e1, -⟩ := idx_facts t
  rw [View.read_apply]
  show A _ = A _
  congr 1
  funext a
  apply Fin.ext
  match a with
  | ⟨0, _⟩ => show win4_2.index t (0 : Fin 2) * 64 + 1 * j.val = j.val; rw [e0]; omega
  | ⟨1, _⟩ => show win4_2.index t (1 : Fin 2) * 64 + 1 * k.val = k.val; rw [e1]; omega

/-- Window 4 (the second weights) is one block. -/
theorem blk4_at (A : S64x64.Idx → EReal) (t : Fin cfg4.N) (j k : Fin 64) :
    (((cfg4.win 4).blk t).view.read (Elt Ideal) A : S64x64.Idx → EReal) (ix2 j k) = A (ix2 j k) := by
  obtain ⟨-, -, -, -, -, -, -, -, e0, e1, -⟩ := idx_facts t
  rw [View.read_apply]
  show A _ = A _
  congr 1
  funext a
  apply Fin.ext
  match a with
  | ⟨0, _⟩ => show win4_4.index t (0 : Fin 2) * 64 + 1 * j.val = j.val; rw [e0]; omega
  | ⟨1, _⟩ => show win4_4.index t (1 : Fin 2) * 64 + 1 * k.val = k.val; rw [e1]; omega

/-- Window 3 (the first bias row) is one block. -/
theorem blk3_at (A : S1x64.Idx → EReal) (t : Fin cfg4.N) (u : Fin 1) (k : Fin 64) :
    (((cfg4.win 3).blk t).view.read (Elt Ideal) A : S1x64.Idx → EReal) (ix2 u k) = A (ix2 u k) := by
  obtain ⟨-, -, -, -, -, -, e0, e1, -⟩ := idx_facts t
  rw [View.read_apply]
  show A _ = A _
  congr 1
  funext a
  apply Fin.ext
  match a with
  | ⟨0, _⟩ => show win4_3.index t (0 : Fin 2) * 1 + 1 * u.val = u.val; rw [e0]; omega
  | ⟨1, _⟩ => show win4_3.index t (1 : Fin 2) * 64 + 1 * k.val = k.val; rw [e1]; omega

/-- Window 5 (the second bias row) is one block. -/
theorem blk5_at (A : S1x64.Idx → EReal) (t : Fin cfg4.N) (u : Fin 1) (k : Fin 64) :
    (((cfg4.win 5).blk t).view.read (Elt Ideal) A : S1x64.Idx → EReal) (ix2 u k) = A (ix2 u k) := by
  obtain ⟨-, -, -, -, -, -, -, -, -, -, e0, e1, -⟩ := idx_facts t
  rw [View.read_apply]
  show A _ = A _
  congr 1
  funext a
  apply Fin.ext
  match a with
  | ⟨0, _⟩ => show win4_5.index t (0 : Fin 2) * 1 + 1 * u.val = u.val; rw [e0]; omega
  | ⟨1, _⟩ => show win4_5.index t (1 : Fin 2) * 64 + 1 * k.val = k.val; rw [e1]; omega

/-- Window 7 (the running row of column sums) is one block. -/
theorem blk7_at (A : S1x64.Idx → EReal) (t : Fin cfg4.N) (u : Fin 1) (k : Fin 64) :
    (((cfg4.win 7).blk t).view.read (Elt Ideal) A : S1x64.Idx → EReal) (ix2 u k) = A (ix2 u k) := by
  obtain ⟨-, -, -, -, -, -, -, -, -, -, -, -, -, -, e0, e1, -⟩ := idx_facts t
  rw [View.read_apply]
  show A _ = A _
  congr 1
  funext a
  apply Fin.ext
  match a with
  | ⟨0, _⟩ => show win4_7.index t (0 : Fin 2) * 1 + 1 * u.val = u.val; rw [e0]; omega
  | ⟨1, _⟩ => show win4_7.index t (1 : Fin 2) * 64 + 1 * k.val = k.val; rw [e1]; omega

/-- Window 8 (the running row of column sums of squares) is one block. -/
theorem blk8_at (A : S1x64.Idx → EReal) (t : Fin cfg4.N) (u : Fin 1) (k : Fin 64) :
    (((cfg4.win 8).blk t).view.read (Elt Ideal) A : S1x64.Idx → EReal) (ix2 u k) = A (ix2 u k) := by
  obtain ⟨-, -, -, -, -, -, -, -, -, -, -, -, -, -, -, -, e0, e1⟩ := idx_facts t
  rw [View.read_apply]
  show A _ = A _
  congr 1
  funext a
  apply Fin.ext
  match a with
  | ⟨0, _⟩ => show win4_8.index t (0 : Fin 2) * 1 + 1 * u.val = u.val; rw [e0]; omega
  | ⟨1, _⟩ => show win4_8.index t (1 : Fin 2) * 64 + 1 * k.val = k.val; rw [e1]; omega

end Cert.KernelIdeal.ConvValue4

end
-- ==== Proof.ConvPieces4.lean ====
/-
  What one run of the graph-convolution perceptron kernel's body leaves in its three output buffers, as values.

  The body's run on whole staging buffers is generated, in two cases: at the first grid point the two running rows are
  first reset to zero, at a later point they are read as the point before left them.  In both cases the result block's
  buffer receives one store of the whole block (the perceptron of the two input blocks), and each running row receives,
  last, one store of the whole row: what it held (the zero row just stored, or the carried row) plus the block's column
  sums, or plus the column sums of the block's squares.  A buffer whose last store covers it holds that store's value;
  a load after one covering store reads that store's value; a load of a buffer nothing stored to reads its contents.
-/
import proofs.«171644_j66365834658285_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.ConvValue4

open Cert.KernelIdeal Cert.KernelIdeal.Gen

variable {F : FTy → Type} [FloatOps F]

/-- The zero offsets of a store of a whole buffer. -/
theorem hz : (![0, 0] : Fin 2 → Nat) = fun _ => 0 := funext fun a => by fin_cases a <;> rfl

variable (c : Dev nD) (i : grid4.Coords)
  (a1 : Memref sig .tc .vmem S5000x64 .f32) (h1 : a1.IsWhole) (a2 : Memref sig .tc .vmem S5000x64 .f32) (h2 : a2.IsWhole)
  (a3 : Memref sig .tc .vmem S64x64 .f32) (h3 : a3.IsWhole) (a4 : Memref sig .tc .vmem S1x64 .f32) (h4 : a4.IsWhole)
  (a5 : Memref sig .tc .vmem S64x64 .f32) (h5 : a5.IsWhole) (a6 : Memref sig .tc .vmem S1x64 .f32) (h6 : a6.IsWhole)
  (a7 : Memref sig .tc .vmem S5000x64 .f32) (h7 : a7.IsWhole) (a8 : Memref sig .tc .vmem S1x64 .f32) (h8 : a8.IsWhole)
  (a9 : Memref sig .tc .vmem S1x64 .f32) (h9 : a9.IsWhole)
  (x0 x1 : Vec F S5000x64 .f32) (x2 : Vec F S64x64 .f32) (x3 : Vec F S1x64 .f32) (x4 : Vec F S64x64 .f32) (x5 : Vec F S1x64 .f32)

/-- Every point stores to the block of the result the perceptron of its two input blocks (the case of the first point). -/
theorem outA6 (hc : cond4_0 i) :
    out4_A_6 c i a1 h1 a2 h2 a3 h3 a4 h4 a5 h5 a6 h6 a7 h7 a8 h8 a9 h9 hc x0 x1 x2 x3 x4 x5 = k4_pay4 x0 x1 x2 x3 x4 x5 := by
  unfold out4_A_6
  rw [View.read_writes_eq_canon _ _ _ (cover4_A_6 c i a1 h1 a2 h2 a3 h3 a4 h4 a5 h5 a6 h6 a7 h7 a8 h8 a9 h9 hc x0 x1 x2 x3 x4 x5)]
  unfold kernelRun4_A
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x64) hz, View.ld_unit_zero (S := S64x64) hz, View.ld_unit_zero (S := S1x64) hz]

/-- At the first point the running row of column sums is reset to zero and then the block's column sums are added. -/
theorem outA7 (hc : cond4_0 i) :
    out4_A_7 c i a1 h1 a2 h2 a3 h3 a4 h4 a5 h5 a6 h6 a7 h7 a8 h8 a9 h9 hc x0 x1 x2 x3 x4 x5 = k4_pay5 x0 x1 x2 x3 x4 x5 k4_pay2 := by
  unfold out4_A_7
  rw [View.read_writes_eq_canon _ _ _ (cover4_A_7 c i a1 h1 a2 h2 a3 h3 a4 h4 a5 h5 a6 h6 a7 h7 a8 h8 a9 h9 hc x0 x1 x2 x3 x4 x5)]
  unfold kernelRun4_A
  dsimp only
  sl_unfold_words
  rw [View.canon_cons_unit_zero hz, View.readCov_unit_zero _ hz]
  simp only [View.readAt_eq_ld, h1.read_unread, h2.read_unread, h3.read_unread, h4.read_unread, h5.read_unread, h6.read_unread, h8.read_unread, h9.read_unread, View.ld_unit_zero (S := S5000x64) hz, View.ld_unit_zero (S := S64x64) hz, View.ld_unit_zero (S := S1x64) hz]

/-- At the first point the running row of column sums of squares is reset to zero and then the block's are added. -/
theorem outA8 (hc : cond4_0 i) :
    out4_A_8 c i a1 h1 a2 h2 a3 h3 a4 h4 a5 h5 a6 h6 a7 h7 a8 h8 a9 h9 hc x0 x1 x2 x3 x4 x5 = k4_pay1 (k4_pay4 x0 x1 x2 x3 x4 x5) k4_pay3 := by
  unfold out4_A_8
  rw [View.read_writes_eq_canon _ _ _ (cover4_A_8 c i a1 h1 a2 h2 a3 h3 a4 h4 a5 h5 a6 h6 a7 h7 a8 h8 a9 h9 hc x0 x1 x2 x3 x4 x5)]
  unfold kernelRun4_A
  dsimp only
  sl_unfold_words
  rw [View.canon_cons_unit_zero hz, View.readCov_unit_zero _ hz]
  simp only [View.readAt_eq_ld, h1.read_unread, h2.read_unread, h3.read_unread, h4.read_unread, h5.read_unread, h6.read_unread, h8.read_unread, h9.read_unread, View.ld_unit_zero (S := S5000x64) hz, View.ld_unit_zero (S := S64x64) hz, View.ld_unit_zero (S := S1x64) hz]

/-- Every point stores to the block of the result the perceptron of its two input blocks (the case of a later point). -/
theorem outB6 (hc : ¬cond4_0 i) (xo7 xo8 : Vec F S1x64 .f32) :
    out4_B_6 c i a1 h1 a2 h2 a3 h3 a4 h4 a5 h5 a6 h6 a7 h7 a8 h8 a9 h9 hc x0 x1 x2 x3 x4 x5 xo7 xo8 = k4_pay4 x0 x1 x2 x3 x4 x5 := by
  unfold out4_B_6
  rw [View.read_writes_eq_canon _ _ _ (cover4_B_6 c i a1 h1 a2 h2 a3 h3 a4 h4 a5 h5 a6 h6 a7 h7 a8 h8 a9 h9 hc x0 x1 x2 x3 x4 x5 xo7 xo8)]
  unfold kernelRun4_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x64) hz, View.ld_unit_zero (S := S64x64) hz, View.ld_unit_zero (S := S1x64) hz]

/-- At a later point the block's column sums are added to what the running row held. -/
theorem outB7 (hc : ¬cond4_0 i) (xo7 xo8 : Vec F S1x64 .f32) :
    out4_B_7 c i a1 h1 a2 h2 a3 h3 a4 h4 a5 h5 a6 h6 a7 h7 a8 h8 a9 h9 hc x0 x1 x2 x3 x4 x5 xo7 xo8 = k4_pay5 x0 x1 x2 x3 x4 x5 xo7 := by
  unfold out4_B_7
  rw [View.read_writes_eq_canon _ _ _ (cover4_B_7 c i a1 h1 a2 h2 a3 h3 a4 h4 a5 h5 a6 h6 a7 h7 a8 h8 a9 h9 hc x0 x1 x2 x3 x4 x5 xo7 xo8)]
  unfold kernelRun4_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x64) hz, View.ld_unit_zero (S := S64x64) hz, View.ld_unit_zero (S := S1x64) hz]

/-- At a later point the column sums of the block's squares are added to what the second running row held. -/
theorem outB8 (hc : ¬cond4_0 i) (xo7 xo8 : Vec F S1x64 .f32) :
    out4_B_8 c i a1 h1 a2 h2 a3 h3 a4 h4 a5 h5 a6 h6 a7 h7 a8 h8 a9 h9 hc x0 x1 x2 x3 x4 x5 xo7 xo8 = k4_pay1 (k4_pay4 x0 x1 x2 x3 x4 x5) xo8 := by
  unfold out4_B_8
  rw [View.read_writes_eq_canon _ _ _ (cover4_B_8 c i a1 h1 a2 h2 a3 h3 a4 h4 a5 h5 a6 h6 a7 h7 a8 h8 a9 h9 hc x0 x1 x2 x3 x4 x5 xo7 xo8)]
  unfold kernelRun4_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x64) hz, View.ld_unit_zero (S := S64x64) hz, View.ld_unit_zero (S := S1x64) hz]

end Cert.KernelIdeal.ConvValue4

end
-- ==== Proof.ConvInv4.lean ====
/-
  What the three outputs of the graph-convolution perceptron kernel hold after each grid point, as one invariant.

  Write `X` for the perceptron `relu ((h + agg) · w1 + b1) · w2 + b2` of the whole node array, 100000 rows.  The block
  stored at point `t` is rows `5000 t … 5000 t + 4999` of `X`, because a row of the perceptron depends on that row of
  the input only and the weights are whole at every point.  The first point resets the two running rows to zero and
  every point adds its block's column sums, so after point `n` the first running row holds, in column `q`, the sum of
  `X`'s column `q` over rows `0 … 5000 (n + 1) − 1`, and the second the sum of the squares over the same rows: by
  induction on the point.  After the last point, `n = 19`, these are the sums over all 100000 rows.
-/
import proofs.«171644_j66365834658285_1_alg».proof.Proof.ConvPay4
import proofs.«171644_j66365834658285_1_alg».proof.Proof.ConvBlocks4
import proofs.«171644_j66365834658285_1_alg».proof.Proof.ConvPieces4
import proofs.«171644_j66365834658285_1_alg».proof.Proof.Spec

noncomputable section

open Idealize.ShloMosaic Idealize.ShloMosaic.TcCoe Idealize.SL.Sem Idealize.ShloMosaic.ValueIdx
open Idealize.ShloMosaic.Pipeline (Dat)

namespace Cert.KernelIdeal.ConvValue4

open Cert.KernelIdeal Cert.KernelIdeal.Gen

/-! ## One point's step, for any float instance -/

section Step

variable {F : FTy → Type} [FloatOps F]
variable (V : (c : Dev nD) → (b : Ref sig .tc) → Buf (Elt F) ((c : Thread nD τ).loc b)) (c : Dev nD)

/-- The block point `t` stores: the perceptron of its two input blocks at the whole weights. -/
def blkOf (t : Fin cfg4.N) : Vec F S5000x64 .f32 :=
  k4_pay4 (iblk4 V c 0 t) (iblk4 V c 1 t) (iblk4 V c 2 t) (iblk4 V c 3 t) (iblk4 V c 4 t) (iblk4 V c 5 t)

/-- The first point: the block, and the two running rows reset and then added to. -/
theorem step_A (t : Fin cfg4.N) (h0 : t.val % 20 = 0) :
    outsAt4 V c t.val t.isLt
      = (blkOf V c t, k4_pay5 (iblk4 V c 0 t) (iblk4 V c 1 t) (iblk4 V c 2 t) (iblk4 V c 3 t) (iblk4 V c 4 t) (iblk4 V c 5 t) k4_pay2, k4_pay1 (blkOf V c t) k4_pay3) := by
  rw [outsAt4_A V c t h0]
  have e6 := outA6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (iblk4 V c 0 t) (iblk4 V c 1 t) (iblk4 V c 2 t) (iblk4 V c 3 t) (iblk4 V c 4 t) (iblk4 V c 5 t) ((hcond4_0 t).mpr h0)
  have e7 := outA7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (iblk4 V c 0 t) (iblk4 V c 1 t) (iblk4 V c 2 t) (iblk4 V c 3 t) (iblk4 V c 4 t) (iblk4 V c 5 t) ((hcond4_0 t).mpr h0)
  have e8 := outA8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (iblk4 V c 0 t) (iblk4 V c 1 t) (iblk4 V c 2 t) (iblk4 V c 3 t) (iblk4 V c 4 t) (iblk4 V c 5 t) ((hcond4_0 t).mpr h0)
  rw [e6, e7, e8]
  rfl

/-- A later point: the block, and the two running rows of the point before added to. -/
theorem step_B (t : Fin cfg4.N) (h0 : ¬t.val % 20 = 0) :
    outsAt4 V c t.val t.isLt
      = (blkOf V c t,
          k4_pay5 (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1,
          k4_pay1 (blkOf V c t) (outsAt4 V c (t.val - 1) (Nat.lt_of_le_of_lt (Nat.sub_le _ _) t.isLt)).2.2) := by
  rw [outsAt4_B V c t h0]
  have e6 := outB6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (iblk4 V c 0 t) (iblk4 V c 1 t) (iblk4 V c 2 t) (iblk4 V c 3 t) (iblk4 V c 4 t) (iblk4 V c 5 t) (fun h => h0 ((hcond4_0 t).mp h)) (outsAt4 V c (t.val - 1) (Nat.lt_of_le_of_lt (Nat.sub_le _ _) t.isLt)).2.1 (outsAt4 V c (t.val - 1) (Nat.lt_of_le_of_lt (Nat.sub_le _ _) t.isLt)).2.2
  have e7 := outB7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (iblk4 V c 0 t) (iblk4 V c 1 t) (iblk4 V c 2 t) (iblk4 V c 3 t) (iblk4 V c 4 t) (iblk4 V c 5 t) (fun h => h0 ((hcond4_0 t).mp h)) (outsAt4 V c (t.val - 1) (Nat.lt_of_le_of_lt (Nat.sub_le _ _) t.isLt)).2.1 (outsAt4 V c (t.val - 1) (Nat.lt_of_le_of_lt (Nat.sub_le _ _) t.isLt)).2.2
  have e8 := outB8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (iblk4 V c 0 t) (iblk4 V c 1 t) (iblk4 V c 2 t) (iblk4 V c 3 t) (iblk4 V c 4 t) (iblk4 V c 5 t) (fun h => h0 ((hcond4_0 t).mp h)) (outsAt4 V c (t.val - 1) (Nat.lt_of_le_of_lt (Nat.sub_le _ _) t.isLt)).2.1 (outsAt4 V c (t.val - 1) (Nat.lt_of_le_of_lt (Nat.sub_le _ _) t.isLt)).2.2
  rw [e6, e7, e8]
  rfl

end Step

/-! ## Sums over rows, block by block -/

/-- A sum over the first `b (n + 1)` naturals is the sum over the first `b n` plus the sum over the next `b`. -/
theorem sum_range_block {M : Type*} [AddCommMonoid M] (f : ℕ → M) (b n : ℕ) :
    ∑ r ∈ Finset.range (b * (n + 1)), f r = ∑ r ∈ Finset.range (b * n), f r + ∑ p : Fin b, f (b * n + p.val) := by
  rw [Nat.mul_succ, Finset.sum_range_add, Finset.sum_range (fun x => f (b * n + x))]

/-- Entry `(r, q)` of a 100000×64 matrix for a natural `r`, zero past the last row. -/
def rowOf (X : S100000x64.Idx → EReal) (r : ℕ) (q : Fin 64) : EReal :=
  if h : r < 100000 then X (ix2 ⟨r, h⟩ q) else 0

/-- All 20 blocks of 5000 rows: the sum over every row. -/
theorem sum_rowOf (X : S100000x64.Idx → EReal) (q : Fin 64) :
    ∑ r ∈ Finset.range (5000 * (19 + 1)), rowOf X r q = ∑ p : Fin 100000, X (ix2 p q) := by
  show ∑ r ∈ Finset.range 100000, rowOf X r q = _
  rw [Finset.sum_range]
  refine Finset.sum_congr rfl fun p _ => ?_
  unfold rowOf
  rw [dif_pos p.isLt]

/-- The same for the squares. -/
theorem sum_rowOf_sq (X : S100000x64.Idx → EReal) (q : Fin 64) :
    ∑ r ∈ Finset.range (5000 * (19 + 1)), rowOf X r q * rowOf X r q = ∑ p : Fin 100000, X (ix2 p q) * X (ix2 p q) := by
  show ∑ r ∈ Finset.range 100000, rowOf X r q * rowOf X r q = _
  rw [Finset.sum_range]
  refine Finset.sum_congr rfl fun p _ => ?_
  unfold rowOf
  rw [dif_pos p.isLt]

/-! ## The invariant over the extended reals -/

variable (V : (c : Dev nD) → (b : Ref sig .tc) → Buf (Elt Ideal) ((c : Thread nD τ).loc b)) (c : Dev nD)

/-- The perceptron of the whole node array as the region finds it: `relu ((h + agg) · w1 + b1) · w2 + b2`. -/
def convOf : S100000x64.Idx → EReal :=
  Cert.Gin.mlp2 (Cert.Gin.plus (V c main_v55 : S100000x64.Idx → EReal) (V c main_v65 : S100000x64.Idx → EReal))
    (V c main_arg11 : S64x64.Idx → EReal) (fun q => (V c main_v66 : S1x64.Idx → EReal) (ix2 0 (q 0)))
    (V c main_arg13 : S64x64.Idx → EReal) (fun q => (V c main_v67 : S1x64.Idx → EReal) (ix2 0 (q 0)))

/-- Row `p` of the block point `t` stores is row `5000 t + p` of the perceptron of the whole array. -/
theorem blkOf_at (t : Fin cfg4.N) (p : Fin 5000) (q : Fin 64) :
    blkOf V c t (ix2 p q) = convOf V c (ix2 ⟨5000 * t.val + p.val, row_lt t p⟩ q) := by
  unfold blkOf
  refine (pay4_at (iblk4 V c 0 t) (iblk4 V c 1 t) (iblk4 V c 2 t) (iblk4 V c 3 t) (iblk4 V c 4 t) (iblk4 V c 5 t) p q).trans ?_
  unfold convOf Cert.Gin.mlp2 Cert.Gin.plus
  refine congrArg₂ (· + ·) (Finset.sum_congr rfl fun k _ => congrArg₂ (· * ·) (congrArg₂ max (congrArg₂ (· + ·)
    (Finset.sum_congr rfl fun j _ => congrArg₂ (· * ·)
      (congrArg₂ (· + ·) (blk0_at (V c main_v55) t p j) (blk1_at (V c main_v65) t p j))
      (blk2_at (V c main_arg11) t j k))
    (blk3_at (V c main_v66) t 0 k)) rfl) (blk4_at (V c main_arg13) t k q)) (blk5_at (V c main_v67) t 0 q)

/-- The same, with the row as a natural number. -/
theorem blkOf_row (t : Fin cfg4.N) (p : Fin 5000) (q : Fin 64) :
    blkOf V c t (ix2 p q) = rowOf (convOf V c) (5000 * t.val + p.val) q := by
  rw [blkOf_at]
  unfold rowOf
  rw [dif_pos (row_lt t p)]

/-- THE INVARIANT: after point `n` the block buffer holds block `n` of the perceptron, and the two running rows hold
    the column sums, and the column sums of squares, of its rows `0 … 5000 (n + 1) − 1`. -/
theorem inv : ∀ (n : ℕ) (h : n < cfg4.N),
    (outsAt4 V c n h).1 = blkOf V c ⟨n, h⟩
    ∧ (∀ (u : Fin 1) (q : Fin 64), (outsAt4 V c n h).2.1 (ix2 u q)
        = ∑ r ∈ Finset.range (5000 * (n + 1)), rowOf (convOf V c) r q)
    ∧ (∀ (u : Fin 1) (q : Fin 64), (outsAt4 V c n h).2.2 (ix2 u q)
        = ∑ r ∈ Finset.range (5000 * (n + 1)), rowOf (convOf V c) r q * rowOf (convOf V c) r q)
  | 0, h => by
    have e := step_A V c ⟨0, h⟩ (Nat.zero_mod 20)
    refine ⟨congrArg Prod.fst e, fun u q => ?_, fun u q => ?_⟩
    · refine (congrFun (congrArg (fun x => x.2.1) e) (ix2 u q)).trans ?_
      refine (pay5_at (iblk4 V c 0 ⟨0, h⟩) (iblk4 V c 1 ⟨0, h⟩) (iblk4 V c 2 ⟨0, h⟩) (iblk4 V c 3 ⟨0, h⟩) (iblk4 V c 4 ⟨0, h⟩) (iblk4 V c 5 ⟨0, h⟩) (k4_pay2 (F := Ideal)) u q).trans ?_
      rw [pay2_at, sum_range_block, Nat.mul_zero, Finset.range_zero, Finset.sum_empty]
      exact congrArg _ (Finset.sum_congr rfl fun p _ => blkOf_row V c ⟨0, h⟩ p q)
    · refine (congrFun (congrArg (fun x => x.2.2) e) (ix2 u q)).trans ?_
      refine (pay1_at (blkOf V c ⟨0, h⟩) (k4_pay3 (F := Ideal)) u q).trans ?_
      rw [pay3_at, sum_range_block, Nat.mul_zero, Finset.range_zero, Finset.sum_empty]
      exact congrArg _ (Finset.sum_congr rfl fun p _ =>
        congrArg₂ (· * ·) (blkOf_row V c ⟨0, h⟩ p q) (blkOf_row V c ⟨0, h⟩ p q))
  | n + 1, h => by
    have h20 : n + 1 < 20 := lt_of_lt_of_eq h N_eq
    have hB : ¬(⟨n + 1, h⟩ : Fin cfg4.N).val % 20 = 0 := by dsimp only; omega
    have e := step_B V c ⟨n + 1, h⟩ hB
    obtain ⟨-, ih7, ih8⟩ := inv n (Nat.lt_of_succ_lt h)
    refine ⟨congrArg Prod.fst e, fun u q => ?_, fun u q => ?_⟩
    · refine (congrFun (congrArg (fun x => x.2.1) e) (ix2 u q)).trans ?_
      refine (pay5_at (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) _ u q).trans ?_
      rw [sum_range_block _ 5000 (n + 1)]
      exact congrArg₂ (· + ·) (ih7 u q) (Finset.sum_congr rfl fun p _ => blkOf_row V c ⟨n + 1, h⟩ p q)
    · refine (congrFun (congrArg (fun x => x.2.2) e) (ix2 u q)).trans ?_
      refine (pay1_at (blkOf V c ⟨n + 1, h⟩) _ u q).trans ?_
      rw [sum_range_block _ 5000 (n + 1)]
      exact congrArg₂ (· + ·) (ih8 u q) (Finset.sum_congr rfl fun p _ =>
        congrArg₂ (· * ·) (blkOf_row V c ⟨n + 1, h⟩ p q) (blkOf_row V c ⟨n + 1, h⟩ p q))

end Cert.KernelIdeal.ConvValue4

end
-- ==== Proof.ConvValue4.lean ====
/-
  The three arrays the graph-convolution perceptron kernel leaves, as functions of the arrays it finds.

  The stored result is written back block by block: point `t` writes rows `5000 t … 5000 t + 4999`, and those blocks
  tile the 100000 rows, so the array ends holding the perceptron `relu ((h + agg) · w1 + b1) · w2 + b2` of the whole node
  array.  Each of the two running rows is one block, written back once, after the last point; by then it holds the sum
  over all 20 blocks of 5000 rows, which is the sum over all 100000 rows: the column sums of the perceptron's output,
  and the column sums of its squares.
-/
import proofs.«171644_j66365834658285_1_alg».proof.Proof.ConvInv4

noncomputable section

open Idealize.ShloMosaic Idealize.ShloMosaic.TcCoe Idealize.SL.Sem Idealize.ShloMosaic.ValueIdx
open Idealize.ShloMosaic.Pipeline (Dat)

namespace Cert.KernelIdeal.ConvValue4

open Cert.KernelIdeal Cert.KernelIdeal.Gen

variable (V : (c : Dev nD) → (b : Ref sig .tc) → Buf (Elt Ideal) ((c : Thread nD τ).loc b)) (c : Dev nD)

/-! ## The stored result: 20 blocks of 5000 rows -/

/-- What point `t` writes back is block `t` of the perceptron of the whole node array. -/
theorem flushed6_eq (t : Fin cfg4.N) :
    (dat4 V c).flushed 6 t = ((cfg4.win 6).blk t).view.read (Elt Ideal) (convOf V c) := by
  show (cfg4.win 6).cut (grid4.coords t) ((dat4 V c).after 6 t) = _
  rw [after4_6, (inv V c t.val t.isLt).1]
  funext j
  obtain ⟨p, q, rfl⟩ : ∃ (p : Fin 5000) (q : Fin 64), j = ix2 p q := ⟨j 0, j 1, eq_ix2 j⟩
  exact (blkOf_at V c t p q).trans (blk6_at (convOf V c) t p q).symm

/-- An index of the array is in point `t`'s block iff each coordinate is in the block's range on its axis. -/
theorem mem_blk6 (t : Fin cfg4.N) (i : S100000x64.Idx) :
    i ∈ ((cfg4.win 6).blk t).view.set ↔ ∀ a : Fin 2, win4_6.index t a * S5000x64.size a ≤ (i a).val
      ∧ (i a).val < win4_6.index t a * S5000x64.size a + S5000x64.size a := by
  show i ∈ ((View.whole main_v68_0).slice (win4_6.rect t)).set ↔ _
  rw [View.set_slice_whole, Rect.mem_set_unit]
  exact Iff.rfl

/-- The blocks tile the rows (row `r` is in block `r / 5000`), so the array ends holding the perceptron of the whole
    node array. -/
theorem final6 : ((dat4 (F := Ideal) V c).arrAt 6 cfg4.N : S100000x64.Idx → EReal) = convOf V c :=
  (dat4 V c).arrAt_eq_of_cover 6 (convOf V c) (fun t _ => flushed6_eq V c t) fun i => by
    have hi0 : (i 0).val < 100000 := (i 0).isLt
    have hi1 : (i 1).val < 64 := (i 1).isLt
    have ht : (i 0).val / 5000 < cfg4.N := by rw [N_eq]; omega
    obtain ⟨-, -, -, -, -, -, -, -, -, -, -, -, e0, e1, -⟩ := idx_facts ⟨(i 0).val / 5000, ht⟩
    refine ⟨⟨(i 0).val / 5000, ht⟩, flush4_6 _, (mem_blk6 _ i).mpr fun a => ?_⟩
    match a with
    | ⟨0, _⟩ =>
      show win4_6.index ⟨(i 0).val / 5000, ht⟩ (0 : Fin 2) * 5000 ≤ (i 0).val
        ∧ (i 0).val < win4_6.index ⟨(i 0).val / 5000, ht⟩ (0 : Fin 2) * 5000 + 5000
      rw [e0]; show (i 0).val / 5000 * 5000 ≤ (i 0).val ∧ (i 0).val < (i 0).val / 5000 * 5000 + 5000; omega
    | ⟨1, _⟩ =>
      show win4_6.index ⟨(i 0).val / 5000, ht⟩ (1 : Fin 2) * 64 ≤ (i 1).val
        ∧ (i 1).val < win4_6.index ⟨(i 0).val / 5000, ht⟩ (1 : Fin 2) * 64 + 64
      rw [e1]; omega

/-! ## The two running rows: one block each, written back after the last point -/

/-- The last point. -/
theorem last_lt : 19 < cfg4.N := by rw [N_eq]; norm_num

/-- A point that writes a running row back is the last one. -/
theorem eq_last_of_mod (t : Fin cfg4.N) (h : t.val % 20 = 19) : t.val = 19 := by
  have := lt_of_lt_of_eq t.isLt N_eq; omega

/-- The one write-back of the first running row writes the column sums of the perceptron's output. -/
theorem flushed7_eq (t : Fin cfg4.N) (hf : (cfg4.win 7).flush t = true) :
    (dat4 V c).flushed 7 t
      = ((cfg4.win 7).blk t).view.read (Elt Ideal) (fun i : S1x64.Idx => Cert.Gin.colSum (convOf V c) (ix1 (i 1))) := by
  have h19 : t.val = 19 := eq_last_of_mod t ((flush4_7 t).mp hf)
  show (cfg4.win 7).cut (grid4.coords t) ((dat4 V c).after 7 t) = _
  rw [after4_7]
  funext j
  obtain ⟨u, q, rfl⟩ : ∃ (u : Fin 1) (q : Fin 64), j = ix2 u q := ⟨j 0, j 1, eq_ix2 j⟩
  refine ((inv V c t.val t.isLt).2.1 u q).trans ?_
  rw [blk7_at, h19, sum_rowOf]
  rfl

/-- The one write-back of the second running row writes the column sums of the squares of the perceptron's output. -/
theorem flushed8_eq (t : Fin cfg4.N) (hf : (cfg4.win 8).flush t = true) :
    (dat4 V c).flushed 8 t
      = ((cfg4.win 8).blk t).view.read (Elt Ideal) (fun i : S1x64.Idx => Cert.Gin.colSumSq (convOf V c) (ix1 (i 1))) := by
  have h19 : t.val = 19 := eq_last_of_mod t ((flush4_8 t).mp hf)
  show (cfg4.win 8).cut (grid4.coords t) ((dat4 V c).after 8 t) = _
  rw [after4_8]
  funext j
  obtain ⟨u, q, rfl⟩ : ∃ (u : Fin 1) (q : Fin 64), j = ix2 u q := ⟨j 0, j 1, eq_ix2 j⟩
  refine ((inv V c t.val t.isLt).2.2 u q).trans ?_
  rw [blk8_at, h19, sum_rowOf_sq]
  rfl

/-- An index of the first running row's array is in the one block. -/
theorem mem_blk7 (t : Fin cfg4.N) (i : S1x64.Idx) : i ∈ ((cfg4.win 7).blk t).view.set := by
  show i ∈ ((View.whole main_v68_1).slice (win4_7.rect t)).set
  rw [View.set_slice_whole, Rect.mem_set_unit]
  obtain ⟨-, -, -, -, -, -, -, -, -, -, -, -, -, -, e0, e1, -⟩ := idx_facts t
  have hi0 : (i 0).val < 1 := (i 0).isLt
  have hi1 : (i 1).val < 64 := (i 1).isLt
  intro a
  match a with
  | ⟨0, _⟩ =>
    show win4_7.index t (0 : Fin 2) * 1 ≤ (i 0).val ∧ (i 0).val < win4_7.index t (0 : Fin 2) * 1 + 1
    rw [e0]; omega
  | ⟨1, _⟩ =>
    show win4_7.index t (1 : Fin 2) * 64 ≤ (i 1).val ∧ (i 1).val < win4_7.index t (1 : Fin 2) * 64 + 64
    rw [e1]; omega

/-- An index of the second running row's array is in the one block. -/
theorem mem_blk8 (t : Fin cfg4.N) (i : S1x64.Idx) : i ∈ ((cfg4.win 8).blk t).view.set := by
  show i ∈ ((View.whole main_v68_2).slice (win4_8.rect t)).set
  rw [View.set_slice_whole, Rect.mem_set_unit]
  obtain ⟨-, -, -, -, -, -, -, -, -, -, -, -, -, -, -, -, e0, e1⟩ := idx_facts t
  have hi0 : (i 0).val < 1 := (i 0).isLt
  have hi1 : (i 1).val < 64 := (i 1).isLt
  intro a
  match a with
  | ⟨0, _⟩ =>
    show win4_8.index t (0 : Fin 2) * 1 ≤ (i 0).val ∧ (i 0).val < win4_8.index t (0 : Fin 2) * 1 + 1
    rw [e0]; omega
  | ⟨1, _⟩ =>
    show win4_8.index t (1 : Fin 2) * 64 ≤ (i 1).val ∧ (i 1).val < win4_8.index t (1 : Fin 2) * 64 + 64
    rw [e1]; omega

/-- The first running row's array ends holding the column sums of the perceptron's output over all 100000 rows. -/
theorem final7 : ((dat4 (F := Ideal) V c).arrAt 7 cfg4.N : S1x64.Idx → EReal)
    = fun i => Cert.Gin.colSum (convOf V c) (ix1 (i 1)) :=
  (dat4 V c).arrAt_eq_of_cover 7 (fun i : S1x64.Idx => Cert.Gin.colSum (convOf V c) (ix1 (i 1))) (flushed7_eq V c)
    fun i => ⟨⟨19, last_lt⟩, (flush4_7 _).mpr rfl, mem_blk7 _ i⟩

/-- The second running row's array ends holding the column sums of the squares over all 100000 rows. -/
theorem final8 : ((dat4 (F := Ideal) V c).arrAt 8 cfg4.N : S1x64.Idx → EReal)
    = fun i => Cert.Gin.colSumSq (convOf V c) (ix1 (i 1)) :=
  (dat4 V c).arrAt_eq_of_cover 8 (fun i : S1x64.Idx => Cert.Gin.colSumSq (convOf V c) (ix1 (i 1))) (flushed8_eq V c)
    fun i => ⟨⟨19, last_lt⟩, (flush4_8 _).mpr rfl, mem_blk8 _ i⟩

/-! ## The same, with the arrays the region finds given names -/

section Named

variable (x agg : FVec Ideal S100000x64 .f32) (w1 : FVec Ideal S64x64 .f32) (b1 : FVec Ideal S64 .f32)
  (w2 : FVec Ideal S64x64 .f32) (b2 : FVec Ideal S64 .f32)

/-- The perceptron of the arrays the region finds, when those are named: the biases, found as one-row matrices, are
    read at their one row. -/
theorem convOf_eq (hx : (V c main_v55 : S100000x64.Idx → EReal) = x)
    (hagg : (V c main_v65 : S100000x64.Idx → EReal) = agg) (hw1 : (V c main_arg11 : S64x64.Idx → EReal) = w1)
    (hb1 : ∀ q : Fin 64, (V c main_v66 : S1x64.Idx → EReal) (ix2 (0 : Fin 1) q) = b1 (ix1 q))
    (hw2 : (V c main_arg13 : S64x64.Idx → EReal) = w2)
    (hb2 : ∀ q : Fin 64, (V c main_v67 : S1x64.Idx → EReal) (ix2 (0 : Fin 1) q) = b2 (ix1 q)) :
    convOf V c = Cert.Gin.mlp2 (Cert.Gin.plus x agg) w1 b1 w2 b2 := by
  have e1 : (fun q : S64.Idx => (V c main_v66 : S1x64.Idx → EReal) (ix2 (0 : Fin 1) (q 0))) = b1 :=
    funext fun q => (hb1 (q 0)).trans (congrArg b1 (eq_ix1 q).symm)
  have e2 : (fun q : S64.Idx => (V c main_v67 : S1x64.Idx → EReal) (ix2 (0 : Fin 1) (q 0))) = b2 :=
    funext fun q => (hb2 (q 0)).trans (congrArg b2 (eq_ix1 q).symm)
  unfold convOf
  rw [hx, hagg, hw1, hw2, e1, e2]

/-- The stored result, with the arrays named. -/
theorem final6' (hx : (V c main_v55 : S100000x64.Idx → EReal) = x)
    (hagg : (V c main_v65 : S100000x64.Idx → EReal) = agg) (hw1 : (V c main_arg11 : S64x64.Idx → EReal) = w1)
    (hb1 : ∀ q : Fin 64, (V c main_v66 : S1x64.Idx → EReal) (ix2 (0 : Fin 1) q) = b1 (ix1 q))
    (hw2 : (V c main_arg13 : S64x64.Idx → EReal) = w2)
    (hb2 : ∀ q : Fin 64, (V c main_v67 : S1x64.Idx → EReal) (ix2 (0 : Fin 1) q) = b2 (ix1 q)) :
    ((Gen.dat4 (F := Ideal) V c).arrAt 6 cfg4.N : S100000x64.Idx → EReal)
      = Cert.Gin.mlp2 (Cert.Gin.plus x agg) w1 b1 w2 b2 :=
  (final6 V c).trans (convOf_eq V c x agg w1 b1 w2 b2 hx hagg hw1 hb1 hw2 hb2)

/-- The column sums, with the arrays named. -/
theorem final7' (hx : (V c main_v55 : S100000x64.Idx → EReal) = x)
    (hagg : (V c main_v65 : S100000x64.Idx → EReal) = agg) (hw1 : (V c main_arg11 : S64x64.Idx → EReal) = w1)
    (hb1 : ∀ q : Fin 64, (V c main_v66 : S1x64.Idx → EReal) (ix2 (0 : Fin 1) q) = b1 (ix1 q))
    (hw2 : (V c main_arg13 : S64x64.Idx → EReal) = w2)
    (hb2 : ∀ q : Fin 64, (V c main_v67 : S1x64.Idx → EReal) (ix2 (0 : Fin 1) q) = b2 (ix1 q)) :
    ∀ q : Fin 64, ((Gen.dat4 (F := Ideal) V c).arrAt 7 cfg4.N : S1x64.Idx → EReal) (ix2 (0 : Fin 1) q)
      = Cert.Gin.colSum (Cert.Gin.mlp2 (Cert.Gin.plus x agg) w1 b1 w2 b2) (ix1 q) := by
  intro q
  rw [final7 V c, convOf_eq V c x agg w1 b1 w2 b2 hx hagg hw1 hb1 hw2 hb2]
  rfl

/-- The column sums of squares, with the arrays named. -/
theorem final8' (hx : (V c main_v55 : S100000x64.Idx → EReal) = x)
    (hagg : (V c main_v65 : S100000x64.Idx → EReal) = agg) (hw1 : (V c main_arg11 : S64x64.Idx → EReal) = w1)
    (hb1 : ∀ q : Fin 64, (V c main_v66 : S1x64.Idx → EReal) (ix2 (0 : Fin 1) q) = b1 (ix1 q))
    (hw2 : (V c main_arg13 : S64x64.Idx → EReal) = w2)
    (hb2 : ∀ q : Fin 64, (V c main_v67 : S1x64.Idx → EReal) (ix2 (0 : Fin 1) q) = b2 (ix1 q)) :
    ∀ q : Fin 64, ((Gen.dat4 (F := Ideal) V c).arrAt 8 cfg4.N : S1x64.Idx → EReal) (ix2 (0 : Fin 1) q)
      = Cert.Gin.colSumSq (Cert.Gin.mlp2 (Cert.Gin.plus x agg) w1 b1 w2 b2) (ix1 q) := by
  intro q
  rw [final8 V c, convOf_eq V c x agg w1 b1 w2 b2 hx hagg hw1 hb1 hw2 hb2]
  rfl

end Named

end Cert.KernelIdeal.ConvValue4

end
-- ==== Proof.BnValue1.lean ====
/-
  The value of the batch-normalisation region, read off its frame: whatever the buffers hold when the region is entered,
  the region leaves in its output array, at row r and column q, the rectified normalisation
  max ((h r q - mean q) * rsqrt (var q + eps) * gamma q + beta q) 0 of the entry contents of its five operand arrays.

  The grid has twenty points; point t reads rows 5000 t ... 5000 t + 4999 of h, the four one-row operands whole, and writes
  back the same rows of the output.  So the payload at a point is the normalisation's block at that point, the blocks
  tile the output array (row r is in the block of point r / 5000), and the array ends holding the normalisation.
-/
import proofs.«171644_j66365834658285_1_alg».proof.Proof.Gen.KernelIdeal.Frame
import proofs.«171644_j66365834658285_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.BnValue1

open Cert.KernelIdeal Cert.KernelIdeal.Gen Idealize.ShloMosaic Idealize.ShloMosaic.TcCoe Idealize.SL.Sem
open Idealize.ShloMosaic.ValueIdx
open Idealize.ShloMosaic.Pipeline (Dat)

/-! ## The payload at an index -/

/-- The normalisation kernel's payload at row `p`, column `q` of a block: the block's entry less the column's mean, times
    the reciprocal square root of the column's variance plus `eps`, times the column's scale, plus its shift, rectified. -/
theorem pay_apply (σ2 : Vec Ideal S1x64 .f32) (h : Vec Ideal S5000x64 .f32) (μ γ β : Vec Ideal S1x64 .f32)
    (p : Fin 5000) (q : Fin 64) :
    k1_pay1 (F := Ideal) σ2 h μ γ β (ix2 p q)
      = max ((h (ix2 p q) - μ (ix2 0 q)) * Ideal.rsqrt (σ2 (ix2 0 q) + Ideal.ofBits .f32 0x3727C5AC#32) * γ (ix2 0 q)
          + β (ix2 0 q)) 0 := by
  unfold k1_pay1
  simp only [shapeCast_self]
  rw [maximumf_apply, broadcast_apply, addf_apply, mulf_apply, mulf_apply, subf_apply,
    broadcastTo_1b_ab_apply, broadcastTo_1b_ab_apply, broadcastTo_1b_ab_apply, broadcastTo_1b_ab_apply]
  show max ((h (ix2 p q) - μ (ix2 0 q)) * Ideal.rsqrt (σ2 (ix2 0 q) + Ideal.ofBits .f32 0x3727C5AC#32) * γ (ix2 0 q)
      + β (ix2 0 q)) (Ideal.ofBits .f32 0x00000000#32) = _
  rw [Ideal.ofBits_zero_f32]

/-! ## From blocks to the array -/

/-- The normalisation at an index `i`, from the operands read where `i` says: the row-block operand at `i` itself, the
    one-row operands at their one row and `i`'s column. -/
theorem normed_of_reads (H : S100000x64.Idx → EReal) (M S2 G B : S1x64.Idx → EReal) (i i' : S100000x64.Idx)
    (m s g b : S1x64.Idx) (hi : i' = i) (hm : m = ix2 0 (i 1)) (hs : s = ix2 0 (i 1)) (hg : g = ix2 0 (i 1))
    (hb : b = ix2 0 (i 1)) :
    max ((H i' - M m) * Ideal.rsqrt (S2 s + Ideal.ofBits .f32 0x3727C5AC#32) * G g + B b) 0
      = Cert.Gin.bnRelu (Ideal.ofBits .f32 0x3727C5AC#32) H (fun q => M (ix2 0 (q 0))) (fun q => S2 (ix2 0 (q 0)))
          (fun q => G (ix2 0 (q 0))) (fun q => B (ix2 0 (q 0))) i := by
  subst hi hm hs hg hb
  rfl

variable (V : (c : Dev nD) → (b : Ref sig .tc) → Buf (Elt Ideal) ((c : Thread nD τ).loc b))

/-- The rectified normalisation of the region's operand arrays as the region finds them. -/
abbrev normed (c : Dev nD) : S100000x64.Idx → EReal :=
  Cert.Gin.bnRelu (Ideal.ofBits .f32 0x3727C5AC#32) (V c main_v16_0 : S100000x64.Idx → EReal)
    (fun q => (V c main_v25 : S1x64.Idx → EReal) (ix2 0 (q 0)))
    (fun q => (V c main_v26 : S1x64.Idx → EReal) (ix2 0 (q 0)))
    (fun q => (V c main_v27 : S1x64.Idx → EReal) (ix2 0 (q 0)))
    (fun q => (V c main_v28 : S1x64.Idx → EReal) (ix2 0 (q 0)))

theorem hz : (![0, 0] : Fin 2 → Nat) = fun _ => 0 := funext fun a => by fin_cases a <;> rfl

/-- The printed index maps, decided over the twenty points: the row-block operand and the output sit at block row `t`,
    the one-row operands at block (0, 0). -/
theorem idx_facts : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Row `p` of the row-block operand's block at point `t` is row `p` of the output's block at `t`. -/
theorem emb_rows (t : Fin cfg1.N) (p : Fin 5000) (q : Fin 64) :
    ((cfg1.win 0).blk t).view.emb (ix2 p q) = ((cfg1.win 5).blk t).view.emb (ix2 p q) := by
  obtain ⟨e00, e01, e50, e51, -⟩ := idx_facts t
  funext a; apply Fin.ext
  match a with
  | ⟨0, _⟩ => show win1_0.index t (0 : Fin 2) * 5000 + 1 * p.val = win1_5.index t (0 : Fin 2) * 5000 + 1 * p.val; omega
  | ⟨1, _⟩ => show win1_0.index t (1 : Fin 2) * 64 + 1 * q.val = win1_5.index t (1 : Fin 2) * 64 + 1 * q.val; omega

/-- The one row of the mean's block is the mean's one row, at the output block's column. -/
theorem emb_row1 (t : Fin cfg1.N) (p : Fin 5000) (q : Fin 64) :
    ((cfg1.win 1).blk t).view.emb (ix2 0 q) = (ix2 0 ((((cfg1.win 5).blk t).view.emb (ix2 p q)) 1) : S1x64.Idx) := by
  obtain ⟨e00, e01, e50, e51, e10, e11, -⟩ := idx_facts t
  funext a; apply Fin.ext
  match a with
  | ⟨0, _⟩ => show win1_1.index t (0 : Fin 2) * 1 + 1 * 0 = 0; omega
  | ⟨1, _⟩ => show win1_1.index t (1 : Fin 2) * 64 + 1 * q.val = win1_5.index t (1 : Fin 2) * 64 + 1 * q.val; omega

/-- The same for the variance's block. -/
theorem emb_row2 (t : Fin cfg1.N) (p : Fin 5000) (q : Fin 64) :
    ((cfg1.win 2).blk t).view.emb (ix2 0 q) = (ix2 0 ((((cfg1.win 5).blk t).view.emb (ix2 p q)) 1) : S1x64.Idx) := by
  obtain ⟨e00, e01, e50, e51, e10, e11, e20, e21, -⟩ := idx_facts t
  funext a; apply Fin.ext
  match a with
  | ⟨0, _⟩ => show win1_2.index t (0 : Fin 2) * 1 + 1 * 0 = 0; omega
  | ⟨1, _⟩ => show win1_2.index t (1 : Fin 2) * 64 + 1 * q.val = win1_5.index t (1 : Fin 2) * 64 + 1 * q.val; omega

/-- The same for the scale's block. -/
theorem emb_row3 (t : Fin cfg1.N) (p : Fin 5000) (q : Fin 64) :
    ((cfg1.win 3).blk t).view.emb (ix2 0 q) = (ix2 0 ((((cfg1.win 5).blk t).view.emb (ix2 p q)) 1) : S1x64.Idx) := by
  obtain ⟨e00, e01, e50, e51, e10, e11, e20, e21, e30, e31, -⟩ := idx_facts t
  funext a; apply Fin.ext
  match a with
  | ⟨0, _⟩ => show win1_3.index t (0 : Fin 2) * 1 + 1 * 0 = 0; omega
  | ⟨1, _⟩ => show win1_3.index t (1 : Fin 2) * 64 + 1 * q.val = win1_5.index t (1 : Fin 2) * 64 + 1 * q.val; omega

/-- The same for the shift's block. -/
theorem emb_row4 (t : Fin cfg1.N) (p : Fin 5000) (q : Fin 64) :
    ((cfg1.win 4).blk t).view.emb (ix2 0 q) = (ix2 0 ((((cfg1.win 5).blk t).view.emb (ix2 p q)) 1) : S1x64.Idx) := by
  obtain ⟨e00, e01, e50, e51, e10, e11, e20, e21, e30, e31, e40, e41⟩ := idx_facts t
  funext a; apply Fin.ext
  match a with
  | ⟨0, _⟩ => show win1_4.index t (0 : Fin 2) * 1 + 1 * 0 = 0; omega
  | ⟨1, _⟩ => show win1_4.index t (1 : Fin 2) * 64 + 1 * q.val = win1_5.index t (1 : Fin 2) * 64 + 1 * q.val; omega

/-- What point `t` writes back is block `t` of the normalisation of the operand arrays as the region finds them. -/
theorem flushed_eq (c : Dev nD) (t : Fin cfg1.N) :
    (dat1 V c).flushed 5 t = ((cfg1.win 5).blk t).view.read (Elt Ideal) (normed V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  refine (pay_apply _ _ _ _ _ p q).trans ?_
  exact normed_of_reads (V c main_v16_0) (V c main_v25) (V c main_v26) (V c main_v27) (V c main_v28)
    (((cfg1.win 5).blk t).view.emb (ix2 p q)) (((cfg1.win 0).blk t).view.emb (ix2 p q))
    (((cfg1.win 1).blk t).view.emb (ix2 0 q)) (((cfg1.win 2).blk t).view.emb (ix2 0 q))
    (((cfg1.win 3).blk t).view.emb (ix2 0 q)) (((cfg1.win 4).blk t).view.emb (ix2 0 q))
    (emb_rows t p q) (emb_row1 t p q) (emb_row2 t p q) (emb_row3 t p q) (emb_row4 t p q)

/-- An index of the output array is in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v29).slice (win1_5.rect t)).set ↔ _
  rw [View.set_slice_whole, Rect.mem_set_unit]
  exact Iff.rfl

/-- Every row of the output array is in some point's block: row `r` in that of point `r / 5000`. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨-, -, e50, e51, -⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ (1 : Fin 2) * 64 ≤ (i 1).val
      ∧ (i 1).val < win1_5.index ⟨(i 0).val / 5000, ht⟩ (1 : Fin 2) * 64 + 64
    rw [e51]; omega

/-- THE OUTPUT ARRAY after the region: the rectified normalisation of the operand arrays as the region finds them. -/
theorem final5 (c : Dev nD) :
    ((dat1 (F := Ideal) V c).arrAt 5 cfg1.N : S100000x64.Idx → EReal)
      = Cert.Gin.bnRelu (Ideal.ofBits .f32 0x3727C5AC#32) (V c main_v16_0 : S100000x64.Idx → EReal)
          (fun q => (V c main_v25 : S1x64.Idx → EReal) (ix2 0 (q 0)))
          (fun q => (V c main_v26 : S1x64.Idx → EReal) (ix2 0 (q 0)))
          (fun q => (V c main_v27 : S1x64.Idx → EReal) (ix2 0 (q 0)))
          (fun q => (V c main_v28 : S1x64.Idx → EReal) (ix2 0 (q 0))) :=
  (dat1 V c).arrAt_eq_of_cover 5 (normed V c) (fun t _ => flushed_eq V c t) cover

/-- The same with the operand arrays' entry contents named: `h` the rows, and the four one-row operands as vectors of
    their 64 columns. -/
theorem final5' (c : Dev nD) (h : FVec Ideal S100000x64 .f32) (μ σ2 γ β : FVec Ideal S64 .f32)
    (hh : (V c main_v16_0 : S100000x64.Idx → EReal) = h)
    (hμ : ∀ q : Fin 64, (V c main_v25 : S1x64.Idx → EReal) (ix2 (0 : Fin 1) q) = μ (ix1 q))
    (hσ : ∀ q : Fin 64, (V c main_v26 : S1x64.Idx → EReal) (ix2 (0 : Fin 1) q) = σ2 (ix1 q))
    (hγ : ∀ q : Fin 64, (V c main_v27 : S1x64.Idx → EReal) (ix2 (0 : Fin 1) q) = γ (ix1 q))
    (hβ : ∀ q : Fin 64, (V c main_v28 : S1x64.Idx → EReal) (ix2 (0 : Fin 1) q) = β (ix1 q)) :
    ((dat1 (F := Ideal) V c).arrAt 5 cfg1.N : S100000x64.Idx → EReal)
      = Cert.Gin.bnRelu (Ideal.ofBits .f32 0x3727C5AC#32) h μ σ2 γ β := by
  have eμ : (fun q : S64.Idx => (V c main_v25 : S1x64.Idx → EReal) (ix2 0 (q 0))) = μ :=
    funext fun q => (hμ (q 0)).trans (congrArg μ (eq_ix1 q).symm)
  have eσ : (fun q : S64.Idx => (V c main_v26 : S1x64.Idx → EReal) (ix2 0 (q 0))) = σ2 :=
    funext fun q => (hσ (q 0)).trans (congrArg σ2 (eq_ix1 q).symm)
  have eγ : (fun q : S64.Idx => (V c main_v27 : S1x64.Idx → EReal) (ix2 0 (q 0))) = γ :=
    funext fun q => (hγ (q 0)).trans (congrArg γ (eq_ix1 q).symm)
  have eβ : (fun q : S64.Idx => (V c main_v28 : S1x64.Idx → EReal) (ix2 0 (q 0))) = β :=
    funext fun q => (hβ (q 0)).trans (congrArg β (eq_ix1 q).symm)
  refine (final5 V c).trans ?_
  rw [hh, eμ, eσ, eγ, eβ]

end Cert.KernelIdeal.BnValue1

end
-- ==== Proof.BnValue3.lean ====
/-
  The value of the batch-normalisation region, read off its frame: whatever the buffers hold when the region is entered,
  the region leaves in its output array, at row r and column q, the rectified normalisation
  max ((h r q - mean q) * rsqrt (var q + eps) * gamma q + beta q) 0 of the entry contents of its five operand arrays.

  The grid has twenty points; point t reads rows 5000 t ... 5000 t + 4999 of h, the four one-row operands whole, and writes
  back the same rows of the output.  So the payload at a point is the normalisation's block at that point, the blocks
  tile the output array (row r is in the block of point r / 5000), and the array ends holding the normalisation.
-/
import proofs.«171644_j66365834658285_1_alg».proof.Proof.Gen.KernelIdeal.Frame
import proofs.«171644_j66365834658285_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.BnValue3

open Cert.KernelIdeal Cert.KernelIdeal.Gen Idealize.ShloMosaic Idealize.ShloMosaic.TcCoe Idealize.SL.Sem
open Idealize.ShloMosaic.ValueIdx
open Idealize.ShloMosaic.Pipeline (Dat)

/-! ## The payload at an index -/

/-- The normalisation kernel's payload at row `p`, column `q` of a block: the block's entry less the column's mean, times
    the reciprocal square root of the column's variance plus `eps`, times the column's scale, plus its shift, rectified. -/
theorem pay_apply (σ2 : Vec Ideal S1x64 .f32) (h : Vec Ideal S5000x64 .f32) (μ γ β : Vec Ideal S1x64 .f32)
    (p : Fin 5000) (q : Fin 64) :
    k3_pay1 (F := Ideal) σ2 h μ γ β (ix2 p q)
      = max ((h (ix2 p q) - μ (ix2 0 q)) * Ideal.rsqrt (σ2 (ix2 0 q) + Ideal.ofBits .f32 0x3727C5AC#32) * γ (ix2 0 q)
          + β (ix2 0 q)) 0 := by
  unfold k3_pay1
  simp only [shapeCast_self]
  rw [maximumf_apply, broadcast_apply, addf_apply, mulf_apply, mulf_apply, subf_apply,
    broadcastTo_1b_ab_apply, broadcastTo_1b_ab_apply, broadcastTo_1b_ab_apply, broadcastTo_1b_ab_apply]
  show max ((h (ix2 p q) - μ (ix2 0 q)) * Ideal.rsqrt (σ2 (ix2 0 q) + Ideal.ofBits .f32 0x3727C5AC#32) * γ (ix2 0 q)
      + β (ix2 0 q)) (Ideal.ofBits .f32 0x00000000#32) = _
  rw [Ideal.ofBits_zero_f32]

/-! ## From blocks to the array -/

/-- The normalisation at an index `i`, from the operands read where `i` says: the row-block operand at `i` itself, the
    one-row operands at their one row and `i`'s column. -/
theorem normed_of_reads (H : S100000x64.Idx → EReal) (M S2 G B : S1x64.Idx → EReal) (i i' : S100000x64.Idx)
    (m s g b : S1x64.Idx) (hi : i' = i) (hm : m = ix2 0 (i 1)) (hs : s = ix2 0 (i 1)) (hg : g = ix2 0 (i 1))
    (hb : b = ix2 0 (i 1)) :
    max ((H i' - M m) * Ideal.rsqrt (S2 s + Ideal.ofBits .f32 0x3727C5AC#32) * G g + B b) 0
      = Cert.Gin.bnRelu (Ideal.ofBits .f32 0x3727C5AC#32) H (fun q => M (ix2 0 (q 0))) (fun q => S2 (ix2 0 (q 0)))
          (fun q => G (ix2 0 (q 0))) (fun q => B (ix2 0 (q 0))) i := by
  subst hi hm hs hg hb
  rfl

variable (V : (c : Dev nD) → (b : Ref sig .tc) → Buf (Elt Ideal) ((c : Thread nD τ).loc b))

/-- The rectified normalisation of the region's operand arrays as the region finds them. -/
abbrev normed (c : Dev nD) : S100000x64.Idx → EReal :=
  Cert.Gin.bnRelu (Ideal.ofBits .f32 0x3727C5AC#32) (V c main_v42_0 : S100000x64.Idx → EReal)
    (fun q => (V c main_v51 : S1x64.Idx → EReal) (ix2 0 (q 0)))
    (fun q => (V c main_v52 : S1x64.Idx → EReal) (ix2 0 (q 0)))
    (fun q => (V c main_v53 : S1x64.Idx → EReal) (ix2 0 (q 0)))
    (fun q => (V c main_v54 : S1x64.Idx → EReal) (ix2 0 (q 0)))

theorem hz : (![0, 0] : Fin 2 → Nat) = fun _ => 0 := funext fun a => by fin_cases a <;> rfl

/-- The printed index maps, decided over the twenty points: the row-block operand and the output sit at block row `t`,
    the one-row operands at block (0, 0). -/
theorem idx_facts : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Row `p` of the row-block operand's block at point `t` is row `p` of the output's block at `t`. -/
theorem emb_rows (t : Fin cfg3.N) (p : Fin 5000) (q : Fin 64) :
    ((cfg3.win 0).blk t).view.emb (ix2 p q) = ((cfg3.win 5).blk t).view.emb (ix2 p q) := by
  obtain ⟨e00, e01, e50, e51, -⟩ := idx_facts t
  funext a; apply Fin.ext
  match a with
  | ⟨0, _⟩ => show win3_0.index t (0 : Fin 2) * 5000 + 1 * p.val = win3_5.index t (0 : Fin 2) * 5000 + 1 * p.val; omega
  | ⟨1, _⟩ => show win3_0.index t (1 : Fin 2) * 64 + 1 * q.val = win3_5.index t (1 : Fin 2) * 64 + 1 * q.val; omega

/-- The one row of the mean's block is the mean's one row, at the output block's column. -/
theorem emb_row1 (t : Fin cfg3.N) (p : Fin 5000) (q : Fin 64) :
    ((cfg3.win 1).blk t).view.emb (ix2 0 q) = (ix2 0 ((((cfg3.win 5).blk t).view.emb (ix2 p q)) 1) : S1x64.Idx) := by
  obtain ⟨e00, e01, e50, e51, e10, e11, -⟩ := idx_facts t
  funext a; apply Fin.ext
  match a with
  | ⟨0, _⟩ => show win3_1.index t (0 : Fin 2) * 1 + 1 * 0 = 0; omega
  | ⟨1, _⟩ => show win3_1.index t (1 : Fin 2) * 64 + 1 * q.val = win3_5.index t (1 : Fin 2) * 64 + 1 * q.val; omega

/-- The same for the variance's block. -/
theorem emb_row2 (t : Fin cfg3.N) (p : Fin 5000) (q : Fin 64) :
    ((cfg3.win 2).blk t).view.emb (ix2 0 q) = (ix2 0 ((((cfg3.win 5).blk t).view.emb (ix2 p q)) 1) : S1x64.Idx) := by
  obtain ⟨e00, e01, e50, e51, e10, e11, e20, e21, -⟩ := idx_facts t
  funext a; apply Fin.ext
  match a with
  | ⟨0, _⟩ => show win3_2.index t (0 : Fin 2) * 1 + 1 * 0 = 0; omega
  | ⟨1, _⟩ => show win3_2.index t (1 : Fin 2) * 64 + 1 * q.val = win3_5.index t (1 : Fin 2) * 64 + 1 * q.val; omega

/-- The same for the scale's block. -/
theorem emb_row3 (t : Fin cfg3.N) (p : Fin 5000) (q : Fin 64) :
    ((cfg3.win 3).blk t).view.emb (ix2 0 q) = (ix2 0 ((((cfg3.win 5).blk t).view.emb (ix2 p q)) 1) : S1x64.Idx) := by
  obtain ⟨e00, e01, e50, e51, e10, e11, e20, e21, e30, e31, -⟩ := idx_facts t
  funext a; apply Fin.ext
  match a with
  | ⟨0, _⟩ => show win3_3.index t (0 : Fin 2) * 1 + 1 * 0 = 0; omega
  | ⟨1, _⟩ => show win3_3.index t (1 : Fin 2) * 64 + 1 * q.val = win3_5.index t (1 : Fin 2) * 64 + 1 * q.val; omega

/-- The same for the shift's block. -/
theorem emb_row4 (t : Fin cfg3.N) (p : Fin 5000) (q : Fin 64) :
    ((cfg3.win 4).blk t).view.emb (ix2 0 q) = (ix2 0 ((((cfg3.win 5).blk t).view.emb (ix2 p q)) 1) : S1x64.Idx) := by
  obtain ⟨e00, e01, e50, e51, e10, e11, e20, e21, e30, e31, e40, e41⟩ := idx_facts t
  funext a; apply Fin.ext
  match a with
  | ⟨0, _⟩ => show win3_4.index t (0 : Fin 2) * 1 + 1 * 0 = 0; omega
  | ⟨1, _⟩ => show win3_4.index t (1 : Fin 2) * 64 + 1 * q.val = win3_5.index t (1 : Fin 2) * 64 + 1 * q.val; omega

/-- What point `t` writes back is block `t` of the normalisation of the operand arrays as the region finds them. -/
theorem flushed_eq (c : Dev nD) (t : Fin cfg3.N) :
    (dat3 V c).flushed 5 t = ((cfg3.win 5).blk t).view.read (Elt Ideal) (normed V c) := by
  show (cfg3.win 5).cut (grid3.coords t) ((dat3 V c).after 5 t) = _
  rw [after3_5]
  unfold out3_5
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  refine (pay_apply _ _ _ _ _ p q).trans ?_
  exact normed_of_reads (V c main_v42_0) (V c main_v51) (V c main_v52) (V c main_v53) (V c main_v54)
    (((cfg3.win 5).blk t).view.emb (ix2 p q)) (((cfg3.win 0).blk t).view.emb (ix2 p q))
    (((cfg3.win 1).blk t).view.emb (ix2 0 q)) (((cfg3.win 2).blk t).view.emb (ix2 0 q))
    (((cfg3.win 3).blk t).view.emb (ix2 0 q)) (((cfg3.win 4).blk t).view.emb (ix2 0 q))
    (emb_rows t p q) (emb_row1 t p q) (emb_row2 t p q) (emb_row3 t p q) (emb_row4 t p q)

/-- An index of the output array is in point `t`'s block iff each coordinate is in the block's range on its axis. -/
theorem mem_blk (t : Fin cfg3.N) (i : S100000x64.Idx) :
    i ∈ ((cfg3.win 5).blk t).view.set ↔ ∀ a : Fin 2, win3_5.index t a * S5000x64.size a ≤ (i a).val
      ∧ (i a).val < win3_5.index t a * S5000x64.size a + S5000x64.size a := by
  show i ∈ ((View.whole main_v55).slice (win3_5.rect t)).set ↔ _
  rw [View.set_slice_whole, Rect.mem_set_unit]
  exact Iff.rfl

/-- Every row of the output array is in some point's block: row `r` in that of point `r / 5000`. -/
theorem cover (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 20 := N_3
  have ht : (i 0).val / 5000 < cfg3.N := by rw [hN]; omega
  obtain ⟨-, -, e50, e51, -⟩ := idx_facts ⟨(i 0).val / 5000, ht⟩
  refine ⟨⟨(i 0).val / 5000, ht⟩, flush3_5 _, ?_⟩
  rw [mem_blk]
  intro a
  match a with
  | ⟨0, _⟩ =>
    show win3_5.index ⟨(i 0).val / 5000, ht⟩ (0 : Fin 2) * 5000 ≤ (i 0).val
      ∧ (i 0).val < win3_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win3_5.index ⟨(i 0).val / 5000, ht⟩ (1 : Fin 2) * 64 ≤ (i 1).val
      ∧ (i 1).val < win3_5.index ⟨(i 0).val / 5000, ht⟩ (1 : Fin 2) * 64 + 64
    rw [e51]; omega

/-- THE OUTPUT ARRAY after the region: the rectified normalisation of the operand arrays as the region finds them. -/
theorem final5 (c : Dev nD) :
    ((dat3 (F := Ideal) V c).arrAt 5 cfg3.N : S100000x64.Idx → EReal)
      = Cert.Gin.bnRelu (Ideal.ofBits .f32 0x3727C5AC#32) (V c main_v42_0 : S100000x64.Idx → EReal)
          (fun q => (V c main_v51 : S1x64.Idx → EReal) (ix2 0 (q 0)))
          (fun q => (V c main_v52 : S1x64.Idx → EReal) (ix2 0 (q 0)))
          (fun q => (V c main_v53 : S1x64.Idx → EReal) (ix2 0 (q 0)))
          (fun q => (V c main_v54 : S1x64.Idx → EReal) (ix2 0 (q 0))) :=
  (dat3 V c).arrAt_eq_of_cover 5 (normed V c) (fun t _ => flushed_eq V c t) cover

/-- The same with the operand arrays' entry contents named: `h` the rows, and the four one-row operands as vectors of
    their 64 columns. -/
theorem final5' (c : Dev nD) (h : FVec Ideal S100000x64 .f32) (μ σ2 γ β : FVec Ideal S64 .f32)
    (hh : (V c main_v42_0 : S100000x64.Idx → EReal) = h)
    (hμ : ∀ q : Fin 64, (V c main_v51 : S1x64.Idx → EReal) (ix2 (0 : Fin 1) q) = μ (ix1 q))
    (hσ : ∀ q : Fin 64, (V c main_v52 : S1x64.Idx → EReal) (ix2 (0 : Fin 1) q) = σ2 (ix1 q))
    (hγ : ∀ q : Fin 64, (V c main_v53 : S1x64.Idx → EReal) (ix2 (0 : Fin 1) q) = γ (ix1 q))
    (hβ : ∀ q : Fin 64, (V c main_v54 : S1x64.Idx → EReal) (ix2 (0 : Fin 1) q) = β (ix1 q)) :
    ((dat3 (F := Ideal) V c).arrAt 5 cfg3.N : S100000x64.Idx → EReal)
      = Cert.Gin.bnRelu (Ideal.ofBits .f32 0x3727C5AC#32) h μ σ2 γ β := by
  have eμ : (fun q : S64.Idx => (V c main_v51 : S1x64.Idx → EReal) (ix2 0 (q 0))) = μ :=
    funext fun q => (hμ (q 0)).trans (congrArg μ (eq_ix1 q).symm)
  have eσ : (fun q : S64.Idx => (V c main_v52 : S1x64.Idx → EReal) (ix2 0 (q 0))) = σ2 :=
    funext fun q => (hσ (q 0)).trans (congrArg σ2 (eq_ix1 q).symm)
  have eγ : (fun q : S64.Idx => (V c main_v53 : S1x64.Idx → EReal) (ix2 0 (q 0))) = γ :=
    funext fun q => (hγ (q 0)).trans (congrArg γ (eq_ix1 q).symm)
  have eβ : (fun q : S64.Idx => (V c main_v54 : S1x64.Idx → EReal) (ix2 0 (q 0))) = β :=
    funext fun q => (hβ (q 0)).trans (congrArg β (eq_ix1 q).symm)
  refine (final5 V c).trans ?_
  rw [hh, eμ, eσ, eγ, eβ]

end Cert.KernelIdeal.BnValue3

end
-- ==== Proof.HeadValue5.lean ====
/-
  The value of the head region, read off its frame: whatever the buffers hold when the region is entered, the region
  leaves in its output array the two-layer perceptron relu (x · w1 + b1) · w2 + b2 of the entry contents of its five
  operand arrays, entry (p, q) being the two sums written out.

  The grid has one point, and every window's block is its whole array: the payload at that point is the perceptron of
  the whole operands, and its one write-back covers the output array.
-/
import proofs.«171644_j66365834658285_1_alg».proof.Proof.Gen.KernelIdeal.Frame
import proofs.«171644_j66365834658285_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.HeadValue5

open Cert.KernelIdeal Cert.KernelIdeal.Gen Idealize.ShloMosaic Idealize.ShloMosaic.TcCoe Idealize.SL.Sem
open Idealize.ShloMosaic.ValueIdx
open Idealize.ShloMosaic.Pipeline (Dat)

/-! ## The payload at an index -/

/-- A matrix product accumulated into zeros, rows by columns with one contracted axis, read at row `a`, column `b`:
    the sum over the contracted coordinate of the products of the entries. -/
theorem matmul_zero_ix2 {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant (F := Ideal) _ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The head kernel's payload at row `p`, column `q`: the two-layer perceptron's entry written out as its two sums. -/
theorem pay_apply (x : Vec Ideal S64x64 .f32) (w1 : Vec Ideal S64x256 .f32) (b1 : Vec Ideal S1x256 .f32)
    (w2 : Vec Ideal S256x128 .f32) (b2 : Vec Ideal S1x128 .f32) (p : Fin 64) (q : Fin 128) :
    k5_pay1 (F := Ideal) x w1 b1 w2 b2 (ix2 p q)
      = (∑ k : Fin 256, max ((∑ j : Fin 64, x (ix2 p j) * w1 (ix2 j k)) + b1 (ix2 0 k)) 0 * w2 (ix2 k q)) + b2 (ix2 0 q) := by
  unfold k5_pay1
  simp only [shapeCast_self]
  rw [addf_apply, broadcastTo_1b_ab_apply]
  refine congrArg (· + b2 (ix2 0 q)) ?_
  refine (matmul_zero_ix2 dot_S64x256_S256x128_S64x128_1_0_0_1_n_n_wf none _ _ p q).trans ?_
  refine Finset.sum_congr rfl fun k _ => ?_
  rw [truncf_apply, truncf_apply, maximumf_apply, addf_apply, broadcast_apply, broadcastTo_1b_ab_apply]
  refine congrArg (· * w2 (ix2 k q)) ?_
  show max (_ + b1 (ix2 0 k)) (Ideal.ofBits .f32 0x00000000#32) = _
  rw [Ideal.ofBits_zero_f32]
  refine congrArg (fun z => max (z + b1 (ix2 0 k)) 0) ?_
  refine (matmul_zero_ix2 dot_S64x64_S64x256_S64x256_1_0_0_1_n_n_wf none _ _ p k).trans ?_
  refine Finset.sum_congr rfl fun j _ => ?_
  rw [truncf_apply, truncf_apply]

/-! ## From the one block to the array -/

variable (V : (c : Dev nD) → (b : Ref sig .tc) → Buf (Elt Ideal) ((c : Thread nD τ).loc b))

/-- The perceptron of the region's operand arrays as the region finds them. -/
abbrev headOut (c : Dev nD) : S64x128.Idx → EReal :=
  Cert.Gin.mlp2 (V c main_v71 : S64x64.Idx → EReal) (V c main_arg19 : S64x256.Idx → EReal)
    (fun q => (V c main_v72 : S1x256.Idx → EReal) (ix2 0 (q 0)))
    (V c main_arg21 : S256x128.Idx → EReal)
    (fun q => (V c main_v73 : S1x128.Idx → EReal) (ix2 0 (q 0)))

theorem hz : (![0, 0] : Fin 2 → Nat) = fun _ => 0 := funext fun a => by fin_cases a <;> rfl

/-- The printed index maps at the grid's one point: every window's block is block (0, 0), its whole array. -/
theorem idx_facts : ∀ t : Fin cfg5.N,
    win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

theorem emb0 (t : Fin cfg5.N) (a : Fin 64) (b : Fin 64) :
    ((cfg5.win 0).blk t).view.emb (ix2 a b) = (ix2 a b : S64x64.Idx) := by
  obtain ⟨e00, e01, -⟩ := idx_facts t
  funext ax; apply Fin.ext
  match ax with
  | ⟨0, _⟩ => show win5_0.index t (0 : Fin 2) * 64 + 1 * a.val = a.val; omega
  | ⟨1, _⟩ => show win5_0.index t (1 : Fin 2) * 64 + 1 * b.val = b.val; omega

theorem emb1 (t : Fin cfg5.N) (a : Fin 64) (b : Fin 256) :
    ((cfg5.win 1).blk t).view.emb (ix2 a b) = (ix2 a b : S64x256.Idx) := by
  obtain ⟨-, -, e10, e11, -⟩ := idx_facts t
  funext ax; apply Fin.ext
  match ax with
  | ⟨0, _⟩ => show win5_1.index t (0 : Fin 2) * 64 + 1 * a.val = a.val; omega
  | ⟨1, _⟩ => show win5_1.index t (1 : Fin 2) * 256 + 1 * b.val = b.val; omega

theorem emb2 (t : Fin cfg5.N) (a : Fin 1) (b : Fin 256) :
    ((cfg5.win 2).blk t).view.emb (ix2 a b) = (ix2 a b : S1x256.Idx) := by
  obtain ⟨-, -, -, -, e20, e21, -⟩ := idx_facts t
  funext ax; apply Fin.ext
  match ax with
  | ⟨0, _⟩ => show win5_2.index t (0 : Fin 2) * 1 + 1 * a.val = a.val; omega
  | ⟨1, _⟩ => show win5_2.index t (1 : Fin 2) * 256 + 1 * b.val = b.val; omega

theorem emb3 (t : Fin cfg5.N) (a : Fin 256) (b : Fin 128) :
    ((cfg5.win 3).blk t).view.emb (ix2 a b) = (ix2 a b : S256x128.Idx) := by
  obtain ⟨-, -, -, -, -, -, e30, e31, -⟩ := idx_facts t
  funext ax; apply Fin.ext
  match ax with
  | ⟨0, _⟩ => show win5_3.index t (0 : Fin 2) * 256 + 1 * a.val = a.val; omega
  | ⟨1, _⟩ => show win5_3.index t (1 : Fin 2) * 128 + 1 * b.val = b.val; omega

theorem emb4 (t : Fin cfg5.N) (a : Fin 1) (b : Fin 128) :
    ((cfg5.win 4).blk t).view.emb (ix2 a b) = (ix2 a b : S1x128.Idx) := by
  obtain ⟨-, -, -, -, -, -, -, -, e40, e41, -⟩ := idx_facts t
  funext ax; apply Fin.ext
  match ax with
  | ⟨0, _⟩ => show win5_4.index t (0 : Fin 2) * 1 + 1 * a.val = a.val; omega
  | ⟨1, _⟩ => show win5_4.index t (1 : Fin 2) * 128 + 1 * b.val = b.val; omega

theorem emb5 (t : Fin cfg5.N) (a : Fin 64) (b : Fin 128) :
    ((cfg5.win 5).blk t).view.emb (ix2 a b) = (ix2 a b : S64x128.Idx) := by
  obtain ⟨-, -, -, -, -, -, -, -, -, -, e50, e51⟩ := idx_facts t
  funext ax; apply Fin.ext
  match ax with
  | ⟨0, _⟩ => show win5_5.index t (0 : Fin 2) * 64 + 1 * a.val = a.val; omega
  | ⟨1, _⟩ => show win5_5.index t (1 : Fin 2) * 128 + 1 * b.val = b.val; omega

/-- The pooled rows' block at the one point is the whole array. -/
theorem iblk_0 (c : Dev nD) (t : Fin cfg5.N) :
    (iblk5 V c 0 t : S64x64.Idx → EReal) = (V c main_v71 : S64x64.Idx → EReal) := by
  funext y
  obtain ⟨a, b, rfl⟩ : ∃ (a : Fin 64) (b : Fin 64), y = ix2 a b := ⟨y 0, y 1, eq_ix2 y⟩
  show V c main_v71 (((cfg5.win 0).blk t).view.emb (ix2 a b)) = V c main_v71 (ix2 a b)
  rw [emb0 t a b]

/-- The first layer's weights' block is the whole array. -/
theorem iblk_1 (c : Dev nD) (t : Fin cfg5.N) :
    (iblk5 V c 1 t : S64x256.Idx → EReal) = (V c main_arg19 : S64x256.Idx → EReal) := by
  funext y
  obtain ⟨a, b, rfl⟩ : ∃ (a : Fin 64) (b : Fin 256), y = ix2 a b := ⟨y 0, y 1, eq_ix2 y⟩
  show V c main_arg19 (((cfg5.win 1).blk t).view.emb (ix2 a b)) = V c main_arg19 (ix2 a b)
  rw [emb1 t a b]

/-- The first layer's bias' block is the whole array. -/
theorem iblk_2 (c : Dev nD) (t : Fin cfg5.N) :
    (iblk5 V c 2 t : S1x256.Idx → EReal) = (V c main_v72 : S1x256.Idx → EReal) := by
  funext y
  obtain ⟨a, b, rfl⟩ : ∃ (a : Fin 1) (b : Fin 256), y = ix2 a b := ⟨y 0, y 1, eq_ix2 y⟩
  show V c main_v72 (((cfg5.win 2).blk t).view.emb (ix2 a b)) = V c main_v72 (ix2 a b)
  rw [emb2 t a b]

/-- The second layer's weights' block is the whole array. -/
theorem iblk_3 (c : Dev nD) (t : Fin cfg5.N) :
    (iblk5 V c 3 t : S256x128.Idx → EReal) = (V c main_arg21 : S256x128.Idx → EReal) := by
  funext y
  obtain ⟨a, b, rfl⟩ : ∃ (a : Fin 256) (b : Fin 128), y = ix2 a b := ⟨y 0, y 1, eq_ix2 y⟩
  show V c main_arg21 (((cfg5.win 3).blk t).view.emb (ix2 a b)) = V c main_arg21 (ix2 a b)
  rw [emb3 t a b]

/-- The second layer's bias' block is the whole array. -/
theorem iblk_4 (c : Dev nD) (t : Fin cfg5.N) :
    (iblk5 V c 4 t : S1x128.Idx → EReal) = (V c main_v73 : S1x128.Idx → EReal) := by
  funext y
  obtain ⟨a, b, rfl⟩ : ∃ (a : Fin 1) (b : Fin 128), y = ix2 a b := ⟨y 0, y 1, eq_ix2 y⟩
  show V c main_v73 (((cfg5.win 4).blk t).view.emb (ix2 a b)) = V c main_v73 (ix2 a b)
  rw [emb4 t a b]

/-- What the one point writes back is the perceptron of the operand arrays as the region finds them, read through the
    output's whole-array block. -/
theorem flushed_eq (c : Dev nD) (t : Fin cfg5.N) :
    (dat5 V c).flushed 5 t = ((cfg5.win 5).blk t).view.read (Elt Ideal) (headOut V c) := by
  show (cfg5.win 5).cut (grid5.coords t) ((dat5 V c).after 5 t) = _
  rw [after5_5, iblk_0 V c t, iblk_1 V c t, iblk_2 V c t, iblk_3 V c t, iblk_4 V c t]
  unfold out5_5
  rw [View.canon_unit_zero hz]
  simp only [View.ld_unit_zero (S := S64x64) hz, View.ld_unit_zero (S := S64x256) hz, View.ld_unit_zero (S := S1x256) hz,
    View.ld_unit_zero (S := S256x128) hz, View.ld_unit_zero (S := S1x128) hz]
  funext j
  obtain ⟨p, q, rfl⟩ : ∃ (p : Fin 64) (q : Fin 128), j = ix2 p q := ⟨j 0, j 1, eq_ix2 j⟩
  refine (pay_apply _ _ _ _ _ p q).trans ?_
  show _ = headOut V c (((cfg5.win 5).blk t).view.emb (ix2 p q))
  rw [emb5 t p q]
  rfl

theorem mem_blk (t : Fin cfg5.N) (i : S64x128.Idx) :
    i ∈ ((cfg5.win 5).blk t).view.set ↔ ∀ a : Fin 2, win5_5.index t a * S64x128.size a ≤ (i a).val
      ∧ (i a).val < win5_5.index t a * S64x128.size a + S64x128.size a := by
  show i ∈ ((View.whole main_v74).slice (win5_5.rect t)).set ↔ _
  rw [View.set_slice_whole, Rect.mem_set_unit]
  exact Iff.rfl

theorem cover (i : S64x128.Idx) :
    ∃ t : Fin cfg5.N, (cfg5.win 5).flush t = true ∧ i ∈ ((cfg5.win 5).blk t).view.set := by
  have hi0 : (i 0).val < 64 := (i 0).isLt
  have hi1 : (i 1).val < 128 := (i 1).isLt
  have hN : cfg5.N = 1 := N_5
  have ht : 0 < cfg5.N := by rw [hN]; omega
  obtain ⟨-, -, -, -, -, -, -, -, -, -, e50, e51⟩ := idx_facts ⟨0, ht⟩
  refine ⟨⟨0, ht⟩, flush5_5 _, ?_⟩
  rw [mem_blk]
  intro a
  match a with
  | ⟨0, _⟩ =>
    show win5_5.index ⟨0, ht⟩ (0 : Fin 2) * 64 ≤ (i 0).val ∧ (i 0).val < win5_5.index ⟨0, ht⟩ (0 : Fin 2) * 64 + 64
    rw [e50]; omega
  | ⟨1, _⟩ =>
    show win5_5.index ⟨0, ht⟩ (1 : Fin 2) * 128 ≤ (i 1).val ∧ (i 1).val < win5_5.index ⟨0, ht⟩ (1 : Fin 2) * 128 + 128
    rw [e51]; omega

/-- THE OUTPUT ARRAY after the region: the perceptron of the operand arrays as the region finds them. -/
theorem final5 (c : Dev nD) :
    ((dat5 (F := Ideal) V c).arrAt 5 cfg5.N : S64x128.Idx → EReal)
      = Cert.Gin.mlp2 (V c main_v71 : S64x64.Idx → EReal) (V c main_arg19 : S64x256.Idx → EReal)
          (fun q => (V c main_v72 : S1x256.Idx → EReal) (ix2 0 (q 0)))
          (V c main_arg21 : S256x128.Idx → EReal)
          (fun q => (V c main_v73 : S1x128.Idx → EReal) (ix2 0 (q 0))) :=
  (dat5 V c).arrAt_eq_of_cover 5 (headOut V c) (fun t _ => flushed_eq V c t) cover

/-- The same with the operand arrays' entry contents named: the pooled rows `x`, the two layers' weights, and the two
    biases as vectors of their columns. -/
theorem final5' (c : Dev nD) (x : FVec Ideal S64x64 .f32) (w1 : FVec Ideal S64x256 .f32) (b1 : FVec Ideal S256 .f32)
    (w2 : FVec Ideal S256x128 .f32) (b2 : FVec Ideal S128 .f32)
    (hx : (V c main_v71 : S64x64.Idx → EReal) = x)
    (hw1 : (V c main_arg19 : S64x256.Idx → EReal) = w1)
    (hb1 : ∀ q : Fin 256, (V c main_v72 : S1x256.Idx → EReal) (ix2 (0 : Fin 1) q) = b1 (ix1 q))
    (hw2 : (V c main_arg21 : S256x128.Idx → EReal) = w2)
    (hb2 : ∀ q : Fin 128, (V c main_v73 : S1x128.Idx → EReal) (ix2 (0 : Fin 1) q) = b2 (ix1 q)) :
    ((dat5 (F := Ideal) V c).arrAt 5 cfg5.N : S64x128.Idx → EReal) = Cert.Gin.mlp2 x w1 b1 w2 b2 := by
  have e1 : (fun q : S256.Idx => (V c main_v72 : S1x256.Idx → EReal) (ix2 0 (q 0))) = b1 :=
    funext fun q => (hb1 (q 0)).trans (congrArg b1 (eq_ix1 q).symm)
  have e2 : (fun q : S128.Idx => (V c main_v73 : S1x128.Idx → EReal) (ix2 0 (q 0))) = b2 :=
    funext fun q => (hb2 (q 0)).trans (congrArg b2 (eq_ix1 q).symm)
  refine (final5 V c).trans ?_
  rw [hx, hw1, hw2, e1, e2]

end Cert.KernelIdeal.HeadValue5

end
-- ==== Proof.KValue.lean ====
/-
  The idealized kernel's two results as functions of its arguments.

  The final buffer contents are a fold through twelve segments (six stretches of host operations, six launches).  Walking
  the fold from the launch memory: a stretch's results are read by the host lemmas, a launch's output arrays by the
  value lemmas of its kernel at the contents the launch finds, and a buffer nobody writes keeps its contents.  Layer by
  layer this gives the convolution's output, its column sums and sums of squares, the means and one-pass variances the
  host takes from them, the normalised features, and at the end the pooled rows and the head's output.
-/
import proofs.«171644_j66365834658285_1_alg».proof.Proof.Gen.KernelIdeal.Frame
import proofs.«171644_j66365834658285_1_alg».proof.Proof.KHost
import proofs.«171644_j66365834658285_1_alg».proof.Proof.KStages
import proofs.«171644_j66365834658285_1_alg».proof.Proof.KKeep
import proofs.«171644_j66365834658285_1_alg».proof.Proof.ConvValue0
import proofs.«171644_j66365834658285_1_alg».proof.Proof.ConvValue2
import proofs.«171644_j66365834658285_1_alg».proof.Proof.ConvValue4
import proofs.«171644_j66365834658285_1_alg».proof.Proof.BnValue1
import proofs.«171644_j66365834658285_1_alg».proof.Proof.BnValue3
import proofs.«171644_j66365834658285_1_alg».proof.Proof.HeadValue5
import proofs.«171644_j66365834658285_1_alg».proof.Proof.KernelRun

noncomputable section

namespace Cert.KernelIdeal.KValue

open Idealize.ShloMosaic Idealize.ShloMosaic.TcCoe Idealize.ShloMosaic.ValueIdx Idealize.SL.Sem
open Cert.KernelIdeal.Gen Cert.KernelIdeal.KHost Cert.KernelIdeal.KStages Cert.Gin

variable (m : (ℓ : Loc nD τ sig) → Buf (Elt Ideal) ℓ) (ρ : Dev nD → PrngReg) (c : Dev nD)

/-! ## The arguments as launched, on core `c` -/

abbrev a0 : FVec Ideal S100000x64 .f32 := m ((c : Thread nD τ).loc main_arg0)
abbrev a1 : IVec S2x1600000 32 := m ((c : Thread nD τ).loc main_arg1)
abbrev a2 : IVec S100000 32 := m ((c : Thread nD τ).loc main_arg2)
abbrev a3 : FVec Ideal S64x64 .f32 := m ((c : Thread nD τ).loc main_arg3)
abbrev a4 : FVec Ideal S64 .f32 := m ((c : Thread nD τ).loc main_arg4)
abbrev a5 : FVec Ideal S64x64 .f32 := m ((c : Thread nD τ).loc main_arg5)
abbrev a6 : FVec Ideal S64 .f32 := m ((c : Thread nD τ).loc main_arg6)
abbrev a7 : FVec Ideal S64x64 .f32 := m ((c : Thread nD τ).loc main_arg7)
abbrev a8 : FVec Ideal S64 .f32 := m ((c : Thread nD τ).loc main_arg8)
abbrev a9 : FVec Ideal S64x64 .f32 := m ((c : Thread nD τ).loc main_arg9)
abbrev a10 : FVec Ideal S64 .f32 := m ((c : Thread nD τ).loc main_arg10)
abbrev a11 : FVec Ideal S64x64 .f32 := m ((c : Thread nD τ).loc main_arg11)
abbrev a12 : FVec Ideal S64 .f32 := m ((c : Thread nD τ).loc main_arg12)
abbrev a13 : FVec Ideal S64x64 .f32 := m ((c : Thread nD τ).loc main_arg13)
abbrev a14 : FVec Ideal S64 .f32 := m ((c : Thread nD τ).loc main_arg14)
abbrev a15 : FVec Ideal S64 .f32 := m ((c : Thread nD τ).loc main_arg15)
abbrev a16 : FVec Ideal S64 .f32 := m ((c : Thread nD τ).loc main_arg16)
abbrev a17 : FVec Ideal S64 .f32 := m ((c : Thread nD τ).loc main_arg17)
abbrev a18 : FVec Ideal S64 .f32 := m ((c : Thread nD τ).loc main_arg18)
abbrev a19 : FVec Ideal S64x256 .f32 := m ((c : Thread nD τ).loc main_arg19)
abbrev a20 : FVec Ideal S256 .f32 := m ((c : Thread nD τ).loc main_arg20)
abbrev a21 : FVec Ideal S256x128 .f32 := m ((c : Thread nD τ).loc main_arg21)
abbrev a22 : FVec Ideal S128 .f32 := m ((c : Thread nD τ).loc main_arg22)

/-! ## The layers' values -/

/-- The first convolution's output. -/
def X0 : FVec Ideal S100000x64 .f32 := gconv (a0 m c) (srcRow (a1 m c)) (dstRow (a1 m c)) (a3 m c) (a4 m c) (a5 m c) (a6 m c)
/-- The features after the first normalisation. -/
def H1 : FVec Ideal S100000x64 .f32 := norm1 (X0 m c) (a15 m c) (a16 m c)
/-- The second convolution's output. -/
def X1 : FVec Ideal S100000x64 .f32 := gconv (H1 m c) (srcRow (a1 m c)) (dstRow (a1 m c)) (a7 m c) (a8 m c) (a9 m c) (a10 m c)
/-- The features after the second normalisation. -/
def H2 : FVec Ideal S100000x64 .f32 := norm1 (X1 m c) (a17 m c) (a18 m c)
/-- The third convolution's output. -/
def X2 : FVec Ideal S100000x64 .f32 := gconv (H2 m c) (srcRow (a1 m c)) (dstRow (a1 m c)) (a11 m c) (a12 m c) (a13 m c) (a14 m c)
/-- The pooled graph rows. -/
def P : FVec Ideal S64x64 .f32 := poolRows (X2 m c) (a2 m c)

/-! ## The first layer -/

theorem W2_h : (W2 m ρ c (Proc.devRef .tc main_v16_0) : S100000x64.Idx → EReal) = X0 m c :=
  (W2_arr m ρ c 6).trans (ConvValue0.final6' (V1 m ρ) c (a0 m c) (segRows (a0 m c) (srcRow (a1 m c)) (dstRow (a1 m c))) (a3 m c) (a4 m c) (a5 m c) (a6 m c)
    (KKeep.W1_arg0 m ρ c) (host0_v13 (W0 m ρ c)) (KKeep.W1_arg3 m ρ c) (fun q => host0_v14 (W0 m ρ c) q)
    (KKeep.W1_arg5 m ρ c) (fun q => host0_v15 (W0 m ρ c) q))
theorem W2_s (q : Fin 64) : (W2 m ρ c (Proc.devRef .tc main_v16_1) : S1x64.Idx → EReal) (ix2 (0 : Fin 1) q) = colSum (X0 m c) (ix1 q) :=
  (congrFun (W2_arr m ρ c 7) _).trans (ConvValue0.final7' (V1 m ρ) c (a0 m c) (segRows (a0 m c) (srcRow (a1 m c)) (dstRow (a1 m c))) (a3 m c) (a4 m c) (a5 m c) (a6 m c)
    (KKeep.W1_arg0 m ρ c) (host0_v13 (W0 m ρ c)) (KKeep.W1_arg3 m ρ c) (fun q => host0_v14 (W0 m ρ c) q)
    (KKeep.W1_arg5 m ρ c) (fun q => host0_v15 (W0 m ρ c) q) q)
theorem W2_ss (q : Fin 64) : (W2 m ρ c (Proc.devRef .tc main_v16_2) : S1x64.Idx → EReal) (ix2 (0 : Fin 1) q) = colSumSq (X0 m c) (ix1 q) :=
  (congrFun (W2_arr m ρ c 8) _).trans (ConvValue0.final8' (V1 m ρ) c (a0 m c) (segRows (a0 m c) (srcRow (a1 m c)) (dstRow (a1 m c))) (a3 m c) (a4 m c) (a5 m c) (a6 m c)
    (KKeep.W1_arg0 m ρ c) (host0_v13 (W0 m ρ c)) (KKeep.W1_arg3 m ρ c) (fun q => host0_v14 (W0 m ρ c) q)
    (KKeep.W1_arg5 m ρ c) (fun q => host0_v15 (W0 m ρ c) q) q)

theorem W4_h : (W4 m ρ c (Proc.devRef .tc main_v29) : S100000x64.Idx → EReal) = H1 m c :=
  (W4_arr m ρ c 5).trans (BnValue1.final5' (V3 m ρ) c (X0 m c) (colMean cnt (X0 m c)) (colVar1 cnt (X0 m c)) (a15 m c) (a16 m c)
    ((KKeep.W3_v16_0 m ρ c).trans (W2_h m ρ c))
    (fun q => (host1_v25 (W2 m ρ c) q).trans (by rw [W2_s m ρ c q]; rfl))
    (fun q => (host1_v26 (W2 m ρ c) q).trans (by rw [W2_s m ρ c q, W2_ss m ρ c q]; rfl))
    (fun q => (host1_v27 (W2 m ρ c) q).trans (congrFun (KKeep.W2_arg15 m ρ c) _))
    (fun q => (host1_v28 (W2 m ρ c) q).trans (congrFun (KKeep.W2_arg16 m ρ c) _)))

/-! ## The second layer -/

theorem W5_agg : (W5 m ρ c (Proc.devRef .tc main_v39) : S100000x64.Idx → EReal) = segRows (H1 m c) (srcRow (a1 m c)) (dstRow (a1 m c)) := by
  refine (host2_v39 (W4 m ρ c)).trans ?_
  rw [W4_h m ρ c, KKeep.W4_v1 m ρ c, KKeep.W4_v3 m ρ c]

theorem W6_h : (W6 m ρ c (Proc.devRef .tc main_v42_0) : S100000x64.Idx → EReal) = X1 m c :=
  (W6_arr m ρ c 6).trans (ConvValue2.final6' (V5 m ρ) c (H1 m c) (segRows (H1 m c) (srcRow (a1 m c)) (dstRow (a1 m c))) (a7 m c) (a8 m c) (a9 m c) (a10 m c)
    ((KKeep.W5_v29 m ρ c).trans (W4_h m ρ c)) (W5_agg m ρ c) (KKeep.W5_arg7 m ρ c)
    (fun q => (host2_v40 (W4 m ρ c) q).trans (congrFun (KKeep.W4_arg8 m ρ c) _))
    (KKeep.W5_arg9 m ρ c) (fun q => (host2_v41 (W4 m ρ c) q).trans (congrFun (KKeep.W4_arg10 m ρ c) _)))
theorem W6_s (q : Fin 64) : (W6 m ρ c (Proc.devRef .tc main_v42_1) : S1x64.Idx → EReal) (ix2 (0 : Fin 1) q) = colSum (X1 m c) (ix1 q) :=
  (congrFun (W6_arr m ρ c 7) _).trans (ConvValue2.final7' (V5 m ρ) c (H1 m c) (segRows (H1 m c) (srcRow (a1 m c)) (dstRow (a1 m c))) (a7 m c) (a8 m c) (a9 m c) (a10 m c)
    ((KKeep.W5_v29 m ρ c).trans (W4_h m ρ c)) (W5_agg m ρ c) (KKeep.W5_arg7 m ρ c)
    (fun q => (host2_v40 (W4 m ρ c) q).trans (congrFun (KKeep.W4_arg8 m ρ c) _))
    (KKeep.W5_arg9 m ρ c) (fun q => (host2_v41 (W4 m ρ c) q).trans (congrFun (KKeep.W4_arg10 m ρ c) _)) q)
theorem W6_ss (q : Fin 64) : (W6 m ρ c (Proc.devRef .tc main_v42_2) : S1x64.Idx → EReal) (ix2 (0 : Fin 1) q) = colSumSq (X1 m c) (ix1 q) :=
  (congrFun (W6_arr m ρ c 8) _).trans (ConvValue2.final8' (V5 m ρ) c (H1 m c) (segRows (H1 m c) (srcRow (a1 m c)) (dstRow (a1 m c))) (a7 m c) (a8 m c) (a9 m c) (a10 m c)
    ((KKeep.W5_v29 m ρ c).trans (W4_h m ρ c)) (W5_agg m ρ c) (KKeep.W5_arg7 m ρ c)
    (fun q => (host2_v40 (W4 m ρ c) q).trans (congrFun (KKeep.W4_arg8 m ρ c) _))
    (KKeep.W5_arg9 m ρ c) (fun q => (host2_v41 (W4 m ρ c) q).trans (congrFun (KKeep.W4_arg10 m ρ c) _)) q)

theorem W8_h : (W8 m ρ c (Proc.devRef .tc main_v55) : S100000x64.Idx → EReal) = H2 m c :=
  (W8_arr m ρ c 5).trans (BnValue3.final5' (V7 m ρ) c (X1 m c) (colMean cnt (X1 m c)) (colVar1 cnt (X1 m c)) (a17 m c) (a18 m c)
    ((KKeep.W7_v42_0 m ρ c).trans (W6_h m ρ c))
    (fun q => (host3_v51 (W6 m ρ c) q).trans (by rw [W6_s m ρ c q]; rfl))
    (fun q => (host3_v52 (W6 m ρ c) q).trans (by rw [W6_s m ρ c q, W6_ss m ρ c q]; rfl))
    (fun q => (host3_v53 (W6 m ρ c) q).trans (congrFun (KKeep.W6_arg17 m ρ c) _))
    (fun q => (host3_v54 (W6 m ρ c) q).trans (congrFun (KKeep.W6_arg18 m ρ c) _)))

/-! ## The third layer, the pooling and the head -/

theorem W9_agg : (W9 m ρ c (Proc.devRef .tc main_v65) : S100000x64.Idx → EReal) = segRows (H2 m c) (srcRow (a1 m c)) (dstRow (a1 m c)) := by
  refine (host4_v65 (W8 m ρ c)).trans ?_
  rw [W8_h m ρ c, KKeep.W8_v1 m ρ c, KKeep.W8_v3 m ρ c]

theorem W10_h : (W10 m ρ c (Proc.devRef .tc main_v68_0) : S100000x64.Idx → EReal) = X2 m c :=
  (W10_arr m ρ c 6).trans (ConvValue4.final6' (V9 m ρ) c (H2 m c) (segRows (H2 m c) (srcRow (a1 m c)) (dstRow (a1 m c))) (a11 m c) (a12 m c) (a13 m c) (a14 m c)
    ((KKeep.W9_v55 m ρ c).trans (W8_h m ρ c)) (W9_agg m ρ c) (KKeep.W9_arg11 m ρ c)
    (fun q => (host4_v66 (W8 m ρ c) q).trans (congrFun (KKeep.W8_arg12 m ρ c) _))
    (KKeep.W9_arg13 m ρ c) (fun q => (host4_v67 (W8 m ρ c) q).trans (congrFun (KKeep.W8_arg14 m ρ c) _)))

theorem W11_p : (W11 m ρ c (Proc.devRef .tc main_v71) : S64x64.Idx → EReal) = P m c := by
  refine (host5_v71 (W10 m ρ c)).trans ?_
  rw [W10_h m ρ c, KKeep.W10_arg2 m ρ c]
  rfl

/-- The second result: the pooled rows (the head's launch reads them and leaves them). -/
theorem W12_v71 : (W12 m ρ c (Proc.devRef .tc main_v71) : S64x64.Idx → EReal) = P m c :=
  ((W12_arr m ρ c 0).trans (((dat5 (V11 m ρ) c).arrAt_in 0 rfl _).trans (A_eq5 (V11 m ρ) c 0))).trans (W11_p m ρ c)

/-- The first result: the head's output. -/
theorem W12_v74 : (W12 m ρ c (Proc.devRef .tc main_v74) : S64x128.Idx → EReal) = mlp2 (P m c) (a19 m c) (a20 m c) (a21 m c) (a22 m c) :=
  (W12_arr m ρ c 5).trans (HeadValue5.final5' (V11 m ρ) c (P m c) (a19 m c) (a20 m c) (a21 m c) (a22 m c)
    (W11_p m ρ c) (KKeep.W11_arg19 m ρ c) (fun q => (host5_v72 (W10 m ρ c) q).trans (congrFun (KKeep.W10_arg20 m ρ c) _))
    (KKeep.W11_arg21 m ρ c) (fun q => (host5_v73 (W10 m ρ c) q).trans (congrFun (KKeep.W10_arg22 m ρ c) _)))

/-! ## The run -/

/-- Every weakly fair execution of the idealized kernel terminates, nothing faulting, with the two results at the
    specification's functions of the arguments and the arguments unchanged. -/
theorem run : θ_run (defs (F := Ideal)) (onTc (τ := τ) (main (F := Ideal))) ⟨m, fun _ => 0, ρ⟩ (fun r => ∀ c : Dev nD,
      r.2.mem ((c.tc : Thread nD τ).loc main_v74) = KStages.out (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c)
      ∧ r.2.mem ((c.tc : Thread nD τ).loc main_v71) = KStages.emb (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run (defs (F := Ideal)) _ _).mono (fun r h c =>
    ⟨(h c _ (mem_uc main_v74 (by decide))).trans (W12_v74 m ρ c),
     (h c _ (mem_uc main_v71 (by decide))).trans (W12_v71 m ρ c),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c),
     (h c _ (mem_uc main_arg11 (by decide))).trans (W12_main_arg11 m ρ c),
     (h c _ (mem_uc main_arg12 (by decide))).trans (W12_main_arg12 m ρ c),
     (h c _ (mem_uc main_arg13 (by decide))).trans (W12_main_arg13 m ρ c),
     (h c _ (mem_uc main_arg14 (by decide))).trans (W12_main_arg14 m ρ c),
     (h c _ (mem_uc main_arg15 (by decide))).trans (W12_main_arg15 m ρ c),
     (h c _ (mem_uc main_arg16 (by decide))).trans (W12_main_arg16 m ρ c),
     (h c _ (mem_uc main_arg17 (by decide))).trans (W12_main_arg17 m ρ c),
     (h c _ (mem_uc main_arg18 (by decide))).trans (W12_main_arg18 m ρ c),
     (h c _ (mem_uc main_arg19 (by decide))).trans (W12_main_arg19 m ρ c),
     (h c _ (mem_uc main_arg20 (by decide))).trans (W12_main_arg20 m ρ c),
     (h c _ (mem_uc main_arg21 (by decide))).trans (W12_main_arg21 m ρ c),
     (h c _ (mem_uc main_arg22 (by decide))).trans (W12_main_arg22 m ρ c)⟩)
    (KRun.run_W (F := Ideal) m ρ)

end Cert.KernelIdeal.KValue

end
-- ==== Proof.RefOpsList.lean ====
/-
  The operations of the reference network's main function, as lists.

  The operations are in the order the function performs them, the two calls of the outlined variance function (and,
  inside each, the call of the outlined selection) written out at the call site over that call's own buffers.  They are
  listed twice: window by window, as the function is printed (P0, P1, P2), and stage by stage (neighbour sum,
  perceptron, column mean, column variance, batch normalisation, thrice over, then pooling and the head), each stage
  with the list of the buffers it writes.  This module holds the lists only.
-/
import proofs.«171644_j66365834658285_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 0, in order (81 of them). -/
abbrev P0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_arg0 main_v13 main_v14 (addf : (⟨S100000x64, .f32⟩ : BufTy).Contents (Elt F) → (⟨S100000x64, .f32⟩ : BufTy).Contents (Elt F) → (⟨S100000x64, .f32⟩ : BufTy).Contents (Elt F)),
    StableHlo.binary main_v14 main_arg3 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v16 (broadcastInDim S1x64 ![1] bcast_S64_S1x64_1 : (⟨S64, .f32⟩ : BufTy).Contents (Elt F) → (⟨S1x64, .f32⟩ : BufTy).Contents (Elt F)),
    StableHlo.unary main_v16 main_v17 (broadcastInDim S100000x64 ![0, 1] bcast_S1x64_S100000x64_0_1 : (⟨S1x64, .f32⟩ : BufTy).Contents (Elt F) → (⟨S100000x64, .f32⟩ : BufTy).Contents (Elt F)),
    StableHlo.binary main_v15 main_v17 main_v18 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x00000000#32),
    StableHlo.unary main_cst_1 main_v19 (broadcastInDim S100000x64 ![] bcast_S_S100000x64 : (⟨S_, .f32⟩ : BufTy).Contents (Elt F) → (⟨S100000x64, .f32⟩ : BufTy).Contents (Elt F)),
    StableHlo.binary main_v18 main_v19 main_v20 (maximumf : (⟨S100000x64, .f32⟩ : BufTy).Contents (Elt F) → (⟨S100000x64, .f32⟩ : BufTy).Contents (Elt F) → (⟨S100000x64, .f32⟩ : BufTy).Contents (Elt F)),
    StableHlo.binary main_v20 main_arg5 main_v21 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v22 (broadcastInDim S1x64 ![1] bcast_S64_S1x64_1 : (⟨S64, .f32⟩ : BufTy).Contents (Elt F) → (⟨S1x64, .f32⟩ : BufTy).Contents (Elt F)),
    StableHlo.unary main_v22 main_v23 (broadcastInDim S100000x64 ![0, 1] bcast_S1x64_S100000x64_0_1 : (⟨S1x64, .f32⟩ : BufTy).Contents (Elt F) → (⟨S100000x64, .f32⟩ : BufTy).Contents (Elt F)),
    StableHlo.binary main_v21 main_v23 main_v24 (addf : (⟨S100000x64, .f32⟩ : BufTy).Contents (Elt F) → (⟨S100000x64, .f32⟩ : BufTy).Contents (Elt F) → (⟨S100000x64, .f32⟩ : BufTy).Contents (Elt F)),
    StableHlo.nullary main_cst_2 (constant S_ .f32 0x00000000#32),
    StableHlo.binary main_v24 main_cst_2 main_v25 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_3 (constant S_ .f32 0x47C35000#32),
    StableHlo.unary main_cst_3 main_v26 (broadcastInDim S64 ![] bcast_S_S64 : (⟨S_, .f32⟩ : BufTy).Contents (Elt F) → (⟨S64, .f32⟩ : BufTy).Contents (Elt F)),
    StableHlo.binary main_v25 main_v26 main_v27 (Host.divf : (⟨S64, .f32⟩ : BufTy).Contents (Elt F) → (⟨S64, .f32⟩ : BufTy).Contents (Elt F) → (⟨S64, .f32⟩ : BufTy).Contents (Elt F)),
    StableHlo.nullary main_c_4 (constantI S_ 32 0#32),
    StableHlo.TRef.nullary main_call0.cst (constant S_ .f32 0x00000000#32),
    StableHlo.TRef.binary (.of main_v24 : StableHlo.TRef sig ⟨S100000x64, .f32⟩) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (.of main_v24 : StableHlo.TRef sig ⟨S100000x64, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v27 main_v29 (broadcastInDim S1x64 ![1] bcast_S64_S1x64_1 : (⟨S64, .f32⟩ : BufTy).Contents (Elt F) → (⟨S1x64, .f32⟩ : BufTy).Contents (Elt F)),
    StableHlo.unary main_v29 main_v30 (broadcastInDim S100000x64 ![0, 1] bcast_S1x64_S100000x64_0_1 : (⟨S1x64, .f32⟩ : BufTy).Contents (Elt F) → (⟨S100000x64, .f32⟩ : BufTy).Contents (Elt F)),
    StableHlo.binary main_v24 main_v30 main_v31 (subf : (⟨S100000x64, .f32⟩ : BufTy).Contents (Elt F) → (⟨S100000x64, .f32⟩ : BufTy).Contents (Elt F) → (⟨S100000x64, .f32⟩ : BufTy).Contents (Elt F)),
    StableHlo.nullary main_cst_5 (constant S_ .f32 0x3727C5AC#32),
    StableHlo.unary main_cst_5 main_v32 (broadcastInDim S64 ![] bcast_S_S64 : (⟨S_, .f32⟩ : BufTy).Contents (Elt F) → (⟨S64, .f32⟩ : BufTy).Contents (Elt F)),
    StableHlo.binary main_v28 main_v32 main_v33 (addf : (⟨S64, .f32⟩ : BufTy).Contents (Elt F) → (⟨S64, .f32⟩ : BufTy).Contents (Elt F) → (⟨S64, .f32⟩ : BufTy).Contents (Elt F)),
    StableHlo.unary main_v33 main_v34 (Host.rsqrt : (⟨S64, .f32⟩ : BufTy).Contents (Elt F) → (⟨S64, .f32⟩ : BufTy).Contents (Elt F)),
    StableHlo.unary main_v34 main_v35 (broadcastInDim S1x64 ![1] bcast_S64_S1x64_1 : (⟨S64, .f32⟩ : BufTy).Contents (Elt F) → (⟨S1x64, .f32⟩ : BufTy).Contents (Elt F)),
    StableHlo.unary main_v35 main_v36 (broadcastInDim S100000x64 ![0, 1] bcast_S1x64_S100000x64_0_1 : (⟨S1x64, .f32⟩ : BufTy).Contents (Elt F) → (⟨S100000x64, .f32⟩ : BufTy).Contents (Elt F)),
    StableHlo.binary main_v31 main_v36 main_v37 (mulf : (⟨S100000x64, .f32⟩ : BufTy).Contents (Elt F) → (⟨S100000x64, .f32⟩ : BufTy).Contents (Elt F) → (⟨S100000x64, .f32⟩ : BufTy).Contents (Elt F)),
    StableHlo.unary main_arg15 main_v38 (broadcastInDim S1x64 ![1] bcast_S64_S1x64_1 : (⟨S64, .f32⟩ : BufTy).Contents (Elt F) → (⟨S1x64, .f32⟩ : BufTy).Contents (Elt F)),
    StableHlo.unary main_v38 main_v39 (broadcastInDim S100000x64 ![0, 1] bcast_S1x64_S100000x64_0_1 : (⟨S1x64, .f32⟩ : BufTy).Contents (Elt F) → (⟨S100000x64, .f32⟩ : BufTy).Contents (Elt F)),
    StableHlo.binary main_v37 main_v39 main_v40 (mulf : (⟨S100000x64, .f32⟩ : BufTy).Contents (Elt F) → (⟨S100000x64, .f32⟩ : BufTy).Contents (Elt F) → (⟨S100000x64, .f32⟩ : BufTy).Contents (Elt F)),
    StableHlo.unary main_arg16 main_v41 (broadcastInDim S1x64 ![1] bcast_S64_S1x64_1 : (⟨S64, .f32⟩ : BufTy).Contents (Elt F) → (⟨S1x64, .f32⟩ : BufTy).Contents (Elt F)),
    StableHlo.unary main_v41 main_v42 (broadcastInDim S100000x64 ![0, 1] bcast_S1x64_S100000x64_0_1 : (⟨S1x64, .f32⟩ : BufTy).Contents (Elt F) → (⟨S100000x64, .f32⟩ : BufTy).Contents (Elt F)),
    StableHlo.binary main_v40 main_v42 main_v43 (addf : (⟨S100000x64, .f32⟩ : BufTy).Contents (Elt F) → (⟨S100000x64, .f32⟩ : BufTy).Contents (Elt F) → (⟨S100000x64, .f32⟩ : BufTy).Contents (Elt F)),
    StableHlo.nullary main_cst_6 (constant S_ .f32 0x00000000#32),
    StableHlo.unary main_cst_6 main_v44 (broadcastInDim S100000x64 ![] bcast_S_S100000x64 : (⟨S_, .f32⟩ : BufTy).Contents (Elt F) → (⟨S100000x64, .f32⟩ : BufTy).Contents (Elt F)),
    StableHlo.binary main_v43 main_v44 main_v45 (maximumf : (⟨S100000x64, .f32⟩ : BufTy).Contents (Elt F) → (⟨S100000x64, .f32⟩ : BufTy).Contents (Elt F) → (⟨S100000x64, .f32⟩ : BufTy).Contents (Elt F)),
    StableHlo.nullary main_c_7 (constantI S_ 32 0#32),
    StableHlo.unary main_c_7 main_v46 (broadcastInDim S1600000 ![] bcast_S_S1600000 : (⟨S_, .i32⟩ : BufTy).Contents (Elt F) → (⟨S1600000, .i32⟩ : BufTy).Contents (Elt F)),
    StableHlo.binary main_v1 main_v46 main_v47 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v48 (broadcastInDim S1600000 ![] bcast_S_S1600000 : (⟨S_, .i32⟩ : BufTy).Contents (Elt F) → (⟨S1600000, .i32⟩ : BufTy).Contents (Elt F)) ]

/-- The operations of window 1, in order (81 of them). -/
abbrev P1 : List (HloOp τ sig (Elt F)) :=
  [ StableHlo.binary main_v1 main_v48 main_v49 (addi : (⟨S1600000, .i32⟩ : BufTy).Contents (Elt F) → (⟨S1600000, .i32⟩ : BufTy).Contents (Elt F) → (⟨S1600000, .i32⟩ : BufTy).Contents (Elt F)),
    StableHlo.ternary main_v47 main_v49 main_v1 main_v50 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v50 main_v51 (broadcastInDim S1600000x1 ![0] bcast_S1600000_S1600000x1_0 : (⟨S1600000, .i32⟩ : BufTy).Contents (Elt F) → (⟨S1600000x1, .i32⟩ : BufTy).Contents (Elt F)),
    StableHlo.binary main_v45 main_v51 main_v52 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_9 (constant S_ .f32 0x00000000#32),
    StableHlo.unary main_cst_9 main_v53 (broadcastInDim S100000x64 ![] bcast_S_S100000x64 : (⟨S_, .f32⟩ : BufTy).Contents (Elt F) → (⟨S100000x64, .f32⟩ : BufTy).Contents (Elt F)),
    StableHlo.unary main_v3 main_v54 (broadcastInDim S1600000x1 ![0] bcast_S1600000_S1600000x1_0 : (⟨S1600000, .i32⟩ : BufTy).Contents (Elt F) → (⟨S1600000x1, .i32⟩ : BufTy).Contents (Elt F)),
    StableHlo.ternary main_v53 main_v54 main_v52 main_v55 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v45 main_v55 main_v56 (addf : (⟨S100000x64, .f32⟩ : BufTy).Contents (Elt F) → (⟨S100000x64, .f32⟩ : BufTy).Contents (Elt F) → (⟨S100000x64, .f32⟩ : BufTy).Contents (Elt F)),
    StableHlo.binary main_v56 main_arg7 main_v57 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S100000x64 ![0, 1] bcast_S1x64_S100000x64_0_1 : (⟨S1x64, .f32⟩ : BufTy).Contents (Elt F) → (⟨S100000x64, .f32⟩ : BufTy).Contents (Elt F)),
    StableHlo.binary main_v57 main_v59 main_v60 (addf : (⟨S100000x64, .f32⟩ : BufTy).Contents (Elt F) → (⟨S100000x64, .f32⟩ : BufTy).Contents (Elt F) → (⟨S100000x64, .f32⟩ : BufTy).Contents (Elt F)),
    StableHlo.nullary main_cst_10 (constant S_ .f32 0x00000000#32),
    StableHlo.unary main_cst_10 main_v61 (broadcastInDim S100000x64 ![] bcast_S_S100000x64 : (⟨S_, .f32⟩ : BufTy).Contents (Elt F) → (⟨S100000x64, .f32⟩ : BufTy).Contents (Elt F)),
    StableHlo.binary main_v60 main_v61 main_v62 (maximumf : (⟨S100000x64, .f32⟩ : BufTy).Contents (Elt F) → (⟨S100000x64, .f32⟩ : BufTy).Contents (Elt F) → (⟨S100000x64, .f32⟩ : BufTy).Contents (Elt F)),
    StableHlo.binary main_v62 main_arg9 main_v63 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg10 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S100000x64 ![0, 1] bcast_S1x64_S100000x64_0_1 : (⟨S1x64, .f32⟩ : BufTy).Contents (Elt F) → (⟨S100000x64, .f32⟩ : BufTy).Contents (Elt F)),
    StableHlo.binary main_v63 main_v65 main_v66 (addf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x00000000#32),
    StableHlo.binary main_v66 main_cst_11 main_v67 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_12 (constant S_ .f32 0x47C35000#32),
    StableHlo.unary main_cst_12 main_v68 (broadcastInDim S64 ![] bcast_S_S64 : (⟨S_, .f32⟩ : BufTy).Contents (Elt F) → (⟨S64, .f32⟩ : BufTy).Contents (Elt F)),
    StableHlo.binary main_v67 main_v68 main_v69 (Host.divf : (⟨S64, .f32⟩ : BufTy).Contents (Elt F) → (⟨S64, .f32⟩ : BufTy).Contents (Elt F) → (⟨S64, .f32⟩ : BufTy).Contents (Elt F)),
    StableHlo.nullary main_c_13 (constantI S_ 32 0#32),
    StableHlo.TRef.nullary main_call1.cst (constant S_ .f32 0x00000000#32),
    StableHlo.TRef.binary (.of main_v66 : StableHlo.TRef sig ⟨S100000x64, .f32⟩) main_call1.cst main_call1.v0 (fun x v => Host.reduceAdd x v reducesTo_S100000x64_S64_d0 h_S_),
    StableHlo.TRef.unary main_call1.v0 main_call1.v1 (broadcastInDim S1x64 ![1] bcast_S64_S1x64_1),
    StableHlo.TRef.nullary main_call1.cst_0 (constant S_ .f32 0x47C35000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S100000x64 ![0, 1] bcast_S1x64_S100000x64_0_1),
    StableHlo.TRef.binary (.of main_v66 : StableHlo.TRef sig ⟨S100000x64, .f32⟩) main_call1.v4 main_call1.v5 subf,
    StableHlo.TRef.binary main_call1.v5 main_call1.v5 main_call1.v6 mulf,
    StableHlo.TRef.unary (.of main_c_13 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b),
    StableHlo.unary main_v69 main_v71 (broadcastInDim S1x64 ![1] bcast_S64_S1x64_1 : (⟨S64, .f32⟩ : BufTy).Contents (Elt F) → (⟨S1x64, .f32⟩ : BufTy).Contents (Elt F)),
    StableHlo.unary main_v71 main_v72 (broadcastInDim S100000x64 ![0, 1] bcast_S1x64_S100000x64_0_1 : (⟨S1x64, .f32⟩ : BufTy).Contents (Elt F) → (⟨S100000x64, .f32⟩ : BufTy).Contents (Elt F)),
    StableHlo.binary main_v66 main_v72 main_v73 (subf : (⟨S100000x64, .f32⟩ : BufTy).Contents (Elt F) → (⟨S100000x64, .f32⟩ : BufTy).Contents (Elt F) → (⟨S100000x64, .f32⟩ : BufTy).Contents (Elt F)),
    StableHlo.nullary main_cst_14 (constant S_ .f32 0x3727C5AC#32),
    StableHlo.unary main_cst_14 main_v74 (broadcastInDim S64 ![] bcast_S_S64 : (⟨S_, .f32⟩ : BufTy).Contents (Elt F) → (⟨S64, .f32⟩ : BufTy).Contents (Elt F)),
    StableHlo.binary main_v70 main_v74 main_v75 (addf : (⟨S64, .f32⟩ : BufTy).Contents (Elt F) → (⟨S64, .f32⟩ : BufTy).Contents (Elt F) → (⟨S64, .f32⟩ : BufTy).Contents (Elt F)),
    StableHlo.unary main_v75 main_v76 (Host.rsqrt : (⟨S64, .f32⟩ : BufTy).Contents (Elt F) → (⟨S64, .f32⟩ : BufTy).Contents (Elt F)),
    StableHlo.unary main_v76 main_v77 (broadcastInDim S1x64 ![1] bcast_S64_S1x64_1 : (⟨S64, .f32⟩ : BufTy).Contents (Elt F) → (⟨S1x64, .f32⟩ : BufTy).Contents (Elt F)),
    StableHlo.unary main_v77 main_v78 (broadcastInDim S100000x64 ![0, 1] bcast_S1x64_S100000x64_0_1 : (⟨S1x64, .f32⟩ : BufTy).Contents (Elt F) → (⟨S100000x64, .f32⟩ : BufTy).Contents (Elt F)),
    StableHlo.binary main_v73 main_v78 main_v79 (mulf : (⟨S100000x64, .f32⟩ : BufTy).Contents (Elt F) → (⟨S100000x64, .f32⟩ : BufTy).Contents (Elt F) → (⟨S100000x64, .f32⟩ : BufTy).Contents (Elt F)),
    StableHlo.unary main_arg17 main_v80 (broadcastInDim S1x64 ![1] bcast_S64_S1x64_1 : (⟨S64, .f32⟩ : BufTy).Contents (Elt F) → (⟨S1x64, .f32⟩ : BufTy).Contents (Elt F)),
    StableHlo.unary main_v80 main_v81 (broadcastInDim S100000x64 ![0, 1] bcast_S1x64_S100000x64_0_1 : (⟨S1x64, .f32⟩ : BufTy).Contents (Elt F) → (⟨S100000x64, .f32⟩ : BufTy).Contents (Elt F)),
    StableHlo.binary main_v79 main_v81 main_v82 (mulf : (⟨S100000x64, .f32⟩ : BufTy).Contents (Elt F) → (⟨S100000x64, .f32⟩ : BufTy).Contents (Elt F) → (⟨S100000x64, .f32⟩ : BufTy).Contents (Elt F)),
    StableHlo.unary main_arg18 main_v83 (broadcastInDim S1x64 ![1] bcast_S64_S1x64_1 : (⟨S64, .f32⟩ : BufTy).Contents (Elt F) → (⟨S1x64, .f32⟩ : BufTy).Contents (Elt F)),
    StableHlo.unary main_v83 main_v84 (broadcastInDim S100000x64 ![0, 1] bcast_S1x64_S100000x64_0_1 : (⟨S1x64, .f32⟩ : BufTy).Contents (Elt F) → (⟨S100000x64, .f32⟩ : BufTy).Contents (Elt F)),
    StableHlo.binary main_v82 main_v84 main_v85 (addf : (⟨S100000x64, .f32⟩ : BufTy).Contents (Elt F) → (⟨S100000x64, .f32⟩ : BufTy).Contents (Elt F) → (⟨S100000x64, .f32⟩ : BufTy).Contents (Elt F)),
    StableHlo.nullary main_cst_15 (constant S_ .f32 0x00000000#32),
    StableHlo.unary main_cst_15 main_v86 (broadcastInDim S100000x64 ![] bcast_S_S100000x64 : (⟨S_, .f32⟩ : BufTy).Contents (Elt F) → (⟨S100000x64, .f32⟩ : BufTy).Contents (Elt F)),
    StableHlo.binary main_v85 main_v86 main_v87 (maximumf : (⟨S100000x64, .f32⟩ : BufTy).Contents (Elt F) → (⟨S100000x64, .f32⟩ : BufTy).Contents (Elt F) → (⟨S100000x64, .f32⟩ : BufTy).Contents (Elt F)),
    StableHlo.nullary main_c_16 (constantI S_ 32 0#32),
    StableHlo.unary main_c_16 main_v88 (broadcastInDim S1600000 ![] bcast_S_S1600000 : (⟨S_, .i32⟩ : BufTy).Contents (Elt F) → (⟨S1600000, .i32⟩ : BufTy).Contents (Elt F)),
    StableHlo.binary main_v1 main_v88 main_v89 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v90 (broadcastInDim S1600000 ![] bcast_S_S1600000 : (⟨S_, .i32⟩ : BufTy).Contents (Elt F) → (⟨S1600000, .i32⟩ : BufTy).Contents (Elt F)),
    StableHlo.binary main_v1 main_v90 main_v91 (addi : (⟨S1600000, .i32⟩ : BufTy).Contents (Elt F) → (⟨S1600000, .i32⟩ : BufTy).Contents (Elt F) → (⟨S1600000, .i32⟩ : BufTy).Contents (Elt F)),
    StableHlo.ternary main_v89 main_v91 main_v1 main_v92 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v92 main_v93 (broadcastInDim S1600000x1 ![0] bcast_S1600000_S1600000x1_0 : (⟨S1600000, .i32⟩ : BufTy).Contents (Elt F) → (⟨S1600000x1, .i32⟩ : BufTy).Contents (Elt F)),
    StableHlo.binary main_v87 main_v93 main_v94 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_18 (constant S_ .f32 0x00000000#32),
    StableHlo.unary main_cst_18 main_v95 (broadcastInDim S100000x64 ![] bcast_S_S100000x64 : (⟨S_, .f32⟩ : BufTy).Contents (Elt F) → (⟨S100000x64, .f32⟩ : BufTy).Contents (Elt F)),
    StableHlo.unary main_v3 main_v96 (broadcastInDim S1600000x1 ![0] bcast_S1600000_S1600000x1_0 : (⟨S1600000, .i32⟩ : BufTy).Contents (Elt F) → (⟨S1600000x1, .i32⟩ : BufTy).Contents (Elt F)),
    StableHlo.ternary main_v95 main_v96 main_v94 main_v97 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v87 main_v97 main_v98 (addf : (⟨S100000x64, .f32⟩ : BufTy).Contents (Elt F) → (⟨S100000x64, .f32⟩ : BufTy).Contents (Elt F) → (⟨S100000x64, .f32⟩ : BufTy).Contents (Elt F)) ]

/-- The operations of window 2, in order (26 of them). -/
abbrev P2 : List (HloOp τ sig (Elt F)) :=
  [ StableHlo.binary main_v98 main_arg11 main_v99 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg12 main_v100 (broadcastInDim S1x64 ![1] bcast_S64_S1x64_1 : (⟨S64, .f32⟩ : BufTy).Contents (Elt F) → (⟨S1x64, .f32⟩ : BufTy).Contents (Elt F)),
    StableHlo.unary main_v100 main_v101 (broadcastInDim S100000x64 ![0, 1] bcast_S1x64_S100000x64_0_1 : (⟨S1x64, .f32⟩ : BufTy).Contents (Elt F) → (⟨S100000x64, .f32⟩ : BufTy).Contents (Elt F)),
    StableHlo.binary main_v99 main_v101 main_v102 (addf : (⟨S100000x64, .f32⟩ : BufTy).Contents (Elt F) → (⟨S100000x64, .f32⟩ : BufTy).Contents (Elt F) → (⟨S100000x64, .f32⟩ : BufTy).Contents (Elt F)),
    StableHlo.nullary main_cst_19 (constant S_ .f32 0x00000000#32),
    StableHlo.unary main_cst_19 main_v103 (broadcastInDim S100000x64 ![] bcast_S_S100000x64 : (⟨S_, .f32⟩ : BufTy).Contents (Elt F) → (⟨S100000x64, .f32⟩ : BufTy).Contents (Elt F)),
    StableHlo.binary main_v102 main_v103 main_v104 (maximumf : (⟨S100000x64, .f32⟩ : BufTy).Contents (Elt F) → (⟨S100000x64, .f32⟩ : BufTy).Contents (Elt F) → (⟨S100000x64, .f32⟩ : BufTy).Contents (Elt F)),
    StableHlo.binary main_v104 main_arg13 main_v105 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg14 main_v106 (broadcastInDim S1x64 ![1] bcast_S64_S1x64_1 : (⟨S64, .f32⟩ : BufTy).Contents (Elt F) → (⟨S1x64, .f32⟩ : BufTy).Contents (Elt F)),
    StableHlo.unary main_v106 main_v107 (broadcastInDim S100000x64 ![0, 1] bcast_S1x64_S100000x64_0_1 : (⟨S1x64, .f32⟩ : BufTy).Contents (Elt F) → (⟨S100000x64, .f32⟩ : BufTy).Contents (Elt F)),
    StableHlo.binary main_v105 main_v107 main_v108 (addf : (⟨S100000x64, .f32⟩ : BufTy).Contents (Elt F) → (⟨S100000x64, .f32⟩ : BufTy).Contents (Elt F) → (⟨S100000x64, .f32⟩ : BufTy).Contents (Elt F)),
    StableHlo.nullary main_cst_20 (constant S_ .f32 0x00000000#32),
    StableHlo.unary main_cst_20 main_v109 (broadcastInDim S64x64 ![] bcast_S_S64x64 : (⟨S_, .f32⟩ : BufTy).Contents (Elt F) → (⟨S64x64, .f32⟩ : BufTy).Contents (Elt F)),
    StableHlo.unary main_arg2 main_v110 (broadcastInDim S100000x1 ![0] bcast_S100000_S100000x1_0 : (⟨S100000, .i32⟩ : BufTy).Contents (Elt F) → (⟨S100000x1, .i32⟩ : BufTy).Contents (Elt F)),
    StableHlo.ternary main_v109 main_v110 main_v108 main_v111 ((fun x i u => Host.scatterAdd scatter_S64x64_S100000x1_S100000x64_1_0_0_1 x i u) : (⟨S64x64, .f32⟩ : BufTy).Contents (Elt F) → (⟨S100000x1, .i32⟩ : BufTy).Contents (Elt F) → (⟨S100000x64, .f32⟩ : BufTy).Contents (Elt F) → (⟨S64x64, .f32⟩ : BufTy).Contents (Elt F)),
    StableHlo.binary main_v111 main_arg19 main_v112 ((fun l r => Host.dotGeneral dot_S64x64_S64x256_S64x256_1_0_0_1_n_n none l r) : (⟨S64x64, .f32⟩ : BufTy).Contents (Elt F) → (⟨S64x256, .f32⟩ : BufTy).Contents (Elt F) → (⟨S64x256, .f32⟩ : BufTy).Contents (Elt F)),
    StableHlo.unary main_arg20 main_v113 (broadcastInDim S1x256 ![1] bcast_S256_S1x256_1 : (⟨S256, .f32⟩ : BufTy).Contents (Elt F) → (⟨S1x256, .f32⟩ : BufTy).Contents (Elt F)),
    StableHlo.unary main_v113 main_v114 (broadcastInDim S64x256 ![0, 1] bcast_S1x256_S64x256_0_1 : (⟨S1x256, .f32⟩ : BufTy).Contents (Elt F) → (⟨S64x256, .f32⟩ : BufTy).Contents (Elt F)),
    StableHlo.binary main_v112 main_v114 main_v115 (addf : (⟨S64x256, .f32⟩ : BufTy).Contents (Elt F) → (⟨S64x256, .f32⟩ : BufTy).Contents (Elt F) → (⟨S64x256, .f32⟩ : BufTy).Contents (Elt F)),
    StableHlo.nullary main_cst_21 (constant S_ .f32 0x00000000#32),
    StableHlo.unary main_cst_21 main_v116 (broadcastInDim S64x256 ![] bcast_S_S64x256 : (⟨S_, .f32⟩ : BufTy).Contents (Elt F) → (⟨S64x256, .f32⟩ : BufTy).Contents (Elt F)),
    StableHlo.binary main_v115 main_v116 main_v117 (maximumf : (⟨S64x256, .f32⟩ : BufTy).Contents (Elt F) → (⟨S64x256, .f32⟩ : BufTy).Contents (Elt F) → (⟨S64x256, .f32⟩ : BufTy).Contents (Elt F)),
    StableHlo.binary main_v117 main_arg21 main_v118 ((fun l r => Host.dotGeneral dot_S64x256_S256x128_S64x128_1_0_0_1_n_n none l r) : (⟨S64x256, .f32⟩ : BufTy).Contents (Elt F) → (⟨S256x128, .f32⟩ : BufTy).Contents (Elt F) → (⟨S64x128, .f32⟩ : BufTy).Contents (Elt F)),
    StableHlo.unary main_arg22 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S64x128 ![0, 1] bcast_S1x128_S64x128_0_1 : (⟨S1x128, .f32⟩ : BufTy).Contents (Elt F) → (⟨S64x128, .f32⟩ : BufTy).Contents (Elt F)),
    StableHlo.binary main_v118 main_v120 main_v121 (addf : (⟨S64x128, .f32⟩ : BufTy).Contents (Elt F) → (⟨S64x128, .f32⟩ : BufTy).Contents (Elt F) → (⟨S64x128, .f32⟩ : BufTy).Contents (Elt F)) ]

/-- The operations of the stage seg1, in order (17 of them). -/
abbrev seg1 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The buffers the stage seg1 writes, in the same order. -/
abbrev W_seg1 : List (Ref sig .tc) :=
  [main_v0, main_v1, main_v2, main_v3, main_c, main_v4, main_v5, main_c_0, main_v6, main_v7, main_v8, main_v9, main_v10, main_cst, main_v11, main_v12, main_v13]

/-- The operations of the stage conv1, in order (12 of them). -/
abbrev conv1 : List (HloOp τ sig (Elt F)) :=
  [ StableHlo.binary main_arg0 main_v13 main_v14 (addf : (⟨S100000x64, .f32⟩ : BufTy).Contents (Elt F) → (⟨S100000x64, .f32⟩ : BufTy).Contents (Elt F) → (⟨S100000x64, .f32⟩ : BufTy).Contents (Elt F)),
    StableHlo.binary main_v14 main_arg3 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v16 (broadcastInDim S1x64 ![1] bcast_S64_S1x64_1 : (⟨S64, .f32⟩ : BufTy).Contents (Elt F) → (⟨S1x64, .f32⟩ : BufTy).Contents (Elt F)),
    StableHlo.unary main_v16 main_v17 (broadcastInDim S100000x64 ![0, 1] bcast_S1x64_S100000x64_0_1 : (⟨S1x64, .f32⟩ : BufTy).Contents (Elt F) → (⟨S100000x64, .f32⟩ : BufTy).Contents (Elt F)),
    StableHlo.binary main_v15 main_v17 main_v18 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x00000000#32),
    StableHlo.unary main_cst_1 main_v19 (broadcastInDim S100000x64 ![] bcast_S_S100000x64 : (⟨S_, .f32⟩ : BufTy).Contents (Elt F) → (⟨S100000x64, .f32⟩ : BufTy).Contents (Elt F)),
    StableHlo.binary main_v18 main_v19 main_v20 (maximumf : (⟨S100000x64, .f32⟩ : BufTy).Contents (Elt F) → (⟨S100000x64, .f32⟩ : BufTy).Contents (Elt F) → (⟨S100000x64, .f32⟩ : BufTy).Contents (Elt F)),
    StableHlo.binary main_v20 main_arg5 main_v21 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v22 (broadcastInDim S1x64 ![1] bcast_S64_S1x64_1 : (⟨S64, .f32⟩ : BufTy).Contents (Elt F) → (⟨S1x64, .f32⟩ : BufTy).Contents (Elt F)),
    StableHlo.unary main_v22 main_v23 (broadcastInDim S100000x64 ![0, 1] bcast_S1x64_S100000x64_0_1 : (⟨S1x64, .f32⟩ : BufTy).Contents (Elt F) → (⟨S100000x64, .f32⟩ : BufTy).Contents (Elt F)),
    StableHlo.binary main_v21 main_v23 main_v24 (addf : (⟨S100000x64, .f32⟩ : BufTy).Contents (Elt F) → (⟨S100000x64, .f32⟩ : BufTy).Contents (Elt F) → (⟨S100000x64, .f32⟩ : BufTy).Contents (Elt F)) ]

/-- The buffers the stage conv1 writes, in the same order. -/
abbrev W_conv1 : List (Ref sig .tc) :=
  [main_v14, main_v15, main_v16, main_v17, main_v18, main_cst_1, main_v19, main_v20, main_v21, main_v22, main_v23, main_v24]

/-- The operations of the stage mean1, in order (5 of them). -/
abbrev mean1 : List (HloOp τ sig (Elt F)) :=
  [ StableHlo.nullary main_cst_2 (constant S_ .f32 0x00000000#32),
    StableHlo.binary main_v24 main_cst_2 main_v25 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_3 (constant S_ .f32 0x47C35000#32),
    StableHlo.unary main_cst_3 main_v26 (broadcastInDim S64 ![] bcast_S_S64 : (⟨S_, .f32⟩ : BufTy).Contents (Elt F) → (⟨S64, .f32⟩ : BufTy).Contents (Elt F)),
    StableHlo.binary main_v25 main_v26 main_v27 (Host.divf : (⟨S64, .f32⟩ : BufTy).Contents (Elt F) → (⟨S64, .f32⟩ : BufTy).Contents (Elt F) → (⟨S64, .f32⟩ : BufTy).Contents (Elt F)) ]

/-- The buffers the stage mean1 writes, in the same order. -/
abbrev W_mean1 : List (Ref sig .tc) :=
  [main_cst_2, main_v25, main_cst_3, main_v26, main_v27]

/-- The operations of the stage var1, in order (23 of them). -/
abbrev var1 : List (HloOp τ sig (Elt F)) :=
  [ StableHlo.nullary main_c_4 (constantI S_ 32 0#32),
    StableHlo.TRef.nullary main_call0.cst (constant S_ .f32 0x00000000#32),
    StableHlo.TRef.binary (.of main_v24 : StableHlo.TRef sig ⟨S100000x64, .f32⟩) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (.of main_v24 : StableHlo.TRef sig ⟨S100000x64, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b) ]

/-- The buffers the stage var1 writes, in the same order. -/
abbrev W_var1 : List (Ref sig .tc) :=
  [main_c_4, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v28]

/-- The operations of the stage bn1, in order (19 of them). -/
abbrev bn1 : List (HloOp τ sig (Elt F)) :=
  [ StableHlo.unary main_v27 main_v29 (broadcastInDim S1x64 ![1] bcast_S64_S1x64_1 : (⟨S64, .f32⟩ : BufTy).Contents (Elt F) → (⟨S1x64, .f32⟩ : BufTy).Contents (Elt F)),
    StableHlo.unary main_v29 main_v30 (broadcastInDim S100000x64 ![0, 1] bcast_S1x64_S100000x64_0_1 : (⟨S1x64, .f32⟩ : BufTy).Contents (Elt F) → (⟨S100000x64, .f32⟩ : BufTy).Contents (Elt F)),
    StableHlo.binary main_v24 main_v30 main_v31 (subf : (⟨S100000x64, .f32⟩ : BufTy).Contents (Elt F) → (⟨S100000x64, .f32⟩ : BufTy).Contents (Elt F) → (⟨S100000x64, .f32⟩ : BufTy).Contents (Elt F)),
    StableHlo.nullary main_cst_5 (constant S_ .f32 0x3727C5AC#32),
    StableHlo.unary main_cst_5 main_v32 (broadcastInDim S64 ![] bcast_S_S64 : (⟨S_, .f32⟩ : BufTy).Contents (Elt F) → (⟨S64, .f32⟩ : BufTy).Contents (Elt F)),
    StableHlo.binary main_v28 main_v32 main_v33 (addf : (⟨S64, .f32⟩ : BufTy).Contents (Elt F) → (⟨S64, .f32⟩ : BufTy).Contents (Elt F) → (⟨S64, .f32⟩ : BufTy).Contents (Elt F)),
    StableHlo.unary main_v33 main_v34 (Host.rsqrt : (⟨S64, .f32⟩ : BufTy).Contents (Elt F) → (⟨S64, .f32⟩ : BufTy).Contents (Elt F)),
    StableHlo.unary main_v34 main_v35 (broadcastInDim S1x64 ![1] bcast_S64_S1x64_1 : (⟨S64, .f32⟩ : BufTy).Contents (Elt F) → (⟨S1x64, .f32⟩ : BufTy).Contents (Elt F)),
    StableHlo.unary main_v35 main_v36 (broadcastInDim S100000x64 ![0, 1] bcast_S1x64_S100000x64_0_1 : (⟨S1x64, .f32⟩ : BufTy).Contents (Elt F) → (⟨S100000x64, .f32⟩ : BufTy).Contents (Elt F)),
    StableHlo.binary main_v31 main_v36 main_v37 (mulf : (⟨S100000x64, .f32⟩ : BufTy).Contents (Elt F) → (⟨S100000x64, .f32⟩ : BufTy).Contents (Elt F) → (⟨S100000x64, .f32⟩ : BufTy).Contents (Elt F)),
    StableHlo.unary main_arg15 main_v38 (broadcastInDim S1x64 ![1] bcast_S64_S1x64_1 : (⟨S64, .f32⟩ : BufTy).Contents (Elt F) → (⟨S1x64, .f32⟩ : BufTy).Contents (Elt F)),
    StableHlo.unary main_v38 main_v39 (broadcastInDim S100000x64 ![0, 1] bcast_S1x64_S100000x64_0_1 : (⟨S1x64, .f32⟩ : BufTy).Contents (Elt F) → (⟨S100000x64, .f32⟩ : BufTy).Contents (Elt F)),
    StableHlo.binary main_v37 main_v39 main_v40 (mulf : (⟨S100000x64, .f32⟩ : BufTy).Contents (Elt F) → (⟨S100000x64, .f32⟩ : BufTy).Contents (Elt F) → (⟨S100000x64, .f32⟩ : BufTy).Contents (Elt F)),
    StableHlo.unary main_arg16 main_v41 (broadcastInDim S1x64 ![1] bcast_S64_S1x64_1 : (⟨S64, .f32⟩ : BufTy).Contents (Elt F) → (⟨S1x64, .f32⟩ : BufTy).Contents (Elt F)),
    StableHlo.unary main_v41 main_v42 (broadcastInDim S100000x64 ![0, 1] bcast_S1x64_S100000x64_0_1 : (⟨S1x64, .f32⟩ : BufTy).Contents (Elt F) → (⟨S100000x64, .f32⟩ : BufTy).Contents (Elt F)),
    StableHlo.binary main_v40 main_v42 main_v43 (addf : (⟨S100000x64, .f32⟩ : BufTy).Contents (Elt F) → (⟨S100000x64, .f32⟩ : BufTy).Contents (Elt F) → (⟨S100000x64, .f32⟩ : BufTy).Contents (Elt F)),
    StableHlo.nullary main_cst_6 (constant S_ .f32 0x00000000#32),
    StableHlo.unary main_cst_6 main_v44 (broadcastInDim S100000x64 ![] bcast_S_S100000x64 : (⟨S_, .f32⟩ : BufTy).Contents (Elt F) → (⟨S100000x64, .f32⟩ : BufTy).Contents (Elt F)),
    StableHlo.binary main_v43 main_v44 main_v45 (maximumf : (⟨S100000x64, .f32⟩ : BufTy).Contents (Elt F) → (⟨S100000x64, .f32⟩ : BufTy).Contents (Elt F) → (⟨S100000x64, .f32⟩ : BufTy).Contents (Elt F)) ]

/-- The buffers the stage bn1 writes, in the same order. -/
abbrev W_bn1 : List (Ref sig .tc) :=
  [main_v29, main_v30, main_v31, main_cst_5, main_v32, main_v33, main_v34, main_v35, main_v36, main_v37, main_v38, main_v39, main_v40, main_v41, main_v42, main_v43, main_cst_6, main_v44, main_v45]

/-- The operations of the stage seg2, in order (13 of them). -/
abbrev seg2 : List (HloOp τ sig (Elt F)) :=
  [ StableHlo.nullary main_c_7 (constantI S_ 32 0#32),
    StableHlo.unary main_c_7 main_v46 (broadcastInDim S1600000 ![] bcast_S_S1600000 : (⟨S_, .i32⟩ : BufTy).Contents (Elt F) → (⟨S1600000, .i32⟩ : BufTy).Contents (Elt F)),
    StableHlo.binary main_v1 main_v46 main_v47 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v48 (broadcastInDim S1600000 ![] bcast_S_S1600000 : (⟨S_, .i32⟩ : BufTy).Contents (Elt F) → (⟨S1600000, .i32⟩ : BufTy).Contents (Elt F)),
    StableHlo.binary main_v1 main_v48 main_v49 (addi : (⟨S1600000, .i32⟩ : BufTy).Contents (Elt F) → (⟨S1600000, .i32⟩ : BufTy).Contents (Elt F) → (⟨S1600000, .i32⟩ : BufTy).Contents (Elt F)),
    StableHlo.ternary main_v47 main_v49 main_v1 main_v50 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v50 main_v51 (broadcastInDim S1600000x1 ![0] bcast_S1600000_S1600000x1_0 : (⟨S1600000, .i32⟩ : BufTy).Contents (Elt F) → (⟨S1600000x1, .i32⟩ : BufTy).Contents (Elt F)),
    StableHlo.binary main_v45 main_v51 main_v52 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_9 (constant S_ .f32 0x00000000#32),
    StableHlo.unary main_cst_9 main_v53 (broadcastInDim S100000x64 ![] bcast_S_S100000x64 : (⟨S_, .f32⟩ : BufTy).Contents (Elt F) → (⟨S100000x64, .f32⟩ : BufTy).Contents (Elt F)),
    StableHlo.unary main_v3 main_v54 (broadcastInDim S1600000x1 ![0] bcast_S1600000_S1600000x1_0 : (⟨S1600000, .i32⟩ : BufTy).Contents (Elt F) → (⟨S1600000x1, .i32⟩ : BufTy).Contents (Elt F)),
    StableHlo.ternary main_v53 main_v54 main_v52 main_v55 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The buffers the stage seg2 writes, in the same order. -/
abbrev W_seg2 : List (Ref sig .tc) :=
  [main_c_7, main_v46, main_v47, main_c_8, main_v48, main_v49, main_v50, main_v51, main_v52, main_cst_9, main_v53, main_v54, main_v55]

/-- The operations of the stage conv2, in order (12 of them). -/
abbrev conv2 : List (HloOp τ sig (Elt F)) :=
  [ StableHlo.binary main_v45 main_v55 main_v56 (addf : (⟨S100000x64, .f32⟩ : BufTy).Contents (Elt F) → (⟨S100000x64, .f32⟩ : BufTy).Contents (Elt F) → (⟨S100000x64, .f32⟩ : BufTy).Contents (Elt F)),
    StableHlo.binary main_v56 main_arg7 main_v57 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S100000x64 ![0, 1] bcast_S1x64_S100000x64_0_1 : (⟨S1x64, .f32⟩ : BufTy).Contents (Elt F) → (⟨S100000x64, .f32⟩ : BufTy).Contents (Elt F)),
    StableHlo.binary main_v57 main_v59 main_v60 (addf : (⟨S100000x64, .f32⟩ : BufTy).Contents (Elt F) → (⟨S100000x64, .f32⟩ : BufTy).Contents (Elt F) → (⟨S100000x64, .f32⟩ : BufTy).Contents (Elt F)),
    StableHlo.nullary main_cst_10 (constant S_ .f32 0x00000000#32),
    StableHlo.unary main_cst_10 main_v61 (broadcastInDim S100000x64 ![] bcast_S_S100000x64 : (⟨S_, .f32⟩ : BufTy).Contents (Elt F) → (⟨S100000x64, .f32⟩ : BufTy).Contents (Elt F)),
    StableHlo.binary main_v60 main_v61 main_v62 (maximumf : (⟨S100000x64, .f32⟩ : BufTy).Contents (Elt F) → (⟨S100000x64, .f32⟩ : BufTy).Contents (Elt F) → (⟨S100000x64, .f32⟩ : BufTy).Contents (Elt F)),
    StableHlo.binary main_v62 main_arg9 main_v63 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg10 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S100000x64 ![0, 1] bcast_S1x64_S100000x64_0_1 : (⟨S1x64, .f32⟩ : BufTy).Contents (Elt F) → (⟨S100000x64, .f32⟩ : BufTy).Contents (Elt F)),
    StableHlo.binary main_v63 main_v65 main_v66 (addf : (⟨S100000x64, .f32⟩ : BufTy).Contents (Elt F) → (⟨S100000x64, .f32⟩ : BufTy).Contents (Elt F) → (⟨S100000x64, .f32⟩ : BufTy).Contents (Elt F)) ]

/-- The buffers the stage conv2 writes, in the same order. -/
abbrev W_conv2 : List (Ref sig .tc) :=
  [main_v56, main_v57, main_v58, main_v59, main_v60, main_cst_10, main_v61, main_v62, main_v63, main_v64, main_v65, main_v66]

/-- The operations of the stage mean2, in order (5 of them). -/
abbrev mean2 : List (HloOp τ sig (Elt F)) :=
  [ StableHlo.nullary main_cst_11 (constant S_ .f32 0x00000000#32),
    StableHlo.binary main_v66 main_cst_11 main_v67 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_12 (constant S_ .f32 0x47C35000#32),
    StableHlo.unary main_cst_12 main_v68 (broadcastInDim S64 ![] bcast_S_S64 : (⟨S_, .f32⟩ : BufTy).Contents (Elt F) → (⟨S64, .f32⟩ : BufTy).Contents (Elt F)),
    StableHlo.binary main_v67 main_v68 main_v69 (Host.divf : (⟨S64, .f32⟩ : BufTy).Contents (Elt F) → (⟨S64, .f32⟩ : BufTy).Contents (Elt F) → (⟨S64, .f32⟩ : BufTy).Contents (Elt F)) ]

/-- The buffers the stage mean2 writes, in the same order. -/
abbrev W_mean2 : List (Ref sig .tc) :=
  [main_cst_11, main_v67, main_cst_12, main_v68, main_v69]

/-- The operations of the stage var2, in order (23 of them). -/
abbrev var2 : List (HloOp τ sig (Elt F)) :=
  [ StableHlo.nullary main_c_13 (constantI S_ 32 0#32),
    StableHlo.TRef.nullary main_call1.cst (constant S_ .f32 0x00000000#32),
    StableHlo.TRef.binary (.of main_v66 : StableHlo.TRef sig ⟨S100000x64, .f32⟩) main_call1.cst main_call1.v0 (fun x v => Host.reduceAdd x v reducesTo_S100000x64_S64_d0 h_S_),
    StableHlo.TRef.unary main_call1.v0 main_call1.v1 (broadcastInDim S1x64 ![1] bcast_S64_S1x64_1),
    StableHlo.TRef.nullary main_call1.cst_0 (constant S_ .f32 0x47C35000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S100000x64 ![0, 1] bcast_S1x64_S100000x64_0_1),
    StableHlo.TRef.binary (.of main_v66 : StableHlo.TRef sig ⟨S100000x64, .f32⟩) main_call1.v4 main_call1.v5 subf,
    StableHlo.TRef.binary main_call1.v5 main_call1.v5 main_call1.v6 mulf,
    StableHlo.TRef.unary (.of main_c_13 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b) ]

/-- The buffers the stage var2 writes, in the same order. -/
abbrev W_var2 : List (Ref sig .tc) :=
  [main_c_13, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v70]

/-- The operations of the stage bn2, in order (19 of them). -/
abbrev bn2 : List (HloOp τ sig (Elt F)) :=
  [ StableHlo.unary main_v69 main_v71 (broadcastInDim S1x64 ![1] bcast_S64_S1x64_1 : (⟨S64, .f32⟩ : BufTy).Contents (Elt F) → (⟨S1x64, .f32⟩ : BufTy).Contents (Elt F)),
    StableHlo.unary main_v71 main_v72 (broadcastInDim S100000x64 ![0, 1] bcast_S1x64_S100000x64_0_1 : (⟨S1x64, .f32⟩ : BufTy).Contents (Elt F) → (⟨S100000x64, .f32⟩ : BufTy).Contents (Elt F)),
    StableHlo.binary main_v66 main_v72 main_v73 (subf : (⟨S100000x64, .f32⟩ : BufTy).Contents (Elt F) → (⟨S100000x64, .f32⟩ : BufTy).Contents (Elt F) → (⟨S100000x64, .f32⟩ : BufTy).Contents (Elt F)),
    StableHlo.nullary main_cst_14 (constant S_ .f32 0x3727C5AC#32),
    StableHlo.unary main_cst_14 main_v74 (broadcastInDim S64 ![] bcast_S_S64 : (⟨S_, .f32⟩ : BufTy).Contents (Elt F) → (⟨S64, .f32⟩ : BufTy).Contents (Elt F)),
    StableHlo.binary main_v70 main_v74 main_v75 (addf : (⟨S64, .f32⟩ : BufTy).Contents (Elt F) → (⟨S64, .f32⟩ : BufTy).Contents (Elt F) → (⟨S64, .f32⟩ : BufTy).Contents (Elt F)),
    StableHlo.unary main_v75 main_v76 (Host.rsqrt : (⟨S64, .f32⟩ : BufTy).Contents (Elt F) → (⟨S64, .f32⟩ : BufTy).Contents (Elt F)),
    StableHlo.unary main_v76 main_v77 (broadcastInDim S1x64 ![1] bcast_S64_S1x64_1 : (⟨S64, .f32⟩ : BufTy).Contents (Elt F) → (⟨S1x64, .f32⟩ : BufTy).Contents (Elt F)),
    StableHlo.unary main_v77 main_v78 (broadcastInDim S100000x64 ![0, 1] bcast_S1x64_S100000x64_0_1 : (⟨S1x64, .f32⟩ : BufTy).Contents (Elt F) → (⟨S100000x64, .f32⟩ : BufTy).Contents (Elt F)),
    StableHlo.binary main_v73 main_v78 main_v79 (mulf : (⟨S100000x64, .f32⟩ : BufTy).Contents (Elt F) → (⟨S100000x64, .f32⟩ : BufTy).Contents (Elt F) → (⟨S100000x64, .f32⟩ : BufTy).Contents (Elt F)),
    StableHlo.unary main_arg17 main_v80 (broadcastInDim S1x64 ![1] bcast_S64_S1x64_1 : (⟨S64, .f32⟩ : BufTy).Contents (Elt F) → (⟨S1x64, .f32⟩ : BufTy).Contents (Elt F)),
    StableHlo.unary main_v80 main_v81 (broadcastInDim S100000x64 ![0, 1] bcast_S1x64_S100000x64_0_1 : (⟨S1x64, .f32⟩ : BufTy).Contents (Elt F) → (⟨S100000x64, .f32⟩ : BufTy).Contents (Elt F)),
    StableHlo.binary main_v79 main_v81 main_v82 (mulf : (⟨S100000x64, .f32⟩ : BufTy).Contents (Elt F) → (⟨S100000x64, .f32⟩ : BufTy).Contents (Elt F) → (⟨S100000x64, .f32⟩ : BufTy).Contents (Elt F)),
    StableHlo.unary main_arg18 main_v83 (broadcastInDim S1x64 ![1] bcast_S64_S1x64_1 : (⟨S64, .f32⟩ : BufTy).Contents (Elt F) → (⟨S1x64, .f32⟩ : BufTy).Contents (Elt F)),
    StableHlo.unary main_v83 main_v84 (broadcastInDim S100000x64 ![0, 1] bcast_S1x64_S100000x64_0_1 : (⟨S1x64, .f32⟩ : BufTy).Contents (Elt F) → (⟨S100000x64, .f32⟩ : BufTy).Contents (Elt F)),
    StableHlo.binary main_v82 main_v84 main_v85 (addf : (⟨S100000x64, .f32⟩ : BufTy).Contents (Elt F) → (⟨S100000x64, .f32⟩ : BufTy).Contents (Elt F) → (⟨S100000x64, .f32⟩ : BufTy).Contents (Elt F)),
    StableHlo.nullary main_cst_15 (constant S_ .f32 0x00000000#32),
    StableHlo.unary main_cst_15 main_v86 (broadcastInDim S100000x64 ![] bcast_S_S100000x64 : (⟨S_, .f32⟩ : BufTy).Contents (Elt F) → (⟨S100000x64, .f32⟩ : BufTy).Contents (Elt F)),
    StableHlo.binary main_v85 main_v86 main_v87 (maximumf : (⟨S100000x64, .f32⟩ : BufTy).Contents (Elt F) → (⟨S100000x64, .f32⟩ : BufTy).Contents (Elt F) → (⟨S100000x64, .f32⟩ : BufTy).Contents (Elt F)) ]

/-- The buffers the stage bn2 writes, in the same order. -/
abbrev W_bn2 : List (Ref sig .tc) :=
  [main_v71, main_v72, main_v73, main_cst_14, main_v74, main_v75, main_v76, main_v77, main_v78, main_v79, main_v80, main_v81, main_v82, main_v83, main_v84, main_v85, main_cst_15, main_v86, main_v87]

/-- The operations of the stage seg3, in order (13 of them). -/
abbrev seg3 : List (HloOp τ sig (Elt F)) :=
  [ StableHlo.nullary main_c_16 (constantI S_ 32 0#32),
    StableHlo.unary main_c_16 main_v88 (broadcastInDim S1600000 ![] bcast_S_S1600000 : (⟨S_, .i32⟩ : BufTy).Contents (Elt F) → (⟨S1600000, .i32⟩ : BufTy).Contents (Elt F)),
    StableHlo.binary main_v1 main_v88 main_v89 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v90 (broadcastInDim S1600000 ![] bcast_S_S1600000 : (⟨S_, .i32⟩ : BufTy).Contents (Elt F) → (⟨S1600000, .i32⟩ : BufTy).Contents (Elt F)),
    StableHlo.binary main_v1 main_v90 main_v91 (addi : (⟨S1600000, .i32⟩ : BufTy).Contents (Elt F) → (⟨S1600000, .i32⟩ : BufTy).Contents (Elt F) → (⟨S1600000, .i32⟩ : BufTy).Contents (Elt F)),
    StableHlo.ternary main_v89 main_v91 main_v1 main_v92 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v92 main_v93 (broadcastInDim S1600000x1 ![0] bcast_S1600000_S1600000x1_0 : (⟨S1600000, .i32⟩ : BufTy).Contents (Elt F) → (⟨S1600000x1, .i32⟩ : BufTy).Contents (Elt F)),
    StableHlo.binary main_v87 main_v93 main_v94 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_18 (constant S_ .f32 0x00000000#32),
    StableHlo.unary main_cst_18 main_v95 (broadcastInDim S100000x64 ![] bcast_S_S100000x64 : (⟨S_, .f32⟩ : BufTy).Contents (Elt F) → (⟨S100000x64, .f32⟩ : BufTy).Contents (Elt F)),
    StableHlo.unary main_v3 main_v96 (broadcastInDim S1600000x1 ![0] bcast_S1600000_S1600000x1_0 : (⟨S1600000, .i32⟩ : BufTy).Contents (Elt F) → (⟨S1600000x1, .i32⟩ : BufTy).Contents (Elt F)),
    StableHlo.ternary main_v95 main_v96 main_v94 main_v97 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The buffers the stage seg3 writes, in the same order. -/
abbrev W_seg3 : List (Ref sig .tc) :=
  [main_c_16, main_v88, main_v89, main_c_17, main_v90, main_v91, main_v92, main_v93, main_v94, main_cst_18, main_v95, main_v96, main_v97]

/-- The operations of the stage conv3, in order (12 of them). -/
abbrev conv3 : List (HloOp τ sig (Elt F)) :=
  [ StableHlo.binary main_v87 main_v97 main_v98 (addf : (⟨S100000x64, .f32⟩ : BufTy).Contents (Elt F) → (⟨S100000x64, .f32⟩ : BufTy).Contents (Elt F) → (⟨S100000x64, .f32⟩ : BufTy).Contents (Elt F)),
    StableHlo.binary main_v98 main_arg11 main_v99 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg12 main_v100 (broadcastInDim S1x64 ![1] bcast_S64_S1x64_1 : (⟨S64, .f32⟩ : BufTy).Contents (Elt F) → (⟨S1x64, .f32⟩ : BufTy).Contents (Elt F)),
    StableHlo.unary main_v100 main_v101 (broadcastInDim S100000x64 ![0, 1] bcast_S1x64_S100000x64_0_1 : (⟨S1x64, .f32⟩ : BufTy).Contents (Elt F) → (⟨S100000x64, .f32⟩ : BufTy).Contents (Elt F)),
    StableHlo.binary main_v99 main_v101 main_v102 (addf : (⟨S100000x64, .f32⟩ : BufTy).Contents (Elt F) → (⟨S100000x64, .f32⟩ : BufTy).Contents (Elt F) → (⟨S100000x64, .f32⟩ : BufTy).Contents (Elt F)),
    StableHlo.nullary main_cst_19 (constant S_ .f32 0x00000000#32),
    StableHlo.unary main_cst_19 main_v103 (broadcastInDim S100000x64 ![] bcast_S_S100000x64 : (⟨S_, .f32⟩ : BufTy).Contents (Elt F) → (⟨S100000x64, .f32⟩ : BufTy).Contents (Elt F)),
    StableHlo.binary main_v102 main_v103 main_v104 (maximumf : (⟨S100000x64, .f32⟩ : BufTy).Contents (Elt F) → (⟨S100000x64, .f32⟩ : BufTy).Contents (Elt F) → (⟨S100000x64, .f32⟩ : BufTy).Contents (Elt F)),
    StableHlo.binary main_v104 main_arg13 main_v105 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg14 main_v106 (broadcastInDim S1x64 ![1] bcast_S64_S1x64_1 : (⟨S64, .f32⟩ : BufTy).Contents (Elt F) → (⟨S1x64, .f32⟩ : BufTy).Contents (Elt F)),
    StableHlo.unary main_v106 main_v107 (broadcastInDim S100000x64 ![0, 1] bcast_S1x64_S100000x64_0_1 : (⟨S1x64, .f32⟩ : BufTy).Contents (Elt F) → (⟨S100000x64, .f32⟩ : BufTy).Contents (Elt F)),
    StableHlo.binary main_v105 main_v107 main_v108 (addf : (⟨S100000x64, .f32⟩ : BufTy).Contents (Elt F) → (⟨S100000x64, .f32⟩ : BufTy).Contents (Elt F) → (⟨S100000x64, .f32⟩ : BufTy).Contents (Elt F)) ]

/-- The buffers the stage conv3 writes, in the same order. -/
abbrev W_conv3 : List (Ref sig .tc) :=
  [main_v98, main_v99, main_v100, main_v101, main_v102, main_cst_19, main_v103, main_v104, main_v105, main_v106, main_v107, main_v108]

/-- The operations of the stage pool, in order (4 of them). -/
abbrev pool : List (HloOp τ sig (Elt F)) :=
  [ StableHlo.nullary main_cst_20 (constant S_ .f32 0x00000000#32),
    StableHlo.unary main_cst_20 main_v109 (broadcastInDim S64x64 ![] bcast_S_S64x64 : (⟨S_, .f32⟩ : BufTy).Contents (Elt F) → (⟨S64x64, .f32⟩ : BufTy).Contents (Elt F)),
    StableHlo.unary main_arg2 main_v110 (broadcastInDim S100000x1 ![0] bcast_S100000_S100000x1_0 : (⟨S100000, .i32⟩ : BufTy).Contents (Elt F) → (⟨S100000x1, .i32⟩ : BufTy).Contents (Elt F)),
    StableHlo.ternary main_v109 main_v110 main_v108 main_v111 ((fun x i u => Host.scatterAdd scatter_S64x64_S100000x1_S100000x64_1_0_0_1 x i u) : (⟨S64x64, .f32⟩ : BufTy).Contents (Elt F) → (⟨S100000x1, .i32⟩ : BufTy).Contents (Elt F) → (⟨S100000x64, .f32⟩ : BufTy).Contents (Elt F) → (⟨S64x64, .f32⟩ : BufTy).Contents (Elt F)) ]

/-- The buffers the stage pool writes, in the same order. -/
abbrev W_pool : List (Ref sig .tc) :=
  [main_cst_20, main_v109, main_v110, main_v111]

/-- The operations of the stage head, in order (11 of them). -/
abbrev head : List (HloOp τ sig (Elt F)) :=
  [ StableHlo.binary main_v111 main_arg19 main_v112 ((fun l r => Host.dotGeneral dot_S64x64_S64x256_S64x256_1_0_0_1_n_n none l r) : (⟨S64x64, .f32⟩ : BufTy).Contents (Elt F) → (⟨S64x256, .f32⟩ : BufTy).Contents (Elt F) → (⟨S64x256, .f32⟩ : BufTy).Contents (Elt F)),
    StableHlo.unary main_arg20 main_v113 (broadcastInDim S1x256 ![1] bcast_S256_S1x256_1 : (⟨S256, .f32⟩ : BufTy).Contents (Elt F) → (⟨S1x256, .f32⟩ : BufTy).Contents (Elt F)),
    StableHlo.unary main_v113 main_v114 (broadcastInDim S64x256 ![0, 1] bcast_S1x256_S64x256_0_1 : (⟨S1x256, .f32⟩ : BufTy).Contents (Elt F) → (⟨S64x256, .f32⟩ : BufTy).Contents (Elt F)),
    StableHlo.binary main_v112 main_v114 main_v115 (addf : (⟨S64x256, .f32⟩ : BufTy).Contents (Elt F) → (⟨S64x256, .f32⟩ : BufTy).Contents (Elt F) → (⟨S64x256, .f32⟩ : BufTy).Contents (Elt F)),
    StableHlo.nullary main_cst_21 (constant S_ .f32 0x00000000#32),
    StableHlo.unary main_cst_21 main_v116 (broadcastInDim S64x256 ![] bcast_S_S64x256 : (⟨S_, .f32⟩ : BufTy).Contents (Elt F) → (⟨S64x256, .f32⟩ : BufTy).Contents (Elt F)),
    StableHlo.binary main_v115 main_v116 main_v117 (maximumf : (⟨S64x256, .f32⟩ : BufTy).Contents (Elt F) → (⟨S64x256, .f32⟩ : BufTy).Contents (Elt F) → (⟨S64x256, .f32⟩ : BufTy).Contents (Elt F)),
    StableHlo.binary main_v117 main_arg21 main_v118 ((fun l r => Host.dotGeneral dot_S64x256_S256x128_S64x128_1_0_0_1_n_n none l r) : (⟨S64x256, .f32⟩ : BufTy).Contents (Elt F) → (⟨S256x128, .f32⟩ : BufTy).Contents (Elt F) → (⟨S64x128, .f32⟩ : BufTy).Contents (Elt F)),
    StableHlo.unary main_arg22 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S64x128 ![0, 1] bcast_S1x128_S64x128_0_1 : (⟨S1x128, .f32⟩ : BufTy).Contents (Elt F) → (⟨S64x128, .f32⟩ : BufTy).Contents (Elt F)),
    StableHlo.binary main_v118 main_v120 main_v121 (addf : (⟨S64x128, .f32⟩ : BufTy).Contents (Elt F) → (⟨S64x128, .f32⟩ : BufTy).Contents (Elt F) → (⟨S64x128, .f32⟩ : BufTy).Contents (Elt F)) ]

/-- The buffers the stage head writes, in the same order. -/
abbrev W_head : List (Ref sig .tc) :=
  [main_v112, main_v113, main_v114, main_v115, main_cst_21, main_v116, main_v117, main_v118, main_v119, main_v120, main_v121]

end Cert.ReferenceIdeal.RefRun

end
-- ==== Proof.RefOps.lean ====
/-
  The reference network's main function as a straight line of host operations, and its run.

  The function is printed in three windows; each window is shown equal to the line of its operations (the outlined
  variance function and the selection it calls unfolded at their call sites, sequencing reassociated), so the function
  is the line of all of them.  Every operation touches device buffers only and determines what it writes, so the run of
  a straight line applies: every execution terminates with each buffer at the fold of the operations over the launch
  contents.  The same line cut stage by stage gives, per stage, that a buffer outside the stage's written list keeps its
  contents across the stage.
-/
import proofs.«171644_j66365834658285_1_alg».proof.Proof.RefOpsList

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A property of every element of two lists holds of every element of their concatenation. -/
theorem forall_append {α : Type} {p : α → Prop} {l₁ l₂ : List α} (h₁ : l₁.Forall p) (h₂ : l₂.Forall p) :
    (l₁ ++ l₂).Forall p := by
  rw [List.forall_iff_forall_mem] at *
  intro x hx
  rcases List.mem_append.mp hx with h | h
  exacts [h₁ x h, h₂ x h]

/-! ## What each kind of operation leaves undetermined (nothing) and writes (one buffer) -/

section Builders

variable {Val : EltTy → Type} (x a b c y : Ref sig .tc)

@[simp] theorem nullary_fresh (v : y.ty.Contents Val) (hy) : (nullary (τ := τ) y v hy).fresh = ∅ := rfl
@[simp] theorem unary_fresh (f : x.ty.Contents Val → y.ty.Contents Val) (hx hy) :
    (unary (τ := τ) x y f hx hy).fresh = ∅ := rfl
@[simp] theorem binary_fresh (f : a.ty.Contents Val → b.ty.Contents Val → y.ty.Contents Val) (ha hb hy) :
    (binary (τ := τ) a b y f ha hb hy).fresh = ∅ := rfl
@[simp] theorem ternary_fresh (f : c.ty.Contents Val → a.ty.Contents Val → b.ty.Contents Val → y.ty.Contents Val)
    (hc ha hb hy) : (ternary (τ := τ) c a b y f hc ha hb hy).fresh = ∅ := rfl
@[simp] theorem reshape_fresh (he hn hx hy) : (reshape (τ := τ) (Val := Val) x y he hn hx hy).fresh = ∅ := rfl

/-- The one buffer an operation writes lies in a list of buffers exactly when the list holds its reference. -/
theorem mem_refs_iff {W : List (Ref sig .tc)} {y : Ref sig .tc} :
    ({Proc.devRef .tc y} : Finset (DevRef τ sig)) ⊆ (W.map (Proc.devRef (τ := τ) .tc)).toFinset ↔ y ∈ W := by
  rw [Finset.singleton_subset_iff, List.mem_toFinset, List.mem_map_of_injective (Proc.devRef_injective _)]

end Builders

/-- Every operation of a literal list touches device buffers of the core only. -/
local macro "bufs_in_core" : tactic =>
  `(tactic| simp only [List.Forall, nullary_bufs_sub, unary_bufs_sub, binary_bufs_sub, ternary_bufs_sub, reshape_bufs_sub,
      and_self])
/-- Every operation of a literal list determines what it writes. -/
local macro "nothing_fresh" : tactic =>
  `(tactic| simp only [List.Forall, nullary_fresh, unary_fresh, binary_fresh, ternary_fresh, reshape_fresh, and_self])
/-- Every operation of a literal list writes inside the given list of buffers: each inclusion read as membership of
    the written reference in the list, and the memberships decided. -/
local macro "writes_in_list" : tactic =>
  `(tactic| (simp only [List.Forall, nullary_writes, unary_writes, binary_writes, ternary_writes, reshape_writes,
      mem_refs_iff]; decide))

/-! ## The windows are their lines -/

set_option maxRecDepth 4096 in
set_option maxHeartbeats 4000000 in
/-- Window 0 is the line `P0`: the outlined functions unfolded at their calls, sequencing reassociated. -/
theorem main_part0_eq (c : Dev nD) : main_part0 (F := F) c = seq P0 := by
  simp only [main_part0, fn_var.body, fn_where.body, seq, bind_assoc, pure_bind]
  rfl

set_option maxRecDepth 4096 in
set_option maxHeartbeats 4000000 in
/-- Window 1 is the line `P1`. -/
theorem main_part1_eq (c : Dev nD) : main_part1 (F := F) c = seq P1 := by
  simp only [main_part1, fn_var.body, fn_where.body, seq, bind_assoc, pure_bind]
  rfl

set_option maxRecDepth 4096 in
set_option maxHeartbeats 4000000 in
/-- Window 2 is the line `P2`. -/
theorem main_part2_eq (c : Dev nD) : main_part2 (F := F) c = seq P2 := by
  simp only [main_part2, seq, bind_assoc, pure_bind]

/-- The whole line: the three windows one after the other. -/
abbrev ops : List (HloOp τ sig (Elt F)) := P0 ++ (P1 ++ P2)

/-- The main function is the whole line. -/
theorem main_eq (c : Dev nD) : main (F := F) c = seq ops := by
  rw [seq_append, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 4096 in
theorem P0_sub : (P0 : List (HloOp τ sig (Elt F))).Forall fun op => op.bufs ⊆ tcRefs τ sig := by bufs_in_core
set_option maxRecDepth 4096 in
theorem P1_sub : (P1 : List (HloOp τ sig (Elt F))).Forall fun op => op.bufs ⊆ tcRefs τ sig := by bufs_in_core
set_option maxRecDepth 4096 in
theorem P2_sub : (P2 : List (HloOp τ sig (Elt F))).Forall fun op => op.bufs ⊆ tcRefs τ sig := by bufs_in_core

set_option maxRecDepth 4096 in
theorem P0_fresh : (P0 : List (HloOp τ sig (Elt F))).Forall fun op => op.fresh = ∅ := by nothing_fresh
set_option maxRecDepth 4096 in
theorem P1_fresh : (P1 : List (HloOp τ sig (Elt F))).Forall fun op => op.fresh = ∅ := by nothing_fresh
set_option maxRecDepth 4096 in
theorem P2_fresh : (P2 : List (HloOp τ sig (Elt F))).Forall fun op => op.fresh = ∅ := by nothing_fresh

theorem ops_sub : (ops : List (HloOp τ sig (Elt F))).Forall fun op => op.bufs ⊆ tcRefs τ sig :=
  forall_append P0_sub (forall_append P1_sub P2_sub)

theorem ops_fresh : (ops : List (HloOp τ sig (Elt F))).Forall fun op => op.fresh = ∅ :=
  forall_append P0_fresh (forall_append P1_fresh P2_fresh)

/-- From any memory with zero counters every weakly fair execution of the main function terminates, and every final
    state has each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

/-! ## The same line, stage by stage -/

/-- The whole line is the stages one after the other. -/
theorem ops_split : (ops : List (HloOp τ sig (Elt F))) =
    seg1 ++ (conv1 ++ (mean1 ++ (var1 ++ (bn1 ++ (seg2 ++ (conv2 ++ (mean2 ++ (var2 ++ (bn2 ++ (seg3 ++ (conv3 ++
      (pool ++ head)))))))))))) := rfl

theorem seg1_writes : (seg1 : List (HloOp τ sig (Elt F))).Forall fun op =>
    op.writes ⊆ (W_seg1.map (Proc.devRef (τ := τ) .tc)).toFinset := by writes_in_list
theorem conv1_writes : (conv1 : List (HloOp τ sig (Elt F))).Forall fun op =>
    op.writes ⊆ (W_conv1.map (Proc.devRef (τ := τ) .tc)).toFinset := by writes_in_list
theorem mean1_writes : (mean1 : List (HloOp τ sig (Elt F))).Forall fun op =>
    op.writes ⊆ (W_mean1.map (Proc.devRef (τ := τ) .tc)).toFinset := by writes_in_list
theorem var1_writes : (var1 : List (HloOp τ sig (Elt F))).Forall fun op =>
    op.writes ⊆ (W_var1.map (Proc.devRef (τ := τ) .tc)).toFinset := by writes_in_list
theorem bn1_writes : (bn1 : List (HloOp τ sig (Elt F))).Forall fun op =>
    op.writes ⊆ (W_bn1.map (Proc.devRef (τ := τ) .tc)).toFinset := by writes_in_list
theorem seg2_writes : (seg2 : List (HloOp τ sig (Elt F))).Forall fun op =>
    op.writes ⊆ (W_seg2.map (Proc.devRef (τ := τ) .tc)).toFinset := by writes_in_list
theorem conv2_writes : (conv2 : List (HloOp τ sig (Elt F))).Forall fun op =>
    op.writes ⊆ (W_conv2.map (Proc.devRef (τ := τ) .tc)).toFinset := by writes_in_list
theorem mean2_writes : (mean2 : List (HloOp τ sig (Elt F))).Forall fun op =>
    op.writes ⊆ (W_mean2.map (Proc.devRef (τ := τ) .tc)).toFinset := by writes_in_list
theorem var2_writes : (var2 : List (HloOp τ sig (Elt F))).Forall fun op =>
    op.writes ⊆ (W_var2.map (Proc.devRef (τ := τ) .tc)).toFinset := by writes_in_list
theorem bn2_writes : (bn2 : List (HloOp τ sig (Elt F))).Forall fun op =>
    op.writes ⊆ (W_bn2.map (Proc.devRef (τ := τ) .tc)).toFinset := by writes_in_list
theorem seg3_writes : (seg3 : List (HloOp τ sig (Elt F))).Forall fun op =>
    op.writes ⊆ (W_seg3.map (Proc.devRef (τ := τ) .tc)).toFinset := by writes_in_list
theorem conv3_writes : (conv3 : List (HloOp τ sig (Elt F))).Forall fun op =>
    op.writes ⊆ (W_conv3.map (Proc.devRef (τ := τ) .tc)).toFinset := by writes_in_list
theorem pool_writes : (pool : List (HloOp τ sig (Elt F))).Forall fun op =>
    op.writes ⊆ (W_pool.map (Proc.devRef (τ := τ) .tc)).toFinset := by writes_in_list
theorem head_writes : (head : List (HloOp τ sig (Elt F))).Forall fun op =>
    op.writes ⊆ (W_head.map (Proc.devRef (τ := τ) .tc)).toFinset := by writes_in_list

end Cert.ReferenceIdeal.RefRun

end
-- ==== Proof.RefEvalA.lean ====
/-
  What each stage of the first layer of the reference's line leaves in the buffer it produces.

  For every valuation of the buffers before a stage, the fold of the stage's operations at the stage's result buffer is
  the corresponding function of the network's stages applied to the contents of the buffers the stage reads: the
  neighbour sum (which also leaves the edge table's two rows, flattened, in two buffers the later neighbour sums read),
  the perceptron, the column mean, the two-pass column variance, and the batch normalisation with rectification.
-/
import proofs.«171644_j66365834658285_1_alg».proof.Proof.RefOpsList
import proofs.«171644_j66365834658285_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))

/-! ## The first layer -/

set_option maxRecDepth 4096 in
theorem seg1_v1 : after seg1 V (main_v1 : DevRef τ sig) = RefStages.src (V (main_arg1 : DevRef τ sig)) := by
  after_results_simp <;> rfl

set_option maxRecDepth 4096 in
theorem seg1_v3 : after seg1 V (main_v3 : DevRef τ sig) = RefStages.dst (V (main_arg1 : DevRef τ sig)) := by
  after_results_simp <;> rfl

set_option maxRecDepth 4096 in
theorem seg1_v13 : after seg1 V (main_v13 : DevRef τ sig)
    = RefStages.seg (V (main_arg0 : DevRef τ sig)) (V (main_arg1 : DevRef τ sig)) := by
  after_results_simp <;> rfl

set_option maxRecDepth 4096 in
theorem conv1_v24 : after conv1 V (main_v24 : DevRef τ sig)
    = RefStages.conv (V (main_arg0 : DevRef τ sig)) (V (main_v13 : DevRef τ sig)) (V (main_arg3 : DevRef τ sig))
        (V (main_arg4 : DevRef τ sig)) (V (main_arg5 : DevRef τ sig)) (V (main_arg6 : DevRef τ sig)) := by
  after_results_simp <;> rfl

set_option maxRecDepth 4096 in
theorem mean1_v27 : after mean1 V (main_v27 : DevRef τ sig) = RefStages.mean (V (main_v24 : DevRef τ sig)) := by
  after_results_simp <;> rfl

set_option maxRecDepth 4096 in
theorem var1_v28 : after var1 V (main_v28 : DevRef τ sig) = RefStages.var (V (main_v24 : DevRef τ sig)) := by
  after_results_simp <;> rfl

set_option maxRecDepth 4096 in
theorem bn1_v45 : after bn1 V (main_v45 : DevRef τ sig)
    = RefStages.bn (V (main_v24 : DevRef τ sig)) (V (main_v27 : DevRef τ sig)) (V (main_v28 : DevRef τ sig))
        (V (main_arg15 : DevRef τ sig)) (V (main_arg16 : DevRef τ sig)) := by
  after_results_simp <;> rfl

end Cert.ReferenceIdeal.RefRun

end
-- ==== Proof.RefEvalB.lean ====
/-
  What each stage after the first layer of the reference's line leaves in the buffer it produces.

  For every valuation of the buffers before a stage, the fold of the stage's operations at the stage's result buffer is
  the corresponding function of the network's stages applied to the contents of the buffers the stage reads.  The
  neighbour sums of the second and third layers read the edge table's two rows from the buffers where the first stage
  left them flattened, so they are stated through the neighbour sum with the two rows given; then come the perceptron,
  the column mean, the two-pass column variance and the batch normalisation of the second layer, the third layer's
  neighbour sum and perceptron, the pooling and the head.
-/
import proofs.«171644_j66365834658285_1_alg».proof.Proof.RefOpsList
import proofs.«171644_j66365834658285_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The neighbour sum with the edge table's two rows given flattened: the source rows of `h` gathered (negative source
    indices wrapped) and added into zeros at the destination rows. -/
def segOf (h : FVec F S100000x64 .f32) (s d : IVec S1600000 32) : FVec F S100000x64 .f32 :=
  Host.scatterAdd scatter_S100000x64_S1600000x1_S1600000x64_1_0_0_1 RefStages.zeros
    (broadcastInDim S1600000x1 ![0] bcast_S1600000_S1600000x1_0 d)
    (Host.gather gather_S100000x64_S1600000x1_S1600000x64_1_0_n_n_0_1_164 h
      (broadcastInDim S1600000x1 ![0] bcast_S1600000_S1600000x1_0 (RefStages.wrap s)))

/-- The neighbour sum reads the two rows off the edge table. -/
theorem seg_eq (h : FVec F S100000x64 .f32) (ei : IVec S2x1600000 32) :
    RefStages.seg h ei = segOf h (RefStages.src ei) (RefStages.dst ei) := rfl

variable (V : Valuation τ sig (Elt F))

/-! ## The second layer -/

set_option maxRecDepth 4096 in
theorem seg2_v55 : after seg2 V (main_v55 : DevRef τ sig)
    = segOf (V (main_v45 : DevRef τ sig)) (V (main_v1 : DevRef τ sig)) (V (main_v3 : DevRef τ sig)) := by
  after_results_simp <;> rfl

set_option maxRecDepth 4096 in
theorem conv2_v66 : after conv2 V (main_v66 : DevRef τ sig)
    = RefStages.conv (V (main_v45 : DevRef τ sig)) (V (main_v55 : DevRef τ sig)) (V (main_arg7 : DevRef τ sig))
        (V (main_arg8 : DevRef τ sig)) (V (main_arg9 : DevRef τ sig)) (V (main_arg10 : DevRef τ sig)) := by
  after_results_simp <;> rfl

set_option maxRecDepth 4096 in
theorem mean2_v69 : after mean2 V (main_v69 : DevRef τ sig) = RefStages.mean (V (main_v66 : DevRef τ sig)) := by
  after_results_simp <;> rfl

set_option maxRecDepth 4096 in
theorem var2_v70 : after var2 V (main_v70 : DevRef τ sig) = RefStages.var (V (main_v66 : DevRef τ sig)) := by
  after_results_simp <;> rfl

set_option maxRecDepth 4096 in
theorem bn2_v87 : after bn2 V (main_v87 : DevRef τ sig)
    = RefStages.bn (V (main_v66 : DevRef τ sig)) (V (main_v69 : DevRef τ sig)) (V (main_v70 : DevRef τ sig))
        (V (main_arg17 : DevRef τ sig)) (V (main_arg18 : DevRef τ sig)) := by
  after_results_simp <;> rfl

/-! ## The third layer, the pooling and the head -/

set_option maxRecDepth 4096 in
theorem seg3_v97 : after seg3 V (main_v97 : DevRef τ sig)
    = segOf (V (main_v87 : DevRef τ sig)) (V (main_v1 : DevRef τ sig)) (V (main_v3 : DevRef τ sig)) := by
  after_results_simp <;> rfl

set_option maxRecDepth 4096 in
theorem conv3_v108 : after conv3 V (main_v108 : DevRef τ sig)
    = RefStages.conv (V (main_v87 : DevRef τ sig)) (V (main_v97 : DevRef τ sig)) (V (main_arg11 : DevRef τ sig))
        (V (main_arg12 : DevRef τ sig)) (V (main_arg13 : DevRef τ sig)) (V (main_arg14 : DevRef τ sig)) := by
  after_results_simp <;> rfl

set_option maxRecDepth 4096 in
theorem pool_v111 : after pool V (main_v111 : DevRef τ sig)
    = RefStages.pool (V (main_v108 : DevRef τ sig)) (V (main_arg2 : DevRef τ sig)) := by
  after_results_simp <;> rfl

set_option maxRecDepth 4096 in
theorem head_v121 : after head V (main_v121 : DevRef τ sig)
    = RefStages.head (V (main_v111 : DevRef τ sig)) (V (main_arg19 : DevRef τ sig)) (V (main_arg20 : DevRef τ sig))
        (V (main_arg21 : DevRef τ sig)) (V (main_arg22 : DevRef τ sig)) := by
  after_results_simp <;> rfl

end Cert.ReferenceIdeal.RefRun

end
-- ==== Proof.RefRun.lean ====
/-
  The run of the reference network's main function, read back through the network's stages.

  The main function is a straight line of host operations, so every execution of it terminates with each buffer at the
  fold of the operations over the launch contents.  The line is followed stage by stage.  Two things stay in place from
  the first stage on: no stage writes an argument buffer, and the edge table's two rows, flattened by the first stage,
  are not written again.  Each stage then leaves, in the buffer it produces, the stage's function of what the earlier
  stages left: the neighbour sum and the perceptron make a graph convolution, the column mean and the two-pass column
  variance of its result feed the batch normalisation, and so on through the three layers, the pooling and the head.
  The intermediate results are carried as unknowns from one stage to the next, so no stage's statement grows with the
  depth of the network; composed, the two result buffers hold the network's two results as functions of the arguments'
  launch contents, and the arguments are unchanged.
-/
import proofs.«171644_j66365834658285_1_alg».proof.Proof.RefOps
import proofs.«171644_j66365834658285_1_alg».proof.Proof.RefEvalA
import proofs.«171644_j66365834658285_1_alg».proof.Proof.RefEvalB

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents of a core buffer in a valuation. -/
local notation "⟪" V ", " r "⟫" => V (r : DevRef τ sig)

/-- Folding a concatenation is folding its parts in turn. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The argument buffers. -/
abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

/-- What stays in place from the first stage on: the arguments as launched, and the edge table's two rows, flattened
    (the source and the destination node of every edge). -/
structure Kept (V0 V : Valuation τ sig (Elt F)) : Prop where
  arg : ∀ r ∈ argRefs, V (r : DevRef τ sig) = V0 (r : DevRef τ sig)
  src : ⟪V, main_v1⟫ = RefStages.src ⟪V0, main_arg1⟫
  dst : ⟪V, main_v3⟫ = RefStages.dst ⟪V0, main_arg1⟫

/-- A stage that writes neither an argument nor the two flattened rows keeps them in place. -/
theorem Kept.step {V0 V : Valuation τ sig (Elt F)} (K : Kept V0 V) {S : List (HloOp τ sig (Elt F))}
    {W : List (Ref sig .tc)} (hW : S.Forall fun op => op.writes ⊆ (W.map (Proc.devRef (τ := τ) .tc)).toFinset)
    (hd : ∀ r ∈ main_v1 :: main_v3 :: argRefs, r ∉ W) : Kept V0 (after S V) :=
  ⟨fun r hr => (after_of_writes_sub S V hW (hd r (List.mem_cons_of_mem _ (List.mem_cons_of_mem _ hr)))).trans (K.arg r hr),
   (after_of_writes_sub S V hW (hd _ List.mem_cons_self)).trans K.src,
   (after_of_writes_sub S V hW (hd _ (List.mem_cons_of_mem _ List.mem_cons_self))).trans K.dst⟩

section Steps

variable {V0 V : Valuation τ sig (Elt F)}

/-! ## The first layer -/

theorem st_seg1 (V0 : Valuation τ sig (Elt F)) :
    Kept V0 (after seg1 V0) ∧ ⟪after seg1 V0, main_v13⟫ = RefStages.seg ⟪V0, main_arg0⟫ ⟪V0, main_arg1⟫ :=
  ⟨⟨fun r hr => after_of_writes_sub seg1 V0 seg1_writes ((by decide : ∀ r ∈ argRefs, r ∉ W_seg1) r hr),
    seg1_v1 V0, seg1_v3 V0⟩, seg1_v13 V0⟩

theorem st_conv1 (K : Kept V0 V) (s : ⟪V, main_v13⟫ = RefStages.seg ⟪V0, main_arg0⟫ ⟪V0, main_arg1⟫) :
    Kept V0 (after conv1 V) ∧ ⟪after conv1 V, main_v24⟫
      = RefStages.gconv ⟪V0, main_arg0⟫ ⟪V0, main_arg1⟫ ⟪V0, main_arg3⟫ ⟪V0, main_arg4⟫ ⟪V0, main_arg5⟫ ⟪V0, main_arg6⟫ := by
  refine ⟨K.step conv1_writes (by decide), ?_⟩
  rw [conv1_v24, s, K.arg main_arg0 (by decide), K.arg main_arg3 (by decide), K.arg main_arg4 (by decide),
    K.arg main_arg5 (by decide), K.arg main_arg6 (by decide)]
  rfl

theorem st_mean1 {R : FVec F S100000x64 .f32} (K : Kept V0 V) (r : ⟪V, main_v24⟫ = R) :
    Kept V0 (after mean1 V) ∧ ⟪after mean1 V, main_v24⟫ = R ∧ ⟪after mean1 V, main_v27⟫ = RefStages.mean R := by
  refine ⟨K.step mean1_writes (by decide), ?_, ?_⟩
  · rw [after_of_writes_sub mean1 V mean1_writes (by decide : main_v24 ∉ W_mean1), r]
  · rw [mean1_v27, r]

theorem st_var1 {R : FVec F S100000x64 .f32} {M : FVec F S64 .f32} (K : Kept V0 V) (r : ⟪V, main_v24⟫ = R)
    (m : ⟪V, main_v27⟫ = M) :
    Kept V0 (after var1 V) ∧ ⟪after var1 V, main_v24⟫ = R ∧ ⟪after var1 V, main_v27⟫ = M
      ∧ ⟪after var1 V, main_v28⟫ = RefStages.var R := by
  refine ⟨K.step var1_writes (by decide), ?_, ?_, ?_⟩
  · rw [after_of_writes_sub var1 V var1_writes (by decide : main_v24 ∉ W_var1), r]
  · rw [after_of_writes_sub var1 V var1_writes (by decide : main_v27 ∉ W_var1), m]
  · rw [var1_v28, r]

theorem st_bn1 {R : FVec F S100000x64 .f32} {M S : FVec F S64 .f32} (K : Kept V0 V) (r : ⟪V, main_v24⟫ = R)
    (m : ⟪V, main_v27⟫ = M) (v : ⟪V, main_v28⟫ = S) :
    Kept V0 (after bn1 V) ∧ ⟪after bn1 V, main_v45⟫ = RefStages.bn R M S ⟪V0, main_arg15⟫ ⟪V0, main_arg16⟫ := by
  refine ⟨K.step bn1_writes (by decide), ?_⟩
  rw [bn1_v45, r, m, v, K.arg main_arg15 (by decide), K.arg main_arg16 (by decide)]

/-! ## The second layer -/

theorem st_seg2 {X : FVec F S100000x64 .f32} (K : Kept V0 V) (x : ⟪V, main_v45⟫ = X) :
    Kept V0 (after seg2 V) ∧ ⟪after seg2 V, main_v45⟫ = X
      ∧ ⟪after seg2 V, main_v55⟫ = RefStages.seg X ⟪V0, main_arg1⟫ := by
  refine ⟨K.step seg2_writes (by decide), ?_, ?_⟩
  · rw [after_of_writes_sub seg2 V seg2_writes (by decide : main_v45 ∉ W_seg2), x]
  · rw [seg2_v55, x, K.src, K.dst, ← seg_eq]

theorem st_conv2 {X : FVec F S100000x64 .f32} (K : Kept V0 V) (x : ⟪V, main_v45⟫ = X)
    (s : ⟪V, main_v55⟫ = RefStages.seg X ⟪V0, main_arg1⟫) :
    Kept V0 (after conv2 V) ∧ ⟪after conv2 V, main_v66⟫
      = RefStages.gconv X ⟪V0, main_arg1⟫ ⟪V0, main_arg7⟫ ⟪V0, main_arg8⟫ ⟪V0, main_arg9⟫ ⟪V0, main_arg10⟫ := by
  refine ⟨K.step conv2_writes (by decide), ?_⟩
  rw [conv2_v66, x, s, K.arg main_arg7 (by decide), K.arg main_arg8 (by decide), K.arg main_arg9 (by decide),
    K.arg main_arg10 (by decide)]
  rfl

theorem st_mean2 {R : FVec F S100000x64 .f32} (K : Kept V0 V) (r : ⟪V, main_v66⟫ = R) :
    Kept V0 (after mean2 V) ∧ ⟪after mean2 V, main_v66⟫ = R ∧ ⟪after mean2 V, main_v69⟫ = RefStages.mean R := by
  refine ⟨K.step mean2_writes (by decide), ?_, ?_⟩
  · rw [after_of_writes_sub mean2 V mean2_writes (by decide : main_v66 ∉ W_mean2), r]
  · rw [mean2_v69, r]

theorem st_var2 {R : FVec F S100000x64 .f32} {M : FVec F S64 .f32} (K : Kept V0 V) (r : ⟪V, main_v66⟫ = R)
    (m : ⟪V, main_v69⟫ = M) :
    Kept V0 (after var2 V) ∧ ⟪after var2 V, main_v66⟫ = R ∧ ⟪after var2 V, main_v69⟫ = M
      ∧ ⟪after var2 V, main_v70⟫ = RefStages.var R := by
  refine ⟨K.step var2_writes (by decide), ?_, ?_, ?_⟩
  · rw [after_of_writes_sub var2 V var2_writes (by decide : main_v66 ∉ W_var2), r]
  · rw [after_of_writes_sub var2 V var2_writes (by decide : main_v69 ∉ W_var2), m]
  · rw [var2_v70, r]

theorem st_bn2 {R : FVec F S100000x64 .f32} {M S : FVec F S64 .f32} (K : Kept V0 V) (r : ⟪V, main_v66⟫ = R)
    (m : ⟪V, main_v69⟫ = M) (v : ⟪V, main_v70⟫ = S) :
    Kept V0 (after bn2 V) ∧ ⟪after bn2 V, main_v87⟫ = RefStages.bn R M S ⟪V0, main_arg17⟫ ⟪V0, main_arg18⟫ := by
  refine ⟨K.step bn2_writes (by decide), ?_⟩
  rw [bn2_v87, r, m, v, K.arg main_arg17 (by decide), K.arg main_arg18 (by decide)]

/-! ## The third layer, the pooling and the head -/

theorem st_seg3 {X : FVec F S100000x64 .f32} (K : Kept V0 V) (x : ⟪V, main_v87⟫ = X) :
    Kept V0 (after seg3 V) ∧ ⟪after seg3 V, main_v87⟫ = X
      ∧ ⟪after seg3 V, main_v97⟫ = RefStages.seg X ⟪V0, main_arg1⟫ := by
  refine ⟨K.step seg3_writes (by decide), ?_, ?_⟩
  · rw [after_of_writes_sub seg3 V seg3_writes (by decide : main_v87 ∉ W_seg3), x]
  · rw [seg3_v97, x, K.src, K.dst, ← seg_eq]

theorem st_conv3 {X : FVec F S100000x64 .f32} (K : Kept V0 V) (x : ⟪V, main_v87⟫ = X)
    (s : ⟪V, main_v97⟫ = RefStages.seg X ⟪V0, main_arg1⟫) :
    Kept V0 (after conv3 V) ∧ ⟪after conv3 V, main_v108⟫
      = RefStages.gconv X ⟪V0, main_arg1⟫ ⟪V0, main_arg11⟫ ⟪V0, main_arg12⟫ ⟪V0, main_arg13⟫ ⟪V0, main_arg14⟫ := by
  refine ⟨K.step conv3_writes (by decide), ?_⟩
  rw [conv3_v108, x, s, K.arg main_arg11 (by decide), K.arg main_arg12 (by decide), K.arg main_arg13 (by decide),
    K.arg main_arg14 (by decide)]
  rfl

theorem st_pool {R : FVec F S100000x64 .f32} (K : Kept V0 V) (r : ⟪V, main_v108⟫ = R) :
    Kept V0 (after pool V) ∧ ⟪after pool V, main_v111⟫ = RefStages.pool R ⟪V0, main_arg2⟫ := by
  refine ⟨K.step pool_writes (by decide), ?_⟩
  rw [pool_v111, r, K.arg main_arg2 (by decide)]

theorem st_head {P : FVec F S64x64 .f32} (K : Kept V0 V) (e : ⟪V, main_v111⟫ = P) :
    Kept V0 (after head V) ∧ ⟪after head V, main_v111⟫ = P
      ∧ ⟪after head V, main_v121⟫ = RefStages.head P ⟪V0, main_arg19⟫ ⟪V0, main_arg20⟫ ⟪V0, main_arg21⟫ ⟪V0, main_arg22⟫ := by
  refine ⟨K.step head_writes (by decide), ?_, ?_⟩
  · rw [after_of_writes_sub head V head_writes (by decide : main_v111 ∉ W_head), e]
  · rw [head_v121, e, K.arg main_arg19 (by decide), K.arg main_arg20 (by decide), K.arg main_arg21 (by decide),
      K.arg main_arg22 (by decide)]

end Steps

/-! ## The whole line -/

/-- The fold of the whole line over any contents: the two result buffers hold the network's two results as functions of
    the arguments' contents, and every argument buffer is unchanged. -/
theorem fold_results (V0 : Valuation τ sig (Elt F)) :
    ⟪after ops V0, main_v121⟫ = RefStages.out ⟪V0, main_arg0⟫ ⟪V0, main_arg1⟫ ⟪V0, main_arg2⟫ ⟪V0, main_arg3⟫ ⟪V0, main_arg4⟫ ⟪V0, main_arg5⟫ ⟪V0, main_arg6⟫ ⟪V0, main_arg7⟫ ⟪V0, main_arg8⟫ ⟪V0, main_arg9⟫ ⟪V0, main_arg10⟫ ⟪V0, main_arg11⟫ ⟪V0, main_arg12⟫ ⟪V0, main_arg13⟫ ⟪V0, main_arg14⟫ ⟪V0, main_arg15⟫ ⟪V0, main_arg16⟫ ⟪V0, main_arg17⟫ ⟪V0, main_arg18⟫ ⟪V0, main_arg19⟫ ⟪V0, main_arg20⟫ ⟪V0, main_arg21⟫ ⟪V0, main_arg22⟫
    ∧ ⟪after ops V0, main_v111⟫ = RefStages.emb ⟪V0, main_arg0⟫ ⟪V0, main_arg1⟫ ⟪V0, main_arg2⟫ ⟪V0, main_arg3⟫ ⟪V0, main_arg4⟫ ⟪V0, main_arg5⟫ ⟪V0, main_arg6⟫ ⟪V0, main_arg7⟫ ⟪V0, main_arg8⟫ ⟪V0, main_arg9⟫ ⟪V0, main_arg10⟫ ⟪V0, main_arg11⟫ ⟪V0, main_arg12⟫ ⟪V0, main_arg13⟫ ⟪V0, main_arg14⟫ ⟪V0, main_arg15⟫ ⟪V0, main_arg16⟫ ⟪V0, main_arg17⟫ ⟪V0, main_arg18⟫
    ∧ ∀ r ∈ argRefs, after ops V0 (r : DevRef τ sig) = V0 (r : DevRef τ sig) := by
  rw [ops_split]
  simp only [after_app]
  obtain ⟨K, s⟩ := st_seg1 V0
  obtain ⟨K, r⟩ := st_conv1 K s
  obtain ⟨K, r, m⟩ := st_mean1 K r
  obtain ⟨K, r, m, v⟩ := st_var1 K r m
  obtain ⟨K, x⟩ := st_bn1 K r m v
  obtain ⟨K, x, s⟩ := st_seg2 K x
  obtain ⟨K, r⟩ := st_conv2 K x s
  obtain ⟨K, r, m⟩ := st_mean2 K r
  obtain ⟨K, r, m, v⟩ := st_var2 K r m
  obtain ⟨K, x⟩ := st_bn2 K r m v
  obtain ⟨K, x, s⟩ := st_seg3 K x
  obtain ⟨K, r⟩ := st_conv3 K x s
  obtain ⟨K, e⟩ := st_pool K r
  obtain ⟨K, e, o⟩ := st_head K e
  exact ⟨o, e, K.arg⟩

/-- From any memory with zero counters every weakly fair execution of the reference's main function terminates, and in
    every final state the first result buffer holds the network's output and the second its graph embeddings, as
    functions of the argument buffers' launch contents, and every argument buffer holds its launch contents. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v121)
        = RefStages.out (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
            (m ((c.tc : Thread nD τ).loc main_arg17))
            (m ((c.tc : Thread nD τ).loc main_arg18))
            (m ((c.tc : Thread nD τ).loc main_arg19))
            (m ((c.tc : Thread nD τ).loc main_arg20))
            (m ((c.tc : Thread nD τ).loc main_arg21))
            (m ((c.tc : Thread nD τ).loc main_arg22))
      ∧ r.2.mem ((c.tc : Thread nD τ).loc main_v111)
        = RefStages.emb (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
            (m ((c.tc : Thread nD τ).loc main_arg17))
            (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => by
      obtain ⟨o, e, a⟩ := fold_results (launchContents m c)
      exact ⟨(h c main_v121).trans o, (h c main_v111).trans e,
        (h c main_arg0).trans (a main_arg0 (by decide)),
        (h c main_arg1).trans (a main_arg1 (by decide)),
        (h c main_arg2).trans (a main_arg2 (by decide)),
        (h c main_arg3).trans (a main_arg3 (by decide)),
        (h c main_arg4).trans (a main_arg4 (by decide)),
        (h c main_arg5).trans (a main_arg5 (by decide)),
        (h c main_arg6).trans (a main_arg6 (by decide)),
        (h c main_arg7).trans (a main_arg7 (by decide)),
        (h c main_arg8).trans (a main_arg8 (by decide)),
        (h c main_arg9).trans (a main_arg9 (by decide)),
        (h c main_arg10).trans (a main_arg10 (by decide)),
        (h c main_arg11).trans (a main_arg11 (by decide)),
        (h c main_arg12).trans (a main_arg12 (by decide)),
        (h c main_arg13).trans (a main_arg13 (by decide)),
        (h c main_arg14).trans (a main_arg14 (by decide)),
        (h c main_arg15).trans (a main_arg15 (by decide)),
        (h c main_arg16).trans (a main_arg16 (by decide)),
        (h c main_arg17).trans (a main_arg17 (by decide)),
        (h c main_arg18).trans (a main_arg18 (by decide)),
        (h c main_arg19).trans (a main_arg19 (by decide)),
        (h c main_arg20).trans (a main_arg20 (by decide)),
        (h c main_arg21).trans (a main_arg21 (by decide)),
        (h c main_arg22).trans (a main_arg22 (by decide))⟩)
    (run_main m ρ)

end Cert.ReferenceIdeal.RefRun

end
-- ==== Proof.Assembly.lean ====
/-
  The assembly: the certificate's five claims from the pieces.

  Two of the frames are the generated ones.  The reference's frame is read off its run, which ends with the two
  results at the reference's stage functions of the arguments and with the arguments unchanged.  The idealization
  rewrote nothing, so what it must preserve is trivially true.  The value claim puts the two runs side by side: the
  kernel ends with its results at the specification's functions of its arguments, the reference with its own stage
  functions of arguments that agree with the kernel's, and the two pairs of functions are equal wherever the float
  arguments are real numbers, which the finiteness check in the precondition guarantees.
-/
import proofs.«171644_j66365834658285_1_alg».proof.Defs
import proofs.«171644_j66365834658285_1_alg».proof.Proof.Gen.Kernel.Frame
import proofs.«171644_j66365834658285_1_alg».proof.Proof.Gen.KernelIdeal.Frame
import proofs.«171644_j66365834658285_1_alg».proof.Proof.Gen.ReferenceIdeal
import proofs.«171644_j66365834658285_1_alg».proof.Proof.Gen.Pre_finite_inputs
import proofs.«171644_j66365834658285_1_alg».proof.Proof.PreReal
import proofs.«171644_j66365834658285_1_alg».proof.Proof.Bridge
import proofs.«171644_j66365834658285_1_alg».proof.Proof.KValue
import proofs.«171644_j66365834658285_1_alg».proof.Proof.RefRun

noncomputable section

namespace Cert.Proof.Assembly

open Idealize.ShloMosaic Idealize.SL.Sem
open Cert.KernelIdeal (S100000x64 S2x1600000 S100000 S64x64 S64 S64x256 S256 S256x128 S128)

/-! ## The frames -/

theorem frame_p : Cert.frame_Kernel := fun m ρ _ => Cert.Kernel.Gen.frame m ρ
theorem frame_pi : Cert.frame_KernelIdeal := fun m ρ _ => Cert.KernelIdeal.Gen.frame m ρ
/-- The reference's run gives its two results and its unchanged arguments; the frame keeps the latter. -/
theorem frame_ri : Cert.frame_ReferenceIdeal := fun m ρ _ =>
  (θ_run Cert.ReferenceIdeal.defs _ _).mono (fun _ h c => (h c).2.2) (Cert.ReferenceIdeal.RefRun.run (F := Ideal) m ρ)

/-! ## The two results, reference against kernel -/

section Bridges

variable {x x' : FVec Ideal S100000x64 .f32} {ei ei' : IVec S2x1600000 32} {batch batch' : IVec S100000 32}
  {c0w1 c0w1' c0w2 c0w2' c1w1 c1w1' c1w2 c1w2' c2w1 c2w1' c2w2 c2w2' : FVec Ideal S64x64 .f32}
  {c0b1 c0b1' c0b2 c0b2' c1b1 c1b1' c1b2 c1b2' c2b1 c2b1' c2b2 c2b2' g0 g0' b0 b0' g1 g1' b1 b1' : FVec Ideal S64 .f32}
  {hw1 hw1' : FVec Ideal S64x256 .f32} {hb1 hb1' : FVec Ideal S256 .f32} {hw2 hw2' : FVec Ideal S256x128 .f32}
  {hb2 hb2' : FVec Ideal S128 .f32}

/-- The first result.  The reference's arguments (primed) equal the kernel's, and the kernel's pass the finiteness
    check, so every float argument is real; on real features, real weights and biases of the first two convolutions
    and a real scale and shift of the first normalisation the two networks are the same function. -/
theorem out_bridge
    (hpre : Cert.Pre_finite_inputs.fn (F := Ideal) x ei batch c0w1 c0b1 c0w2 c0b2 c1w1 c1b1 c1w2 c1b2 c2w1 c2b1 c2w2 c2b2 g0 b0 g1 b1 hw1 hb1 hw2 hb2 = fun _ => 1#1)
    (hagree : x' = x ∧ ei' = ei ∧ batch' = batch ∧ c0w1' = c0w1 ∧ c0b1' = c0b1 ∧ c0w2' = c0w2 ∧ c0b2' = c0b2 ∧ c1w1' = c1w1 ∧ c1b1' = c1b1 ∧ c1w2' = c1w2 ∧ c1b2' = c1b2 ∧ c2w1' = c2w1 ∧ c2b1' = c2b1 ∧ c2w2' = c2w2 ∧ c2b2' = c2b2 ∧ g0' = g0 ∧ b0' = b0 ∧ g1' = g1 ∧ b1' = b1 ∧ hw1' = hw1 ∧ hb1' = hb1 ∧ hw2' = hw2 ∧ hb2' = hb2) :
    Cert.ReferenceIdeal.RefStages.out (F := Ideal) x' ei' batch' c0w1' c0b1' c0w2' c0b2' c1w1' c1b1' c1w2' c1b2' c2w1' c2b1' c2w2' c2b2' g0' b0' g1' b1' hw1' hb1' hw2' hb2'
      = Cert.KernelIdeal.KStages.out x ei batch c0w1 c0b1 c0w2 c0b2 c1w1 c1b1 c1w2 c1b2 c2w1 c2b1 c2w2 c2b2 g0 b0 g1 b1 hw1 hb1 hw2 hb2 := by
  obtain ⟨rfl, rfl, rfl, rfl, rfl, rfl, rfl, rfl, rfl, rfl, rfl, rfl, rfl, rfl, rfl, rfl, rfl, rfl, rfl, rfl, rfl, rfl, rfl⟩ := hagree
  obtain ⟨r0, r3, r4, r5, r6, r7, r8, r9, r10, -, -, -, -, r15, r16, -, -, -, -, -, -⟩ :=
    Cert.PreReal.allReal_of_pre _ _ _ _ _ _ _ _ _ _ _ _ _ _ _ _ _ _ _ _ _ _ _ hpre
  exact Cert.Bridge.out_eq _ _ _ _ _ _ _ _ _ _ _ _ _ _ _ _ _ _ _ _ _ _ _ r0 r3 r4 r5 r6 r7 r8 r9 r10 r15 r16

/-- The second result (the pooled graph rows), under the same hypotheses. -/
theorem emb_bridge
    (hpre : Cert.Pre_finite_inputs.fn (F := Ideal) x ei batch c0w1 c0b1 c0w2 c0b2 c1w1 c1b1 c1w2 c1b2 c2w1 c2b1 c2w2 c2b2 g0 b0 g1 b1 hw1 hb1 hw2 hb2 = fun _ => 1#1)
    (hagree : x' = x ∧ ei' = ei ∧ batch' = batch ∧ c0w1' = c0w1 ∧ c0b1' = c0b1 ∧ c0w2' = c0w2 ∧ c0b2' = c0b2 ∧ c1w1' = c1w1 ∧ c1b1' = c1b1 ∧ c1w2' = c1w2 ∧ c1b2' = c1b2 ∧ c2w1' = c2w1 ∧ c2b1' = c2b1 ∧ c2w2' = c2w2 ∧ c2b2' = c2b2 ∧ g0' = g0 ∧ b0' = b0 ∧ g1' = g1 ∧ b1' = b1 ∧ hw1' = hw1 ∧ hb1' = hb1 ∧ hw2' = hw2 ∧ hb2' = hb2) :
    Cert.ReferenceIdeal.RefStages.emb (F := Ideal) x' ei' batch' c0w1' c0b1' c0w2' c0b2' c1w1' c1b1' c1w2' c1b2' c2w1' c2b1' c2w2' c2b2' g0' b0' g1' b1'
      = Cert.KernelIdeal.KStages.emb x ei batch c0w1 c0b1 c0w2 c0b2 c1w1 c1b1 c1w2 c1b2 c2w1 c2b1 c2w2 c2b2 g0 b0 g1 b1 := by
  obtain ⟨rfl, rfl, rfl, rfl, rfl, rfl, rfl, rfl, rfl, rfl, rfl, rfl, rfl, rfl, rfl, rfl, rfl, rfl, rfl, rfl, rfl, rfl, rfl⟩ := hagree
  obtain ⟨r0, r3, r4, r5, r6, r7, r8, r9, r10, -, -, -, -, r15, r16, -, -, -, -, -, -⟩ :=
    Cert.PreReal.allReal_of_pre _ _ _ _ _ _ _ _ _ _ _ _ _ _ _ _ _ _ _ _ _ _ _ hpre
  exact Cert.Bridge.emb_eq _ _ _ _ _ _ _ _ _ _ _ _ _ _ _ _ _ _ _ r0 r3 r4 r5 r6 r7 r8 r9 r10 r15 r16

end Bridges

/-! ## The value claim -/

/-- From memories that agree on the arguments, of which the kernel's pass the finiteness check: the kernel ends with
    its two results at the specification's functions of its arguments, the reference at its own stage functions of
    its arguments, and the two are equal by the bridges above; both leave the arguments as they were. -/
theorem algebraic : Cert.algebraic_KernelIdeal_ReferenceIdeal := by
  intro m ρ m' ρ' hpre hagree
  refine ⟨_, _, Cert.KernelIdeal.KValue.run m ρ, ?_⟩
  exact (θ_run Cert.ReferenceIdeal.defs _ _).mono
    (fun r h c => ⟨(h c).1.trans (out_bridge (hpre c) (hagree c)), (h c).2.1.trans (emb_bridge (hpre c) (hagree c)),
      (h c).2.2⟩)
    (Cert.ReferenceIdeal.RefRun.run (F := Ideal) m' ρ')

end Cert.Proof.Assembly

end
-- ==== Proof.lean ====
/-
  The proof of the certificate's claim: a three-layer graph-convolution network on 100000 nodes with 64 features, as a
  kernel program and as a plain reference, compute the same two results over the extended reals.

  Both programs are the same chain of stage functions.  A layer adds to every node row the sum of its in-neighbours'
  rows (rows gathered at the edges' sources and added at their destinations) and passes the result through a two-layer
  perceptron with rectification; after each of the first two layers the rows are normalised per column by the mean and
  the variance over all nodes, scaled, shifted and rectified; after the third the node rows are summed into graph rows
  (the second result) and a two-layer head is applied to them (the first result).  The kernel runs the perceptron, the
  normalisation and the head tile by tile and accumulates the column sums and sums of squares across the tiles; the
  reference writes every stage as whole-array sums.  Entry by entry the stages are the same sums in the same order of
  operations, with one exception: the kernel takes the variance in one pass (second moment minus squared mean), the
  reference in two (mean of squared deviations).  That identity is the only law of arithmetic the proof uses, and it
  holds on real entries, not on infinite ones.  Hence the precondition: every float argument has finite entries.
  From real arguments every layer's output is real again (sums, products, maxima, and a normalisation whose variance
  plus a positive constant is positive), so the identity applies at both normalisations, and the two programs' results
  are equal.  The frames say that each program runs to the end and leaves its arguments as they were.
-/
import proofs.«171644_j66365834658285_1_alg».proof.Defs
import proofs.«171644_j66365834658285_1_alg».proof.Proof.Gen.Kernel
import proofs.«171644_j66365834658285_1_alg».proof.Proof.Gen.Kernel.Skeleton
import proofs.«171644_j66365834658285_1_alg».proof.Proof.Gen.Kernel.Launch
import proofs.«171644_j66365834658285_1_alg».proof.Proof.Gen.Kernel.Points
import proofs.«171644_j66365834658285_1_alg».proof.Proof.Gen.Kernel.Frame
import proofs.«171644_j66365834658285_1_alg».proof.Proof.Gen.KernelIdeal
import proofs.«171644_j66365834658285_1_alg».proof.Proof.Gen.KernelIdeal.Skeleton
import proofs.«171644_j66365834658285_1_alg».proof.Proof.Gen.KernelIdeal.Launch
import proofs.«171644_j66365834658285_1_alg».proof.Proof.Gen.KernelIdeal.Points
import proofs.«171644_j66365834658285_1_alg».proof.Proof.Gen.KernelIdeal.Frame
import proofs.«171644_j66365834658285_1_alg».proof.Proof.Gen.ReferenceIdeal
import proofs.«171644_j66365834658285_1_alg».proof.Proof.Gen.Pre_finite_inputs
import Idealize.ShloMosaic.Adequacy
import Idealize.ShloMosaic.Init
import proofs.«171644_j66365834658285_1_alg».proof.Proof.Assembly

noncomputable section

namespace Cert.Proof

theorem claim : Cert.Claim := ⟨Cert.Kernel.Gen.facts, Cert.KernelIdeal.Gen.facts, Cert.ReferenceIdeal.Gen.facts,
  Cert.Pre_finite_inputs.Gen.facts, Assembly.frame_p, Assembly.frame_pi, Assembly.frame_ri, trivial, Assembly.algebraic⟩

end Cert.Proof

end
